-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12000x35x7 : Shape := ⟨4, ![2, 12000, 35, 7]⟩
abbrev S2x12000x3 : Shape := ⟨3, ![2, 12000, 3]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S2x12000x35x7 : S_.BroadcastsInDim S2x12000x35x7 (![] : Fin 0 → Fin S2x12000x35x7.rank)
  reducesTo_S2x12000x35x7_S_d0_1_2_3 : S2x12000x35x7.ReducesTo [0, 1, 2, 3] S_
  h_S_ : 0 < S_.numel
  bcast_S_S7x16 : S_.BroadcastsInDim S7x16 (![] : Fin 0 → Fin S7x16.rank)
  reducesTo_S7x16_S_d0_1 : S7x16.ReducesTo [0, 1] S_
  bcast_S_S16 : S_.BroadcastsInDim S16 (![] : Fin 0 → Fin S16.rank)
  reducesTo_S16_S_d0 : S16.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S128x128 .f32) (main_arg11 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S16 .f32) (main_arg6 : FVec F S32x64 .f32) (main_arg7 : FVec F S64 .f32) (main_arg8 : FVec F S64 .f32) (main_arg9 : FVec F S64 .f32) (main_arg10 : FVec F S128x128 .f32) (main_arg11 : FVec F S128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S2x12000x35x7 .f32) (main_arg1 : IVec S2x12000x3 32) (main_arg2 : FVec F S7x16 .f32) (main_arg3 : FVec F S16 .f32) (main_arg4 : FVec F S16 .f32) (main_arg5 : FVec F S16 .f32) (main_arg6 : FVec F S32x64 .f32) (main_arg7 : FVec F S64 .f32) (main_arg8 : FVec F S64 .f32) (main_arg9 : FVec F S64 .f32) (main_arg10 : FVec F S128x128 .f32) (main_arg11 : FVec F S128 .f32) : IVec S_ 1 :=
  let main_v0 : FVec F S2x12000x35x7 .f32 := Host.absf main_arg0
  let main_cst : FVec F S_ .f32 := constant S_ .f32 0x7F800000#32
  let main_v1 : FVec F S2x12000x35x7 .f32 := broadcastInDim S2x12000x35x7 ![] bcast_S_S2x12000x35x7 main_cst
  let main_v2 : IVec S2x12000x35x7 1 := cmpf .olt main_v0 main_v1
  let main_c : IVec S_ 1 := constantI S_ 1 1#1
  let main_v3 : IVec S_ 1 := (fun x v => Host.reduce IntOp.andi x v reducesTo_S2x12000x35x7_S_d0_1_2_3 h_S_) main_v2 main_c
  let main_v4 : FVec F S7x16 .f32 := Host.absf main_arg2
  let main_cst_0 : FVec F S_ .f32 := constant S_ .f32 0x7F800000#32
  let main_v5 : FVec F S7x16 .f32 := broadcastInDim S7x16 ![] bcast_S_S7x16 main_cst_0
  let main_v6 : IVec S7x16 1 := cmpf .olt main_v4 main_v5
  let main_c_1 : IVec S_ 1 := constantI S_ 1 1#1
  let main_v7 : IVec S_ 1 := (fun x v => Host.reduce IntOp.andi x v reducesTo_S7x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_v13 main_v16
-- ==== Kernel.lean ====
abbrev S2x12000x35x7 : Shape := ⟨4, ![2, 12000, 35, 7]⟩
abbrev S2x12000x3 : Shape := ⟨3, ![2, 12000, 3]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S1x16 : Shape := ⟨2, ![1, 16]⟩
abbrev S1x64 : Shape := ⟨2, ![1, 64]⟩
abbrev S1x128 : Shape := ⟨2, ![1, 128]⟩
abbrev S2x240x35x7 : Shape := ⟨4, ![2, 240, 35, 7]⟩
abbrev S16800x7 : Shape := ⟨2, ![16800, 7]⟩
abbrev S16800x16 : Shape := ⟨2, ![16800, 16]⟩
abbrev S_ : Shape := ⟨0, ![]⟩
abbrev S2x240x35 : Shape := ⟨3, ![2, 240, 35]⟩
abbrev S2x240x35x1 : Shape := ⟨4, ![2, 240, 35, 1]⟩
abbrev S2x240x35x16 : Shape := ⟨4, ![2, 240, 35, 16]⟩
abbrev S1x1x1x16 : Shape := ⟨4, ![1, 1, 1, 16]⟩
abbrev S2x240x16 : Shape := ⟨3, ![2, 240, 16]⟩
abbrev S2x240x1x16 : Shape := ⟨4, ![2, 240, 1, 16]⟩
abbrev S2x240x35x32 : Shape := ⟨4, ![2, 240, 35, 32]⟩
abbrev S16800x32 : Shape := ⟨2, ![16800, 32]⟩
abbrev S16800x64 : Shape := ⟨2, ![16800, 64]⟩
abbrev S2x12000x128 : Shape := ⟨3, ![2, 12000, 128]⟩
abbrev S2x240x128 : Shape := ⟨3, ![2, 240, 128]⟩
abbrev S2x240x35x64 : Shape := ⟨4, ![2, 240, 35, 64]⟩
abbrev S1x1x1x64 : Shape := ⟨4, ![1, 1, 1, 64]⟩
abbrev S2x240x64 : Shape := ⟨3, ![2, 240, 64]⟩
abbrev S2x240x1x64 : Shape := ⟨4, ![2, 240, 1, 64]⟩
abbrev S2x240x35x128 : Shape := ⟨4, ![2, 240, 35, 128]⟩
abbrev S16800x128 : Shape := ⟨2, ![16800, 128]⟩
abbrev S24000x128 : Shape := ⟨2, ![24000, 128]⟩
abbrev S2x12000x1 : Shape := ⟨3, ![2, 12000, 1]⟩
abbrev S2x12000 : Shape := ⟨2, ![2, 12000]⟩
abbrev S24000 : Shape := ⟨1, ![24000]⟩
abbrev S1x10x400x352x128 : Shape := ⟨5, ![1, 10, 400, 352, 128]⟩
abbrev S24000x1 : Shape := ⟨2, ![24000, 1]⟩
abbrev S24000x4 : Shape := ⟨2, ![24000, 4]⟩
abbrev S1x128x10x400x352 : Shape := ⟨5, ![1, 128, 10, 400, 352]⟩

abbrev nBuf : Space → Nat
  | .hbm => 89
  | .vmem => 36
  | .smem => 0
  | _ => 0

abbrev bufTy : (tb : Table) → Fin (tcTables nBuf tb) → BufTy
  | .hbm, ⟨0, _⟩ => ⟨S2x12000x35x7, .f32⟩
  | .hbm, ⟨1, _⟩ => ⟨S2x12000x3, .i32⟩
  | .hbm, ⟨2, _⟩ => ⟨S7x16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S32x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x128, .f32⟩
  | .hbm, ⟨19, _⟩ => ⟨S1x16, .f32⟩
  | .hbm, ⟨20, _⟩ => ⟨S1x16, .f32⟩
  | .hbm, ⟨21, _⟩ => ⟨S_, .f32⟩
  | .hbm, ⟨22, _⟩ => ⟨S1x16, .f32⟩
  | .hbm, ⟨23, _⟩ => ⟨S1x16, .f32⟩
  | .hbm, ⟨24, _⟩ => ⟨S_, .f32⟩
  | .hbm, ⟨25, _⟩ => ⟨S1x16, .f32⟩
  | .hbm, ⟨26, _⟩ => ⟨S1x16, .f32⟩
  | .hbm, ⟨27, _⟩ => ⟨S1x16, .f32⟩
  | .hbm, ⟨28, _⟩ => ⟨S1x16, .f32⟩
  | .hbm, ⟨29, _⟩ => ⟨S_, .f32⟩
  | .hbm, ⟨30, _⟩ => ⟨S1x16, .f32⟩
  | .hbm, ⟨31, _⟩ => ⟨S1x16, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S2x12000x128, .f32⟩
  | .hbm, ⟨46, _⟩ => ⟨S24000x128, .f32⟩
  | .hbm, ⟨47, _⟩ => ⟨S2x12000x1, .i32⟩
  | .hbm, ⟨48, _⟩ => ⟨S2x12000, .i32⟩
  | .hbm, ⟨49, _⟩ => ⟨S24000, .i32⟩
  | .hbm, ⟨50, _⟩ => ⟨S2x12000x1, .i32⟩
  | .hbm, ⟨51, _⟩ => ⟨S2x12000, .i32⟩
  | .hbm, ⟨52, _⟩ => ⟨S24000, .i32⟩
  | .hbm, ⟨53, _⟩ => ⟨S2x12000x1, .i32⟩
  | .hbm, ⟨54, _⟩ => ⟨S2x12000, .i32⟩
  | .hbm, ⟨55, _⟩ => ⟨S24000, .i32⟩
  | .hbm, ⟨56, _⟩ => ⟨S_, .f32⟩
  | .hbm, ⟨57, _⟩ => ⟨S1x10x400x352x128, .f32⟩
  | .hbm, ⟨58, _⟩ => ⟨S_, .i32⟩
  | .hbm, ⟨59, _⟩ => ⟨S24000, .i32⟩
  | .hbm, ⟨60, _⟩ => ⟨S24000, .i1⟩
  | .hbm, ⟨61, _⟩ => ⟨S_, .i32⟩
  | .hbm, ⟨62, _⟩ => ⟨S24000, .i32⟩
  | .hbm, ⟨63, _⟩ => ⟨S24000, .i32⟩
  | .hbm, ⟨64, _⟩ => ⟨S24000, .i32⟩
  | .hbm, ⟨65, _⟩ => ⟨S_, .i32⟩
  | .hbm, ⟨66, _⟩ => ⟨S24000, .i32⟩
  | .hbm, ⟨67, _⟩ => ⟨S24000, .i1⟩
  | .hbm, ⟨68, _⟩ => ⟨S_, .i32⟩
  | .hbm, ⟨69, _⟩ => ⟨S24000, .i32⟩
  | .hbm, ⟨70, _⟩ => ⟨S24000, .i32⟩
  | .hbm, ⟨71, _⟩ => ⟨S24000, .i32⟩
  | .hbm, ⟨72, _⟩ => ⟨S_, .i32⟩
  | .hbm, ⟨73, _⟩ => ⟨S24000, .i32⟩
  | .hbm, ⟨74, _⟩ => ⟨S24000, .i1⟩
  | .hbm, ⟨75, _⟩ => ⟨S_, .i32⟩
  | .hbm, ⟨76, _⟩ => ⟨S24000, .i32⟩
  | .hbm, ⟨77, _⟩ => ⟨S24000, .i32⟩
  | .hbm, ⟨78, _⟩ => ⟨S24000, .i32⟩
  | .hbm, ⟨79, _⟩ => ⟨S_, .i32⟩
  | .hbm, ⟨80, _⟩ => ⟨S24000, .i32⟩
  | .hbm, ⟨81, _⟩ => ⟨S24000, .i32⟩
  | .hbm, ⟨82, _⟩ => ⟨S24000x1, .i32⟩
  | .hbm, ⟨83, _⟩ => ⟨S24000x1, .i32⟩
  | .hbm, ⟨84, _⟩ => ⟨S24000x1, .i32⟩
  | .hbm, ⟨85, _⟩ => ⟨S24000x1, .i32⟩
  | .hbm, ⟨86, _⟩ => ⟨S24000x4, .i32⟩
  | .hbm, ⟨87, _⟩ => ⟨S1x10x400x352x128, .f32⟩
  | .hbm, ⟨88, _⟩ => ⟨S1x128x10x400x352, .f32⟩
  | .local _ .vmem, ⟨0, _⟩ => ⟨S2x240x35x7, .f32⟩
  | .local _ .vmem, ⟨1, _⟩ => ⟨S2x240x35x7, .f32⟩
  | .local _ .vmem, ⟨2, _⟩ => ⟨S7x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S2x240x35x7, .f32⟩
  | .local _ .vmem, ⟨7, _⟩ => ⟨S2x240x35x7, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S7x16, .f32⟩
  | .local _ .vmem, ⟨13, _⟩ => ⟨S1x16, .f32⟩
  | .local _ .vmem, ⟨14, _⟩ => ⟨S32x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S2x240x35x7, .f32⟩
  | .local _ .vmem, ⟨19, _⟩ => ⟨S2x240x35x7, .f32⟩
  | .local _ .vmem, ⟨20, _⟩ => ⟨S1x16, .f32⟩
  | .local _ .vmem, ⟨21, _⟩ => ⟨S1x16, .f32⟩
  | .local _ .vmem, ⟨22, _⟩ => ⟨S1x16, .f32⟩
  | .local _ .vmem, ⟨23, _⟩ => ⟨S1x16, .f32⟩
  | .local _ .vmem, ⟨24, _⟩ => ⟨S7x16, .f32⟩
  | .local _ .vmem, ⟨25, _⟩ => ⟨S1x16, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S32x64, .f32⟩
  | .local _ .vmem, ⟨31, _⟩ => ⟨S1x64, .f32⟩
  | .local _ .vmem, ⟨32, _⟩ => ⟨S128x128, .f32⟩
  | .local _ .vmem, ⟨33, _⟩ => ⟨S1x128, .f32⟩
  | .local _ .vmem, ⟨34, _⟩ => ⟨S2x240x128, .f32⟩
  | .local _ .vmem, ⟨35, _⟩ => ⟨S2x240x128, .f32⟩
  | _, _ => ⟨S2x12000x35x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_c : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg15_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x240x35x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x240x35x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S7x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![50], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2x240x35x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S7x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S32x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2x240x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  shapeCasts_S16_S1x16 : S16.ShapeCasts S1x16
  shapeCasts_S64_S1x64 : S64.ShapeCasts S1x64
  shapeCasts_S128_S1x128 : S128.ShapeCasts S1x128
  inb_S1x16_S1x16_0_0 : ∀ a, (![0, 0] : Fin 2 → Nat) a + S1x16.size a ≤ S1x16.size a
  h_S1x16 : 0 < S1x16.numel
  inb_S2x240x35x7_S2x240x35x7_0_0_0_0 : ∀ a, (![0, 0, 0, 0] : Fin 4 → Nat) a + S2x240x35x7.size a ≤ S2x240x35x7.size a
  h_S2x240x35x7 : 0 < S2x240x35x7.numel
  shapeCasts_S2x240x35x7_S16800x7 : S2x240x35x7.ShapeCasts S16800x7
  bitsLt_bf16_f32 : FTy.bits .bf16 < FTy.bits .f32
  inb_S7x16_S7x16_0_0 : ∀ a, (![0, 0] : Fin 2 → Nat) a + S7x16.size a ≤ S7x16.size a
  h_S7x16 : 0 < S7x16.numel
  shapeCasts_S1x16_S1x16 : S1x16.ShapeCasts S1x16
  broadcasts_S1x16_S16800x16 : S1x16.Broadcasts S16800x16
  reduces_S16800x16_S16 : S16800x16.Reduces [0] S16
  bcast_S_S1x16 : S_.BroadcastsInDim S1x16 (![] : Fin 0 → Fin S1x16.rank)
  inb_S1x64_S1x64_0_0 : ∀ a, (![0, 0] : Fin 2 → Nat) a + S1x64.size a ≤ S1x64.size a
  h_S1x64 : 0 < S1x64.numel
  reduces_S2x240x35x7_S2x240x35 : S2x240x35x7.Reduces [3] S2x240x35
  shapeCasts_S2x240x35_S2x240x35x1 : S2x240x35.ShapeCasts S2x240x35x1
  natLt_1_32 : 1 < 32
  shapeCasts_S16800x16_S2x240x35x16 : S16800x16.ShapeCasts S2x240x35x16
  shapeCasts_S1x16_S1x1x1x16 : S1x16.ShapeCasts S1x1x1x16
  broadcasts_S1x1x1x16_S2x240x35x16 : S1x1x1x16.Broadcasts S2x240x35x16
  reduces_S2x240x35x16_S2x240x16 : S2x240x35x16.Reduces [2] S2x240x16
  shapeCasts_S2x240x16_S2x240x1x16 : S2x240x16.ShapeCasts S2x240x1x16
  shapeCasts_S2x240x1x16_S2x240x1x16 : S2x240x1x16.ShapeCasts S2x240x1x16
  broadcasts_S2x240x1x16_S2x240x35x16 : S2x240x1x16.Broadcasts S2x240x35x16
  concatenates_S2x240x35x16_S2x240x35x16_S2x240x35x32_d3 : Shape.Concatenates [S2x240x35x16, S2x240x35x16] S2x240x35x32 3
  broadcasts_S2x240x35x1_S2x240x35x32 : S2x240x35x1.Broadcasts S2x240x35x32
  shapeCasts_S2x240x35x32_S16800x32 : S2x240x35x32.ShapeCasts S16800x32
  inb_S32x64_S32x64_0_0 : ∀ a, (![0, 0] : Fin 2 → Nat) a + S32x64.size a ≤ S32x64.size a
  h_S32x64 : 0 < S32x64.numel
  shapeCasts_S1x64_S1x64 : S1x64.ShapeCasts S1x64
  broadcasts_S1x64_S16800x64 : S1x64.Broadcasts S16800x64
  reduces_S16800x64_S64 : S16800x64.Reduces [0] S64
  bcast_S_S1x64 : S_.BroadcastsInDim S1x64 (![] : Fin 0 → Fin S1x64.rank)
  shapeCasts_S16800x64_S2x240x35x64 : S16800x64.ShapeCasts S2x240x35x64
  shapeCasts_S1x64_S1x1x1x64 : S1x64.ShapeCasts S1x1x1x64
  broadcasts_S1x1x1x64_S2x240x35x64 : S1x1x1x64.Broadcasts S2x240x35x64
  reduces_S2x240x35x64_S2x240x64 : S2x240x35x64.Reduces [2] S2x240x64
  shapeCasts_S2x240x64_S2x240x1x64 : S2x240x64.ShapeCasts S2x240x1x64
  shapeCasts_S2x240x1x64_S2x240x1x64 : S2x240x1x64.ShapeCasts S2x240x1x64
  broadcasts_S2x240x1x64_S2x240x35x64 : S2x240x1x64.Broadcasts S2x240x35x64
  concatenates_S2x240x35x64_S2x240x35x64_S2x240x35x128_d3 : Shape.Concatenates [S2x240x35x64, S2x240x35x64] S2x240x35x128 3
  broadcasts_S2x240x35x1_S2x240x35x128 : S2x240x35x1.Broadcasts S2x240x35x128
  shapeCasts_S2x240x35x128_S16800x128 : S2x240x35x128.ShapeCasts S16800x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16800x128 : S1x128.Broadcasts S16800x128
  shapeCasts_S16800x128_S2x240x35x128 : S16800x128.ShapeCasts S2x240x35x128
  reduces_S2x240x35x128_S2x240x128 : S2x240x35x128.Reduces [2] S2x240x128
  inb_S2x240x128_S2x240x128_0_0_0 : ∀ a, (![0, 0, 0] : Fin 3 → Nat) a + S2x240x128.size a ≤ S2x240x128.size a
  h_S2x240x128 : 0 < S2x240x128.numel
  shapeCasts_S2x12000x128_S24000x128 : S2x12000x128.ShapeCasts S24000x128
  slices_S2x12000x3_S2x12000x1_0_0_0 : S2x12000x3.Slices ![0, 0, 0] S2x12000x1
  shapeCasts_S2x12000x1_S2x12000 : S2x12000x1.ShapeCasts S2x12000
  shapeCasts_S2x12000_S24000 : S2x12000.ShapeCasts S24000
  slices_S2x12000x3_S2x12000x1_0_0_1 : S2x12000x3.Slices ![0, 0, 1] S2x12000x1
  slices_S2x12000x3_S2x12000x1_0_0_2 : S2x12000x3.Slices ![0, 0, 2] S2x12000x1
  bcast_S_S1x10x400x352x128 : S_.BroadcastsInDim S1x10x400x352x128 (![] : Fin 0 → Fin S1x10x400x352x128.rank)
  bcast_S_S24000 : S_.BroadcastsInDim S24000 (![] : Fin 0 → Fin S24000.rank)
  bcast_S24000_S24000x1_0 : S24000.BroadcastsInDim S24000x1 (![0] : Fin 1 → Fin S24000x1.rank)
  concatenates_S24000x1_S24000x1_S24000x1_S24000x1_S24000x4_d1 : Shape.Concatenates [S24000x1, S24000x1, S24000x1, S24000x1] S24000x4 1
  transposes_S1x10x400x352x128_S1x128x10x400x352_0_4_1_2_3 : S1x10x400x352x128.Transposes [0, 4, 1, 2, 3] S1x128x10x400x352
  dot_S16800x7_S7x16_S16800x16_1_0_0_1_n_n_wf : DotDims.WF S16800x7 S7x16 S16800x16 [1] [0] [0] [1] [] []
  dot_S16800x32_S32x64_S16800x64_1_0_0_1_n_n_wf : DotDims.WF S16800x32 S32x64 S16800x64 [1] [0] [0] [1] [] []
  dot_S16800x128_S128x128_S16800x128_1_0_0_1_n_n_wf : DotDims.WF S16800x128 S128x128 S16800x128 [1] [0] [0] [1] [] []
  scatter_S1x10x400x352x128_S24000x4_S24000x128_1_0123_0123_1_wf : ScatterDims.WF S1x10x400x352x128 S24000x4 S24000x128 [1] [0, 1, 2, 3] [0, 1, 2, 3] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x240x35x7.size a ≤ S2x12000x35x7.size a
  hwx0_0 : ∀ i : grid0.Coords, EltTy.bits .f32 = 32 ∨ (Rect.block (s := S2x12000x35x7) S2x240x35x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x16.size a ≤ S7x16.size a
  hwx0_1 : ∀ i : grid0.Coords, EltTy.bits .f32 = 32 ∨ (Rect.block (s := S7x16) S7x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x240x35x7.size a ≤ S2x12000x35x7.size a
  hwx1_0 : ∀ i : grid1.Coords, EltTy.bits .f32 = 32 ∨ (Rect.block (s := S2x12000x35x7) S2x240x35x7.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S7x16.size a ≤ S7x16.size a
  hwx1_5 : ∀ i : grid1.Coords, EltTy.bits .f32 = 32 ∨ (Rect.block (s := S7x16) S7x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x64.size a ≤ S32x64.size a
  hwx1_7 : ∀ i : grid1.Coords, EltTy.bits .f32 = 32 ∨ (Rect.block (s := S32x64) S32x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x240x35x7.size a ≤ S2x12000x35x7.size a
  hwx2_0 : ∀ i : grid2.Coords, EltTy.bits .f32 = 32 ∨ (Rect.block (s := S2x12000x35x7) S2x240x35x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S7x16.size a ≤ S7x16.size a
  hwx2_5 : ∀ i : grid2.Coords, EltTy.bits .f32 = 32 ∨ (Rect.block (s := S7x16) S7x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S32x64.size a ≤ S32x64.size a
  hwx2_11 : ∀ i : grid2.Coords, EltTy.bits .f32 = 32 ∨ (Rect.block (s := S32x64) S32x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2x240x128.size a ≤ S2x12000x128.size a
  hwx2_15 : ∀ i : grid2.Coords, EltTy.bits .f32 = 32 ∨ (Rect.block (s := S2x12000x128) S2x240x128.size (cc2_transform_15 i) (hinb2_15 i)).WholeWords (EltTy.packing .f32)

variable [Facts₀]

def dot_S16800x7_S7x16_S16800x16_1_0_0_1_n_n : DotDims S16800x7 S7x16 S16800x16 where
  lhsContracting := [1]
  rhsContracting := [0]
  lhsNonContracting := [0]
  rhsNonContracting := [1]
  lhsBatch := []
  rhsBatch := []
  wf := dot_S16800x7_S7x16_S16800x16_1_0_0_1_n_n_wf
def dot_S16800x32_S32x64_S16800x64_1_0_0_1_n_n : DotDims S16800x32 S32x64 S16800x64 where
  lhsContracting := [1]
  rhsContracting := [0]
  lhsNonContracting := [0]
  rhsNonContracting := [1]
  lhsBatch := []
  rhsBatch := []
  wf := dot_S16800x32_S32x64_S16800x64_1_0_0_1_n_n_wf
def dot_S16800x128_S128x128_S16800x128_1_0_0_1_n_n : DotDims S16800x128 S128x128 S16800x128 where
  lhsContracting := [1]
  rhsContracting := [0]
  lhsNonContracting := [0]
  rhsNonContracting := [1]
  lhsBatch := []
  rhsBatch := []
  wf := dot_S16800x128_S128x128_S16800x128_1_0_0_1_n_n_wf
def scatter_S1x10x400x352x128_S24000x4_S24000x128_1_0123_0123_1 : ScatterDims S1x10x400x352x128 S24000x4 S24000x128 where
  updateWindowDims := [1]
  insertedWindowDims := [0, 1, 2, 3]
  scatterDimsToOperandDims := [0, 1, 2, 3]
  indexVectorDim := 1
  wf := scatter_S1x10x400x352x128_S24000x4_S24000x128_1_0123_0123_1_wf

abbrev win0_0 : Pipeline.Window sig grid0 :=
  Pipeline.Window.ofSpec (Memref.whole main_arg0) S2x240x35x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x16.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2x240x35x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S7x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S32x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16_0) S1x64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16_1) S1x64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S2x240x35x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg2) S7x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v24) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v5) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg6) S32x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v3) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg10) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v6) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v25) S2x240x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S2x12000x35x7 : Shape := ⟨4, ![2, 12000, 35, 7]⟩
abbrev S2x12000x3 : Shape := ⟨3, ![2, 12000, 3]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S_ : Shape := ⟨0, ![]⟩
abbrev S2x12000x35 : Shape := ⟨3, ![2, 12000, 35]⟩
abbrev S2x12000x35x1 : Shape := ⟨4, ![2, 12000, 35, 1]⟩
abbrev S2x12000x35x16 : Shape := ⟨4, ![2, 12000, 35, 16]⟩
abbrev S1x1x1x16 : Shape := ⟨4, ![1, 1, 1, 16]⟩
abbrev S2x12000x16 : Shape := ⟨3, ![2, 12000, 16]⟩
abbrev S2x12000x1x16 : Shape := ⟨4, ![2, 12000, 1, 16]⟩
abbrev S2x12000x35x32 : Shape := ⟨4, ![2, 12000, 35, 32]⟩
abbrev S2x12000x35x64 : Shape := ⟨4, ![2, 12000, 35, 64]⟩
abbrev S1x1x1x64 : Shape := ⟨4, ![1, 1, 1, 64]⟩
abbrev S2x12000x64 : Shape := ⟨3, ![2, 12000, 64]⟩
abbrev S2x12000x1x64 : Shape := ⟨4, ![2, 12000, 1, 64]⟩
abbrev S2x12000x35x128 : Shape := ⟨4, ![2, 12000, 35, 128]⟩
abbrev S1x1x1x128 : Shape := ⟨4, ![1, 1, 1, 128]⟩
abbrev S2x12000x128 : Shape := ⟨3, ![2, 12000, 128]⟩
abbrev S2x12000x1 : Shape := ⟨3, ![2, 12000, 1]⟩
abbrev S2x12000 : Shape := ⟨2, ![2, 12000]⟩
abbrev S24000 : Shape := ⟨1, ![24000]⟩
abbrev S1x10x400x352x128 : Shape := ⟨5, ![1, 10, 400, 352, 128]⟩
abbrev S24000x128 : Shape := ⟨2, ![24000, 128]⟩
abbrev S24000x1 : Shape := ⟨2, ![24000, 1]⟩
abbrev S24000x4 : Shape := ⟨2, ![24000, 4]⟩
abbrev S1x128x10x400x352 : Shape := ⟨5, ![1, 128, 10, 400, 352]⟩

abbrev nBuf : Space → Nat
  | .hbm => 184
  | .vmem => 0
  | .smem => 0
  | _ => 0

abbrev hbmTy0_0 (i : Nat) : BufTy := match i % 128 with
  | 0 => ⟨S2x12000x35x7, .f32⟩
  | 1 => ⟨S2x12000x3, .i32⟩
  | 2 => ⟨S7x16, .f32⟩
  | 3 => ⟨S16, .f32⟩
  | 4 => ⟨S16, .f32⟩
  | 5 => ⟨S16, .f32⟩
  | 6 => ⟨S32x64, .f32⟩
  | 7 => ⟨S64, .f32⟩
  | 8 => ⟨S64, .f32⟩
  | 9 => ⟨S64, .f32⟩
  | 10 => ⟨S128x128, .f32⟩
  | 11 => ⟨S128, .f32⟩
  | 12 => ⟨S_, .f32⟩
  | 13 => ⟨S2x12000x35, .f32⟩
  | 14 => ⟨S2x12000x35x1, .f32⟩
  | 15 => ⟨S_, .f32⟩
  | 16 => ⟨S2x12000x35x1, .f32⟩
  | 17 => ⟨S2x12000x35x1, .i1⟩
  | 18 => ⟨S2x12000x35x1, .f32⟩
  | 19 => ⟨S2x12000x35x16, .f32⟩
  | 20 => ⟨S1x1x1x16, .f32⟩
  | 21 => ⟨S2x12000x35x16, .f32⟩
  | 22 => ⟨S2x12000x35x16, .f32⟩
  | 23 => ⟨S_, .f32⟩
  | 24 => ⟨S2x12000x35x16, .f32⟩
  | 25 => ⟨S2x12000x35x16, .f32⟩
  | 26 => ⟨S_, .f32⟩
  | 27 => ⟨S16, .f32⟩
  | 28 => ⟨S_, .f32⟩
  | 29 => ⟨S16, .f32⟩
  | 30 => ⟨S16, .f32⟩
  | 31 => ⟨S_, .i32⟩
  | 32 => ⟨S_, .f32⟩
  | 33 => ⟨S16, .f32⟩
  | 34 => ⟨S1x1x1x16, .f32⟩
  | 35 => ⟨S_, .f32⟩
  | 36 => ⟨S1x1x1x16, .f32⟩
  | 37 => ⟨S1x1x1x16, .f32⟩
  | 38 => ⟨S2x12000x35x16, .f32⟩
  | 39 => ⟨S2x12000x35x16, .f32⟩
  | 40 => ⟨S2x12000x35x16, .f32⟩
  | 41 => ⟨S_, .f32⟩
  | 42 => ⟨S_, .f32⟩
  | 43 => ⟨S_, .f32⟩
  | 44 => ⟨S_, .f32⟩
  | 45 => ⟨S16, .f32⟩
  | 46 => ⟨S16, .f32⟩
  | 47 => ⟨S16, .f32⟩
  | 48 => ⟨S_, .f32⟩
  | 49 => ⟨S_, .i1⟩
  | 50 => ⟨S_, .f32⟩
  | 51 => ⟨S_, .f32⟩
  | 52 => ⟨S16, .f32⟩
  | 53 => ⟨S16, .f32⟩
  | 54 => ⟨S1x1x1x16, .f32⟩
  | 55 => ⟨S2x12000x35x16, .f32⟩
  | 56 => ⟨S2x12000x35x16, .f32⟩
  | 57 => ⟨S_, .f32⟩
  | 58 => ⟨S16, .f32⟩
  | 59 => ⟨S16, .f32⟩
  | 60 => ⟨S16, .f32⟩
  | 61 => ⟨S1x1x1x16, .f32⟩
  | 62 => ⟨S2x12000x35x16, .f32⟩
  | 63 => ⟨S2x12000x35x16, .f32⟩
  | 64 => ⟨S1x1x1x16, .f32⟩
  | 65 => ⟨S2x12000x35x16, .f32⟩
  | 66 => ⟨S2x12000x35x16, .f32⟩
  | 67 => ⟨S1x1x1x16, .f32⟩
  | 68 => ⟨S2x12000x35x16, .f32⟩
  | 69 => ⟨S2x12000x35x16, .f32⟩
  | 70 => ⟨S_, .f32⟩
  | 71 => ⟨S2x12000x16, .f32⟩
  | 72 => ⟨S2x12000x1x16, .f32⟩
  | 73 => ⟨S2x12000x35x16, .f32⟩
  | 74 => ⟨S2x12000x35x32, .f32⟩
  | 75 => ⟨S2x12000x35x32, .f32⟩
  | 76 => ⟨S2x12000x35x32, .f32⟩
  | 77 => ⟨S2x12000x35x64, .f32⟩
  | 78 => ⟨S1x1x1x64, .f32⟩
  | 79 => ⟨S2x12000x35x64, .f32⟩
  | 80 => ⟨S2x12000x35x64, .f32⟩
  | 81 => ⟨S_, .f32⟩
  | 82 => ⟨S2x12000x35x64, .f32⟩
  | 83 => ⟨S2x12000x35x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x1x1x64, .f32⟩
  | 93 => ⟨S_, .f32⟩
  | 94 => ⟨S1x1x1x64, .f32⟩
  | 95 => ⟨S1x1x1x64, .f32⟩
  | 96 => ⟨S2x12000x35x64, .f32⟩
  | 97 => ⟨S2x12000x35x64, .f32⟩
  | 98 => ⟨S2x12000x35x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x1x1x64, .f32⟩
  | 113 => ⟨S2x12000x35x64, .f32⟩
  | 114 => ⟨S2x12000x35x64, .f32⟩
  | 115 => ⟨S_, .f32⟩
  | 116 => ⟨S64, .f32⟩
  | 117 => ⟨S64, .f32⟩
  | 118 => ⟨S64, .f32⟩
  | 119 => ⟨S1x1x1x64, .f32⟩
  | 120 => ⟨S2x12000x35x64, .f32⟩
  | 121 => ⟨S2x12000x35x64, .f32⟩
  | 122 => ⟨S1x1x1x64, .f32⟩
  | 123 => ⟨S2x12000x35x64, .f32⟩
  | 124 => ⟨S2x12000x35x64, .f32⟩
  | 125 => ⟨S1x1x1x64, .f32⟩
  | 126 => ⟨S2x12000x35x64, .f32⟩
  | 127 => ⟨S2x12000x35x64, .f32⟩
  | _ => ⟨S2x12000x35x7, .f32⟩

abbrev hbmTy0_1 (i : Nat) : BufTy := match i % 128 with
  | 0 => ⟨S_, .f32⟩
  | 1 => ⟨S2x12000x64, .f32⟩
  | 2 => ⟨S2x12000x1x64, .f32⟩
  | 3 => ⟨S2x12000x35x64, .f32⟩
  | 4 => ⟨S2x12000x35x128, .f32⟩
  | 5 => ⟨S2x12000x35x128, .f32⟩
  | 6 => ⟨S2x12000x35x128, .f32⟩
  | 7 => ⟨S2x12000x35x128, .f32⟩
  | 8 => ⟨S1x1x1x128, .f32⟩
  | 9 => ⟨S2x12000x35x128, .f32⟩
  | 10 => ⟨S2x12000x35x128, .f32⟩
  | 11 => ⟨S_, .f32⟩
  | 12 => ⟨S2x12000x128, .f32⟩
  | 13 => ⟨S2x12000x1, .i32⟩
  | 14 => ⟨S2x12000, .i32⟩
  | 15 => ⟨S24000, .i32⟩
  | 16 => ⟨S2x12000x1, .i32⟩
  | 17 => ⟨S2x12000, .i32⟩
  | 18 => ⟨S24000, .i32⟩
  | 19 => ⟨S2x12000x1, .i32⟩
  | 20 => ⟨S2x12000, .i32⟩
  | 21 => ⟨S24000, .i32⟩
  | 22 => ⟨S_, .f32⟩
  | 23 => ⟨S1x10x400x352x128, .f32⟩
  | 24 => ⟨S24000x128, .f32⟩
  | 25 => ⟨S_, .i32⟩
  | 26 => ⟨S24000, .i32⟩
  | 27 => ⟨S24000, .i1⟩
  | 28 => ⟨S_, .i32⟩
  | 29 => ⟨S24000, .i32⟩
  | 30 => ⟨S24000, .i32⟩
  | 31 => ⟨S24000, .i32⟩
  | 32 => ⟨S_, .i32⟩
  | 33 => ⟨S24000, .i32⟩
  | 34 => ⟨S24000, .i1⟩
  | 35 => ⟨S_, .i32⟩
  | 36 => ⟨S24000, .i32⟩
  | 37 => ⟨S24000, .i32⟩
  | 38 => ⟨S24000, .i32⟩
  | 39 => ⟨S_, .i32⟩
  | 40 => ⟨S24000, .i32⟩
  | 41 => ⟨S24000, .i1⟩
  | 42 => ⟨S_, .i32⟩
  | 43 => ⟨S24000, .i32⟩
  | 44 => ⟨S24000, .i32⟩
  | 45 => ⟨S24000, .i32⟩
  | 46 => ⟨S_, .i32⟩
  | 47 => ⟨S24000, .i32⟩
  | 48 => ⟨S24000, .i32⟩
  | 49 => ⟨S24000x1, .i32⟩
  | 50 => ⟨S24000x1, .i32⟩
  | 51 => ⟨S24000x1, .i32⟩
  | 52 => ⟨S24000x1, .i32⟩
  | 53 => ⟨S24000x4, .i32⟩
  | 54 => ⟨S1x10x400x352x128, .f32⟩
  | 55 => ⟨S1x128x10x400x352, .f32⟩
  | _ => ⟨S2x12000x35x7, .f32⟩

abbrev hbmTy (i : Nat) : BufTy := match i / 128 with
  | 0 => hbmTy0_0 i
  | 1 => hbmTy0_1 i
  | _ => ⟨S2x12000x35x7, .f32⟩

abbrev bufTy : (tb : Table) → Fin (tcTables nBuf tb) → BufTy
  | .hbm, ⟨i, _⟩ => hbmTy i
  | _, _ => ⟨S2x12000x35x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_cst : Ref sig .tc := ⟨.hbm, 23, rfl⟩
abbrev main_call0_v0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_cst_2 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_cst_3 : Ref sig .tc := ⟨.hbm, 48, rfl⟩
abbrev main_call1_v12 : Ref sig .tc := ⟨.hbm, 49, rfl⟩
abbrev main_call1_cst_4 : Ref sig .tc := ⟨.hbm, 50, rfl⟩
abbrev main_call1_call0_v0 : Ref sig .tc := ⟨.hbm, 51, rfl⟩
abbrev main_call1_call0_v1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_3 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_4 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call2_cst : Ref sig .tc := ⟨.hbm, 81, rfl⟩
abbrev main_call2_v0 : Ref sig .tc := ⟨.hbm, 82, rfl⟩
abbrev main_v39 : Ref sig .tc := ⟨.hbm, 83, rfl⟩
abbrev main_cst_5 : Ref sig .tc := ⟨.hbm, 84, rfl⟩
abbrev main_v40 : Ref sig .tc := ⟨.hbm, 85, rfl⟩
abbrev main_cst_6 : Ref sig .tc := ⟨.hbm, 86, rfl⟩
abbrev main_v41 : Ref sig .tc := ⟨.hbm, 87, rfl⟩
abbrev main_v42 : Ref sig .tc := ⟨.hbm, 88, rfl⟩
abbrev main_c_7 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_cst_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_cst_1 : Ref sig .tc := ⟨.hbm, 100, rfl⟩
abbrev main_call3_v8 : Ref sig .tc := ⟨.hbm, 101, rfl⟩
abbrev main_call3_cst_2 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_cst_3 : Ref sig .tc := ⟨.hbm, 106, rfl⟩
abbrev main_call3_v12 : Ref sig .tc := ⟨.hbm, 107, rfl⟩
abbrev main_call3_cst_4 : Ref sig .tc := ⟨.hbm, 108, rfl⟩
abbrev main_call3_call0_v0 : Ref sig .tc := ⟨.hbm, 109, rfl⟩
abbrev main_call3_call0_v1 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_cst_8 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_9 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_10 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_11 : Ref sig .tc := ⟨.hbm, 150, rfl⟩
abbrev main_v79 : Ref sig .tc := ⟨.hbm, 151, rfl⟩
abbrev main_v80 : Ref sig .tc := ⟨.hbm, 152, rfl⟩
abbrev main_c_12 : Ref sig .tc := ⟨.hbm, 153, rfl⟩
abbrev main_v81 : Ref sig .tc := ⟨.hbm, 154, rfl⟩
abbrev main_v82 : Ref sig .tc := ⟨.hbm, 155, rfl⟩
abbrev main_c_13 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_c_14 : Ref sig .tc := ⟨.hbm, 160, rfl⟩
abbrev main_v86 : Ref sig .tc := ⟨.hbm, 161, rfl⟩
abbrev main_v87 : Ref sig .tc := ⟨.hbm, 162, rfl⟩
abbrev main_c_15 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_c_16 : Ref sig .tc := ⟨.hbm, 167, rfl⟩
abbrev main_v91 : Ref sig .tc := ⟨.hbm, 168, rfl⟩
abbrev main_v92 : Ref sig .tc := ⟨.hbm, 169, rfl⟩
abbrev main_c_17 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_c_18 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩

abbrev nD : Nat := 1
abbrev τ : Topo := Topo.v7x

variable {F : FTy → Type} [FloatOps F]

class Facts₀ : Prop where
  reducesTo_S2x12000x35x7_S2x12000x35_d3 : S2x12000x35x7.ReducesTo [3] S2x12000x35
  h_S_ : 0 < S_.numel
  bcast_S2x12000x35_S2x12000x35x1_0_1_2 : S2x12000x35.BroadcastsInDim S2x12000x35x1 (![0, 1, 2] : Fin 3 → Fin S2x12000x35x1.rank)
  bcast_S_S2x12000x35x1 : S_.BroadcastsInDim S2x12000x35x1 (![] : Fin 0 → Fin S2x12000x35x1.rank)
  bcast_S16_S1x1x1x16_3 : S16.BroadcastsInDim S1x1x1x16 (![3] : Fin 1 → Fin S1x1x1x16.rank)
  bcast_S1x1x1x16_S2x12000x35x16_0_1_2_3 : S1x1x1x16.BroadcastsInDim S2x12000x35x16 (![0, 1, 2, 3] : Fin 4 → Fin S2x12000x35x16.rank)
  bcast_S_S2x12000x35x16 : S_.BroadcastsInDim S2x12000x35x16 (![] : Fin 0 → Fin S2x12000x35x16.rank)
  reducesTo_S2x12000x35x16_S16_d0_1_2 : S2x12000x35x16.ReducesTo [0, 1, 2] S16
  bcast_S_S16 : S_.BroadcastsInDim S16 (![] : Fin 0 → Fin S16.rank)
  bcast_S_S1x1x1x16 : S_.BroadcastsInDim S1x1x1x16 (![] : Fin 0 → Fin S1x1x1x16.rank)
  reducesTo_S2x12000x35x16_S2x12000x16_d2 : S2x12000x35x16.ReducesTo [2] S2x12000x16
  bcast_S2x12000x16_S2x12000x1x16_0_1_3 : S2x12000x16.BroadcastsInDim S2x12000x1x16 (![0, 1, 3] : Fin 3 → Fin S2x12000x1x16.rank)
  bcast_S2x12000x1x16_S2x12000x35x16_0_1_2_3 : S2x12000x1x16.BroadcastsInDim S2x12000x35x16 (![0, 1, 2, 3] : Fin 4 → Fin S2x12000x35x16.rank)
  concatenates_S2x12000x35x16_S2x12000x35x16_S2x12000x35x32_d3 : Shape.Concatenates [S2x12000x35x16, S2x12000x35x16] S2x12000x35x32 3
  bcast_S2x12000x35x1_S2x12000x35x32_0_1_2_3 : S2x12000x35x1.BroadcastsInDim S2x12000x35x32 (![0, 1, 2, 3] : Fin 4 → Fin S2x12000x35x32.rank)
  bcast_S64_S1x1x1x64_3 : S64.BroadcastsInDim S1x1x1x64 (![3] : Fin 1 → Fin S1x1x1x64.rank)
  bcast_S1x1x1x64_S2x12000x35x64_0_1_2_3 : S1x1x1x64.BroadcastsInDim S2x12000x35x64 (![0, 1, 2, 3] : Fin 4 → Fin S2x12000x35x64.rank)
  bcast_S_S2x12000x35x64 : S_.BroadcastsInDim S2x12000x35x64 (![] : Fin 0 → Fin S2x12000x35x64.rank)
  reducesTo_S2x12000x35x64_S64_d0_1_2 : S2x12000x35x64.ReducesTo [0, 1, 2] S64
  bcast_S_S64 : S_.BroadcastsInDim S64 (![] : Fin 0 → Fin S64.rank)
  bcast_S_S1x1x1x64 : S_.BroadcastsInDim S1x1x1x64 (![] : Fin 0 → Fin S1x1x1x64.rank)
  reducesTo_S2x12000x35x64_S2x12000x64_d2 : S2x12000x35x64.ReducesTo [2] S2x12000x64
  bcast_S2x12000x64_S2x12000x1x64_0_1_3 : S2x12000x64.BroadcastsInDim S2x12000x1x64 (![0, 1, 3] : Fin 3 → Fin S2x12000x1x64.rank)
  bcast_S2x12000x1x64_S2x12000x35x64_0_1_2_3 : S2x12000x1x64.BroadcastsInDim S2x12000x35x64 (![0, 1, 2, 3] : Fin 4 → Fin S2x12000x35x64.rank)
  concatenates_S2x12000x35x64_S2x12000x35x64_S2x12000x35x128_d3 : Shape.Concatenates [S2x12000x35x64, S2x12000x35x64] S2x12000x35x128 3
  bcast_S2x12000x35x1_S2x12000x35x128_0_1_2_3 : S2x12000x35x1.BroadcastsInDim S2x12000x35x128 (![0, 1, 2, 3] : Fin 4 → Fin S2x12000x35x128.rank)
  bcast_S128_S1x1x1x128_3 : S128.BroadcastsInDim S1x1x1x128 (![3] : Fin 1 → Fin S1x1x1x128.rank)
  bcast_S1x1x1x128_S2x12000x35x128_0_1_2_3 : S1x1x1x128.BroadcastsInDim S2x12000x35x128 (![0, 1, 2, 3] : Fin 4 → Fin S2x12000x35x128.rank)
  reducesTo_S2x12000x35x128_S2x12000x128_d2 : S2x12000x35x128.ReducesTo [2] S2x12000x128
  slices_S2x12000x3_S2x12000x1_0_0_0 : S2x12000x3.Slices ![0, 0, 0] S2x12000x1
  shapeCasts_S2x12000x1_S2x12000 : S2x12000x1.ShapeCasts S2x12000
  shapeCasts_S2x12000_S24000 : S2x12000.ShapeCasts S24000
  slices_S2x12000x3_S2x12000x1_0_0_1 : S2x12000x3.Slices ![0, 0, 1] S2x12000x1
  slices_S2x12000x3_S2x12000x1_0_0_2 : S2x12000x3.Slices ![0, 0, 2] S2x12000x1
  bcast_S_S1x10x400x352x128 : S_.BroadcastsInDim S1x10x400x352x128 (![] : Fin 0 → Fin S1x10x400x352x128.rank)
  shapeCasts_S2x12000x128_S24000x128 : S2x12000x128.ShapeCasts S24000x128
  bcast_S_S24000 : S_.BroadcastsInDim S24000 (![] : Fin 0 → Fin S24000.rank)
  bcast_S24000_S24000x1_0 : S24000.BroadcastsInDim S24000x1 (![0] : Fin 1 → Fin S24000x1.rank)
  concatenates_S24000x1_S24000x1_S24000x1_S24000x1_S24000x4_d1 : Shape.Concatenates [S24000x1, S24000x1, S24000x1, S24000x1] S24000x4 1
  transposes_S1x10x400x352x128_S1x128x10x400x352_0_4_1_2_3 : S1x10x400x352x128.Transposes [0, 4, 1, 2, 3] S1x128x10x400x352
  dot_S2x12000x35x7_S7x16_S2x12000x35x16_3_0_012_1_n_n_wf : DotDims.WF S2x12000x35x7 S7x16 S2x12000x35x16 [3] [0] [0, 1, 2] [1] [] []
  dot_S2x12000x35x32_S32x64_S2x12000x35x64_3_0_012_1_n_n_wf : DotDims.WF S2x12000x35x32 S32x64 S2x12000x35x64 [3] [0] [0, 1, 2] [1] [] []
  dot_S2x12000x35x128_S128x128_S2x12000x35x128_3_0_012_1_n_n_wf : DotDims.WF S2x12000x35x128 S128x128 S2x12000x35x128 [3] [0] [0, 1, 2] [1] [] []
  scatter_S1x10x400x352x128_S24000x4_S24000x128_1_0123_0123_1_wf : ScatterDims.WF S1x10x400x352x128 S24000x4 S24000x128 [1] [0, 1, 2, 3] [0, 1, 2, 3] 1

variable [Facts₀]

def dot_S2x12000x35x7_S7x16_S2x12000x35x16_3_0_012_1_n_n : DotDims S2x12000x35x7 S7x16 S2x12000x35x16 where
  lhsContracting := [3]
  rhsContracting := [0]
  lhsNonContracting := [0, 1, 2]
  rhsNonContracting := [1]
  lhsBatch := []
  rhsBatch := []
  wf := dot_S2x12000x35x7_S7x16_S2x12000x35x16_3_0_012_1_n_n_wf
def dot_S2x12000x35x32_S32x64_S2x12000x35x64_3_0_012_1_n_n : DotDims S2x12000x35x32 S32x64 S2x12000x35x64 where
  lhsContracting := [3]
  rhsContracting := [0]
  lhsNonContracting := [0, 1, 2]
  rhsNonContracting := [1]
  lhsBatch := []
  rhsBatch := []
  wf := dot_S2x12000x35x32_S32x64_S2x12000x35x64_3_0_012_1_n_n_wf
def dot_S2x12000x35x128_S128x128_S2x12000x35x128_3_0_012_1_n_n : DotDims S2x12000x35x128 S128x128 S2x12000x35x128 where
  lhsContracting := [3]
  rhsContracting := [0]
  lhsNonContracting := [0, 1, 2]
  rhsNonContracting := [1]
  lhsBatch := []
  rhsBatch := []
  wf := dot_S2x12000x35x128_S128x128_S2x12000x35x128_3_0_012_1_n_n_wf
def scatter_S1x10x400x352x128_S24000x4_S24000x128_1_0123_0123_1 : ScatterDims S1x10x400x352x128 S24000x4 S24000x128 where
  updateWindowDims := [1]
  insertedWindowDims := [0, 1, 2, 3]
  scatterDimsToOperandDims := [0, 1, 2, 3]
  indexVectorDim := 1
  wf := scatter_S1x10x400x352x128_S24000x4_S24000x128_1_0123_0123_1_wf

class Facts : Prop extends Facts₀ where

variable [Facts]
-- ==== Proof.KB.Region0.lean ====
import proofs.«172356_j10943576670908_2_alg».proof.Proof.Gen.Kernel.Launch
import proofs.«172356_j10943576670908_2_alg».proof.Proof.Gen.Kernel.Skeleton
import proofs.«172356_j10943576670908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 0: the first layer's statistics

The kernel runs over 50 grid points. At each point it reads one block of points (window 0), the first layer's weights and
bias (windows 1, 2), forms relu(x·W + b), and adds the per-channel sum (window 3) and sum of squares (window 4) to two
1×16 accumulators that it resets to zero at the first point. The accumulators' staging buffers are written back once,
after the last point. -/

/-- The zero offsets of a rank-2 and of a rank-4 whole-buffer rectangle are the constant zero function. -/
theorem hz0_2 : (![0, 0] : Fin 2 → ℕ) = fun _ => 0 := by funext a; fin_cases a <;> rfl
theorem hz0_4 : (![0, 0, 0, 0] : Fin 4 → ℕ) = fun _ => 0 := by funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched its
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched its
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The body's triple, case by case -/

set_option maxHeartbeats 2000000 in
/-- At the first point: whatever the accumulators' buffers held, the body resets them to zero and then adds this block's
    sums, so each ends at its update of the zero vector; the inputs' buffers are only read. -/
theorem sound_kernel0_first (c : Dev nD) (E : Set ℕ) (i : grid0.Coords) (hc : cond0_0 i)
    (arg1 : Memref sig .tc .vmem S2x240x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole)
    (x0 : Vec F S2x240x35x7 .f32) (x1 : Vec F S7x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 (k0_pay1 (F := F)))
            ∗ owns (c : Thread nD τ) arg5 fullShare (k0_pay5 x0 x1 x2 (k0_pay2 (F := F)))) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2, View.readCov_unit_zero (S := S1x16) _ hz0_2]
  · iexists _; isplitr
    swap; · iexact H4
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2, View.readCov_unit_zero (S := S1x16) _ hz0_2]

set_option maxHeartbeats 2000000 in
/-- At a later point: the accumulators' buffers hold what the point before left (`xo3`, `xo4`), and each ends at its
    update of that. -/
theorem sound_kernel0_later (c : Dev nD) (E : Set ℕ) (i : grid0.Coords) (hc : ¬cond0_0 i)
    (arg1 : Memref sig .tc .vmem S2x240x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole)
    (x0 : Vec F S2x240x35x7 .f32) (x1 : Vec F S7x16 .f32) (x2 : Vec F S1x16 .f32) (xo3 xo4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 xo3)
            ∗ owns (c : Thread nD τ) arg5 fullShare (k0_pay5 x0 x1 x2 xo4)) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2]
  · iexists _; isplitr
    swap; · iexact H4
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2]

/-! ## What the accumulators hold after each point -/

/-- The running per-channel sum after the body at position `n`: the update of zero at the first point, of what the
    point before left at a later one. -/
def acc0_3 (c : Dev nD) : (n : ℕ) → n < cfg0.N → Vec F S1x16 .f32
  | 0, hn => k0_pay4 (iblk0 V c 0 ⟨0, hn⟩) (iblk0 V c 1 ⟨0, hn⟩) (iblk0 V c 2 ⟨0, hn⟩) (k0_pay1 (F := F))
  | n + 1, hn => k0_pay4 (iblk0 V c 0 ⟨n + 1, hn⟩) (iblk0 V c 1 ⟨n + 1, hn⟩) (iblk0 V c 2 ⟨n + 1, hn⟩) (acc0_3 c n (Nat.lt_of_succ_lt hn))

/-- The running per-channel sum of squares, likewise. -/
def acc0_4 (c : Dev nD) : (n : ℕ) → n < cfg0.N → Vec F S1x16 .f32
  | 0, hn => k0_pay5 (iblk0 V c 0 ⟨0, hn⟩) (iblk0 V c 1 ⟨0, hn⟩) (iblk0 V c 2 ⟨0, hn⟩) (k0_pay2 (F := F))
  | n + 1, hn => k0_pay5 (iblk0 V c 0 ⟨n + 1, hn⟩) (iblk0 V c 1 ⟨n + 1, hn⟩) (iblk0 V c 2 ⟨n + 1, hn⟩) (acc0_4 c n (Nat.lt_of_succ_lt hn))

/-! ## The pipeline's proof data -/

/-- The proof data of pipeline 0 on core `c`: the arrays as the region finds them; after the body at point `t` each
    input's buffer at its block and each accumulator's at its running value; the scoped rest and the generator register
    as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

/-- The sum's accumulator after the first point: this block's update of the zero vector. -/
theorem after0_3_first (c : Dev nD) (t : Fin cfg0.N) (h : t.val = 0) :
    (dat0 V c).after 3 t = k0_pay4 (iblk0 V c 0 t) (iblk0 V c 1 t) (iblk0 V c 2 t) (k0_pay1 (F := F)) := by
  rw [after0_3]
  obtain ⟨n, hn⟩ := t
  dsimp only at h; subst h
  rfl

/-- After a later point: this block's update of what the point before left. -/
theorem after0_3_later (c : Dev nD) (t s : Fin cfg0.N) (h : s.val + 1 = t.val) :
    (dat0 V c).after 3 t = k0_pay4 (iblk0 V c 0 t) (iblk0 V c 1 t) (iblk0 V c 2 t) ((dat0 V c).after 3 s) := by
  rw [after0_3, after0_3]
  obtain ⟨n, hn⟩ := t; obtain ⟨k, hk⟩ := s
  dsimp only at h; subst h
  rfl

/-- The same two for the sum of squares. -/
theorem after0_4_first (c : Dev nD) (t : Fin cfg0.N) (h : t.val = 0) :
    (dat0 V c).after 4 t = k0_pay5 (iblk0 V c 0 t) (iblk0 V c 1 t) (iblk0 V c 2 t) (k0_pay2 (F := F)) := by
  rw [after0_4]
  obtain ⟨n, hn⟩ := t
  dsimp only at h; subst h
  rfl

theorem after0_4_later (c : Dev nD) (t s : Fin cfg0.N) (h : s.val + 1 = t.val) :
    (dat0 V c).after 4 t = k0_pay5 (iblk0 V c 0 t) (iblk0 V c 1 t) (iblk0 V c 2 t) ((dat0 V c).after 4 s) := by
  rw [after0_4, after0_4]
  obtain ⟨n, hn⟩ := t; obtain ⟨k, hk⟩ := s
  dsimp only at h; subst h
  rfl

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point an accumulator's staging buffer holds what the body left at the point before: the buffer is written
    back only after the last point, so nothing touched it in between. -/
theorem before0_3_later (c : Dev nD) (t : Fin cfg0.N) (h0 : ¬t.val % 50 = 0) (d) :
    (dat0 V c).before 3 t d = (dat0 V c).after 3 ⟨t.val - 1, Nat.lt_of_le_of_lt (Nat.sub_le _ _) t.isLt⟩ := by
  have hN : t.val < 50 := lt_of_lt_of_eq t.isLt (show cfg0.N = 50 from N_0)
  exact Dat.before_out_kept _ 3 rfl t (by omega) (Bool.eq_false_iff.mpr fun h => by have := (flush0_3 _).mp h; dsimp only at this; omega)
    (fun _ => rfl) (fun _ _ => rfl) d
theorem before0_4_later (c : Dev nD) (t : Fin cfg0.N) (h0 : ¬t.val % 50 = 0) (d) :
    (dat0 V c).before 4 t d = (dat0 V c).after 4 ⟨t.val - 1, Nat.lt_of_le_of_lt (Nat.sub_le _ _) t.isLt⟩ := by
  have hN : t.val < 50 := lt_of_lt_of_eq t.isLt (show cfg0.N = 50 from N_0)
  exact Dat.before_out_kept _ 4 rfl t (by omega) (Bool.eq_false_iff.mpr fun h => by have := (flush0_4 _).mp h; dsimp only at this; omega)
    (fun _ => rfl) (fun _ _ => rfl) d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks; the point is the first or it is not, and the matching
    triple applies — at a later point the accumulators hold what the point before left. The invariant and the core's
    dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  have hN : t.val < 50 := lt_of_lt_of_eq t.isLt (show cfg0.N = 50 from N_0)
  by_cases h0 : t.val % 50 = 0
  · rw [after0_3_first V c t (by omega), after0_4_first V c t (by omega)]
    iintro ⟨HΦ, Ho, ⟨%d0, H0⟩, ⟨%d1, H1⟩, ⟨%d2, H2⟩, ⟨%d3, H3⟩, ⟨%d4, H4⟩⟩
    iapply (sound_kernel0_first c Set.univ (grid0.coords t) ((hcond0_0 t).mpr h0) _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [after0_3_later V c t ⟨t.val - 1, Nat.lt_of_le_of_lt (Nat.sub_le _ _) t.isLt⟩ (by dsimp only; omega),
      after0_4_later V c t ⟨t.val - 1, Nat.lt_of_le_of_lt (Nat.sub_le _ _) t.isLt⟩ (by dsimp only; omega)]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (sound_kernel0_later c Set.univ (grid0.coords t) (fun h => h0 ((hcond0_0 t).mp h)) _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«172356_j10943576670908_2_alg».proof.Proof.Gen.Kernel.Launch
import proofs.«172356_j10943576670908_2_alg».proof.Proof.Gen.Kernel.Skeleton
import proofs.«172356_j10943576670908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 1: the second layer's statistics

The kernel runs over 50 grid points. At each point it reads one block of points (window 0), the first layer's statistics,
scale and shift (windows 1–4), weights and bias (windows 5, 6) and the second layer's weights and bias (windows 7, 8);
it recomputes the normalised first layer, forms the second layer's relu, and adds the per-channel sum (window 9) and sum
of squares (window 10) to two 1×64 accumulators that it resets to zero at the first point. The accumulators' staging
buffers are written back once, after the last point. -/

/-- The zero offsets of a whole-buffer rectangle are the constant zero function. -/
theorem hz1_2 : (![0, 0] : Fin 2 → ℕ) = fun _ => 0 := by funext a; fin_cases a <;> rfl
theorem hz1_4 : (![0, 0, 0, 0] : Fin 4 → ℕ) = fun _ => 0 := by funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched its
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched its
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched its
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched its
    block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched its
    block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: where it is not fetched its
    block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not: where it is not fetched its
    block index has not moved, and the body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not: where it is not fetched its
    block index has not moved, and the body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not: where it is not fetched its
    block index has not moved, and the body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one conditional: the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 50 = 0 :=
  (by decide +kernel : ∀ t : Fin grid1.N, cond1_0 (grid1.coords t) ↔ t.val % 50 = 0)

/-! ## The body's triple -/

set_option maxHeartbeats 4000000 in
/-- At the first point: whatever the accumulators' buffers held, the body resets them to zero and then adds this block's
    sums, so each ends at its update of the zero vector; the inputs' buffers are only read. -/
theorem sound_kernel1_first (c : Dev nD) (E : Set ℕ) (i : grid1.Coords) (hc : cond1_0 i)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S32x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k1_pay9 (k1_pay3 x0) (k1_pay4 x3) (k1_pay5 x4) (k1_pay6 x0 x5 x6 x1) (k1_pay7 x2) x7 x8 (k1_pay1 (F := F)))
            ∗ owns (c : Thread nD τ) arg11 fullShare (k1_pay10 (k1_pay3 x0) (k1_pay4 x3) (k1_pay5 x4) (k1_pay6 x0 x5 x6 x1) (k1_pay7 x2) x7 x8 (k1_pay2 (F := F)))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K := by
  simp only [cc1__stage2_kernel_eq_skeleton]; unfold cc1__stage2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_cons.mpr (Or.inl rfl), View.mem_set_unit_zero (S := S1x64) hz1_2 inb_S1x64_S1x64_0_0 y⟩),
      View.canon_cons_unit_zero (S := S1x64) hz1_2]
    try sl_unfold_run_names
    simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2, View.readCov_unit_zero (S := S1x64) _ hz1_2]
  iexists _; isplitr
  swap; · iexact H10
  ipureintro
  rw [View.read_writes_eq_canon _ _ _ (fun y => ⟨_, List.mem_cons.mpr (Or.inl rfl), View.mem_set_unit_zero (S := S1x64) hz1_2 inb_S1x64_S1x64_0_0 y⟩),
    View.canon_cons_unit_zero (S := S1x64) hz1_2]
  try sl_unfold_run_names
  simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2, View.readCov_unit_zero (S := S1x64) _ hz1_2]

set_option maxHeartbeats 4000000 in
/-- At a later point: the accumulators' buffers hold what the point before left (`xo9`, `xo10`), and each ends at its
    update of that. -/
theorem sound_kernel1_later (c : Dev nD) (E : Set ℕ) (i : grid1.Coords) (hc : ¬cond1_0 i)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S32x64 .f32) (x8 : Vec F S1x64 .f32) (xo9 : Vec F S1x64 .f32) (xo10 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare xo9
        ∗ owns (c : Thread nD τ) arg11 fullShare xo10
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k1_pay9 (k1_pay3 x0) (k1_pay4 x3) (k1_pay5 x4) (k1_pay6 x0 x5 x6 x1) (k1_pay7 x2) x7 x8 xo9)
            ∗ owns (c : Thread nD τ) arg11 fullShare (k1_pay10 (k1_pay3 x0) (k1_pay4 x3) (k1_pay5 x4) (k1_pay6 x0 x5 x6 x1) (k1_pay7 x2) x7 x8 xo10)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K := by
  simp only [cc1__stage2_kernel_eq_skeleton]; unfold cc1__stage2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0; subst hf1; subst hf2; subst hf3; subst hf4; subst hf5; subst hf6; subst hf7; subst hf8; subst hf9; subst hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_cons.mpr (Or.inl rfl), View.mem_set_unit_zero (S := S1x64) hz1_2 inb_S1x64_S1x64_0_0 y⟩),
      View.canon_cons_unit_zero (S := S1x64) hz1_2]
    try sl_unfold_run_names
    simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2]
  iexists _; isplitr
  swap; · iexact H10
  ipureintro
  rw [View.read_writes_eq_canon _ _ _ (fun y => ⟨_, List.mem_cons.mpr (Or.inl rfl), View.mem_set_unit_zero (S := S1x64) hz1_2 inb_S1x64_S1x64_0_0 y⟩),
    View.canon_cons_unit_zero (S := S1x64) hz1_2]
  try sl_unfold_run_names
  simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2]

/-! ## What the accumulators hold after each point -/

/-- The running per-channel sum of the second layer after the body at position `n`: the update of zero at the first point, of what the point before left at a later one. -/
def acc1_9 (c : Dev nD) : (n : ℕ) → n < cfg1.N → Vec F S1x64 .f32
  | 0, hn => k1_pay9 (k1_pay3 (iblk1 V c 0 ⟨0, hn⟩)) (k1_pay4 (iblk1 V c 3 ⟨0, hn⟩)) (k1_pay5 (iblk1 V c 4 ⟨0, hn⟩)) (k1_pay6 (iblk1 V c 0 ⟨0, hn⟩) (iblk1 V c 5 ⟨0, hn⟩) (iblk1 V c 6 ⟨0, hn⟩) (iblk1 V c 1 ⟨0, hn⟩)) (k1_pay7 (iblk1 V c 2 ⟨0, hn⟩)) (iblk1 V c 7 ⟨0, hn⟩) (iblk1 V c 8 ⟨0, hn⟩) (k1_pay1 (F := F))
  | n + 1, hn => k1_pay9 (k1_pay3 (iblk1 V c 0 ⟨n + 1, hn⟩)) (k1_pay4 (iblk1 V c 3 ⟨n + 1, hn⟩)) (k1_pay5 (iblk1 V c 4 ⟨n + 1, hn⟩)) (k1_pay6 (iblk1 V c 0 ⟨n + 1, hn⟩) (iblk1 V c 5 ⟨n + 1, hn⟩) (iblk1 V c 6 ⟨n + 1, hn⟩) (iblk1 V c 1 ⟨n + 1, hn⟩)) (k1_pay7 (iblk1 V c 2 ⟨n + 1, hn⟩)) (iblk1 V c 7 ⟨n + 1, hn⟩) (iblk1 V c 8 ⟨n + 1, hn⟩) (acc1_9 c n (Nat.lt_of_succ_lt hn))

/-- The running per-channel sum of squares, likewise. -/
def acc1_10 (c : Dev nD) : (n : ℕ) → n < cfg1.N → Vec F S1x64 .f32
  | 0, hn => k1_pay10 (k1_pay3 (iblk1 V c 0 ⟨0, hn⟩)) (k1_pay4 (iblk1 V c 3 ⟨0, hn⟩)) (k1_pay5 (iblk1 V c 4 ⟨0, hn⟩)) (k1_pay6 (iblk1 V c 0 ⟨0, hn⟩) (iblk1 V c 5 ⟨0, hn⟩) (iblk1 V c 6 ⟨0, hn⟩) (iblk1 V c 1 ⟨0, hn⟩)) (k1_pay7 (iblk1 V c 2 ⟨0, hn⟩)) (iblk1 V c 7 ⟨0, hn⟩) (iblk1 V c 8 ⟨0, hn⟩) (k1_pay2 (F := F))
  | n + 1, hn => k1_pay10 (k1_pay3 (iblk1 V c 0 ⟨n + 1, hn⟩)) (k1_pay4 (iblk1 V c 3 ⟨n + 1, hn⟩)) (k1_pay5 (iblk1 V c 4 ⟨n + 1, hn⟩)) (k1_pay6 (iblk1 V c 0 ⟨n + 1, hn⟩) (iblk1 V c 5 ⟨n + 1, hn⟩) (iblk1 V c 6 ⟨n + 1, hn⟩) (iblk1 V c 1 ⟨n + 1, hn⟩)) (k1_pay7 (iblk1 V c 2 ⟨n + 1, hn⟩)) (iblk1 V c 7 ⟨n + 1, hn⟩) (iblk1 V c 8 ⟨n + 1, hn⟩) (acc1_10 c n (Nat.lt_of_succ_lt hn))

/-! ## The pipeline's proof data -/

/-- The proof data of pipeline 1 on core `c`: the arrays as the region finds them; after the body at point `t` each
    input's buffer at its block and each accumulator's at its running value; the scoped rest and the generator register
    as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => acc1_9 V c t.val t.isLt
    | ⟨10, _⟩ => acc1_10 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = acc1_9 V c t.val t.isLt := by dsimp only [dat1]
theorem after1_10 (c : Dev nD) (t : Fin cfg1.N) : (dat1 V c).after 10 t = acc1_10 V c t.val t.isLt := by dsimp only [dat1]

/-- The sum's accumulator after the first point: this block's update of the zero vector. -/
theorem after1_9_first (c : Dev nD) (t : Fin cfg1.N) (h : t.val = 0) :
    (dat1 V c).after 9 t = k1_pay9 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) (k1_pay1 (F := F)) := by
  rw [after1_9]
  obtain ⟨n, hn⟩ := t
  dsimp only at h; subst h
  rfl

/-- After a later point: this block's update of what the point before left. -/
theorem after1_9_later (c : Dev nD) (t s : Fin cfg1.N) (h : s.val + 1 = t.val) :
    (dat1 V c).after 9 t = k1_pay9 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) ((dat1 V c).after 9 s) := by
  rw [after1_9, after1_9]
  obtain ⟨n, hn⟩ := t; obtain ⟨k, hk⟩ := s
  dsimp only at h; subst h
  rfl

/-- The sum of squares' accumulator after the first point: this block's update of the zero vector. -/
theorem after1_10_first (c : Dev nD) (t : Fin cfg1.N) (h : t.val = 0) :
    (dat1 V c).after 10 t = k1_pay10 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) (k1_pay2 (F := F)) := by
  rw [after1_10]
  obtain ⟨n, hn⟩ := t
  dsimp only at h; subst h
  rfl

/-- After a later point: this block's update of what the point before left. -/
theorem after1_10_later (c : Dev nD) (t s : Fin cfg1.N) (h : s.val + 1 = t.val) :
    (dat1 V c).after 10 t = k1_pay10 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) ((dat1 V c).after 10 s) := by
  rw [after1_10, after1_10]
  obtain ⟨n, hn⟩ := t; obtain ⟨k, hk⟩ := s
  dsimp only at h; subst h
  rfl

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- At a later point an accumulator's staging buffer holds what the body left at the point before: the buffer is written
    back only after the last point, so nothing touched it in between. -/
theorem before1_9_later (c : Dev nD) (t : Fin cfg1.N) (h0 : ¬t.val % 50 = 0) (d) :
    (dat1 V c).before 9 t d = (dat1 V c).after 9 ⟨t.val - 1, Nat.lt_of_le_of_lt (Nat.sub_le _ _) t.isLt⟩ := by
  have hN : t.val < 50 := lt_of_lt_of_eq t.isLt (show cfg1.N = 50 from N_1)
  exact Dat.before_out_kept _ 9 rfl t (by omega) (Bool.eq_false_iff.mpr fun h => by have := (flush1_9 _).mp h; dsimp only at this; omega)
    (fun _ => rfl) (fun _ _ => rfl) d
theorem before1_10_later (c : Dev nD) (t : Fin cfg1.N) (h0 : ¬t.val % 50 = 0) (d) :
    (dat1 V c).before 10 t d = (dat1 V c).after 10 ⟨t.val - 1, Nat.lt_of_le_of_lt (Nat.sub_le _ _) t.isLt⟩ := by
  have hN : t.val < 50 := lt_of_lt_of_eq t.isLt (show cfg1.N = 50 from N_1)
  exact Dat.before_out_kept _ 10 rfl t (by omega) (Bool.eq_false_iff.mpr fun h => by have := (flush1_10 _).mp h; dsimp only at this; omega)
    (fun _ => rfl) (fun _ _ => rfl) d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' buffers hold their blocks; the point is the first or it is not, and the matching
    triple applies — at a later point the accumulators hold what the point before left. The invariant and the core's
    dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 50 := lt_of_lt_of_eq t.isLt (show cfg1.N = 50 from N_1)
  by_cases h0 : t.val % 50 = 0
  · rw [after1_9_first V c t (by omega), after1_10_first V c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_first c Set.univ (grid1.coords t) ((hcond1_0 t).mpr h0) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [after1_9_later V c t ⟨t.val - 1, Nat.lt_of_le_of_lt (Nat.sub_le _ _) t.isLt⟩ (by dsimp only; omega),
      after1_10_later V c t ⟨t.val - 1, Nat.lt_of_le_of_lt (Nat.sub_le _ _) t.isLt⟩ (by dsimp only; omega)]
    simp only [before1_9_later V c t h0, before1_10_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_later c Set.univ (grid1.coords t) (fun h => h0 ((hcond1_0 t).mp h)) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«172356_j10943576670908_2_alg».proof.Proof.Gen.Kernel.Launch
import proofs.«172356_j10943576670908_2_alg».proof.Proof.Gen.Kernel.Skeleton
import proofs.«172356_j10943576670908_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 2: the per-voxel features

The kernel runs over 50 grid points. At each point it reads one block of points (window 0), the first layer's statistics,
scale and shift (windows 1–4), weights and bias (windows 5, 6), the second layer's statistics, scale and shift (windows
7–10), weights and bias (windows 11, 12) and the last layer's weights and bias (windows 13, 14); it recomputes both
normalised layers, applies the last one and stores the per-voxel maximum over the points of a voxel, the whole output
block (window 15) at once. The output block is written back at every point. -/

/-- The zero offsets of a whole-buffer rectangle are the constant zero function. -/
theorem hz2_2 : (![0, 0] : Fin 2 → ℕ) = fun _ => 0 := by funext a; fin_cases a <;> rfl
theorem hz2_3 : (![0, 0, 0] : Fin 3 → ℕ) = fun _ => 0 := by funext a; fin_cases a <;> rfl
theorem hz2_4 : (![0, 0, 0, 0] : Fin 4 → ℕ) = fun _ => 0 := by funext a; fin_cases a <;> rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched its
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched its
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched its
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched its
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched its
    block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not: where it is not fetched its
    block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not: where it is not fetched its
    block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not: where it is not fetched its
    block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, fetched there or not: where it is not fetched its
    block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, fetched there or not: where it is not fetched its
    block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's staging buffer holds its block at every point, fetched there or not: where it is not fetched its
    block index has not moved, and the body leaves the block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's staging buffer holds its block at every point, fetched there or not: where it is not fetched its
    block index has not moved, and the body leaves the block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's staging buffer holds its block at every point, fetched there or not: where it is not fetched its
    block index has not moved, and the body leaves the block in place. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's staging buffer holds its block at every point, fetched there or not: where it is not fetched its
    block index has not moved, and the body leaves the block in place. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's staging buffer holds its block at every point, fetched there or not: where it is not fetched its
    block index has not moved, and the body leaves the block in place. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 4000000 in
/-- The body on whole staging buffers: the fifteen inputs are only read; the output buffer, whatever it held, ends at the
    one value the body stores, a function of the inputs' contents alone. -/
theorem sound_kernel2 (c : Dev nD) (E : Set ℕ) (i : grid2.Coords)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S32x64 .f32) (harg12 : arg12.IsWhole) (arg13 : Memref sig .tc .vmem S1x64 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S2x240x128 .f32) (harg16 : arg16.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S1x64 .f32) (x8 : Vec F S1x64 .f32) (x9 : Vec F S1x64 .f32) (x10 : Vec F S1x64 .f32) (x11 : Vec F S32x64 .f32) (x12 : Vec F S1x64 .f32) (x13 : Vec F S128x128 .f32) (x14 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ (∃ d, owns (c : Thread nD τ) arg16 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (k2_pay1 (k2_pay2 x0) (k2_pay6 (k2_pay2 x0) (k2_pay3 x4) (k2_pay4 x0 x5 x6 x1 x2) (k2_pay5 x3) x11 x12 x7 x8 x9) (k2_pay7 x10) x13 x14)) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__stage3_kernel_eq_skeleton]; unfold cc2__stage3_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  rw [View.read_writes_eq_canon _ _ _ (fun y => ⟨_, List.mem_cons.mpr (Or.inl rfl), View.mem_set_unit_zero (S := S2x240x128) hz2_3 inb_S2x240x128_S2x240x128_0_0_0 y⟩),
    View.canon_cons_unit_zero (S := S2x240x128) hz2_3]
  try sl_unfold_run_names
  simp only [View.readAt_eq_ld, View.ld_unit_zero (S := S2x240x35x7) hz2_4, View.ld_unit_zero (S := S1x16) hz2_2, View.ld_unit_zero (S := S7x16) hz2_2, View.ld_unit_zero (S := S1x64) hz2_2, View.ld_unit_zero (S := S32x64) hz2_2, View.ld_unit_zero (S := S128x128) hz2_2, View.ld_unit_zero (S := S1x128) hz2_2, View.ld_unit_zero (S := S2x240x128) hz2_3]

/-! ## The pipeline's proof data -/

/-- The proof data of pipeline 2 on core `c`: the arrays as the region finds them; after the body at point `t` each
    input's buffer at its block and the output's at the stored value of the input blocks; the scoped rest and the
    generator register as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => k2_pay1 (k2_pay2 (iblk2 V c 0 t)) (k2_pay6 (k2_pay2 (iblk2 V c 0 t)) (k2_pay3 (iblk2 V c 4 t)) (k2_pay4 (iblk2 V c 0 t) (iblk2 V c 5 t) (iblk2 V c 6 t) (iblk2 V c 1 t) (iblk2 V c 2 t)) (k2_pay5 (iblk2 V c 3 t)) (iblk2 V c 11 t) (iblk2 V c 12 t) (iblk2 V c 7 t) (iblk2 V c 8 t) (iblk2 V c 9 t)) (k2_pay7 (iblk2 V c 10 t)) (iblk2 V c 13 t) (iblk2 V c 14 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
/-- What the body leaves in the output window's buffer at point `t`: the per-voxel features of this block of points, from the block, both layers' weights and biases and both layers' normalisation statistics. -/
theorem after2_15 (c : Dev nD) (t : Fin cfg2.N) :
    (dat2 V c).after 15 t = k2_pay1 (k2_pay2 (iblk2 V c 0 t)) (k2_pay6 (k2_pay2 (iblk2 V c 0 t)) (k2_pay3 (iblk2 V c 4 t)) (k2_pay4 (iblk2 V c 0 t) (iblk2 V c 5 t) (iblk2 V c 6 t) (iblk2 V c 1 t) (iblk2 V c 2 t)) (k2_pay5 (iblk2 V c 3 t)) (iblk2 V c 11 t) (iblk2 V c 12 t) (iblk2 V c 7 t) (iblk2 V c 8 t) (iblk2 V c 9 t)) (k2_pay7 (iblk2 V c 10 t)) (iblk2 V c 13 t) (iblk2 V c 14 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 2000000 in
/-- The body at any point: the inputs' buffers hold their blocks, so the triple applies; the invariant and the core's dues
    pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Frame.lean ====
import proofs.«172356_j10943576670908_2_alg».proof.Proof.KB.Region0
import proofs.«172356_j10943576670908_2_alg».proof.Proof.KB.Region1
import proofs.«172356_j10943576670908_2_alg».proof.Proof.KB.Region2
import proofs.«172356_j10943576670908_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The three regions as segments of the whole program, and the program's run

Between two items of the program every unscoped buffer of a core is held whole. A host stretch moves the contents by its
operations; a region leaves each of its output arrays at the fold of the body's write-backs and everything else as it
found it. The contents a region leaves are defined stage by stage, each from the contents the region is entered with. -/

/-! ## What each region is entered with, and what it leaves -/

/-- Region 0 is entered with the launch contents moved by the first host stretch. -/
abbrev En0 : (c : Dev nD) → (b : Ref sig .tc) → Buf (Elt F) ((c : Thread nD τ).loc b) := fun c b => Gen.V1 m c b
/-- What region 0 leaves: its arrays at what the pipeline leaves there, every other buffer as entered. -/
def arrs0 (c : Dev nD) : Valuation τ sig (Elt F) :=
  Pipeline.withArrays spec0 c (Gen.V1 m c) fun w => (dat0 (En0 m) c).arrAt w cfg0.N
/-- The regions' leavings as far as region 0 is concerned. -/
def outsA : Gen.Outs (F := F) := fun _ r c => arrs0 m c r
/-- Region 1 is entered with that moved by the second host stretch. -/
abbrev En1 : (c : Dev nD) → (b : Ref sig .tc) → Buf (Elt F) ((c : Thread nD τ).loc b) := fun c b => Gen.V3 m (outsA m) c b
def arrs1 (c : Dev nD) : Valuation τ sig (Elt F) :=
  Pipeline.withArrays spec1 c (Gen.V3 m (outsA m) c) fun w => (dat1 (En1 m) c).arrAt w cfg1.N
/-- The regions' leavings as far as regions 0 and 1 are concerned. -/
def outsB : Gen.Outs (F := F) := fun j r c => match j with
  | 2 => arrs0 m c r
  | _ => arrs1 m c r
/-- Region 2 is entered with that moved by the third host stretch. -/
abbrev En2 : (c : Dev nD) → (b : Ref sig .tc) → Buf (Elt F) ((c : Thread nD τ).loc b) := fun c b => Gen.V5 m (outsB m) c b
def arrs2 (c : Dev nD) : Valuation τ sig (Elt F) :=
  Pipeline.withArrays spec2 c (Gen.V5 m (outsB m) c) fun w => (dat2 (En2 m) c).arrAt w cfg2.N
/-- What the three regions leave in the buffers they may change: after item 1 region 0's arrays, after item 3 region
    1's, after item 5 region 2's. -/
def outs : Gen.Outs (F := F) := fun j r c => match j with
  | 2 => arrs0 m c r
  | 4 => arrs1 m c r
  | _ => arrs2 m c r

/-- The contents regions 1 and 2 are entered with do not depend on what later regions leave. -/
theorem V3_outs (c : Dev nD) : Gen.V3 m (outs m) c = Gen.V3 m (outsA m) c := rfl
theorem V5_outs (c : Dev nD) : Gen.V5 m (outs m) c = Gen.V5 m (outsB m) c := rfl
theorem En1_eq : En1 m = (fun c b => Gen.V3 m (outs m) c b : (c : Dev nD) → (b : Ref sig .tc) → Buf (Elt F) ((c : Thread nD τ).loc b)) := rfl
theorem En2_eq : En2 m = (fun c b => Gen.V5 m (outs m) c b : (c : Dev nD) → (b : Ref sig .tc) → Buf (Elt F) ((c : Thread nD τ).loc b)) := rfl

/-! ### The changed buffers, one by one -/

/-- Region 0 leaves the first layer's per-channel sum in `main_v7_0` (its window 3), -/
theorem outs_2_v7_0 (c : Dev nD) : outs m 2 main_v7_0 c = (dat0 (En0 m) c).arrAt 3 cfg0.N := by
  show arrs0 m c (Proc.devRef .tc (Pipeline.arrRef spec0 3)) = _
  unfold arrs0; exact Pipeline.withArrays_arr spec0 launch0.win.arr_inj c _ _ 3
/-- and the sum of squares in `main_v7_1` (its window 4). -/
theorem outs_2_v7_1 (c : Dev nD) : outs m 2 main_v7_1 c = (dat0 (En0 m) c).arrAt 4 cfg0.N := by
  show arrs0 m c (Proc.devRef .tc (Pipeline.arrRef spec0 4)) = _
  unfold arrs0; exact Pipeline.withArrays_arr spec0 launch0.win.arr_inj c _ _ 4
/-- Region 1 leaves the second layer's per-channel sum in `main_v16_0` (its window 9), -/
theorem outs_4_v16_0 (c : Dev nD) : outs m 4 main_v16_0 c = (dat1 (En1 m) c).arrAt 9 cfg1.N := by
  show arrs1 m c (Proc.devRef .tc (Pipeline.arrRef spec1 9)) = _
  unfold arrs1; exact Pipeline.withArrays_arr spec1 launch1.win.arr_inj c _ _ 9
/-- and the sum of squares in `main_v16_1` (its window 10). -/
theorem outs_4_v16_1 (c : Dev nD) : outs m 4 main_v16_1 c = (dat1 (En1 m) c).arrAt 10 cfg1.N := by
  show arrs1 m c (Proc.devRef .tc (Pipeline.arrRef spec1 10)) = _
  unfold arrs1; exact Pipeline.withArrays_arr spec1 launch1.win.arr_inj c _ _ 10
/-- Region 2 leaves the per-voxel features in `main_v25` (its window 15). -/
theorem outs_6_v25 (c : Dev nD) : outs m 6 main_v25 c = (dat2 (En2 m) c).arrAt 15 cfg2.N := by
  show arrs2 m c (Proc.devRef .tc (Pipeline.arrRef spec2 15)) = _
  unfold arrs2; exact Pipeline.withArrays_arr spec2 launch2.win.arr_inj c _ _ 15

/-- The same read off the contents after each region. -/
theorem V2_v7_0 (c : Dev nD) : Gen.V2 m (outs m) c main_v7_0 = (dat0 (En0 m) c).arrAt 3 cfg0.N := by
  simp only [Gen.V2, Function.update_of_ne (StableHlo.devRef_ne_of_ne (by decide) : (Proc.devRef .tc main_v7_0 : DevRef τ sig) ≠ Proc.devRef .tc main_v7_1), Function.update_self]
  exact outs_2_v7_0 m c
theorem V2_v7_1 (c : Dev nD) : Gen.V2 m (outs m) c main_v7_1 = (dat0 (En0 m) c).arrAt 4 cfg0.N := by
  simp only [Gen.V2, Function.update_self]
  exact outs_2_v7_1 m c
theorem V4_v16_0 (c : Dev nD) : Gen.V4 m (outs m) c main_v16_0 = (dat1 (En1 m) c).arrAt 9 cfg1.N := by
  simp only [Gen.V4, Function.update_of_ne (StableHlo.devRef_ne_of_ne (by decide) : (Proc.devRef .tc main_v16_0 : DevRef τ sig) ≠ Proc.devRef .tc main_v16_1), Function.update_self]
  exact outs_4_v16_0 m c
theorem V4_v16_1 (c : Dev nD) : Gen.V4 m (outs m) c main_v16_1 = (dat1 (En1 m) c).arrAt 10 cfg1.N := by
  simp only [Gen.V4, Function.update_self]
  exact outs_4_v16_1 m c
theorem V6_v25 (c : Dev nD) : Gen.V6 m (outs m) c main_v25 = (dat2 (En2 m) c).arrAt 15 cfg2.N := by
  simp only [Gen.V6, Function.update_self]
  exact outs_6_v25 m c

/-! ## What each region's exit contents are, array by array -/

/-- An input array of region 0 is left as entered: no write-back goes to it, and it is none of the buffers the region
    may change. -/
theorem hF0_in (c : Dev nD) (w : Fin cfg0.W) (hw : (cfg0.win w).isOut = false)
    (hnot : Pipeline.arrRef spec0 w ∉ ([main_v7_0, main_v7_1] : List (Ref sig .tc))) :
    (dat0 (En0 m) c).arrAt w cfg0.N = Gen.V2 m (outs m) c (Pipeline.arrRef spec0 w) :=
  ((dat0 (En0 m) c).arrAt_in w hw _).trans ((A_eq0 (En0 m) c w).trans (Gen.V2_of m (outs m) c _ hnot).symm)
set_option maxHeartbeats 1000000 in
/-- At region 0's exit each of its arrays holds what the pipeline leaves there: an input its entry contents, an output
    the fold of its write-backs. -/
theorem hF0 (c : Dev nD) : ∀ w : Fin cfg0.W, (dat0 (En0 m) c).arrAt w cfg0.N = Gen.V2 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => (V2_v7_0 m c).symm
  | ⟨4, _⟩ => (V2_v7_1 m c).symm
/-- Every buffer that is no array of region 0 is left as entered. -/
theorem hrest0 (c : Dev nD) : ∀ b, b ∉ Finset.univ.image (Pipeline.arrRef spec0) → Gen.V2 m (outs m) c b = En0 m c b :=
  fun b hb => Gen.V2_of m (outs m) c b (by
    intro hmem
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    exact absurd hmem List.not_mem_nil)

/-- An input array of region 1 is left as entered: no write-back goes to it, and it is none of the buffers the region
    may change. -/
theorem hF1_in (c : Dev nD) (w : Fin cfg1.W) (hw : (cfg1.win w).isOut = false)
    (hnot : Pipeline.arrRef spec1 w ∉ ([main_v16_0, main_v16_1] : List (Ref sig .tc))) :
    (dat1 (En1 m) c).arrAt w cfg1.N = Gen.V4 m (outs m) c (Pipeline.arrRef spec1 w) :=
  ((dat1 (En1 m) c).arrAt_in w hw _).trans ((A_eq1 (En1 m) c w).trans ((Gen.V4_of m (outs m) c _ hnot).trans (congrFun (V3_outs m c) _)).symm)
set_option maxHeartbeats 1000000 in
/-- At region 1's exit each of its arrays holds what the pipeline leaves there: an input its entry contents, an output
    the fold of its write-backs. -/
theorem hF1 (c : Dev nD) : ∀ w : Fin cfg1.W, (dat1 (En1 m) c).arrAt w cfg1.N = Gen.V4 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => hF1_in m c 8 rfl (by decide)
  | ⟨9, _⟩ => (V4_v16_0 m c).symm
  | ⟨10, _⟩ => (V4_v16_1 m c).symm
/-- Every buffer that is no array of region 1 is left as entered. -/
theorem hrest1 (c : Dev nD) : ∀ b, b ∉ Finset.univ.image (Pipeline.arrRef spec1) → Gen.V4 m (outs m) c b = En1 m c b :=
  fun b hb => (Gen.V4_of m (outs m) c b (by
    intro hmem
    rcases List.mem_cons.mp hmem with rfl | hmem
    · exact hb (Finset.mem_image.mpr ⟨9, Finset.mem_univ _, rfl⟩)
    rcases List.mem_cons.mp hmem with rfl | hmem
    · exact hb (Finset.mem_image.mpr ⟨10, Finset.mem_univ _, rfl⟩)
    exact absurd hmem List.not_mem_nil)).trans (congrFun (V3_outs m c) _)

/-- An input array of region 2 is left as entered: no write-back goes to it, and it is none of the buffers the region
    may change. -/
theorem hF2_in (c : Dev nD) (w : Fin cfg2.W) (hw : (cfg2.win w).isOut = false)
    (hnot : Pipeline.arrRef spec2 w ∉ ([main_v25] : List (Ref sig .tc))) :
    (dat2 (En2 m) c).arrAt w cfg2.N = Gen.V6 m (outs m) c (Pipeline.arrRef spec2 w) :=
  ((dat2 (En2 m) c).arrAt_in w hw _).trans ((A_eq2 (En2 m) c w).trans ((Gen.V6_of m (outs m) c _ hnot).trans (congrFun (V5_outs m c) _)).symm)
set_option maxHeartbeats 1000000 in
/-- At region 2's exit each of its arrays holds what the pipeline leaves there: an input its entry contents, an output
    the fold of its write-backs. -/
theorem hF2 (c : Dev nD) : ∀ w : Fin cfg2.W, (dat2 (En2 m) c).arrAt w cfg2.N = Gen.V6 m (outs m) c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => hF2_in m c 7 rfl (by decide)
  | ⟨8, _⟩ => hF2_in m c 8 rfl (by decide)
  | ⟨9, _⟩ => hF2_in m c 9 rfl (by decide)
  | ⟨10, _⟩ => hF2_in m c 10 rfl (by decide)
  | ⟨11, _⟩ => hF2_in m c 11 rfl (by decide)
  | ⟨12, _⟩ => hF2_in m c 12 rfl (by decide)
  | ⟨13, _⟩ => hF2_in m c 13 rfl (by decide)
  | ⟨14, _⟩ => hF2_in m c 14 rfl (by decide)
  | ⟨15, _⟩ => (V6_v25 m c).symm
  | ⟨_ + 16, h⟩ => absurd h (Nat.not_lt.2 (Nat.le_add_left _ _))
/-- Every buffer that is no array of region 2 is left as entered. -/
theorem hrest2 (c : Dev nD) : ∀ b, b ∉ Finset.univ.image (Pipeline.arrRef spec2) → Gen.V6 m (outs m) c b = En2 m c b :=
  fun b hb => (Gen.V6_of m (outs m) c b (by
    intro hmem
    rcases List.mem_cons.mp hmem with rfl | hmem
    · exact hb (Finset.mem_image.mpr ⟨15, Finset.mem_univ _, rfl⟩)
    exact absurd hmem List.not_mem_nil)).trans (congrFun (V5_outs m c) _)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

-- the library's entry and exit lemmas are stated over the pinned configuration, which unifies with the printed one only
-- when unification may unfold plain definitions in a metavariable's type
set_option backward.isDefEq.respectTransparency.types false in
/-- Region 0 over the thread state: entered from every unscoped buffer at the contents after the first host stretch, left
    at those with its two accumulators' arrays replaced. Its arrays are split out of the unscoped buffers and put back; the
    generator register goes into the invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when unification may unfold plain definitions in a metavariable's type
set_option backward.isDefEq.respectTransparency.types false in
/-- Region 1 likewise, between the contents after the second host stretch and those with its two accumulators' arrays
    replaced. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when unification may unfold plain definitions in a metavariable's type
set_option backward.isDefEq.respectTransparency.types false in
/-- Region 2 likewise, between the contents after the third host stretch and those with its output array replaced. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (Gen.V5 m (outsB m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (En2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Regions 1 and 2 are entered from the thread states the host stretches before them leave. -/
theorem hpre1 (c : Dev nD) : iprop(StableHlo.held (c : Thread nD τ) (Pipeline.ucRefs τ sig) (Gen.V3 m (outs m) c) ∗ R c) ⊢ (reg1 m).pre c := by
  rw [V3_outs]; exact .rfl
theorem hpre2 (c : Dev nD) : iprop(StableHlo.held (c : Thread nD τ) (Pipeline.ucRefs τ sig) (Gen.V5 m (outs m) c) ∗ R c) ⊢ (reg2 m).pre c := by
  rw [V5_outs]; exact .rfl

/-! ## The launch -/

/-- What the launch deals each core, less the buffers, makes the first rest state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  beta_reduce
  iintro ⟨⟨-, HO, -, Hp, -⟩, -⟩
  imodintro
  isplitl [Hp]; · iexists _; iexact Hp
  iexists ∅; iexact HO

/-- The launch element yields the pipeline library's ghost state; no other ghost resource is needed. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-! ## The frame -/

set_option backward.isDefEq.respectTransparency.types false in
/-- From any memory with zero counters every weakly fair execution of the program terminates, nothing faulting, and every
    final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) (fun c => by iintro ⟨-, HO⟩; iexact HO)
    (reg0 m) (fun c => .rfl) (fun c => .rfl)
    (reg1 m) (hpre1 m) (fun c => .rfl)
    (reg2 m) (hpre2 m) (fun c => .rfl)

/-! ## The same run, every unscoped buffer read at the end -/

set_option backward.isDefEq.respectTransparency.types false in
/-- The same run, with the final memory read at every unscoped buffer: each holds the last contents of the fold through
    the program's items. -/
theorem run_bufs (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = Gen.V7 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m))
    (fun c Q => by
      rewrite [main_chain c, Pipeline.Seg.run_eq_chain,
        show (Gen.segs m (outs m) 𝒱₀ L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀ (F := F))
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, hpre1 m c, .rfl, hpre2 m c, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun s h => h)

end Cert.Kernel.Hand

end
-- ==== Proof.KI.Region0.lean ====
import proofs.«172356_j10943576670908_2_alg».proof.Proof.Gen.KernelIdeal.Launch
import proofs.«172356_j10943576670908_2_alg».proof.Proof.Gen.KernelIdeal.Skeleton
import proofs.«172356_j10943576670908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 0: the first layer's statistics

The kernel runs over 50 grid points. At each point it reads one block of points (window 0), the first layer's weights and
bias (windows 1, 2), forms relu(x·W + b), and adds the per-channel sum (window 3) and sum of squares (window 4) to two
1×16 accumulators that it resets to zero at the first point. The accumulators' staging buffers are written back once,
after the last point. -/

/-- The zero offsets of a rank-2 and of a rank-4 whole-buffer rectangle are the constant zero function. -/
theorem hz0_2 : (![0, 0] : Fin 2 → ℕ) = fun _ => 0 := by funext a; fin_cases a <;> rfl
theorem hz0_4 : (![0, 0, 0, 0] : Fin 4 → ℕ) = fun _ => 0 := by funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched its
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched its
    block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched its
    block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## The body's triple, case by case -/

set_option maxHeartbeats 2000000 in
/-- At the first point: whatever the accumulators' buffers held, the body resets them to zero and then adds this block's
    sums, so each ends at its update of the zero vector; the inputs' buffers are only read. -/
theorem sound_kernel0_first (c : Dev nD) (E : Set ℕ) (i : grid0.Coords) (hc : cond0_0 i)
    (arg1 : Memref sig .tc .vmem S2x240x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole)
    (x0 : Vec F S2x240x35x7 .f32) (x1 : Vec F S7x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 (k0_pay1 (F := F)))
            ∗ owns (c : Thread nD τ) arg5 fullShare (k0_pay5 x0 x1 x2 (k0_pay2 (F := F)))) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2, View.readCov_unit_zero (S := S1x16) _ hz0_2]
  · iexists _; isplitr
    swap; · iexact H4
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2, View.readCov_unit_zero (S := S1x16) _ hz0_2]

set_option maxHeartbeats 2000000 in
/-- At a later point: the accumulators' buffers hold what the point before left (`xo3`, `xo4`), and each ends at its
    update of that. -/
theorem sound_kernel0_later (c : Dev nD) (E : Set ℕ) (i : grid0.Coords) (hc : ¬cond0_0 i)
    (arg1 : Memref sig .tc .vmem S2x240x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole)
    (x0 : Vec F S2x240x35x7 .f32) (x1 : Vec F S7x16 .f32) (x2 : Vec F S1x16 .f32) (xo3 xo4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x1 x2 xo3)
            ∗ owns (c : Thread nD τ) arg5 fullShare (k0_pay5 x0 x1 x2 xo4)) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2]
  · iexists _; isplitr
    swap; · iexact H4
    ipureintro
    rw [View.read_writes_eq_canon _ _ _ (fun y => ⟨_, List.mem_cons.mpr (Or.inl rfl), View.mem_set_unit_zero (S := S1x16) hz0_2 inb_S1x16_S1x16_0_0 y⟩),
      View.canon_cons_unit_zero hz0_2]
    sl_unfold_run_names
    simp only [View.readAt_eq_ld, View.ld_unit_zero (S := S2x240x35x7) hz0_4, View.ld_unit_zero (S := S7x16) hz0_2,
      View.ld_unit_zero (S := S1x16) hz0_2]

/-! ## What the accumulators hold after each point -/

/-- The running per-channel sum after the body at position `n`: the update of zero at the first point, of what the
    point before left at a later one. -/
def acc0_3 (c : Dev nD) : (n : ℕ) → n < cfg0.N → Vec F S1x16 .f32
  | 0, hn => k0_pay4 (iblk0 V c 0 ⟨0, hn⟩) (iblk0 V c 1 ⟨0, hn⟩) (iblk0 V c 2 ⟨0, hn⟩) (k0_pay1 (F := F))
  | n + 1, hn => k0_pay4 (iblk0 V c 0 ⟨n + 1, hn⟩) (iblk0 V c 1 ⟨n + 1, hn⟩) (iblk0 V c 2 ⟨n + 1, hn⟩) (acc0_3 c n (Nat.lt_of_succ_lt hn))

/-- The running per-channel sum of squares, likewise. -/
def acc0_4 (c : Dev nD) : (n : ℕ) → n < cfg0.N → Vec F S1x16 .f32
  | 0, hn => k0_pay5 (iblk0 V c 0 ⟨0, hn⟩) (iblk0 V c 1 ⟨0, hn⟩) (iblk0 V c 2 ⟨0, hn⟩) (k0_pay2 (F := F))
  | n + 1, hn => k0_pay5 (iblk0 V c 0 ⟨n + 1, hn⟩) (iblk0 V c 1 ⟨n + 1, hn⟩) (iblk0 V c 2 ⟨n + 1, hn⟩) (acc0_4 c n (Nat.lt_of_succ_lt hn))

/-! ## The pipeline's proof data -/

/-- The proof data of pipeline 0 on core `c`: the arrays as the region finds them; after the body at point `t` each
    input's buffer at its block and each accumulator's at its running value; the scoped rest and the generator register
    as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

/-- The sum's accumulator after the first point: this block's update of the zero vector. -/
theorem after0_3_first (c : Dev nD) (t : Fin cfg0.N) (h : t.val = 0) :
    (dat0 V c).after 3 t = k0_pay4 (iblk0 V c 0 t) (iblk0 V c 1 t) (iblk0 V c 2 t) (k0_pay1 (F := F)) := by
  rw [after0_3]
  obtain ⟨n, hn⟩ := t
  dsimp only at h; subst h
  rfl

/-- After a later point: this block's update of what the point before left. -/
theorem after0_3_later (c : Dev nD) (t s : Fin cfg0.N) (h : s.val + 1 = t.val) :
    (dat0 V c).after 3 t = k0_pay4 (iblk0 V c 0 t) (iblk0 V c 1 t) (iblk0 V c 2 t) ((dat0 V c).after 3 s) := by
  rw [after0_3, after0_3]
  obtain ⟨n, hn⟩ := t; obtain ⟨k, hk⟩ := s
  dsimp only at h; subst h
  rfl

/-- The same two for the sum of squares. -/
theorem after0_4_first (c : Dev nD) (t : Fin cfg0.N) (h : t.val = 0) :
    (dat0 V c).after 4 t = k0_pay5 (iblk0 V c 0 t) (iblk0 V c 1 t) (iblk0 V c 2 t) (k0_pay2 (F := F)) := by
  rw [after0_4]
  obtain ⟨n, hn⟩ := t
  dsimp only at h; subst h
  rfl

theorem after0_4_later (c : Dev nD) (t s : Fin cfg0.N) (h : s.val + 1 = t.val) :
    (dat0 V c).after 4 t = k0_pay5 (iblk0 V c 0 t) (iblk0 V c 1 t) (iblk0 V c 2 t) ((dat0 V c).after 4 s) := by
  rw [after0_4, after0_4]
  obtain ⟨n, hn⟩ := t; obtain ⟨k, hk⟩ := s
  dsimp only at h; subst h
  rfl

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point an accumulator's staging buffer holds what the body left at the point before: the buffer is written
    back only after the last point, so nothing touched it in between. -/
theorem before0_3_later (c : Dev nD) (t : Fin cfg0.N) (h0 : ¬t.val % 50 = 0) (d) :
    (dat0 V c).before 3 t d = (dat0 V c).after 3 ⟨t.val - 1, Nat.lt_of_le_of_lt (Nat.sub_le _ _) t.isLt⟩ := by
  have hN : t.val < 50 := lt_of_lt_of_eq t.isLt (show cfg0.N = 50 from N_0)
  exact Dat.before_out_kept _ 3 rfl t (by omega) (Bool.eq_false_iff.mpr fun h => by have := (flush0_3 _).mp h; dsimp only at this; omega)
    (fun _ => rfl) (fun _ _ => rfl) d
theorem before0_4_later (c : Dev nD) (t : Fin cfg0.N) (h0 : ¬t.val % 50 = 0) (d) :
    (dat0 V c).before 4 t d = (dat0 V c).after 4 ⟨t.val - 1, Nat.lt_of_le_of_lt (Nat.sub_le _ _) t.isLt⟩ := by
  have hN : t.val < 50 := lt_of_lt_of_eq t.isLt (show cfg0.N = 50 from N_0)
  exact Dat.before_out_kept _ 4 rfl t (by omega) (Bool.eq_false_iff.mpr fun h => by have := (flush0_4 _).mp h; dsimp only at this; omega)
    (fun _ => rfl) (fun _ _ => rfl) d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' buffers hold their blocks; the point is the first or it is not, and the matching
    triple applies — at a later point the accumulators hold what the point before left. The invariant and the core's
    dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  have hN : t.val < 50 := lt_of_lt_of_eq t.isLt (show cfg0.N = 50 from N_0)
  by_cases h0 : t.val % 50 = 0
  · rw [after0_3_first V c t (by omega), after0_4_first V c t (by omega)]
    iintro ⟨HΦ, Ho, ⟨%d0, H0⟩, ⟨%d1, H1⟩, ⟨%d2, H2⟩, ⟨%d3, H3⟩, ⟨%d4, H4⟩⟩
    iapply (sound_kernel0_first c Set.univ (grid0.coords t) ((hcond0_0 t).mpr h0) _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [after0_3_later V c t ⟨t.val - 1, Nat.lt_of_le_of_lt (Nat.sub_le _ _) t.isLt⟩ (by dsimp only; omega),
      after0_4_later V c t ⟨t.val - 1, Nat.lt_of_le_of_lt (Nat.sub_le _ _) t.isLt⟩ (by dsimp only; omega)]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (sound_kernel0_later c Set.univ (grid0.coords t) (fun h => h0 ((hcond0_0 t).mp h)) _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«172356_j10943576670908_2_alg».proof.Proof.Gen.KernelIdeal.Launch
import proofs.«172356_j10943576670908_2_alg».proof.Proof.Gen.KernelIdeal.Skeleton
import proofs.«172356_j10943576670908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 1: the second layer's statistics

The kernel runs over 50 grid points. At each point it reads one block of points (window 0), the first layer's statistics,
scale and shift (windows 1–4), weights and bias (windows 5, 6) and the second layer's weights and bias (windows 7, 8);
it recomputes the normalised first layer, forms the second layer's relu, and adds the per-channel sum (window 9) and sum
of squares (window 10) to two 1×64 accumulators that it resets to zero at the first point. The accumulators' staging
buffers are written back once, after the last point. -/

/-- The zero offsets of a whole-buffer rectangle are the constant zero function. -/
theorem hz1_2 : (![0, 0] : Fin 2 → ℕ) = fun _ => 0 := by funext a; fin_cases a <;> rfl
theorem hz1_4 : (![0, 0, 0, 0] : Fin 4 → ℕ) = fun _ => 0 := by funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched its
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched its
    block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched its
    block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched its
    block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched its
    block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not: where it is not fetched its
    block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not: where it is not fetched its
    block index has not moved, and the body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not: where it is not fetched its
    block index has not moved, and the body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not: where it is not fetched its
    block index has not moved, and the body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one conditional: the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 50 = 0 :=
  (by decide +kernel : ∀ t : Fin grid1.N, cond1_0 (grid1.coords t) ↔ t.val % 50 = 0)

/-! ## The body's triple -/

set_option maxHeartbeats 4000000 in
/-- At the first point: whatever the accumulators' buffers held, the body resets them to zero and then adds this block's
    sums, so each ends at its update of the zero vector; the inputs' buffers are only read. -/
theorem sound_kernel1_first (c : Dev nD) (E : Set ℕ) (i : grid1.Coords) (hc : cond1_0 i)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S32x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k1_pay9 (k1_pay3 x0) (k1_pay4 x3) (k1_pay5 x4) (k1_pay6 x0 x5 x6 x1) (k1_pay7 x2) x7 x8 (k1_pay1 (F := F)))
            ∗ owns (c : Thread nD τ) arg11 fullShare (k1_pay10 (k1_pay3 x0) (k1_pay4 x3) (k1_pay5 x4) (k1_pay6 x0 x5 x6 x1) (k1_pay7 x2) x7 x8 (k1_pay2 (F := F)))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K := by
  simp only [cc1__stage2_kernel_eq_skeleton]; unfold cc1__stage2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_cons.mpr (Or.inl rfl), View.mem_set_unit_zero (S := S1x64) hz1_2 inb_S1x64_S1x64_0_0 y⟩),
      View.canon_cons_unit_zero (S := S1x64) hz1_2]
    try sl_unfold_run_names
    simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2, View.readCov_unit_zero (S := S1x64) _ hz1_2]
  iexists _; isplitr
  swap; · iexact H10
  ipureintro
  rw [View.read_writes_eq_canon _ _ _ (fun y => ⟨_, List.mem_cons.mpr (Or.inl rfl), View.mem_set_unit_zero (S := S1x64) hz1_2 inb_S1x64_S1x64_0_0 y⟩),
    View.canon_cons_unit_zero (S := S1x64) hz1_2]
  try sl_unfold_run_names
  simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2, View.readCov_unit_zero (S := S1x64) _ hz1_2]

set_option maxHeartbeats 4000000 in
/-- At a later point: the accumulators' buffers hold what the point before left (`xo9`, `xo10`), and each ends at its
    update of that. -/
theorem sound_kernel1_later (c : Dev nD) (E : Set ℕ) (i : grid1.Coords) (hc : ¬cond1_0 i)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S32x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S32x64 .f32) (x8 : Vec F S1x64 .f32) (xo9 : Vec F S1x64 .f32) (xo10 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare xo9
        ∗ owns (c : Thread nD τ) arg11 fullShare xo10
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k1_pay9 (k1_pay3 x0) (k1_pay4 x3) (k1_pay5 x4) (k1_pay6 x0 x5 x6 x1) (k1_pay7 x2) x7 x8 xo9)
            ∗ owns (c : Thread nD τ) arg11 fullShare (k1_pay10 (k1_pay3 x0) (k1_pay4 x3) (k1_pay5 x4) (k1_pay6 x0 x5 x6 x1) (k1_pay7 x2) x7 x8 xo10)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11) K := by
  simp only [cc1__stage2_kernel_eq_skeleton]; unfold cc1__stage2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0; subst hf1; subst hf2; subst hf3; subst hf4; subst hf5; subst hf6; subst hf7; subst hf8; subst hf9; subst hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_cons.mpr (Or.inl rfl), View.mem_set_unit_zero (S := S1x64) hz1_2 inb_S1x64_S1x64_0_0 y⟩),
      View.canon_cons_unit_zero (S := S1x64) hz1_2]
    try sl_unfold_run_names
    simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2]
  iexists _; isplitr
  swap; · iexact H10
  ipureintro
  rw [View.read_writes_eq_canon _ _ _ (fun y => ⟨_, List.mem_cons.mpr (Or.inl rfl), View.mem_set_unit_zero (S := S1x64) hz1_2 inb_S1x64_S1x64_0_0 y⟩),
    View.canon_cons_unit_zero (S := S1x64) hz1_2]
  try sl_unfold_run_names
  simp only [View.readAt_eq_ld, View.ld_unit_zero (S := S2x240x35x7) hz1_4, View.ld_unit_zero (S := S1x16) hz1_2, View.ld_unit_zero (S := S7x16) hz1_2, View.ld_unit_zero (S := S32x64) hz1_2, View.ld_unit_zero (S := S1x64) hz1_2]

/-! ## What the accumulators hold after each point -/

/-- The running per-channel sum of the second layer after the body at position `n`: the update of zero at the first point, of what the point before left at a later one. -/
def acc1_9 (c : Dev nD) : (n : ℕ) → n < cfg1.N → Vec F S1x64 .f32
  | 0, hn => k1_pay9 (k1_pay3 (iblk1 V c 0 ⟨0, hn⟩)) (k1_pay4 (iblk1 V c 3 ⟨0, hn⟩)) (k1_pay5 (iblk1 V c 4 ⟨0, hn⟩)) (k1_pay6 (iblk1 V c 0 ⟨0, hn⟩) (iblk1 V c 5 ⟨0, hn⟩) (iblk1 V c 6 ⟨0, hn⟩) (iblk1 V c 1 ⟨0, hn⟩)) (k1_pay7 (iblk1 V c 2 ⟨0, hn⟩)) (iblk1 V c 7 ⟨0, hn⟩) (iblk1 V c 8 ⟨0, hn⟩) (k1_pay1 (F := F))
  | n + 1, hn => k1_pay9 (k1_pay3 (iblk1 V c 0 ⟨n + 1, hn⟩)) (k1_pay4 (iblk1 V c 3 ⟨n + 1, hn⟩)) (k1_pay5 (iblk1 V c 4 ⟨n + 1, hn⟩)) (k1_pay6 (iblk1 V c 0 ⟨n + 1, hn⟩) (iblk1 V c 5 ⟨n + 1, hn⟩) (iblk1 V c 6 ⟨n + 1, hn⟩) (iblk1 V c 1 ⟨n + 1, hn⟩)) (k1_pay7 (iblk1 V c 2 ⟨n + 1, hn⟩)) (iblk1 V c 7 ⟨n + 1, hn⟩) (iblk1 V c 8 ⟨n + 1, hn⟩) (acc1_9 c n (Nat.lt_of_succ_lt hn))

/-- The running per-channel sum of squares, likewise. -/
def acc1_10 (c : Dev nD) : (n : ℕ) → n < cfg1.N → Vec F S1x64 .f32
  | 0, hn => k1_pay10 (k1_pay3 (iblk1 V c 0 ⟨0, hn⟩)) (k1_pay4 (iblk1 V c 3 ⟨0, hn⟩)) (k1_pay5 (iblk1 V c 4 ⟨0, hn⟩)) (k1_pay6 (iblk1 V c 0 ⟨0, hn⟩) (iblk1 V c 5 ⟨0, hn⟩) (iblk1 V c 6 ⟨0, hn⟩) (iblk1 V c 1 ⟨0, hn⟩)) (k1_pay7 (iblk1 V c 2 ⟨0, hn⟩)) (iblk1 V c 7 ⟨0, hn⟩) (iblk1 V c 8 ⟨0, hn⟩) (k1_pay2 (F := F))
  | n + 1, hn => k1_pay10 (k1_pay3 (iblk1 V c 0 ⟨n + 1, hn⟩)) (k1_pay4 (iblk1 V c 3 ⟨n + 1, hn⟩)) (k1_pay5 (iblk1 V c 4 ⟨n + 1, hn⟩)) (k1_pay6 (iblk1 V c 0 ⟨n + 1, hn⟩) (iblk1 V c 5 ⟨n + 1, hn⟩) (iblk1 V c 6 ⟨n + 1, hn⟩) (iblk1 V c 1 ⟨n + 1, hn⟩)) (k1_pay7 (iblk1 V c 2 ⟨n + 1, hn⟩)) (iblk1 V c 7 ⟨n + 1, hn⟩) (iblk1 V c 8 ⟨n + 1, hn⟩) (acc1_10 c n (Nat.lt_of_succ_lt hn))

/-! ## The pipeline's proof data -/

/-- The proof data of pipeline 1 on core `c`: the arrays as the region finds them; after the body at point `t` each
    input's buffer at its block and each accumulator's at its running value; the scoped rest and the generator register
    as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => acc1_9 V c t.val t.isLt
    | ⟨10, _⟩ => acc1_10 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = acc1_9 V c t.val t.isLt := by dsimp only [dat1]
theorem after1_10 (c : Dev nD) (t : Fin cfg1.N) : (dat1 V c).after 10 t = acc1_10 V c t.val t.isLt := by dsimp only [dat1]

/-- The sum's accumulator after the first point: this block's update of the zero vector. -/
theorem after1_9_first (c : Dev nD) (t : Fin cfg1.N) (h : t.val = 0) :
    (dat1 V c).after 9 t = k1_pay9 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) (k1_pay1 (F := F)) := by
  rw [after1_9]
  obtain ⟨n, hn⟩ := t
  dsimp only at h; subst h
  rfl

/-- After a later point: this block's update of what the point before left. -/
theorem after1_9_later (c : Dev nD) (t s : Fin cfg1.N) (h : s.val + 1 = t.val) :
    (dat1 V c).after 9 t = k1_pay9 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) ((dat1 V c).after 9 s) := by
  rw [after1_9, after1_9]
  obtain ⟨n, hn⟩ := t; obtain ⟨k, hk⟩ := s
  dsimp only at h; subst h
  rfl

/-- The sum of squares' accumulator after the first point: this block's update of the zero vector. -/
theorem after1_10_first (c : Dev nD) (t : Fin cfg1.N) (h : t.val = 0) :
    (dat1 V c).after 10 t = k1_pay10 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) (k1_pay2 (F := F)) := by
  rw [after1_10]
  obtain ⟨n, hn⟩ := t
  dsimp only at h; subst h
  rfl

/-- After a later point: this block's update of what the point before left. -/
theorem after1_10_later (c : Dev nD) (t s : Fin cfg1.N) (h : s.val + 1 = t.val) :
    (dat1 V c).after 10 t = k1_pay10 (k1_pay3 (iblk1 V c 0 t)) (k1_pay4 (iblk1 V c 3 t)) (k1_pay5 (iblk1 V c 4 t)) (k1_pay6 (iblk1 V c 0 t) (iblk1 V c 5 t) (iblk1 V c 6 t) (iblk1 V c 1 t)) (k1_pay7 (iblk1 V c 2 t)) (iblk1 V c 7 t) (iblk1 V c 8 t) ((dat1 V c).after 10 s) := by
  rw [after1_10, after1_10]
  obtain ⟨n, hn⟩ := t; obtain ⟨k, hk⟩ := s
  dsimp only at h; subst h
  rfl

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- At a later point an accumulator's staging buffer holds what the body left at the point before: the buffer is written
    back only after the last point, so nothing touched it in between. -/
theorem before1_9_later (c : Dev nD) (t : Fin cfg1.N) (h0 : ¬t.val % 50 = 0) (d) :
    (dat1 V c).before 9 t d = (dat1 V c).after 9 ⟨t.val - 1, Nat.lt_of_le_of_lt (Nat.sub_le _ _) t.isLt⟩ := by
  have hN : t.val < 50 := lt_of_lt_of_eq t.isLt (show cfg1.N = 50 from N_1)
  exact Dat.before_out_kept _ 9 rfl t (by omega) (Bool.eq_false_iff.mpr fun h => by have := (flush1_9 _).mp h; dsimp only at this; omega)
    (fun _ => rfl) (fun _ _ => rfl) d
theorem before1_10_later (c : Dev nD) (t : Fin cfg1.N) (h0 : ¬t.val % 50 = 0) (d) :
    (dat1 V c).before 10 t d = (dat1 V c).after 10 ⟨t.val - 1, Nat.lt_of_le_of_lt (Nat.sub_le _ _) t.isLt⟩ := by
  have hN : t.val < 50 := lt_of_lt_of_eq t.isLt (show cfg1.N = 50 from N_1)
  exact Dat.before_out_kept _ 10 rfl t (by omega) (Bool.eq_false_iff.mpr fun h => by have := (flush1_10 _).mp h; dsimp only at this; omega)
    (fun _ => rfl) (fun _ _ => rfl) d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' buffers hold their blocks; the point is the first or it is not, and the matching
    triple applies — at a later point the accumulators hold what the point before left. The invariant and the core's
    dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 50 := lt_of_lt_of_eq t.isLt (show cfg1.N = 50 from N_1)
  by_cases h0 : t.val % 50 = 0
  · rw [after1_9_first V c t (by omega), after1_10_first V c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_first c Set.univ (grid1.coords t) ((hcond1_0 t).mpr h0) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [after1_9_later V c t ⟨t.val - 1, Nat.lt_of_le_of_lt (Nat.sub_le _ _) t.isLt⟩ (by dsimp only; omega),
      after1_10_later V c t ⟨t.val - 1, Nat.lt_of_le_of_lt (Nat.sub_le _ _) t.isLt⟩ (by dsimp only; omega)]
    simp only [before1_9_later V c t h0, before1_10_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_later c Set.univ (grid1.coords t) (fun h => h0 ((hcond1_0 t).mp h)) _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«172356_j10943576670908_2_alg».proof.Proof.Gen.KernelIdeal.Launch
import proofs.«172356_j10943576670908_2_alg».proof.Proof.Gen.KernelIdeal.Skeleton
import proofs.«172356_j10943576670908_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: the parameter everything below is stated at
variable (V : (c : Dev nD) → (b : Ref sig .tc) → Buf (Elt F) ((c : Thread nD τ).loc b))

/-! # Region 2: the per-voxel features

The kernel runs over 50 grid points. At each point it reads one block of points (window 0), the first layer's statistics,
scale and shift (windows 1–4), weights and bias (windows 5, 6), the second layer's statistics, scale and shift (windows
7–10), weights and bias (windows 11, 12) and the last layer's weights and bias (windows 13, 14); it recomputes both
normalised layers, applies the last one and stores the per-voxel maximum over the points of a voxel, the whole output
block (window 15) at once. The output block is written back at every point. -/

/-- The zero offsets of a whole-buffer rectangle are the constant zero function. -/
theorem hz2_2 : (![0, 0] : Fin 2 → ℕ) = fun _ => 0 := by funext a; fin_cases a <;> rfl
theorem hz2_3 : (![0, 0, 0] : Fin 3 → ℕ) = fun _ => 0 := by funext a; fin_cases a <;> rfl
theorem hz2_4 : (![0, 0, 0, 0] : Fin 4 → ℕ) = fun _ => 0 := by funext a; fin_cases a <;> rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched its
    block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched its
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched its
    block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched its
    block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched its
    block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not: where it is not fetched its
    block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not: where it is not fetched its
    block index has not moved, and the body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds its block at every point, fetched there or not: where it is not fetched its
    block index has not moved, and the body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's staging buffer holds its block at every point, fetched there or not: where it is not fetched its
    block index has not moved, and the body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's staging buffer holds its block at every point, fetched there or not: where it is not fetched its
    block index has not moved, and the body leaves the block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's staging buffer holds its block at every point, fetched there or not: where it is not fetched its
    block index has not moved, and the body leaves the block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's staging buffer holds its block at every point, fetched there or not: where it is not fetched its
    block index has not moved, and the body leaves the block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- Input window 12's staging buffer holds its block at every point, fetched there or not: where it is not fetched its
    block index has not moved, and the body leaves the block in place. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-- Input window 13's staging buffer holds its block at every point, fetched there or not: where it is not fetched its
    block index has not moved, and the body leaves the block in place. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-- Input window 14's staging buffer holds its block at every point, fetched there or not: where it is not fetched its
    block index has not moved, and the body leaves the block in place. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 4000000 in
/-- The body on whole staging buffers: the fifteen inputs are only read; the output buffer, whatever it held, ends at the
    one value the body stores, a function of the inputs' contents alone. -/
theorem sound_kernel2 (c : Dev nD) (E : Set ℕ) (i : grid2.Coords)
    (arg1 : Memref sig .tc .vmem S2x240x35x7 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S7x16 .f32) (harg6 : arg6.IsWhole) (arg7 : Memref sig .tc .vmem S1x16 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S32x64 .f32) (harg12 : arg12.IsWhole) (arg13 : Memref sig .tc .vmem S1x64 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S2x240x128 .f32) (harg16 : arg16.IsWhole)
    (x0 : Vec F S2x240x35x7 .f32) (x1 : Vec F S1x16 .f32) (x2 : Vec F S1x16 .f32) (x3 : Vec F S1x16 .f32) (x4 : Vec F S1x16 .f32) (x5 : Vec F S7x16 .f32) (x6 : Vec F S1x16 .f32) (x7 : Vec F S1x64 .f32) (x8 : Vec F S1x64 .f32) (x9 : Vec F S1x64 .f32) (x10 : Vec F S1x64 .f32) (x11 : Vec F S32x64 .f32) (x12 : Vec F S1x64 .f32) (x13 : Vec F S128x128 .f32) (x14 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ (∃ d, owns (c : Thread nD τ) arg16 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (k2_pay1 (k2_pay2 x0) (k2_pay6 (k2_pay2 x0) (k2_pay3 x4) (k2_pay4 x0 x5 x6 x1 x2) (k2_pay5 x3) x11 x12 x7 x8 x9) (k2_pay7 x10) x13 x14)) -∗ K ⟨⟩))
      ⊢ wp frame (wpE (defs₀ (F := F)) Variants.none c none) E (cc2__stage3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__stage3_kernel_eq_skeleton]; unfold cc2__stage3_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  rw [View.read_writes_eq_canon _ _ _ (fun y => ⟨_, List.mem_cons.mpr (Or.inl rfl), View.mem_set_unit_zero (S := S2x240x128) hz2_3 inb_S2x240x128_S2x240x128_0_0_0 y⟩),
    View.canon_cons_unit_zero (S := S2x240x128) hz2_3]
  try sl_unfold_run_names
  simp only [View.readAt_eq_ld, View.ld_unit_zero (S := S2x240x35x7) hz2_4, View.ld_unit_zero (S := S1x16) hz2_2, View.ld_unit_zero (S := S7x16) hz2_2, View.ld_unit_zero (S := S1x64) hz2_2, View.ld_unit_zero (S := S32x64) hz2_2, View.ld_unit_zero (S := S128x128) hz2_2, View.ld_unit_zero (S := S1x128) hz2_2, View.ld_unit_zero (S := S2x240x128) hz2_3]

/-! ## The pipeline's proof data -/

/-- The proof data of pipeline 2 on core `c`: the arrays as the region finds them; after the body at point `t` each
    input's buffer at its block and the output's at the stored value of the input blocks; the scoped rest and the
    generator register as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => k2_pay1 (k2_pay2 (iblk2 V c 0 t)) (k2_pay6 (k2_pay2 (iblk2 V c 0 t)) (k2_pay3 (iblk2 V c 4 t)) (k2_pay4 (iblk2 V c 0 t) (iblk2 V c 5 t) (iblk2 V c 6 t) (iblk2 V c 1 t) (iblk2 V c 2 t)) (k2_pay5 (iblk2 V c 3 t)) (iblk2 V c 11 t) (iblk2 V c 12 t) (iblk2 V c 7 t) (iblk2 V c 8 t) (iblk2 V c 9 t)) (k2_pay7 (iblk2 V c 10 t)) (iblk2 V c 13 t) (iblk2 V c 14 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
/-- What the body leaves in the output window's buffer at point `t`: the per-voxel features of this block of points, from the block, both layers' weights and biases and both layers' normalisation statistics. -/
theorem after2_15 (c : Dev nD) (t : Fin cfg2.N) :
    (dat2 V c).after 15 t = k2_pay1 (k2_pay2 (iblk2 V c 0 t)) (k2_pay6 (k2_pay2 (iblk2 V c 0 t)) (k2_pay3 (iblk2 V c 4 t)) (k2_pay4 (iblk2 V c 0 t) (iblk2 V c 5 t) (iblk2 V c 6 t) (iblk2 V c 1 t) (iblk2 V c 2 t)) (k2_pay5 (iblk2 V c 3 t)) (iblk2 V c 11 t) (iblk2 V c 12 t) (iblk2 V c 7 t) (iblk2 V c 8 t) (iblk2 V c 9 t)) (k2_pay7 (iblk2 V c 10 t)) (iblk2 V c 13 t) (iblk2 V c 14 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t))

set_option maxHeartbeats 2000000 in
/-- The body at any point: the inputs' buffers hold their blocks, so the triple applies; the invariant and the core's dues
    pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel2 c Set.univ (grid2.coords t) _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Frame.lean ====
import proofs.«172356_j10943576670908_2_alg».proof.Proof.KI.Region0
import proofs.«172356_j10943576670908_2_alg».proof.Proof.KI.Region1
import proofs.«172356_j10943576670908_2_alg».proof.Proof.KI.Region2
import proofs.«172356_j10943576670908_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The three regions as segments of the whole program, and the program's run

Between two items of the program every unscoped buffer of a core is held whole. A host stretch moves the contents by its
operations; a region leaves each of its output arrays at the fold of the body's write-backs and everything else as it
found it. The contents a region leaves are defined stage by stage, each from the contents the region is entered with. -/

/-! ## What each region is entered with, and what it leaves -/

/-- Region 0 is entered with the launch contents moved by the first host stretch. -/
abbrev En0 : (c : Dev nD) → (b : Ref sig .tc) → Buf (Elt F) ((c : Thread nD τ).loc b) := fun c b => Gen.V1 m c b
/-- What region 0 leaves: its arrays at what the pipeline leaves there, every other buffer as entered. -/
def arrs0 (c : Dev nD) : Valuation τ sig (Elt F) :=
  Pipeline.withArrays spec0 c (Gen.V1 m c) fun w => (dat0 (En0 m) c).arrAt w cfg0.N
/-- The regions' leavings as far as region 0 is concerned. -/
def outsA : Gen.Outs (F := F) := fun _ r c => arrs0 m c r
/-- Region 1 is entered with that moved by the second host stretch. -/
abbrev En1 : (c : Dev nD) → (b : Ref sig .tc) → Buf (Elt F) ((c : Thread nD τ).loc b) := fun c b => Gen.V3 m (outsA m) c b
def arrs1 (c : Dev nD) : Valuation τ sig (Elt F) :=
  Pipeline.withArrays spec1 c (Gen.V3 m (outsA m) c) fun w => (dat1 (En1 m) c).arrAt w cfg1.N
/-- The regions' leavings as far as regions 0 and 1 are concerned. -/
def outsB : Gen.Outs (F := F) := fun j r c => match j with
  | 2 => arrs0 m c r
  | _ => arrs1 m c r
/-- Region 2 is entered with that moved by the third host stretch. -/
abbrev En2 : (c : Dev nD) → (b : Ref sig .tc) → Buf (Elt F) ((c : Thread nD τ).loc b) := fun c b => Gen.V5 m (outsB m) c b
def arrs2 (c : Dev nD) : Valuation τ sig (Elt F) :=
  Pipeline.withArrays spec2 c (Gen.V5 m (outsB m) c) fun w => (dat2 (En2 m) c).arrAt w cfg2.N
/-- What the three regions leave in the buffers they may change: after item 1 region 0's arrays, after item 3 region
    1's, after item 5 region 2's. -/
def outs : Gen.Outs (F := F) := fun j r c => match j with
  | 2 => arrs0 m c r
  | 4 => arrs1 m c r
  | _ => arrs2 m c r

/-- The contents regions 1 and 2 are entered with do not depend on what later regions leave. -/
theorem V3_outs (c : Dev nD) : Gen.V3 m (outs m) c = Gen.V3 m (outsA m) c := rfl
theorem V5_outs (c : Dev nD) : Gen.V5 m (outs m) c = Gen.V5 m (outsB m) c := rfl
theorem En1_eq : En1 m = (fun c b => Gen.V3 m (outs m) c b : (c : Dev nD) → (b : Ref sig .tc) → Buf (Elt F) ((c : Thread nD τ).loc b)) := rfl
theorem En2_eq : En2 m = (fun c b => Gen.V5 m (outs m) c b : (c : Dev nD) → (b : Ref sig .tc) → Buf (Elt F) ((c : Thread nD τ).loc b)) := rfl

/-! ### The changed buffers, one by one -/

/-- Region 0 leaves the first layer's per-channel sum in `main_v7_0` (its window 3), -/
theorem outs_2_v7_0 (c : Dev nD) : outs m 2 main_v7_0 c = (dat0 (En0 m) c).arrAt 3 cfg0.N := by
  show arrs0 m c (Proc.devRef .tc (Pipeline.arrRef spec0 3)) = _
  unfold arrs0; exact Pipeline.withArrays_arr spec0 launch0.win.arr_inj c _ _ 3
/-- and the sum of squares in `main_v7_1` (its window 4). -/
theorem outs_2_v7_1 (c : Dev nD) : outs m 2 main_v7_1 c = (dat0 (En0 m) c).arrAt 4 cfg0.N := by
  show arrs0 m c (Proc.devRef .tc (Pipeline.arrRef spec0 4)) = _
  unfold arrs0; exact Pipeline.withArrays_arr spec0 launch0.win.arr_inj c _ _ 4
/-- Region 1 leaves the second layer's per-channel sum in `main_v16_0` (its window 9), -/
theorem outs_4_v16_0 (c : Dev nD) : outs m 4 main_v16_0 c = (dat1 (En1 m) c).arrAt 9 cfg1.N := by
  show arrs1 m c (Proc.devRef .tc (Pipeline.arrRef spec1 9)) = _
  unfold arrs1; exact Pipeline.withArrays_arr spec1 launch1.win.arr_inj c _ _ 9
/-- and the sum of squares in `main_v16_1` (its window 10). -/
theorem outs_4_v16_1 (c : Dev nD) : outs m 4 main_v16_1 c = (dat1 (En1 m) c).arrAt 10 cfg1.N := by
  show arrs1 m c (Proc.devRef .tc (Pipeline.arrRef spec1 10)) = _
  unfold arrs1; exact Pipeline.withArrays_arr spec1 launch1.win.arr_inj c _ _ 10
/-- Region 2 leaves the per-voxel features in `main_v25` (its window 15). -/
theorem outs_6_v25 (c : Dev nD) : outs m 6 main_v25 c = (dat2 (En2 m) c).arrAt 15 cfg2.N := by
  show arrs2 m c (Proc.devRef .tc (Pipeline.arrRef spec2 15)) = _
  unfold arrs2; exact Pipeline.withArrays_arr spec2 launch2.win.arr_inj c _ _ 15

/-- The same read off the contents after each region. -/
theorem V2_v7_0 (c : Dev nD) : Gen.V2 m (outs m) c main_v7_0 = (dat0 (En0 m) c).arrAt 3 cfg0.N := by
  simp only [Gen.V2, Function.update_of_ne (StableHlo.devRef_ne_of_ne (by decide) : (Proc.devRef .tc main_v7_0 : DevRef τ sig) ≠ Proc.devRef .tc main_v7_1), Function.update_self]
  exact outs_2_v7_0 m c
theorem V2_v7_1 (c : Dev nD) : Gen.V2 m (outs m) c main_v7_1 = (dat0 (En0 m) c).arrAt 4 cfg0.N := by
  simp only [Gen.V2, Function.update_self]
  exact outs_2_v7_1 m c
theorem V4_v16_0 (c : Dev nD) : Gen.V4 m (outs m) c main_v16_0 = (dat1 (En1 m) c).arrAt 9 cfg1.N := by
  simp only [Gen.V4, Function.update_of_ne (StableHlo.devRef_ne_of_ne (by decide) : (Proc.devRef .tc main_v16_0 : DevRef τ sig) ≠ Proc.devRef .tc main_v16_1), Function.update_self]
  exact outs_4_v16_0 m c
theorem V4_v16_1 (c : Dev nD) : Gen.V4 m (outs m) c main_v16_1 = (dat1 (En1 m) c).arrAt 10 cfg1.N := by
  simp only [Gen.V4, Function.update_self]
  exact outs_4_v16_1 m c
theorem V6_v25 (c : Dev nD) : Gen.V6 m (outs m) c main_v25 = (dat2 (En2 m) c).arrAt 15 cfg2.N := by
  simp only [Gen.V6, Function.update_self]
  exact outs_6_v25 m c

/-! ## What each region's exit contents are, array by array -/

/-- An input array of region 0 is left as entered: no write-back goes to it, and it is none of the buffers the region
    may change. -/
theorem hF0_in (c : Dev nD) (w : Fin cfg0.W) (hw : (cfg0.win w).isOut = false)
    (hnot : Pipeline.arrRef spec0 w ∉ ([main_v7_0, main_v7_1] : List (Ref sig .tc))) :
    (dat0 (En0 m) c).arrAt w cfg0.N = Gen.V2 m (outs m) c (Pipeline.arrRef spec0 w) :=
  ((dat0 (En0 m) c).arrAt_in w hw _).trans ((A_eq0 (En0 m) c w).trans (Gen.V2_of m (outs m) c _ hnot).symm)
set_option maxHeartbeats 1000000 in
/-- At region 0's exit each of its arrays holds what the pipeline leaves there: an input its entry contents, an output
    the fold of its write-backs. -/
theorem hF0 (c : Dev nD) : ∀ w : Fin cfg0.W, (dat0 (En0 m) c).arrAt w cfg0.N = Gen.V2 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => (V2_v7_0 m c).symm
  | ⟨4, _⟩ => (V2_v7_1 m c).symm
/-- Every buffer that is no array of region 0 is left as entered. -/
theorem hrest0 (c : Dev nD) : ∀ b, b ∉ Finset.univ.image (Pipeline.arrRef spec0) → Gen.V2 m (outs m) c b = En0 m c b :=
  fun b hb => Gen.V2_of m (outs m) c b (by
    intro hmem
    rcases List.mem_cons.mp hmem with rfl | hmem
    · exact hb (Finset.mem_image.mpr ⟨3, Finset.mem_univ _, rfl⟩)
    rcases List.mem_cons.mp hmem with rfl | hmem
    · exact hb (Finset.mem_image.mpr ⟨4, Finset.mem_univ _, rfl⟩)
    exact absurd hmem List.not_mem_nil)

/-- An input array of region 1 is left as entered: no write-back goes to it, and it is none of the buffers the region
    may change. -/
theorem hF1_in (c : Dev nD) (w : Fin cfg1.W) (hw : (cfg1.win w).isOut = false)
    (hnot : Pipeline.arrRef spec1 w ∉ ([main_v16_0, main_v16_1] : List (Ref sig .tc))) :
    (dat1 (En1 m) c).arrAt w cfg1.N = Gen.V4 m (outs m) c (Pipeline.arrRef spec1 w) :=
  ((dat1 (En1 m) c).arrAt_in w hw _).trans ((A_eq1 (En1 m) c w).trans ((Gen.V4_of m (outs m) c _ hnot).trans (congrFun (V3_outs m c) _)).symm)
set_option maxHeartbeats 1000000 in
/-- At region 1's exit each of its arrays holds what the pipeline leaves there: an input its entry contents, an output
    the fold of its write-backs. -/
theorem hF1 (c : Dev nD) : ∀ w : Fin cfg1.W, (dat1 (En1 m) c).arrAt w cfg1.N = Gen.V4 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => hF1_in m c 8 rfl (by decide)
  | ⟨9, _⟩ => (V4_v16_0 m c).symm
  | ⟨10, _⟩ => (V4_v16_1 m c).symm
/-- Every buffer that is no array of region 1 is left as entered. -/
theorem hrest1 (c : Dev nD) : ∀ b, b ∉ Finset.univ.image (Pipeline.arrRef spec1) → Gen.V4 m (outs m) c b = En1 m c b :=
  fun b hb => (Gen.V4_of m (outs m) c b (by
    intro hmem
    rcases List.mem_cons.mp hmem with rfl | hmem
    · exact hb (Finset.mem_image.mpr ⟨9, Finset.mem_univ _, rfl⟩)
    rcases List.mem_cons.mp hmem with rfl | hmem
    · exact hb (Finset.mem_image.mpr ⟨10, Finset.mem_univ _, rfl⟩)
    exact absurd hmem List.not_mem_nil)).trans (congrFun (V3_outs m c) _)

/-- An input array of region 2 is left as entered: no write-back goes to it, and it is none of the buffers the region
    may change. -/
theorem hF2_in (c : Dev nD) (w : Fin cfg2.W) (hw : (cfg2.win w).isOut = false)
    (hnot : Pipeline.arrRef spec2 w ∉ ([main_v25] : List (Ref sig .tc))) :
    (dat2 (En2 m) c).arrAt w cfg2.N = Gen.V6 m (outs m) c (Pipeline.arrRef spec2 w) :=
  ((dat2 (En2 m) c).arrAt_in w hw _).trans ((A_eq2 (En2 m) c w).trans ((Gen.V6_of m (outs m) c _ hnot).trans (congrFun (V5_outs m c) _)).symm)
set_option maxHeartbeats 1000000 in
/-- At region 2's exit each of its arrays holds what the pipeline leaves there: an input its entry contents, an output
    the fold of its write-backs. -/
theorem hF2 (c : Dev nD) : ∀ w : Fin cfg2.W, (dat2 (En2 m) c).arrAt w cfg2.N = Gen.V6 m (outs m) c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => hF2_in m c 7 rfl (by decide)
  | ⟨8, _⟩ => hF2_in m c 8 rfl (by decide)
  | ⟨9, _⟩ => hF2_in m c 9 rfl (by decide)
  | ⟨10, _⟩ => hF2_in m c 10 rfl (by decide)
  | ⟨11, _⟩ => hF2_in m c 11 rfl (by decide)
  | ⟨12, _⟩ => hF2_in m c 12 rfl (by decide)
  | ⟨13, _⟩ => hF2_in m c 13 rfl (by decide)
  | ⟨14, _⟩ => hF2_in m c 14 rfl (by decide)
  | ⟨15, _⟩ => (V6_v25 m c).symm
  | ⟨_ + 16, h⟩ => absurd h (Nat.not_lt.2 (Nat.le_add_left _ _))
/-- Every buffer that is no array of region 2 is left as entered. -/
theorem hrest2 (c : Dev nD) : ∀ b, b ∉ Finset.univ.image (Pipeline.arrRef spec2) → Gen.V6 m (outs m) c b = En2 m c b :=
  fun b hb => (Gen.V6_of m (outs m) c b (by
    intro hmem
    rcases List.mem_cons.mp hmem with rfl | hmem
    · exact hb (Finset.mem_image.mpr ⟨15, Finset.mem_univ _, rfl⟩)
    exact absurd hmem List.not_mem_nil)).trans (congrFun (V5_outs m c) _)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

-- the library's entry and exit lemmas are stated over the pinned configuration, which unifies with the printed one only
-- when unification may unfold plain definitions in a metavariable's type
set_option backward.isDefEq.respectTransparency.types false in
/-- Region 0 over the thread state: entered from every unscoped buffer at the contents after the first host stretch, left
    at those with its two accumulators' arrays replaced. Its arrays are split out of the unscoped buffers and put back; the
    generator register goes into the invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when unification may unfold plain definitions in a metavariable's type
set_option backward.isDefEq.respectTransparency.types false in
/-- Region 1 likewise, between the contents after the second host stretch and those with its two accumulators' arrays
    replaced. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only
-- when unification may unfold plain definitions in a metavariable's type
set_option backward.isDefEq.respectTransparency.types false in
/-- Region 2 likewise, between the contents after the third host stretch and those with its output array replaced. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (Gen.V5 m (outsB m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (En2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Regions 1 and 2 are entered from the thread states the host stretches before them leave. -/
theorem hpre1 (c : Dev nD) : iprop(StableHlo.held (c : Thread nD τ) (Pipeline.ucRefs τ sig) (Gen.V3 m (outs m) c) ∗ R c) ⊢ (reg1 m).pre c := by
  rw [V3_outs]; exact .rfl
theorem hpre2 (c : Dev nD) : iprop(StableHlo.held (c : Thread nD τ) (Pipeline.ucRefs τ sig) (Gen.V5 m (outs m) c) ∗ R c) ⊢ (reg2 m).pre c := by
  rw [V5_outs]; exact .rfl

/-! ## The launch -/

/-- What the launch deals each core, less the buffers, makes the first rest state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  beta_reduce
  iintro ⟨⟨-, HO, -, Hp, -⟩, -⟩
  imodintro
  isplitl [Hp]; · iexists _; iexact Hp
  iexists ∅; iexact HO

/-- The launch element yields the pipeline library's ghost state; no other ghost resource is needed. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-! ## The frame -/

set_option backward.isDefEq.respectTransparency.types false in
/-- From any memory with zero counters every weakly fair execution of the program terminates, nothing faulting, and every
    final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) (fun c => by iintro ⟨-, HO⟩; iexact HO)
    (reg0 m) (fun c => .rfl) (fun c => .rfl)
    (reg1 m) (hpre1 m) (fun c => .rfl)
    (reg2 m) (hpre2 m) (fun c => .rfl)

/-! ## The same run, every unscoped buffer read at the end -/

set_option backward.isDefEq.respectTransparency.types false in
/-- The same run, with the final memory read at every unscoped buffer: each holds the last contents of the fold through
    the program's items. -/
theorem run_bufs (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = Gen.V7 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m))
    (fun c Q => by
      rewrite [main_chain c, Pipeline.Seg.run_eq_chain,
        show (Gen.segs m (outs m) 𝒱₀ L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀ (F := F))
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, hpre1 m c, .rfl, hpre2 m c, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs m) c b)
    (hfin := fun c s' => by
      iintro ⟨Hh, HSI⟩
      unfold StableHlo.held
      imodintro
      iapply (pointsTo_read_all (Pipeline.ucRefs τ sig) (fun b => (((c : Thread nD τ)).1, b)) (Gen.V7 m (outs m) c) s')
      isplitl [Hh] <;> iassumption)
    (hQ := fun s h => h)

end Cert.KernelIdeal.Hand

end
-- ==== Proof.RefOps.lean ====
import proofs.«172356_j10943576670908_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference program's run

@main of the reference program is a straight line of host operations: its own, and at each call the callee's operations over
that call's buffers. This module lists them, proves @main equal to the line, and reads the run off the library's theorem for a
straight line (`StableHlo.run_seq`): every weakly fair execution terminates, each buffer ending at the fold of the operations
over the launch contents; the argument arrays, which no operation writes, end unchanged. -/

/-- The operations of the window `main_part0` of @main, in order, each callee's operations listed at its call over that call's buffers. -/
abbrev ops_part0 : List (HloOp τ sig (Elt F)) :=
  [ nullary main_cst (constant S_ .f32 0xFF800000#32),
    binary main_arg0 main_cst main_v0 ((fun x v => Host.reduce FloatOps.maximumf x v reducesTo_S2x12000x35x7_S2x12000x35_d3 h_S_) : (⟨S2x12000x35x7, .f32⟩ : BufTy).Contents (Elt F) → (⟨S_, .f32⟩ : BufTy).Contents (Elt F) → (⟨S2x12000x35, .f32⟩ : BufTy).Contents (Elt F)),
    unary main_v0 main_v1 (broadcastInDim S2x12000x35x1 ![0, 1, 2] bcast_S2x12000x35_S2x12000x35x1_0_1_2 : (⟨S2x12000x35, .f32⟩ : BufTy).Contents (Elt F) → (⟨S2x12000x35x1, .f32⟩ : BufTy).Contents (Elt F)),
    nullary main_cst_0 (constant S_ .f32 0x00000000#32),
    unary main_cst_0 main_v2 (broadcastInDim S2x12000x35x1 ![] bcast_S_S2x12000x35x1 : (⟨S_, .f32⟩ : BufTy).Contents (Elt F) → (⟨S2x12000x35x1, .f32⟩ : BufTy).Contents (Elt F)),
    binary main_v1 main_v2 main_v3 (cmpf .une : (⟨S2x12000x35x1, .f32⟩ : BufTy).Contents (Elt F) → (⟨S2x12000x35x1, .f32⟩ : BufTy).Contents (Elt F) → (⟨S2x12000x35x1, .i1⟩ : BufTy).Contents (Elt F)),
    unary main_v3 main_v4 (uitofp .f32 : (⟨S2x12000x35x1, .i1⟩ : BufTy).Contents (Elt F) → (⟨S2x12000x35x1, .f32⟩ : BufTy).Contents (Elt F)),
    binary main_arg0 main_arg2 main_v5 ((fun l r => Host.dotGeneral dot_S2x12000x35x7_S7x16_S2x12000x35x16_3_0_012_1_n_n none l r) : (⟨S2x12000x35x7, .f32⟩ : BufTy).Contents (Elt F) → (⟨S7x16, .f32⟩ : BufTy).Contents (Elt F) → (⟨S2x12000x35x16, .f32⟩ : BufTy).Contents (Elt F)),
    unary main_arg3 main_v6 (broadcastInDim S1x1x1x16 ![3] bcast_S16_S1x1x1x16_3 : (⟨S16, .f32⟩ : BufTy).Contents (Elt F) → (⟨S1x1x1x16, .f32⟩ : BufTy).Contents (Elt F)),
    unary main_v6 main_v7 (broadcastInDim S2x12000x35x16 ![0, 1, 2, 3] bcast_S1x1x1x16_S2x12000x35x16_0_1_2_3 : (⟨S1x1x1x16, .f32⟩ : BufTy).Contents (Elt F) → (⟨S2x12000x35x16, .f32⟩ : BufTy).Contents (Elt F)),
    binary main_v5 main_v7 main_v8 (addf : (⟨S2x12000x35x16, .f32⟩ : BufTy).Contents (Elt F) → (⟨S2x12000x35x16, .f32⟩ : BufTy).Contents (Elt F) → (⟨S2x12000x35x16, .f32⟩ : BufTy).Contents (Elt F)),
    TRef.nullary main_call0.cst (constant S_ .f32 0x00000000#32),
    TRef.unary main_call0.cst main_call0.v0 (broadcastInDim S2x12000x35x16 ![] bcast_S_S2x12000x35x16),
    TRef.binary (.of main_v8) main_call0.v0 main_call0.v1 maximumf,
    nullary main_cst_1 (constant S_ .f32 0x00000000#32),
    binary main_v9 main_cst_1 main_v10 ((fun x v => Host.reduceAdd x v reducesTo_S2x12000x35x16_S16_d0_1_2 h_S_) : (⟨S2x12000x35x16, .f32⟩ : BufTy).Contents (Elt F) → (⟨S_, .f32⟩ : BufTy).Contents (Elt F) → (⟨S16, .f32⟩ : BufTy).Contents (Elt F)),
    nullary main_cst_2 (constant S_ .f32 0x494D1400#32),
    unary main_cst_2 main_v11 (broadcastInDim S16 ![] bcast_S_S16 : (⟨S_, .f32⟩ : BufTy).Contents (Elt F) → (⟨S16, .f32⟩ : BufTy).Contents (Elt F)),
    binary main_v10 main_v11 main_v12 (Host.divf : (⟨S16, .f32⟩ : BufTy).Contents (Elt F) → (⟨S16, .f32⟩ : BufTy).Contents (Elt F) → (⟨S16, .f32⟩ : BufTy).Contents (Elt F)),
    nullary main_c (constantI S_ 32 0#32),
    TRef.nullary main_call1.cst (constant S_ .f32 0x00000000#32),
    TRef.binary (.of main_v9) main_call1.cst main_call1.v0 (fun x v => Host.reduceAdd x v reducesTo_S2x12000x35x16_S16_d0_1_2 h_S_),
    TRef.unary main_call1.v0 main_call1.v1 (broadcastInDim S1x1x1x16 ![3] bcast_S16_S1x1x1x16_3),
    TRef.nullary main_call1.cst_0 (constant S_ .f32 0x494D1400#32),
    TRef.unary main_call1.cst_0 main_call1.v2 (broadcastInDim S1x1x1x16 ![] bcast_S_S1x1x1x16),
    TRef.binary main_call1.v1 main_call1.v2 main_call1.v3 Host.divf,
    TRef.unary main_call1.v3 main_call1.v4 (broadcastInDim S2x12000x35x16 ![0, 1, 2, 3] bcast_S1x1x1x16_S2x12000x35x16_0_1_2_3),
    TRef.binary (.of main_v9) main_call1.v4 main_call1.v5 subf,
    TRef.binary main_call1.v5 main_call1.v5 main_call1.v6 mulf,
    TRef.unary (.of main_c) main_call1.v7 (sitofp .f32),
    TRef.nullary main_call1.cst_1 (constant S_ .f32 0x494D1400#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S2x12000x35x16_S16_d0_1_2 h_S_),
    TRef.unary main_call1.v8 main_call1.v10 (broadcastInDim S16 ![] bcast_S_S16),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S16 ![] bcast_S_S16),
    TRef.ternary main_call1.v12 main_call1.v11 main_call1.call0.v1 main_call1.call0.v2 (fun p a b => select (broadcastInDim S16 ![] bcast_S_S16 p) a b),
    unary main_v12 main_v14 (broadcastInDim S1x1x1x16 ![3] bcast_S16_S1x1x1x16_3 : (⟨S16, .f32⟩ : BufTy).Contents (Elt F) → (⟨S1x1x1x16, .f32⟩ : BufTy).Contents (Elt F)),
    unary main_v14 main_v15 (broadcastInDim S2x12000x35x16 ![0, 1, 2, 3] bcast_S1x1x1x16_S2x12000x35x16_0_1_2_3 : (⟨S1x1x1x16, .f32⟩ : BufTy).Contents (Elt F) → (⟨S2x12000x35x16, .f32⟩ : BufTy).Contents (Elt F)),
    binary main_v9 main_v15 main_v16 (subf : (⟨S2x12000x35x16, .f32⟩ : BufTy).Contents (Elt F) → (⟨S2x12000x35x16, .f32⟩ : BufTy).Contents (Elt F) → (⟨S2x12000x35x16, .f32⟩ : BufTy).Contents (Elt F)),
    nullary main_cst_3 (constant S_ .f32 0x3727C5AC#32),
    unary main_cst_3 main_v17 (broadcastInDim S16 ![] bcast_S_S16 : (⟨S_, .f32⟩ : BufTy).Contents (Elt F) → (⟨S16, .f32⟩ : BufTy).Contents (Elt F)),
    binary main_v13 main_v17 main_v18 (addf : (⟨S16, .f32⟩ : BufTy).Contents (Elt F) → (⟨S16, .f32⟩ : BufTy).Contents (Elt F) → (⟨S16, .f32⟩ : BufTy).Contents (Elt F)),
    unary main_v18 main_v19 (Host.rsqrt : (⟨S16, .f32⟩ : BufTy).Contents (Elt F) → (⟨S16, .f32⟩ : BufTy).Contents (Elt F)),
    unary main_v19 main_v20 (broadcastInDim S1x1x1x16 ![3] bcast_S16_S1x1x1x16_3 : (⟨S16, .f32⟩ : BufTy).Contents (Elt F) → (⟨S1x1x1x16, .f32⟩ : BufTy).Contents (Elt F)),
    unary main_v20 main_v21 (broadcastInDim S2x12000x35x16 ![0, 1, 2, 3] bcast_S1x1x1x16_S2x12000x35x16_0_1_2_3 : (⟨S1x1x1x16, .f32⟩ : BufTy).Contents (Elt F) → (⟨S2x12000x35x16, .f32⟩ : BufTy).Contents (Elt F)),
    binary main_v16 main_v21 main_v22 (mulf : (⟨S2x12000x35x16, .f32⟩ : BufTy).Contents (Elt F) → (⟨S2x12000x35x16, .f32⟩ : BufTy).Contents (Elt F) → (⟨S2x12000x35x16, .f32⟩ : BufTy).Contents (Elt F)),
    unary main_arg4 main_v23 (broadcastInDim S1x1x1x16 ![3] bcast_S16_S1x1x1x16_3 : (⟨S16, .f32⟩ : BufTy).Contents (Elt F) → (⟨S1x1x1x16, .f32⟩ : BufTy).Contents (Elt F)),
    unary main_v23 main_v24 (broadcastInDim S2x12000x35x16 ![0, 1, 2, 3] bcast_S1x1x1x16_S2x12000x35x16_0_1_2_3 : (⟨S1x1x1x16, .f32⟩ : BufTy).Contents (Elt F) → (⟨S2x12000x35x16, .f32⟩ : BufTy).Contents (Elt F)),
    binary main_v22 main_v24 main_v25 (mulf : (⟨S2x12000x35x16, .f32⟩ : BufTy).Contents (Elt F) → (⟨S2x12000x35x16, .f32⟩ : BufTy).Contents (Elt F) → (⟨S2x12000x35x16, .f32⟩ : BufTy).Contents (Elt F)),
    unary main_arg5 main_v26 (broadcastInDim S1x1x1x16 ![3] bcast_S16_S1x1x1x16_3 : (⟨S16, .f32⟩ : BufTy).Contents (Elt F) → (⟨S1x1x1x16, .f32⟩ : BufTy).Contents (Elt F)),
    unary main_v26 main_v27 (broadcastInDim S2x12000x35x16 ![0, 1, 2, 3] bcast_S1x1x1x16_S2x12000x35x16_0_1_2_3 : (⟨S1x1x1x16, .f32⟩ : BufTy).Contents (Elt F) → (⟨S2x12000x35x16, .f32⟩ : BufTy).Contents (Elt F)),
    binary main_v25 main_v27 main_v28 (addf : (⟨S2x12000x35x16, .f32⟩ : BufTy).Contents (Elt F) → (⟨S2x12000x35x16, .f32⟩ : BufTy).Contents (Elt F) → (⟨S2x12000x35x16, .f32⟩ : BufTy).Contents (Elt F)),
    nullary main_cst_4 (constant S_ .f32 0xFF800000#32),
    binary main_v28 main_cst_4 main_v29 ((fun x v => Host.reduce FloatOps.maximumf x v reducesTo_S2x12000x35x16_S2x12000x16_d2 h_S_) : (⟨S2x12000x35x16, .f32⟩ : BufTy).Contents (Elt F) → (⟨S_, .f32⟩ : BufTy).Contents (Elt F) → (⟨S2x12000x16, .f32⟩ : BufTy).Contents (Elt F)),
    unary main_v29 main_v30 (broadcastInDim S2x12000x1x16 ![0, 1, 3] bcast_S2x12000x16_S2x12000x1x16_0_1_3 : (⟨S2x12000x16, .f32⟩ : BufTy).Contents (Elt F) → (⟨S2x12000x1x16, .f32⟩ : BufTy).Contents (Elt F)),
    unary main_v30 main_v31 (broadcastInDim S2x12000x35x16 ![0, 1, 2, 3] bcast_S2x12000x1x16_S2x12000x35x16_0_1_2_3 : (⟨S2x12000x1x16, .f32⟩ : BufTy).Contents (Elt F) → (⟨S2x12000x35x16, .f32⟩ : BufTy).Contents (Elt F)),
    binary main_v28 main_v31 main_v32 ((fun a b => concatenate S2x12000x35x32 3 [⟨S2x12000x35x16, a⟩, ⟨S2x12000x35x16, b⟩] concatenates_S2x12000x35x16_S2x12000x35x16_S2x12000x35x32_d3) : (⟨S2x12000x35x16, .f32⟩ : BufTy).Contents (Elt F) → (⟨S2x12000x35x16, .f32⟩ : BufTy).Contents (Elt F) → (⟨S2x12000x35x32, .f32⟩ : BufTy).Contents (Elt F)),
    unary main_v4 main_v33 (broadcastInDim S2x12000x35x32 ![0, 1, 2, 3] bcast_S2x12000x35x1_S2x12000x35x32_0_1_2_3 : (⟨S2x12000x35x1, .f32⟩ : BufTy).Contents (Elt F) → (⟨S2x12000x35x32, .f32⟩ : BufTy).Contents (Elt F)),
    binary main_v32 main_v33 main_v34 (mulf : (⟨S2x12000x35x32, .f32⟩ : BufTy).Contents (Elt F) → (⟨S2x12000x35x32, .f32⟩ : BufTy).Contents (Elt F) → (⟨S2x12000x35x32, .f32⟩ : BufTy).Contents (Elt F)),
    binary main_v34 main_arg6 main_v35 ((fun l r => Host.dotGeneral dot_S2x12000x35x32_S32x64_S2x12000x35x64_3_0_012_1_n_n none l r) : (⟨S2x12000x35x32, .f32⟩ : BufTy).Contents (Elt F) → (⟨S32x64, .f32⟩ : BufTy).Contents (Elt F) → (⟨S2x12000x35x64, .f32⟩ : BufTy).Contents (Elt F)),
    unary main_arg7 main_v36 (broadcastInDim S1x1x1x64 ![3] bcast_S64_S1x1x1x64_3 : (⟨S64, .f32⟩ : BufTy).Contents (Elt F) → (⟨S1x1x1x64, .f32⟩ : BufTy).Contents (Elt F)),
    unary main_v36 main_v37 (broadcastInDim S2x12000x35x64 ![0, 1, 2, 3] bcast_S1x1x1x64_S2x12000x35x64_0_1_2_3 : (⟨S1x1x1x64, .f32⟩ : BufTy).Contents (Elt F) → (⟨S2x12000x35x64, .f32⟩ : BufTy).Contents (Elt F)),
    binary main_v35 main_v37 main_v38 (addf : (⟨S2x12000x35x64, .f32⟩ : BufTy).Contents (Elt F) → (⟨S2x12000x35x64, .f32⟩ : BufTy).Contents (Elt F) → (⟨S2x12000x35x64, .f32⟩ : BufTy).Contents (Elt F)),
    TRef.nullary main_call2.cst (constant S_ .f32 0x00000000#32),
    TRef.unary main_call2.cst main_call2.v0 (broadcastInDim S2x12000x35x64 ![] bcast_S_S2x12000x35x64),
    TRef.binary (.of main_v38) main_call2.v0 main_call2.v1 maximumf,
    nullary main_cst_5 (constant S_ .f32 0x00000000#32),
    binary main_v39 main_cst_5 main_v40 ((fun x v => Host.reduceAdd x v reducesTo_S2x12000x35x64_S64_d0_1_2 h_S_) : (⟨S2x12000x35x64, .f32⟩ : BufTy).Contents (Elt F) → (⟨S_, .f32⟩ : BufTy).Contents (Elt F) → (⟨S64, .f32⟩ : BufTy).Contents (Elt F)),
    nullary main_cst_6 (constant S_ .f32 0x494D1400#32),
    unary main_cst_6 main_v41 (broadcastInDim S64 ![] bcast_S_S64 : (⟨S_, .f32⟩ : BufTy).Contents (Elt F) → (⟨S64, .f32⟩ : BufTy).Contents (Elt F)),
    binary main_v40 main_v41 main_v42 (Host.divf : (⟨S64, .f32⟩ : BufTy).Contents (Elt F) → (⟨S64, .f32⟩ : BufTy).Contents (Elt F) → (⟨S64, .f32⟩ : BufTy).Contents (Elt F)),
    nullary main_c_7 (constantI S_ 32 0#32),
    TRef.nullary main_call3.cst (constant S_ .f32 0x00000000#32),
    TRef.binary (.of main_v39) main_call3.cst main_call3.v0 (fun x v => Host.reduceAdd x v reducesTo_S2x12000x35x64_S64_d0_1_2 h_S_),
    TRef.unary main_call3.v0 main_call3.v1 (broadcastInDim S1x1x1x64 ![3] bcast_S64_S1x1x1x64_3),
    TRef.nullary main_call3.cst_0 (constant S_ .f32 0x494D1400#32),
    TRef.unary main_call3.cst_0 main_call3.v2 (broadcastInDim S1x1x1x64 ![] bcast_S_S1x1x1x64),
    TRef.binary main_call3.v1 main_call3.v2 main_call3.v3 Host.divf,
    TRef.unary main_call3.v3 main_call3.v4 (broadcastInDim S2x12000x35x64 ![0, 1, 2, 3] bcast_S1x1x1x64_S2x12000x35x64_0_1_2_3),
    TRef.binary (.of main_v39) main_call3.v4 main_call3.v5 subf,
    TRef.binary main_call3.v5 main_call3.v5 main_call3.v6 mulf,
    TRef.unary (.of main_c_7) main_call3.v7 (sitofp .f32),
    TRef.nullary main_call3.cst_1 (constant S_ .f32 0x494D1400#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S2x12000x35x64_S64_d0_1_2 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v42 main_v44 (broadcastInDim S1x1x1x64 ![3] bcast_S64_S1x1x1x64_3 : (⟨S64, .f32⟩ : BufTy).Contents (Elt F) → (⟨S1x1x1x64, .f32⟩ : BufTy).Contents (Elt F)),
    unary main_v44 main_v45 (broadcastInDim S2x12000x35x64 ![0, 1, 2, 3] bcast_S1x1x1x64_S2x12000x35x64_0_1_2_3 : (⟨S1x1x1x64, .f32⟩ : BufTy).Contents (Elt F) → (⟨S2x12000x35x64, .f32⟩ : BufTy).Contents (Elt F)),
    binary main_v39 main_v45 main_v46 (subf : (⟨S2x12000x35x64, .f32⟩ : BufTy).Contents (Elt F) → (⟨S2x12000x35x64, .f32⟩ : BufTy).Contents (Elt F) → (⟨S2x12000x35x64, .f32⟩ : BufTy).Contents (Elt F)),
    nullary main_cst_8 (constant S_ .f32 0x3727C5AC#32),
    unary main_cst_8 main_v47 (broadcastInDim S64 ![] bcast_S_S64 : (⟨S_, .f32⟩ : BufTy).Contents (Elt F) → (⟨S64, .f32⟩ : BufTy).Contents (Elt F)),
    binary main_v43 main_v47 main_v48 (addf : (⟨S64, .f32⟩ : BufTy).Contents (Elt F) → (⟨S64, .f32⟩ : BufTy).Contents (Elt F) → (⟨S64, .f32⟩ : BufTy).Contents (Elt F)) ]

/-- The operations of the window `main_part1` of @main, in order, each callee's operations listed at its call over that call's buffers. -/
abbrev ops_part1 : List (HloOp τ sig (Elt F)) :=
  [ unary main_v48 main_v49 (Host.rsqrt : (⟨S64, .f32⟩ : BufTy).Contents (Elt F) → (⟨S64, .f32⟩ : BufTy).Contents (Elt F)),
    unary main_v49 main_v50 (broadcastInDim S1x1x1x64 ![3] bcast_S64_S1x1x1x64_3 : (⟨S64, .f32⟩ : BufTy).Contents (Elt F) → (⟨S1x1x1x64, .f32⟩ : BufTy).Contents (Elt F)),
    unary main_v50 main_v51 (broadcastInDim S2x12000x35x64 ![0, 1, 2, 3] bcast_S1x1x1x64_S2x12000x35x64_0_1_2_3 : (⟨S1x1x1x64, .f32⟩ : BufTy).Contents (Elt F) → (⟨S2x12000x35x64, .f32⟩ : BufTy).Contents (Elt F)),
    binary main_v46 main_v51 main_v52 (mulf : (⟨S2x12000x35x64, .f32⟩ : BufTy).Contents (Elt F) → (⟨S2x12000x35x64, .f32⟩ : BufTy).Contents (Elt F) → (⟨S2x12000x35x64, .f32⟩ : BufTy).Contents (Elt F)),
    unary main_arg8 main_v53 (broadcastInDim S1x1x1x64 ![3] bcast_S64_S1x1x1x64_3 : (⟨S64, .f32⟩ : BufTy).Contents (Elt F) → (⟨S1x1x1x64, .f32⟩ : BufTy).Contents (Elt F)),
    unary main_v53 main_v54 (broadcastInDim S2x12000x35x64 ![0, 1, 2, 3] bcast_S1x1x1x64_S2x12000x35x64_0_1_2_3 : (⟨S1x1x1x64, .f32⟩ : BufTy).Contents (Elt F) → (⟨S2x12000x35x64, .f32⟩ : BufTy).Contents (Elt F)),
    binary main_v52 main_v54 main_v55 (mulf : (⟨S2x12000x35x64, .f32⟩ : BufTy).Contents (Elt F) → (⟨S2x12000x35x64, .f32⟩ : BufTy).Contents (Elt F) → (⟨S2x12000x35x64, .f32⟩ : BufTy).Contents (Elt F)),
    unary main_arg9 main_v56 (broadcastInDim S1x1x1x64 ![3] bcast_S64_S1x1x1x64_3 : (⟨S64, .f32⟩ : BufTy).Contents (Elt F) → (⟨S1x1x1x64, .f32⟩ : BufTy).Contents (Elt F)),
    unary main_v56 main_v57 (broadcastInDim S2x12000x35x64 ![0, 1, 2, 3] bcast_S1x1x1x64_S2x12000x35x64_0_1_2_3 : (⟨S1x1x1x64, .f32⟩ : BufTy).Contents (Elt F) → (⟨S2x12000x35x64, .f32⟩ : BufTy).Contents (Elt F)),
    binary main_v55 main_v57 main_v58 (addf : (⟨S2x12000x35x64, .f32⟩ : BufTy).Contents (Elt F) → (⟨S2x12000x35x64, .f32⟩ : BufTy).Contents (Elt F) → (⟨S2x12000x35x64, .f32⟩ : BufTy).Contents (Elt F)),
    nullary main_cst_9 (constant S_ .f32 0xFF800000#32),
    binary main_v58 main_cst_9 main_v59 ((fun x v => Host.reduce FloatOps.maximumf x v reducesTo_S2x12000x35x64_S2x12000x64_d2 h_S_) : (⟨S2x12000x35x64, .f32⟩ : BufTy).Contents (Elt F) → (⟨S_, .f32⟩ : BufTy).Contents (Elt F) → (⟨S2x12000x64, .f32⟩ : BufTy).Contents (Elt F)),
    unary main_v59 main_v60 (broadcastInDim S2x12000x1x64 ![0, 1, 3] bcast_S2x12000x64_S2x12000x1x64_0_1_3 : (⟨S2x12000x64, .f32⟩ : BufTy).Contents (Elt F) → (⟨S2x12000x1x64, .f32⟩ : BufTy).Contents (Elt F)),
    unary main_v60 main_v61 (broadcastInDim S2x12000x35x64 ![0, 1, 2, 3] bcast_S2x12000x1x64_S2x12000x35x64_0_1_2_3 : (⟨S2x12000x1x64, .f32⟩ : BufTy).Contents (Elt F) → (⟨S2x12000x35x64, .f32⟩ : BufTy).Contents (Elt F)),
    binary main_v58 main_v61 main_v62 ((fun a b => concatenate S2x12000x35x128 3 [⟨S2x12000x35x64, a⟩, ⟨S2x12000x35x64, b⟩] concatenates_S2x12000x35x64_S2x12000x35x64_S2x12000x35x128_d3) : (⟨S2x12000x35x64, .f32⟩ : BufTy).Contents (Elt F) → (⟨S2x12000x35x64, .f32⟩ : BufTy).Contents (Elt F) → (⟨S2x12000x35x128, .f32⟩ : BufTy).Contents (Elt F)),
    unary main_v4 main_v63 (broadcastInDim S2x12000x35x128 ![0, 1, 2, 3] bcast_S2x12000x35x1_S2x12000x35x128_0_1_2_3 : (⟨S2x12000x35x1, .f32⟩ : BufTy).Contents (Elt F) → (⟨S2x12000x35x128, .f32⟩ : BufTy).Contents (Elt F)),
    binary main_v62 main_v63 main_v64 (mulf : (⟨S2x12000x35x128, .f32⟩ : BufTy).Contents (Elt F) → (⟨S2x12000x35x128, .f32⟩ : BufTy).Contents (Elt F) → (⟨S2x12000x35x128, .f32⟩ : BufTy).Contents (Elt F)),
    binary main_v64 main_arg10 main_v65 ((fun l r => Host.dotGeneral dot_S2x12000x35x128_S128x128_S2x12000x35x128_3_0_012_1_n_n none l r) : (⟨S2x12000x35x128, .f32⟩ : BufTy).Contents (Elt F) → (⟨S128x128, .f32⟩ : BufTy).Contents (Elt F) → (⟨S2x12000x35x128, .f32⟩ : BufTy).Contents (Elt F)),
    unary main_arg11 main_v66 (broadcastInDim S1x1x1x128 ![3] bcast_S128_S1x1x1x128_3 : (⟨S128, .f32⟩ : BufTy).Contents (Elt F) → (⟨S1x1x1x128, .f32⟩ : BufTy).Contents (Elt F)),
    unary main_v66 main_v67 (broadcastInDim S2x12000x35x128 ![0, 1, 2, 3] bcast_S1x1x1x128_S2x12000x35x128_0_1_2_3 : (⟨S1x1x1x128, .f32⟩ : BufTy).Contents (Elt F) → (⟨S2x12000x35x128, .f32⟩ : BufTy).Contents (Elt F)),
    binary main_v65 main_v67 main_v68 (addf : (⟨S2x12000x35x128, .f32⟩ : BufTy).Contents (Elt F) → (⟨S2x12000x35x128, .f32⟩ : BufTy).Contents (Elt F) → (⟨S2x12000x35x128, .f32⟩ : BufTy).Contents (Elt F)),
    nullary main_cst_10 (constant S_ .f32 0xFF800000#32),
    binary main_v68 main_cst_10 main_v69 ((fun x v => Host.reduce FloatOps.maximumf x v reducesTo_S2x12000x35x128_S2x12000x128_d2 h_S_) : (⟨S2x12000x35x128, .f32⟩ : BufTy).Contents (Elt F) → (⟨S_, .f32⟩ : BufTy).Contents (Elt F) → (⟨S2x12000x128, .f32⟩ : BufTy).Contents (Elt F)),
    unary main_arg1 main_v70 ((extractStridedSlice S2x12000x1 ![0, 0, 0] · slices_S2x12000x3_S2x12000x1_0_0_0) : (⟨S2x12000x3, .i32⟩ : BufTy).Contents (Elt F) → (⟨S2x12000x1, .i32⟩ : BufTy).Contents (Elt F)),
    reshape main_v70 main_v71 rfl shapeCasts_S2x12000x1_S2x12000,
    reshape main_v71 main_v72 rfl shapeCasts_S2x12000_S24000,
    unary main_arg1 main_v73 ((extractStridedSlice S2x12000x1 ![0, 0, 1] · slices_S2x12000x3_S2x12000x1_0_0_1) : (⟨S2x12000x3, .i32⟩ : BufTy).Contents (Elt F) → (⟨S2x12000x1, .i32⟩ : BufTy).Contents (Elt F)),
    reshape main_v73 main_v74 rfl shapeCasts_S2x12000x1_S2x12000,
    reshape main_v74 main_v75 rfl shapeCasts_S2x12000_S24000,
    unary main_arg1 main_v76 ((extractStridedSlice S2x12000x1 ![0, 0, 2] · slices_S2x12000x3_S2x12000x1_0_0_2) : (⟨S2x12000x3, .i32⟩ : BufTy).Contents (Elt F) → (⟨S2x12000x1, .i32⟩ : BufTy).Contents (Elt F)),
    reshape main_v76 main_v77 rfl shapeCasts_S2x12000x1_S2x12000,
    reshape main_v77 main_v78 rfl shapeCasts_S2x12000_S24000,
    nullary main_cst_11 (constant S_ .f32 0x00000000#32),
    unary main_cst_11 main_v79 (broadcastInDim S1x10x400x352x128 ![] bcast_S_S1x10x400x352x128 : (⟨S_, .f32⟩ : BufTy).Contents (Elt F) → (⟨S1x10x400x352x128, .f32⟩ : BufTy).Contents (Elt F)),
    reshape main_v69 main_v80 rfl shapeCasts_S2x12000x128_S24000x128,
    nullary main_c_12 (constantI S_ 32 0#32),
    unary main_c_12 main_v81 (broadcastInDim S24000 ![] bcast_S_S24000 : (⟨S_, .i32⟩ : BufTy).Contents (Elt F) → (⟨S24000, .i32⟩ : BufTy).Contents (Elt F)),
    binary main_v72 main_v81 main_v82 (cmpi .slt : (⟨S24000, .i32⟩ : BufTy).Contents (Elt F) → (⟨S24000, .i32⟩ : BufTy).Contents (Elt F) → (⟨S24000, .i1⟩ : BufTy).Contents (Elt F)),
    nullary main_c_13 (constantI S_ 32 10#32),
    unary main_c_13 main_v83 (broadcastInDim S24000 ![] bcast_S_S24000 : (⟨S_, .i32⟩ : BufTy).Contents (Elt F) → (⟨S24000, .i32⟩ : BufTy).Contents (Elt F)),
    binary main_v72 main_v83 main_v84 (addi : (⟨S24000, .i32⟩ : BufTy).Contents (Elt F) → (⟨S24000, .i32⟩ : BufTy).Contents (Elt F) → (⟨S24000, .i32⟩ : BufTy).Contents (Elt F)),
    ternary main_v82 main_v84 main_v72 main_v85 (select : (⟨S24000, .i1⟩ : BufTy).Contents (Elt F) → (⟨S24000, .i32⟩ : BufTy).Contents (Elt F) → (⟨S24000, .i32⟩ : BufTy).Contents (Elt F) → (⟨S24000, .i32⟩ : BufTy).Contents (Elt F)),
    nullary main_c_14 (constantI S_ 32 0#32),
    unary main_c_14 main_v86 (broadcastInDim S24000 ![] bcast_S_S24000 : (⟨S_, .i32⟩ : BufTy).Contents (Elt F) → (⟨S24000, .i32⟩ : BufTy).Contents (Elt F)),
    binary main_v75 main_v86 main_v87 (cmpi .slt : (⟨S24000, .i32⟩ : BufTy).Contents (Elt F) → (⟨S24000, .i32⟩ : BufTy).Contents (Elt F) → (⟨S24000, .i1⟩ : BufTy).Contents (Elt F)),
    nullary main_c_15 (constantI S_ 32 400#32),
    unary main_c_15 main_v88 (broadcastInDim S24000 ![] bcast_S_S24000 : (⟨S_, .i32⟩ : BufTy).Contents (Elt F) → (⟨S24000, .i32⟩ : BufTy).Contents (Elt F)),
    binary main_v75 main_v88 main_v89 (addi : (⟨S24000, .i32⟩ : BufTy).Contents (Elt F) → (⟨S24000, .i32⟩ : BufTy).Contents (Elt F) → (⟨S24000, .i32⟩ : BufTy).Contents (Elt F)),
    ternary main_v87 main_v89 main_v75 main_v90 (select : (⟨S24000, .i1⟩ : BufTy).Contents (Elt F) → (⟨S24000, .i32⟩ : BufTy).Contents (Elt F) → (⟨S24000, .i32⟩ : BufTy).Contents (Elt F) → (⟨S24000, .i32⟩ : BufTy).Contents (Elt F)),
    nullary main_c_16 (constantI S_ 32 0#32),
    unary main_c_16 main_v91 (broadcastInDim S24000 ![] bcast_S_S24000 : (⟨S_, .i32⟩ : BufTy).Contents (Elt F) → (⟨S24000, .i32⟩ : BufTy).Contents (Elt F)),
    binary main_v78 main_v91 main_v92 (cmpi .slt : (⟨S24000, .i32⟩ : BufTy).Contents (Elt F) → (⟨S24000, .i32⟩ : BufTy).Contents (Elt F) → (⟨S24000, .i1⟩ : BufTy).Contents (Elt F)),
    nullary main_c_17 (constantI S_ 32 352#32),
    unary main_c_17 main_v93 (broadcastInDim S24000 ![] bcast_S_S24000 : (⟨S_, .i32⟩ : BufTy).Contents (Elt F) → (⟨S24000, .i32⟩ : BufTy).Contents (Elt F)),
    binary main_v78 main_v93 main_v94 (addi : (⟨S24000, .i32⟩ : BufTy).Contents (Elt F) → (⟨S24000, .i32⟩ : BufTy).Contents (Elt F) → (⟨S24000, .i32⟩ : BufTy).Contents (Elt F)),
    ternary main_v92 main_v94 main_v78 main_v95 (select : (⟨S24000, .i1⟩ : BufTy).Contents (Elt F) → (⟨S24000, .i32⟩ : BufTy).Contents (Elt F) → (⟨S24000, .i32⟩ : BufTy).Contents (Elt F) → (⟨S24000, .i32⟩ : BufTy).Contents (Elt F)),
    nullary main_c_18 (constantI S_ 32 0#32),
    unary main_c_18 main_v96 (broadcastInDim S24000 ![] bcast_S_S24000 : (⟨S_, .i32⟩ : BufTy).Contents (Elt F) → (⟨S24000, .i32⟩ : BufTy).Contents (Elt F)),
    unary main_v96 main_v97 (id : (⟨S24000, .i32⟩ : BufTy).Contents (Elt F) → (⟨S24000, .i32⟩ : BufTy).Contents (Elt F)),
    unary main_v97 main_v98 (broadcastInDim S24000x1 ![0] bcast_S24000_S24000x1_0 : (⟨S24000, .i32⟩ : BufTy).Contents (Elt F) → (⟨S24000x1, .i32⟩ : BufTy).Contents (Elt F)) ]

/-- The operations of the window `main_part2` of @main, in order, each callee's operations listed at its call over that call's buffers. -/
abbrev ops_part2 : List (HloOp τ sig (Elt F)) :=
  [ unary main_v85 main_v99 (broadcastInDim S24000x1 ![0] bcast_S24000_S24000x1_0 : (⟨S24000, .i32⟩ : BufTy).Contents (Elt F) → (⟨S24000x1, .i32⟩ : BufTy).Contents (Elt F)),
    unary main_v90 main_v100 (broadcastInDim S24000x1 ![0] bcast_S24000_S24000x1_0 : (⟨S24000, .i32⟩ : BufTy).Contents (Elt F) → (⟨S24000x1, .i32⟩ : BufTy).Contents (Elt F)),
    unary main_v95 main_v101 (broadcastInDim S24000x1 ![0] bcast_S24000_S24000x1_0 : (⟨S24000, .i32⟩ : BufTy).Contents (Elt F) → (⟨S24000x1, .i32⟩ : BufTy).Contents (Elt F)),
    nary ![main_v98, main_v99, main_v100, main_v101] main_v102 (fun u => concatenate S24000x4 1 [⟨S24000x1, u 0⟩, ⟨S24000x1, u 1⟩, ⟨S24000x1, u 2⟩, ⟨S24000x1, u 3⟩] concatenates_S24000x1_S24000x1_S24000x1_S24000x1_S24000x4_d1),
    ternary main_v79 main_v102 main_v80 main_v103 ((fun x i u => Host.scatter scatter_S1x10x400x352x128_S24000x4_S24000x128_1_0123_0123_1 (fun _ b => b) x i u) : (⟨S1x10x400x352x128, .f32⟩ : BufTy).Contents (Elt F) → (⟨S24000x4, .i32⟩ : BufTy).Contents (Elt F) → (⟨S24000x128, .f32⟩ : BufTy).Contents (Elt F) → (⟨S1x10x400x352x128, .f32⟩ : BufTy).Contents (Elt F)),
    unary main_v103 main_v104 ((transpose S1x128x10x400x352 [0, 4, 1, 2, 3] · transposes_S1x10x400x352x128_S1x128x10x400x352_0_4_1_2_3) : (⟨S1x10x400x352x128, .f32⟩ : BufTy).Contents (Elt F) → (⟨S1x128x10x400x352, .f32⟩ : BufTy).Contents (Elt F)) ]

/-- @main's 172 host operations, in order, the callees' operations inline. -/
abbrev ops : List (HloOp τ sig (Elt F)) := ops_part0 ++ (ops_part1 ++ ops_part2)

set_option maxRecDepth 8192 in
set_option maxHeartbeats 4000000 in
theorem main_part0_eq (c : Dev nD) : main_part0 (F := F) c = seq ops_part0 := rfl

set_option maxRecDepth 8192 in
set_option maxHeartbeats 4000000 in
theorem main_part1_eq (c : Dev nD) : main_part1 (F := F) c = seq ops_part1 := rfl

set_option maxRecDepth 8192 in
set_option maxHeartbeats 4000000 in
theorem main_part2_eq (c : Dev nD) : main_part2 (F := F) c = seq ops_part2 := rfl

/-- @main is the line: its three windows are lines, and lines run in order are their concatenation. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops_part1_sub : (ops_part1 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., reshape_bufs_sub .., reshape_bufs_sub .., unary_bufs_sub .., reshape_bufs_sub .., reshape_bufs_sub .., unary_bufs_sub .., reshape_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub ..⟩

set_option maxRecDepth 8192 in
theorem ops_part2_sub : (ops_part2 : List (HloOp τ sig (Elt F))).Forall fun op => op.bufs ⊆ tcRefs τ sig :=
  ⟨unary_bufs_sub .., unary_bufs_sub .., unary_bufs_sub .., nary_bufs_sub .., ternary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h,
      List.forall_iff_forall_mem.mp ops_part2_sub op h]

/-- Every operation determines its results. -/
theorem ops_fresh : ∀ op ∈ (ops : List (HloOp τ sig (Elt F))), op.fresh = ∅ := by
  have h : (ops : List (HloOp τ sig (Elt F))).map HloOp.fresh = List.replicate 172 ∅ := rfl
  intro op hop
  have hm : op.fresh ∈ (ops : List (HloOp τ sig (Elt F))).map HloOp.fresh := List.mem_map.mpr ⟨op, hop, rfl⟩
  rw [h] at hm
  exact (List.mem_replicate.mp hm).2

/-- On every device, for any float values, from any memory with zero counters: every weakly fair execution of @main
    terminates, and every final state has each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## A line of single-assignment operations, in general

Every operation of a reference program writes one buffer of its own. `WritesAre ops W` records which, in order; from it a
buffer's contents after the whole line are read at any position of the line: what the line's first `k` operations leave in
a buffer is final once no later operation writes that buffer. -/

section Generic

variable {T : Topo} {sg : RefSig} {Val : EltTy → Type}

/-- The operations of the line write, one each and in order, the references `W`. -/
def WritesAre (ops : List (HloOp T sg Val)) (W : List (Ref sg .tc)) : Prop :=
  ops.map HloOp.writes = W.map fun y => ({Proc.devRef (τ := T) .tc y} : Finset (DevRef T sg))

theorem WritesAre.append {l₁ l₂ : List (HloOp T sg Val)} {W₁ W₂ : List (Ref sg .tc)}
    (h₁ : WritesAre l₁ W₁) (h₂ : WritesAre l₂ W₂) : WritesAre (l₁ ++ l₂) (W₁ ++ W₂) := by
  unfold WritesAre at *
  rw [List.map_append, List.map_append, h₁, h₂]

theorem WritesAre.drop {ops : List (HloOp T sg Val)} {W : List (Ref sg .tc)} (h : WritesAre ops W) (k : Nat) :
    WritesAre (ops.drop k) (W.drop k) := by
  unfold WritesAre at *
  rw [List.map_drop, List.map_drop, h]

/-- A reference outside `W` is written by no operation of the line. -/
theorem WritesAre.not_mem {ops : List (HloOp T sg Val)} {W : List (Ref sg .tc)} (h : WritesAre ops W)
    {r : Ref sg .tc} (hr : r ∉ W) : ∀ op ∈ ops, Proc.devRef (τ := T) .tc r ∉ op.writes := by
  intro op hop hmem
  have hw : op.writes ∈ ops.map HloOp.writes := List.mem_map.mpr ⟨op, hop, rfl⟩
  unfold WritesAre at h
  rw [h] at hw
  obtain ⟨y, hy, he⟩ := List.mem_map.mp hw
  rw [← he, Finset.mem_singleton] at hmem
  have e : r = y := Proc.devRef_injective _ hmem
  exact hr (e ▸ hy)

/-- Two lines run one after the other: the second from what the first leaves. -/
theorem after_app (l₁ l₂ : List (HloOp T sg Val)) (V : Valuation T sg Val) :
    after (l₁ ++ l₂) V = after l₂ (after l₁ V) := by
  induction l₁ generalizing V with
  | nil => rfl
  | cons op l ih => rw [List.cons_append, after_cons, after_cons, ih]

/-- A reference the line writes nowhere keeps its contents. -/
theorem after_keep {ops : List (HloOp T sg Val)} {W : List (Ref sg .tc)} (h : WritesAre ops W)
    (V : Valuation T sg Val) {r : Ref sg .tc} (hr : r ∉ W) :
    after ops V (Proc.devRef .tc r) = V (Proc.devRef .tc r) :=
  after_of_forall_not_mem ops V (h.not_mem hr)

/-- The line read at its position `k`, where operation `op` stands: a reference none of the operations from `k` on writes
    ends as the first `k` operations leave it, and one that none after `k` writes ends as `op` leaves it. -/
theorem after_split {ops : List (HloOp T sg Val)} {W : List (Ref sg .tc)} (h : WritesAre ops W) (k : Nat)
    (op : HloOp T sg Val) (hk : ops[k]? = some op) (V : Valuation T sg Val) :
    (∀ r : Ref sg .tc, r ∉ W.drop k →
        after ops V (Proc.devRef .tc r) = after (ops.take k) V (Proc.devRef .tc r))
    ∧ (∀ r : Ref sg .tc, r ∉ W.drop (k + 1) →
        after ops V (Proc.devRef .tc r) = op.result (after (ops.take k) V) (Proc.devRef .tc r)) := by
  have e : after ops V = after (ops.drop k) (after (ops.take k) V) := by
    rw [← after_app, List.take_append_drop]
  obtain ⟨hlt, hget⟩ := List.getElem?_eq_some_iff.mp hk
  have hd : ops.drop k = op :: ops.drop (k + 1) := by
    rw [List.drop_eq_getElem_cons hlt, hget]
  constructor
  · intro r hr
    rw [e]
    exact after_keep (h.drop k) _ hr
  · intro r hr
    rw [e, hd, after_cons]
    exact after_keep (h.drop (k + 1)) _ hr

end Generic

/-- The references the operations of `ops_part0` write, one each, in order. -/
abbrev W_part0 : List (Ref sig .tc) :=
  [main_cst, main_v0, main_v1, main_cst_0, main_v2, main_v3, main_v4, main_v5, main_v6, main_v7, main_v8, main_call0_cst, main_call0_v0, main_v9, main_cst_1, main_v10, main_cst_2, main_v11, main_v12, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v13, main_v14, main_v15, main_v16, main_cst_3, main_v17, main_v18, main_v19, main_v20, main_v21, main_v22, main_v23, main_v24, main_v25, main_v26, main_v27, main_v28, main_cst_4, main_v29, main_v30, main_v31, main_v32, main_v33, main_v34, main_v35, main_v36, main_v37, main_v38, main_call2_cst, main_call2_v0, main_v39, main_cst_5, main_v40, main_cst_6, main_v41, main_v42, main_c_7, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v43, main_v44, main_v45, main_v46, main_cst_8, main_v47, main_v48]

/-- The references the operations of `ops_part1` write, one each, in order. -/
abbrev W_part1 : List (Ref sig .tc) :=
  [main_v49, main_v50, main_v51, main_v52, main_v53, main_v54, main_v55, main_v56, main_v57, main_v58, main_cst_9, main_v59, main_v60, main_v61, main_v62, main_v63, main_v64, main_v65, main_v66, main_v67, main_v68, main_cst_10, main_v69, main_v70, main_v71, main_v72, main_v73, main_v74, main_v75, main_v76, main_v77, main_v78, main_cst_11, main_v79, main_v80, main_c_12, main_v81, main_v82, main_c_13, main_v83, main_v84, main_v85, main_c_14, main_v86, main_v87, main_c_15, main_v88, main_v89, main_v90, main_c_16, main_v91, main_v92, main_c_17, main_v93, main_v94, main_v95, main_c_18, main_v96, main_v97, main_v98]

/-- The references the operations of `ops_part2` write, one each, in order. -/
abbrev W_part2 : List (Ref sig .tc) :=
  [main_v99, main_v100, main_v101, main_v102, main_v103, main_v104]

/-- The references @main's operations write, one each, in order. -/
abbrev W : List (Ref sig .tc) := W_part0 ++ (W_part1 ++ W_part2)

set_option maxRecDepth 8192 in
theorem ops_part0_writes : WritesAre (ops_part0 : List (HloOp τ sig (Elt F))) W_part0 := by unfold WritesAre; rfl
set_option maxRecDepth 8192 in
theorem ops_part1_writes : WritesAre (ops_part1 : List (HloOp τ sig (Elt F))) W_part1 := by unfold WritesAre; rfl
theorem ops_part2_writes : WritesAre (ops_part2 : List (HloOp τ sig (Elt F))) W_part2 := by unfold WritesAre; rfl

theorem ops_writes : WritesAre (ops : List (HloOp τ sig (Elt F))) W :=
  ops_part0_writes.append (ops_part1_writes.append ops_part2_writes)

/-! The argument arrays: no operation writes them. -/
theorem arg0_eq (V : Valuation τ sig (Elt F)) : after ops V (main_arg0 : DevRef τ sig) = V (main_arg0 : DevRef τ sig) :=
  after_keep ops_writes V (by decide)
theorem arg1_eq (V : Valuation τ sig (Elt F)) : after ops V (main_arg1 : DevRef τ sig) = V (main_arg1 : DevRef τ sig) :=
  after_keep ops_writes V (by decide)
theorem arg2_eq (V : Valuation τ sig (Elt F)) : after ops V (main_arg2 : DevRef τ sig) = V (main_arg2 : DevRef τ sig) :=
  after_keep ops_writes V (by decide)
theorem arg3_eq (V : Valuation τ sig (Elt F)) : after ops V (main_arg3 : DevRef τ sig) = V (main_arg3 : DevRef τ sig) :=
  after_keep ops_writes V (by decide)
theorem arg4_eq (V : Valuation τ sig (Elt F)) : after ops V (main_arg4 : DevRef τ sig) = V (main_arg4 : DevRef τ sig) :=
  after_keep ops_writes V (by decide)
theorem arg5_eq (V : Valuation τ sig (Elt F)) : after ops V (main_arg5 : DevRef τ sig) = V (main_arg5 : DevRef τ sig) :=
  after_keep ops_writes V (by decide)
theorem arg6_eq (V : Valuation τ sig (Elt F)) : after ops V (main_arg6 : DevRef τ sig) = V (main_arg6 : DevRef τ sig) :=
  after_keep ops_writes V (by decide)
theorem arg7_eq (V : Valuation τ sig (Elt F)) : after ops V (main_arg7 : DevRef τ sig) = V (main_arg7 : DevRef τ sig) :=
  after_keep ops_writes V (by decide)
theorem arg8_eq (V : Valuation τ sig (Elt F)) : after ops V (main_arg8 : DevRef τ sig) = V (main_arg8 : DevRef τ sig) :=
  after_keep ops_writes V (by decide)
theorem arg9_eq (V : Valuation τ sig (Elt F)) : after ops V (main_arg9 : DevRef τ sig) = V (main_arg9 : DevRef τ sig) :=
  after_keep ops_writes V (by decide)
theorem arg10_eq (V : Valuation τ sig (Elt F)) : after ops V (main_arg10 : DevRef τ sig) = V (main_arg10 : DevRef τ sig) :=
  after_keep ops_writes V (by decide)
theorem arg11_eq (V : Valuation τ sig (Elt F)) : after ops V (main_arg11 : DevRef τ sig) = V (main_arg11 : DevRef τ sig) :=
  after_keep ops_writes V (by decide)

/-- The frame: @main runs (terminates, no fault) and its argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_after m ρ)

end Cert.ReferenceIdeal.RefRun

end
-- ==== Proof.RefSsaA.lean ====
import proofs.«172356_j10943576670908_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference line, operation by operation (operations 1 … 58 of 172)

Every operation of the line writes a buffer no other operation writes, and reads buffers written before it. So the contents
the whole line leaves in an operation's result buffer are the operation's function of the contents the whole line leaves in
its operand buffers: read the line at the operation's position (`after_split`) — the operands are final before it, the result
right after it — and the operation's own result lemma gives the function. One equation per operation, each over
`after ops V` only. -/
theorem ssa_main_cst (V : Valuation τ sig (Elt F)) :
    after ops V (main_cst : DevRef τ sig) = constant S_ .f32 0xFF800000#32 := by
  obtain ⟨hin, hout⟩ := after_split ops_writes 0 _ rfl V
  rw [hout main_cst (by decide)]
  generalize after (List.take 0 ops) V = V'
  simp only [nullary_result', unary_result', binary_result', ternary_result', reshape_result', nary4_result']
  <;> rfl

theorem ssa_main_v0 (V : Valuation τ sig (Elt F)) :
    after ops V (main_v0 : DevRef τ sig) = Host.reduce FloatOps.maximumf (after ops V (main_arg0 : DevRef τ sig)) (after ops V (main_cst : DevRef τ sig)) reducesTo_S2x12000x35x7_S2x12000x35_d3 h_S_ := by
  obtain ⟨hin, hout⟩ := after_split ops_writes 1 _ rfl V
  rw [hout main_v0 (by decide), hin main_arg0 (by decide), hin main_cst (by decide)]
  generalize after (List.take 1 ops) V = V'
  simp only [nullary_result', unary_result', binary_result', ternary_result', reshape_result', nary4_result']
  <;> rfl

theorem ssa_main_v1 (V : Valuation τ sig (Elt F)) :
    after ops V (main_v1 : DevRef τ sig) = broadcastInDim S2x12000x35x1 ![0, 1, 2] bcast_S2x12000x35_S2x12000x35x1_0_1_2 (after ops V (main_v0 : DevRef τ sig)) := by
  obtain ⟨hin, hout⟩ := after_split ops_writes 2 _ rfl V
  rw [hout main_v1 (by decide), hin main_v0 (by decide)]
  generalize after (List.take 2 ops) V = V'
  simp only [nullary_result', unary_result', binary_result', ternary_result', reshape_result', nary4_result']
  <;> rfl

theorem ssa_main_cst_0 (V : Valuation τ sig (Elt F)) :
    after ops V (main_cst_0 : DevRef τ sig) = constant S_ .f32 0x00000000#32 := by
  obtain ⟨hin, hout⟩ := after_split ops_writes 3 _ rfl V
  rw [hout main_cst_0 (by decide)]
  generalize after (List.take 3 ops) V = V'
  simp only [nullary_result', unary_result', binary_result', ternary_result', reshape_result', nary4_result']
  <;> rfl

theorem ssa_main_v2 (V : Valuation τ sig (Elt F)) :
    after ops V (main_v2 : DevRef τ sig) = broadcastInDim S2x12000x35x1 ![] bcast_S_S2x12000x35x1 (after ops V (main_cst_0 : DevRef τ sig)) := by
  obtain ⟨hin, hout⟩ := after_split ops_writes 4 _ rfl V
  rw [hout main_v2 (by decide), hin main_cst_0 (by decide)]
  generalize after (List.take 4 ops) V = V'
  simp only [nullary_result', unary_result', binary_result', ternary_result', reshape_result', nary4_result']
  <;> rfl

theorem ssa_main_v3 (V : Valuation τ sig (Elt F)) :
    after ops V (main_v3 : DevRef τ sig) = cmpf .une (after ops V (main_v1 : DevRef τ sig)) (after ops V (main_v2 : DevRef τ sig)) := by
  obtain ⟨hin, hout⟩ := after_split ops_writes 5 _ rfl V
  rw [hout main_v3 (by decide), hin main_v1 (by decide), hin main_v2 (by decide)]
  generalize after (List.take 5 ops) V = V'
  simp only [nullary_result', unary_result', binary_result', ternary_result', reshape_result', nary4_result']
  <;> rfl

theorem ssa_main_v4 (V : Valuation τ sig (Elt F)) :
    after ops V (main_v4 : DevRef τ sig) = uitofp .f32 (after ops V (main_v3 : DevRef τ sig)) := by
  obtain ⟨hin, hout⟩ := after_split ops_writes 6 _ rfl V
  rw [hout main_v4 (by decide), hin main_v3 (by decide)]
  generalize after (List.take 6 ops) V = V'
  simp only [nullary_result', unary_result', binary_result', ternary_result', reshape_result', nary4_result']
  <;> rfl

theorem ssa_main_v5 (V : Valuation τ sig (Elt F)) :
    after ops V (main_v5 : DevRef τ sig) = Host.dotGeneral dot_S2x12000x35x7_S7x16_S2x12000x35x16_3_0_012_1_n_n none (after ops V (main_arg0 : DevRef τ sig)) (after ops V (main_arg2 : DevRef τ sig)) := by
  obtain ⟨hin, hout⟩ := after_split ops_writes 7 _ rfl V
  rw [hout main_v5 (by decide), hin main_arg0 (by decide), hin main_arg2 (by decide)]
  generalize after (List.take 7 ops) V = V'
  simp only [nullary_result', unary_result', binary_result', ternary_result', reshape_result', nary4_result']
  <;> rfl

theorem ssa_main_v6 (V : Valuation τ sig (Elt F)) :
    after ops V (main_v6 : DevRef τ sig) = broadcastInDim S1x1x1x16 ![3] bcast_S16_S1x1x1x16_3 (after ops V (main_arg3 : DevRef τ sig)) := by
  obtain ⟨hin, hout⟩ := after_split ops_writes 8 _ rfl V
  rw [hout main_v6 (by decide), hin main_arg3 (by decide)]
  generalize after (List.take 8 ops) V = V'
  simp only [nullary_result', unary_result', binary_result', ternary_result', reshape_result', nary4_result']
  <;> rfl

theorem ssa_main_v7 (V : Valuation τ sig (Elt F)) :
    after ops V (main_v7 : DevRef τ sig) = broadcastInDim S2x12000x35x16 ![0, 1, 2, 3] bcast_S1x1x1x16_S2x12000x35x16_0_1_2_3 (after ops V (main_v6 : DevRef τ sig)) := by
  obtain ⟨hin, hout⟩ := after_split ops_writes 9 _ rfl V
  rw [hout main_v7 (by decide), hin main_v6 (by decide)]
  generalize after (List.take 9 ops) V = V'
  simp only [nullary_result', unary_result', binary_result', ternary_result', reshape_result', nary4_result']
  <;> rfl

theorem ssa_main_v8 (V : Valuation τ sig (Elt F)) :
    after ops V (main_v8 : DevRef τ sig) = addf (after ops V (main_v5 : DevRef τ sig)) (after ops V (main_v7 : DevRef τ sig)) := by
  obtain ⟨hin, hout⟩ := after_split ops_writes 10 _ rfl V
  rw [hout main_v8 (by decide), hin main_v5 (by decide), hin main_v7 (by decide)]
  generalize after (List.take 10 ops) V = V'
  simp only [nullary_result', unary_result', binary_result', ternary_result', reshape_result', nary4_result']
  <;> rfl

theorem ssa_main_call0_cst (V : Valuation τ sig (Elt F)) :
    after ops V (main_call0_cst : DevRef τ sig) = constant S_ .f32 0x00000000#32 := by
  obtain ⟨hin, hout⟩ := after_split ops_writes 11 _ rfl V
  rw [hout main_call0_cst (by decide)]
  generalize after (List.take 11 ops) V = V'
  simp only [nullary_result', unary_result', binary_result', ternary_result', reshape_result', nary4_result']
  <;> rfl

theorem ssa_main_call0_v0 (V : Valuation τ sig (Elt F)) :
    after ops V (main_call0_v0 : DevRef τ sig) = broadcastInDim S2x12000x35x16 ![] bcast_S_S2x12000x35x16 (after ops V (main_call0_cst : DevRef τ sig)) := by
  obtain ⟨hin, hout⟩ := after_split ops_writes 12 _ rfl V
  rw [hout main_call0_v0 (by decide), hin main_call0_cst (by decide)]
  generalize after (List.take 12 ops) V = V'
  simp only [nullary_result', unary_result', binary_result', ternary_result', reshape_result', nary4_result']
  <;> rfl

theorem ssa_main_v9 (V : Valuation τ sig (Elt F)) :
    after ops V (main_v9 : DevRef τ sig) = maximumf (after ops V (main_v8 : DevRef τ sig)) (after ops V (main_call0_v0 : DevRef τ sig)) := by
  obtain ⟨hin, hout⟩ := after_split ops_writes 13 _ rfl V
  rw [hout main_v9 (by decide), hin main_v8 (by decide), hin main_call0_v0 (by decide)]
  generalize after (List.take 13 ops) V = V'
  simp only [nullary_result', unary_result', binary_result', ternary_result', reshape_result', nary4_result']
  <;> rfl

theorem ssa_main_cst_1 (V : Valuation τ sig (Elt F)) :
    after ops V (main_cst_1 : DevRef τ sig) = constant S_ .f32 0x00000000#32 := by
  obtain ⟨hin, hout⟩ := after_split ops_writes 14 _ rfl V
  rw [hout main_cst_1 (by decide)]
  generalize after (List.take 14 ops) V = V'
  simp only [nullary_result', unary_result', binary_result', ternary_result', reshape_result', nary4_result']
  <;> rfl

theorem ssa_main_v10 (V : Valuation τ sig (Elt F)) :
    after ops V (main_v10 : DevRef τ sig) = Host.reduceAdd (after ops V (main_v9 : DevRef τ sig)) (after ops V (main_cst_1 : DevRef τ sig)) reducesTo_S2x12000x35x16_S16_d0_1_2 h_S_ := by
  obtain ⟨hin, hout⟩ := after_split ops_writes 15 _ rfl V
  rw [hout main_v10 (by decide), hin main_v9 (by decide), hin main_cst_1 (by decide)]
  generalize after (List.take 15 ops) V = V'
  simp only [nullary_result', unary_result', binary_result', ternary_result', reshape_result', nary4_result']
  <;> rfl

theorem ssa_main_cst_2 (V : Valuation τ sig (Elt F)) :
    after ops V (main_cst_2 : DevRef τ sig) = constant S_ .f32 0x494D1400#32 := by
  obtain ⟨hin, hout⟩ := after_split ops_writes 16 _ rfl V
  rw [hout main_cst_2 (by decide)]
  generalize after (List.take 16 ops) V = V'
  simp only [nullary_result', unary_result', binary_result', ternary_result', reshape_result', nary4_result']
  <;> rfl

theorem ssa_main_v11 (V : Valuation τ sig (Elt F)) :
    after ops V (main_v11 : DevRef τ sig) = broadcastInDim S16 ![] bcast_S_S16 (after ops V (main_cst_2 : DevRef τ sig)) := by
  obtain ⟨hin, hout⟩ := after_split ops_writes 17 _ rfl V
  rw [hout main_v11 (by decide), hin main_cst_2 (by decide)]
  generalize after (List.take 17 ops) V = V'
  simp only [nullary_result', unary_result', binary_result', ternary_result', reshape_result', nary4_result']
  <;> rfl

theorem ssa_main_v12 (V : Valuation τ sig (Elt F)) :
    after ops V (main_v12 : DevRef τ sig) = Host.divf (after ops V (main_v10 : DevRef τ sig)) (after ops V (main_v11 : DevRef τ sig)) := by
  obtain ⟨hin, hout⟩ := after_split ops_writes 18 _ rfl V
  rw [hout main_v12 (by decide), hin main_v10 (by decide), hin main_v11 (by decide)]
  generalize after (List.take 18 ops) V = V'
  simp only [nullary_result', unary_result', binary_result', ternary_result', reshape_result', nary4_result']
  <;> rfl

theorem ssa_main_c (V : Valuation τ sig (Elt F)) :
    after ops V (main_c : DevRef τ sig) = constantI S_ 32 0#32 := by
  obtain ⟨hin, hout⟩ := after_split ops_writes 19 _ rfl V
  rw [hout main_c (by decide)]
  generalize after (List.take 19 ops) V = V'
  simp only [nullary_result', unary_result', binary_result', ternary_result', reshape_result', nary4_result']
  <;> rfl

theorem ssa_main_call1_cst (V : Valuation τ sig (Elt F)) :
    after ops V (main_call1_cst : DevRef τ sig) = constant S_ .f32 0x00000000#32 := by
  obtain ⟨hin, hout⟩ := after_split ops_writes 20 _ rfl V
  rw [hout main_call1_cst (by decide)]
  generalize after (List.take 20 ops) V = V'
  simp only [nullary_result', unary_result', binary_result', ternary_result', reshape_result', nary4_result']
  <;> rfl

theorem ssa_main_call1_v0 (V : Valuation τ sig (Elt F)) :
    after ops V (main_call1_v0 : DevRef τ sig) = Host.reduceAdd (after ops V (main_v9 : DevRef τ sig)) (after ops V (main_call1_cst : DevRef τ sig)) reducesTo_S2x12000x35x16_S16_d0_1_2 h_S_ := by
  obtain ⟨hin, hout⟩ := after_split ops_writes 21 _ rfl V
  rw [hout main_call1_v0 (by decide), hin main_v9 (by decide), hin main_call1_cst (by decide)]
  generalize after (List.take 21 ops) V = V'
  simp only [nullary_result', unary_result', binary_result', ternary_result', reshape_result', nary4_result']
  <;> rfl

theorem ssa_main_call1_v1 (V : Valuation τ sig (Elt F)) :
    after ops V (main_call1_v1 : DevRef τ sig) = broadcastInDim S1x1x1x16 ![3] bcast_S16_S1x1x1x16_3 (after ops V (main_call1_v0 : DevRef τ sig)) := by
  obtain ⟨hin, hout⟩ := after_split ops_writes 22 _ rfl V
  rw [hout main_call1_v1 (by decide), hin main_call1_v0 (by decide)]
  generalize after (List.take 22 ops) V = V'
  simp only [nullary_result', unary_result', binary_result', ternary_result', reshape_result', nary4_result']
  <;> rfl

theorem ssa_main_call1_cst_0 (V : Valuation τ sig (Elt F)) :
    after ops V (main_call1_cst_0 : DevRef τ sig) = constant S_ .f32 0x494D1400#32 := by
  obtain ⟨hin, hout⟩ := after_split ops_writes 23 _ rfl V
  rw [hout main_call1_cst_0 (by decide)]
  generalize after (List.take 23 ops) V = V'
  simp only [nullary_result', unary_result', binary_result', ternary_result', reshape_result', nary4_result']
  <;> rfl

theorem ssa_main_call1_v2 (V : Valuation τ sig (Elt F)) :
    after ops V (main_call1_v2 : DevRef τ sig) = broadcastInDim S1x1x1x16 ![] bcast_S_S1x1x1x16 (after ops V (main_call1_cst_0 : DevRef τ sig)) := by
  obtain ⟨hin, hout⟩ := after_split ops_writes 24 _ rfl V
  rw [hout main_call1_v2 (by decide), hin main_call1_cst_0 (by decide)]
  generalize after (List.take 24 ops) V = V'
  simp only [nullary_result', unary_result', binary_result', ternary_result', reshape_result', nary4_result']
  <;> rfl

theorem ssa_main_call1_v3 (V : Valuation τ sig (Elt F)) :
    after ops V (main_call1_v3 : DevRef τ sig) = Host.divf (after ops V (main_call1_v1 : DevRef τ sig)) (after ops V (main_call1_v2 : DevRef τ sig)) := by
  obtain ⟨hin, hout⟩ := after_split ops_writes 25 _ rfl V
  rw [hout main_call1_v3 (by decide), hin main_call1_v1 (by decide), hin main_call1_v2 (by decide)]
  generalize after (List.take 25 ops) V = V'
  simp only [nullary_result', unary_result', binary_result', ternary_result', reshape_result', nary4_result']
  <;> rfl

theorem ssa_main_call1_v4 (V : Valuation τ sig (Elt F)) :
    after ops V (main_call1_v4 : DevRef τ sig) = broadcastInDim S2x12000x35x16 ![0, 1, 2, 3] bcast_S1x1x1x16_S2x12000x35x16_0_1_2_3 (after ops V (main_call1_v3 : DevRef τ sig)) := by
  obtain ⟨hin, hout⟩ := after_split ops_writes 26 _ rfl V
  rw [hout main_call1_v4 (by decide), hin main_call1_v3 (by decide)]
  generalize after (List.take 26 ops) V = V'
  simp only [nullary_result', unary_result', binary_result', ternary_result', reshape_result', nary4_result']
  <;> rfl

theorem ssa_main_call1_v5 (V : Valuation τ sig (Elt F)) :
    after ops V (main_call1_v5 : DevRef τ sig) = subf (after ops V (main_v9 : DevRef τ sig)) (after ops V (main_call1_v4 : DevRef τ sig)) := by
  obtain ⟨hin, hout⟩ := after_split ops_writes 27 _ rfl V
  rw [hout main_call1_v5 (by decide), hin main_v9 (by decide), hin main_call1_v4 (by decide)]
  generalize after (List.take 27 ops) V = V'
  simp only [nullary_result', unary_result', binary_result', ternary_result', reshape_result', nary4_result']
  <;> rfl

theorem ssa_main_call1_v6 (V : Valuation τ sig (Elt F)) :
    after ops V (main_call1_v6 : DevRef τ sig) = mulf (after ops V (main_call1_v5 : DevRef τ sig)) (after ops V (main_call1_v5 : DevRef τ sig)) := by
  obtain ⟨hin, hout⟩ := after_split ops_writes 28 _ rfl V
  rw [hout main_call1_v6 (by decide), hin main_call1_v5 (by decide)]
  generalize after (List.take 28 ops) V = V'
  simp only [nullary_result', unary_result', binary_result', ternary_result', reshape_result', nary4_result']
  <;> rfl

theorem ssa_main_call1_v7 (V : Valuation τ sig (Elt F)) :
    after ops V (main_call1_v7 : DevRef τ sig) = sitofp .f32 (after ops V (main_c : DevRef τ sig)) := by
  obtain ⟨hin, hout⟩ := after_split ops_writes 29 _ rfl V
  rw [hout main_call1_v7 (by decide), hin main_c (by decide)]
  generalize after (List.take 29 ops) V = V'
  simp only [nullary_result', unary_result', binary_result', ternary_result', reshape_result', nary4_result']
  <;> rfl

theorem ssa_main_call1_cst_1 (V : Valuation τ sig (Elt F)) :
    after ops V (main_call1_cst_1 : DevRef τ sig) = constant S_ .f32 0x494D1400#32 := by
  obtain ⟨hin, hout⟩ := after_split ops_writes 30 _ rfl V
  rw [hout main_call1_cst_1 (by decide)]
  generalize after (List.take 30 ops) V = V'
  simp only [nullary_result', unary_result', binary_result', ternary_result', reshape_result', nary4_result']
  <;> rfl

theorem ssa_main_call1_v8 (V : Valuation τ sig (Elt F)) :
    after ops V (main_call1_v8 : DevRef τ sig) = subf (after ops V (main_call1_cst_1 : DevRef τ sig)) (after ops V (main_call1_v7 : DevRef τ sig)) := by
  obtain ⟨hin, hout⟩ := after_split ops_writes 31 _ rfl V
  rw [hout main_call1_v8 (by decide), hin main_call1_cst_1 (by decide), hin main_call1_v7 (by decide)]
  generalize after (List.take 31 ops) V = V'
  simp only [nullary_result', unary_result', binary_result', ternary_result', reshape_result', nary4_result']
  <;> rfl

theorem ssa_main_call1_cst_2 (V : Valuation τ sig (Elt F)) :
    after ops V (main_call1_cst_2 : DevRef τ sig) = constant S_ .f32 0x00000000#32 := by
  obtain ⟨hin, hout⟩ := after_split ops_writes 32 _ rfl V
  rw [hout main_call1_cst_2 (by decide)]
  generalize after (List.take 32 ops) V = V'
  simp only [nullary_result', unary_result', binary_result', ternary_result', reshape_result', nary4_result']
  <;> rfl

theorem ssa_main_call1_v9 (V : Valuation τ sig (Elt F)) :
    after ops V (main_call1_v9 : DevRef τ sig) = Host.reduceAdd (after ops V (main_call1_v6 : DevRef τ sig)) (after ops V (main_call1_cst_2 : DevRef τ sig)) reducesTo_S2x12000x35x16_S16_d0_1_2 h_S_ := by
  obtain ⟨hin, hout⟩ := after_split ops_writes 33 _ rfl V
  rw [hout main_call1_v9 (by decide), hin main_call1_v6 (by decide), hin main_call1_cst_2 (by decide)]
  generalize after (List.take 33 ops) V = V'
  simp only [nullary_result', unary_result', binary_result', ternary_result', reshape_result', nary4_result']
  <;> rfl

theorem ssa_main_call1_v10 (V : Valuation τ sig (Elt F)) :
    after ops V (main_call1_v10 : DevRef τ sig) = broadcastInDim S16 ![] bcast_S_S16 (after ops V (main_call1_v8 : DevRef τ sig)) := by
  obtain ⟨hin, hout⟩ := after_split ops_writes 34 _ rfl V
  rw [hout main_call1_v10 (by decide), hin main_call1_v8 (by decide)]
  generalize after (List.take 34 ops) V = V'
  simp only [nullary_result', unary_result', binary_result', ternary_result', reshape_result', nary4_result']
  <;> rfl

theorem ssa_main_call1_v11 (V : Valuation τ sig (Elt F)) :
    after ops V (main_call1_v11 : DevRef τ sig) = Host.divf (after ops V (main_call1_v9 : DevRef τ sig)) (after ops V (main_call1_v10 : DevRef τ sig)) := by
  obtain ⟨hin, hout⟩ := after_split ops_writes 35 _ rfl V
  rw [hout main_call1_v11 (by decide), hin main_call1_v9 (by decide), hin main_call1_v10 (by decide)]
  generalize after (List.take 35 ops) V = V'
  simp only [nullary_result', unary_result', binary_result', ternary_result', reshape_result', nary4_result']
  <;> rfl

theorem ssa_main_call1_cst_3 (V : Valuation τ sig (Elt F)) :
    after ops V (main_call1_cst_3 : DevRef τ sig) = constant S_ .f32 0x00000000#32 := by
  obtain ⟨hin, hout⟩ := after_split ops_writes 36 _ rfl V
  rw [hout main_call1_cst_3 (by decide)]
  generalize after (List.take 36 ops) V = V'
  simp only [nullary_result', unary_result', binary_result', ternary_result', reshape_result', nary4_result']
  <;> rfl

theorem ssa_main_call1_v12 (V : Valuation τ sig (Elt F)) :
    after ops V (main_call1_v12 : DevRef τ sig) = cmpf .ogt (after ops V (main_call1_v8 : DevRef τ sig)) (after ops V (main_call1_cst_3 : DevRef τ sig)) := by
  obtain ⟨hin, hout⟩ := after_split ops_writes 37 _ rfl V
  rw [hout main_call1_v12 (by decide), hin main_call1_v8 (by decide), hin main_call1_cst_3 (by decide)]
  generalize after (List.take 37 ops) V = V'
  simp only [nullary_result', unary_result', binary_result', ternary_result', reshape_result', nary4_result']
  <;> rfl

theorem ssa_main_call1_cst_4 (V : Valuation τ sig (Elt F)) :
    after ops V (main_call1_cst_4 : DevRef τ sig) = constant S_ .f32 0x7FC00000#32 := by
  obtain ⟨hin, hout⟩ := after_split ops_writes 38 _ rfl V
  rw [hout main_call1_cst_4 (by decide)]
  generalize after (List.take 38 ops) V = V'
  simp only [nullary_result', unary_result', binary_result', ternary_result', reshape_result', nary4_result']
  <;> rfl

theorem ssa_main_call1_call0_v0 (V : Valuation τ sig (Elt F)) :
    after ops V (main_call1_call0_v0 : DevRef τ sig) = id (after ops V (main_call1_cst_4 : DevRef τ sig)) := by
  obtain ⟨hin, hout⟩ := after_split ops_writes 39 _ rfl V
  rw [hout main_call1_call0_v0 (by decide), hin main_call1_cst_4 (by decide)]
  generalize after (List.take 39 ops) V = V'
  simp only [nullary_result', unary_result', binary_result', ternary_result', reshape_result', nary4_result']
  <;> rfl

theorem ssa_main_call1_call0_v1 (V : Valuation τ sig (Elt F)) :
    after ops V (main_call1_call0_v1 : DevRef τ sig) = broadcastInDim S16 ![] bcast_S_S16 (after ops V (main_call1_call0_v0 : DevRef τ sig)) := by
  obtain ⟨hin, hout⟩ := after_split ops_writes 40 _ rfl V
  rw [hout main_call1_call0_v1 (by decide), hin main_call1_call0_v0 (by decide)]
  generalize after (List.take 40 ops) V = V'
  simp only [nullary_result', unary_result', binary_result', ternary_result', reshape_result', nary4_result']
  <;> rfl

theorem ssa_main_v13 (V : Valuation τ sig (Elt F)) :
    after ops V (main_v13 : DevRef τ sig) = select (broadcastInDim S16 ![] bcast_S_S16 (after ops V (main_call1_v12 : DevRef τ sig))) (after ops V (main_call1_v11 : DevRef τ sig)) (after ops V (main_call1_call0_v1 : DevRef τ sig)) := by
  obtain ⟨hin, hout⟩ := after_split ops_writes 41 _ rfl V
  rw [hout main_v13 (by decide), hin main_call1_v12 (by decide), hin main_call1_v11 (by decide), hin main_call1_call0_v1 (by decide)]
  generalize after (List.take 41 ops) V = V'
  simp only [nullary_result', unary_result', binary_result', ternary_result', reshape_result', nary4_result']
  <;> rfl

theorem ssa_main_v14 (V : Valuation τ sig (Elt F)) :
    after ops V (main_v14 : DevRef τ sig) = broadcastInDim S1x1x1x16 ![3] bcast_S16_S1x1x1x16_3 (after ops V (main_v12 : DevRef τ sig)) := by
  obtain ⟨hin, hout⟩ := after_split ops_writes 42 _ rfl V
  rw [hout main_v14 (by decide), hin main_v12 (by decide)]
  generalize after (List.take 42 ops) V = V'
  simp only [nullary_result', unary_result', binary_result', ternary_result', reshape_result', nary4_result']
  <;> rfl

theorem ssa_main_v15 (V : Valuation τ sig (Elt F)) :
    after ops V (main_v15 : DevRef τ sig) = broadcastInDim S2x12000x35x16 ![0, 1, 2, 3] bcast_S1x1x1x16_S2x12000x35x16_0_1_2_3 (after ops V (main_v14 : DevRef τ sig)) := by
  obtain ⟨hin, hout⟩ := after_split ops_writes 43 _ rfl V
  rw [hout main_v15 (by decide), hin main_v14 (by decide)]
  generalize after (List.take 43 ops) V = V'
  simp only [nullary_result', unary_result', binary_result', ternary_result', reshape_result', nary4_result']
  <;> rfl

theorem ssa_main_v16 (V : Valuation τ sig (Elt F)) :
    after ops V (main_v16 : DevRef τ sig) = subf (after ops V (main_v9 : DevRef τ sig)) (after ops V (main_v15 : DevRef τ sig)) := by
  obtain ⟨hin, hout⟩ := after_split ops_writes 44 _ rfl V
  rw [hout main_v16 (by decide), hin main_v9 (by decide), hin main_v15 (by decide)]
  generalize after (List.take 44 ops) V = V'
  simp only [nullary_result', unary_result', binary_result', ternary_result', reshape_result', nary4_result']
  <;> rfl

theorem ssa_main_cst_3 (V : Valuation τ sig (Elt F)) :
    after ops V (main_cst_3 : DevRef τ sig) = constant S_ .f32 0x3727C5AC#32 := by
  obtain ⟨hin, hout⟩ := after_split ops_writes 45 _ rfl V
  rw [hout main_cst_3 (by decide)]
  generalize after (List.take 45 ops) V = V'
  simp only [nullary_result', unary_result', binary_result', ternary_result', reshape_result', nary4_result']
  <;> rfl

theorem ssa_main_v17 (V : Valuation τ sig (Elt F)) :
    after ops V (main_v17 : DevRef τ sig) = broadcastInDim S16 ![] bcast_S_S16 (after ops V (main_cst_3 : DevRef τ sig)) := by
  obtain ⟨hin, hout⟩ := after_split ops_writes 46 _ rfl V
  rw [hout main_v17 (by decide), hin main_cst_3 (by decide)]
  generalize after (List.take 46 ops) V = V'
  simp only [nullary_result', unary_result', binary_result', ternary_result', reshape_result', nary4_result']
  <;> rfl

theorem ssa_main_v18 (V : Valuation τ sig (Elt F)) :
    after ops V (main_v18 : DevRef τ sig) = addf (after ops V (main_v13 : DevRef τ sig)) (after ops V (main_v17 : DevRef τ sig)) := by
  obtain ⟨hin, hout⟩ := after_split ops_writes 47 _ rfl V
  rw [hout main_v18 (by decide), hin main_v13 (by decide), hin main_v17 (by decide)]
  generalize after (List.take 47 ops) V = V'
  simp only [nullary_result', unary_result', binary_result', ternary_result', reshape_result', nary4_result']
  <;> rfl

theorem ssa_main_v19 (V : Valuation τ sig (Elt F)) :
    after ops V (main_v19 : DevRef τ sig) = Host.rsqrt (after ops V (main_v18 : DevRef τ sig)) := by
  obtain ⟨hin, hout⟩ := after_split ops_writes 48 _ rfl V
  rw [hout main_v19 (by decide), hin main_v18 (by decide)]
  generalize after (List.take 48 ops) V = V'
  simp only [nullary_result', unary_result', binary_result', ternary_result', reshape_result', nary4_result']
  <;> rfl

theorem ssa_main_v20 (V : Valuation τ sig (Elt F)) :
    after ops V (main_v20 : DevRef τ sig) = broadcastInDim S1x1x1x16 ![3] bcast_S16_S1x1x1x16_3 (after ops V (main_v19 : DevRef τ sig)) := by
  obtain ⟨hin, hout⟩ := after_split ops_writes 49 _ rfl V
  rw [hout main_v20 (by decide), hin main_v19 (by decide)]
  generalize after (List.take 49 ops) V = V'
  simp only [nullary_result', unary_result', binary_result', ternary_result', reshape_result', nary4_result']
  <;> rfl

theorem ssa_main_v21 (V : Valuation τ sig (Elt F)) :
    after ops V (main_v21 : DevRef τ sig) = broadcastInDim S2x12000x35x16 ![0, 1, 2, 3] bcast_S1x1x1x16_S2x12000x35x16_0_1_2_3 (after ops V (main_v20 : DevRef τ sig)) := by
  obtain ⟨hin, hout⟩ := after_split ops_writes 50 _ rfl V
  rw [hout main_v21 (by decide), hin main_v20 (by decide)]
  generalize after (List.take 50 ops) V = V'
  simp only [nullary_result', unary_result', binary_result', ternary_result', reshape_result', nary4_result']
  <;> rfl

theorem ssa_main_v22 (V : Valuation τ sig (Elt F)) :
    after ops V (main_v22 : DevRef τ sig) = mulf (after ops V (main_v16 : DevRef τ sig)) (after ops V (main_v21 : DevRef τ sig)) := by
  obtain ⟨hin, hout⟩ := after_split ops_writes 51 _ rfl V
  rw [hout main_v22 (by decide), hin main_v16 (by decide), hin main_v21 (by decide)]
  generalize after (List.take 51 ops) V = V'
  simp only [nullary_result', unary_result', binary_result', ternary_result', reshape_result', nary4_result']
  <;> rfl

theorem ssa_main_v23 (V : Valuation τ sig (Elt F)) :
    after ops V (main_v23 : DevRef τ sig) = broadcastInDim S1x1x1x16 ![3] bcast_S16_S1x1x1x16_3 (after ops V (main_arg4 : DevRef τ sig)) := by
  obtain ⟨hin, hout⟩ := after_split ops_writes 52 _ rfl V
  rw [hout main_v23 (by decide), hin main_arg4 (by decide)]
  generalize after (List.take 52 ops) V = V'
  simp only [nullary_result', unary_result', binary_result', ternary_result', reshape_result', nary4_result']
  <;> rfl

theorem ssa_main_v24 (V : Valuation τ sig (Elt F)) :
    after ops V (main_v24 : DevRef τ sig) = broadcastInDim S2x12000x35x16 ![0, 1, 2, 3] bcast_S1x1x1x16_S2x12000x35x16_0_1_2_3 (after ops V (main_v23 : DevRef τ sig)) := by
  obtain ⟨hin, hout⟩ := after_split ops_writes 53 _ rfl V
  rw [hout main_v24 (by decide), hin main_v23 (by decide)]
  generalize after (List.take 53 ops) V = V'
  simp only [nullary_result', unary_result', binary_result', ternary_result', reshape_result', nary4_result']
  <;> rfl

theorem ssa_main_v25 (V : Valuation τ sig (Elt F)) :
    after ops V (main_v25 : DevRef τ sig) = mulf (after ops V (main_v22 : DevRef τ sig)) (after ops V (main_v24 : DevRef τ sig)) := by
  obtain ⟨hin, hout⟩ := after_split ops_writes 54 _ rfl V
  rw [hout main_v25 (by decide), hin main_v22 (by decide), hin main_v24 (by decide)]
  generalize after (List.take 54 ops) V = V'
  simp only [nullary_result', unary_result', binary_result', ternary_result', reshape_result', nary4_result']
  <;> rfl

theorem ssa_main_v26 (V : Valuation τ sig (Elt F)) :
    after ops V (main_v26 : DevRef τ sig) = broadcastInDim S1x1x1x16 ![3] bcast_S16_S1x1x1x16_3 (after ops V (main_arg5 : DevRef τ sig)) := by
  obtain ⟨hin, hout⟩ := after_split ops_writes 55 _ rfl V
  rw [hout main_v26 (by decide), hin main_arg5 (by decide)]
  generalize after (List.take 55 ops) V = V'
  simp only [nullary_result', unary_result', binary_result', ternary_result', reshape_result', nary4_result']
  <;> rfl

theorem ssa_main_v27 (V : Valuation τ sig (Elt F)) :
    after ops V (main_v27 : DevRef τ sig) = broadcastInDim S2x12000x35x16 ![0, 1, 2, 3] bcast_S1x1x1x16_S2x12000x35x16_0_1_2_3 (after ops V (main_v26 : DevRef τ sig)) := by
  obtain ⟨hin, hout⟩ := after_split ops_writes 56 _ rfl V
  rw [hout main_v27 (by decide), hin main_v26 (by decide)]
  generalize after (List.take 56 ops) V = V'
  simp only [nullary_result', unary_result', binary_result', ternary_result', reshape_result', nary4_result']
  <;> rfl

theorem ssa_main_v28 (V : Valuation τ sig (Elt F)) :
    after ops V (main_v28 : DevRef τ sig) = addf (after ops V (main_v25 : DevRef τ sig)) (after ops V (main_v27 : DevRef τ sig)) := by
  obtain ⟨hin, hout⟩ := after_split ops_writes 57 _ rfl V
  rw [hout main_v28 (by decide), hin main_v25 (by decide), hin main_v27 (by decide)]
  generalize after (List.take 57 ops) V = V'
  simp only [nullary_result', unary_result', binary_result', ternary_result', reshape_result', nary4_result']
  <;> rfl

end Cert.ReferenceIdeal.RefRun

end
-- ==== Proof.RefSsaB.lean ====
import proofs.«172356_j10943576670908_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference line, operation by operation (operations 59 … 116 of 172)

Every operation of the line writes a buffer no other operation writes, and reads buffers written before it. So the contents
the whole line leaves in an operation's result buffer are the operation's function of the contents the whole line leaves in
its operand buffers: read the line at the operation's position (`after_split`) — the operands are final before it, the result
right after it — and the operation's own result lemma gives the function. One equation per operation, each over
`after ops V` only. -/
theorem ssa_main_cst_4 (V : Valuation τ sig (Elt F)) :
    after ops V (main_cst_4 : DevRef τ sig) = constant S_ .f32 0xFF800000#32 := by
  obtain ⟨hin, hout⟩ := after_split ops_writes 58 _ rfl V
  rw [hout main_cst_4 (by decide)]
  generalize after (List.take 58 ops) V = V'
  simp only [nullary_result', unary_result', binary_result', ternary_result', reshape_result', nary4_result']
  <;> rfl

theorem ssa_main_v29 (V : Valuation τ sig (Elt F)) :
    after ops V (main_v29 : DevRef τ sig) = Host.reduce FloatOps.maximumf (after ops V (main_v28 : DevRef τ sig)) (after ops V (main_cst_4 : DevRef τ sig)) reducesTo_S2x12000x35x16_S2x12000x16_d2 h_S_ := by
  obtain ⟨hin, hout⟩ := after_split ops_writes 59 _ rfl V
  rw [hout main_v29 (by decide), hin main_v28 (by decide), hin main_cst_4 (by decide)]
  generalize after (List.take 59 ops) V = V'
  simp only [nullary_result', unary_result', binary_result', ternary_result', reshape_result', nary4_result']
  <;> rfl

theorem ssa_main_v30 (V : Valuation τ sig (Elt F)) :
    after ops V (main_v30 : DevRef τ sig) = broadcastInDim S2x12000x1x16 ![0, 1, 3] bcast_S2x12000x16_S2x12000x1x16_0_1_3 (after ops V (main_v29 : DevRef τ sig)) := by
  obtain ⟨hin, hout⟩ := after_split ops_writes 60 _ rfl V
  rw [hout main_v30 (by decide), hin main_v29 (by decide)]
  generalize after (List.take 60 ops) V = V'
  simp only [nullary_result', unary_result', binary_result', ternary_result', reshape_result', nary4_result']
  <;> rfl

theorem ssa_main_v31 (V : Valuation τ sig (Elt F)) :
    after ops V (main_v31 : DevRef τ sig) = broadcastInDim S2x12000x35x16 ![0, 1, 2, 3] bcast_S2x12000x1x16_S2x12000x35x16_0_1_2_3 (after ops V (main_v30 : DevRef τ sig)) := by
  obtain ⟨hin, hout⟩ := after_split ops_writes 61 _ rfl V
  rw [hout main_v31 (by decide), hin main_v30 (by decide)]
  generalize after (List.take 61 ops) V = V'
  simp only [nullary_result', unary_result', binary_result', ternary_result', reshape_result', nary4_result']
  <;> rfl

theorem ssa_main_v32 (V : Valuation τ sig (Elt F)) :
    after ops V (main_v32 : DevRef τ sig) = concatenate S2x12000x35x32 3 [⟨S2x12000x35x16, (after ops V (main_v28 : DevRef τ sig))⟩, ⟨S2x12000x35x16, (after ops V (main_v31 : DevRef τ sig))⟩] concatenates_S2x12000x35x16_S2x12000x35x16_S2x12000x35x32_d3 := by
  obtain ⟨hin, hout⟩ := after_split ops_writes 62 _ rfl V
  rw [hout main_v32 (by decide), hin main_v28 (by decide), hin main_v31 (by decide)]
  generalize after (List.take 62 ops) V = V'
  simp only [nullary_result', unary_result', binary_result', ternary_result', reshape_result', nary4_result']
  <;> rfl

theorem ssa_main_v33 (V : Valuation τ sig (Elt F)) :
    after ops V (main_v33 : DevRef τ sig) = broadcastInDim S2x12000x35x32 ![0, 1, 2, 3] bcast_S2x12000x35x1_S2x12000x35x32_0_1_2_3 (after ops V (main_v4 : DevRef τ sig)) := by
  obtain ⟨hin, hout⟩ := after_split ops_writes 63 _ rfl V
  rw [hout main_v33 (by decide), hin main_v4 (by decide)]
  generalize after (List.take 63 ops) V = V'
  simp only [nullary_result', unary_result', binary_result', ternary_result', reshape_result', nary4_result']
  <;> rfl

theorem ssa_main_v34 (V : Valuation τ sig (Elt F)) :
    after ops V (main_v34 : DevRef τ sig) = mulf (after ops V (main_v32 : DevRef τ sig)) (after ops V (main_v33 : DevRef τ sig)) := by
  obtain ⟨hin, hout⟩ := after_split ops_writes 64 _ rfl V
  rw [hout main_v34 (by decide), hin main_v32 (by decide), hin main_v33 (by decide)]
  generalize after (List.take 64 ops) V = V'
  simp only [nullary_result', unary_result', binary_result', ternary_result', reshape_result', nary4_result']
  <;> rfl

theorem ssa_main_v35 (V : Valuation τ sig (Elt F)) :
    after ops V (main_v35 : DevRef τ sig) = Host.dotGeneral dot_S2x12000x35x32_S32x64_S2x12000x35x64_3_0_012_1_n_n none (after ops V (main_v34 : DevRef τ sig)) (after ops V (main_arg6 : DevRef τ sig)) := by
  obtain ⟨hin, hout⟩ := after_split ops_writes 65 _ rfl V
  rw [hout main_v35 (by decide), hin main_v34 (by decide), hin main_arg6 (by decide)]
  generalize after (List.take 65 ops) V = V'
  simp only [nullary_result', unary_result', binary_result', ternary_result', reshape_result', nary4_result']
  <;> rfl

theorem ssa_main_v36 (V : Valuation τ sig (Elt F)) :
    after ops V (main_v36 : DevRef τ sig) = broadcastInDim S1x1x1x64 ![3] bcast_S64_S1x1x1x64_3 (after ops V (main_arg7 : DevRef τ sig)) := by
  obtain ⟨hin, hout⟩ := after_split ops_writes 66 _ rfl V
  rw [hout main_v36 (by decide), hin main_arg7 (by decide)]
  generalize after (List.take 66 ops) V = V'
  simp only [nullary_result', unary_result', binary_result', ternary_result', reshape_result', nary4_result']
  <;> rfl

theorem ssa_main_v37 (V : Valuation τ sig (Elt F)) :
    after ops V (main_v37 : DevRef τ sig) = broadcastInDim S2x12000x35x64 ![0, 1, 2, 3] bcast_S1x1x1x64_S2x12000x35x64_0_1_2_3 (after ops V (main_v36 : DevRef τ sig)) := by
  obtain ⟨hin, hout⟩ := after_split ops_writes 67 _ rfl V
  rw [hout main_v37 (by decide), hin main_v36 (by decide)]
  generalize after (List.take 67 ops) V = V'
  simp only [nullary_result', unary_result', binary_result', ternary_result', reshape_result', nary4_result']
  <;> rfl

theorem ssa_main_v38 (V : Valuation τ sig (Elt F)) :
    after ops V (main_v38 : DevRef τ sig) = addf (after ops V (main_v35 : DevRef τ sig)) (after ops V (main_v37 : DevRef τ sig)) := by
  obtain ⟨hin, hout⟩ := after_split ops_writes 68 _ rfl V
  rw [hout main_v38 (by decide), hin main_v35 (by decide), hin main_v37 (by decide)]
  generalize after (List.take 68 ops) V = V'
  simp only [nullary_result', unary_result', binary_result', ternary_result', reshape_result', nary4_result']
  <;> rfl

theorem ssa_main_call2_cst (V : Valuation τ sig (Elt F)) :
    after ops V (main_call2_cst : DevRef τ sig) = constant S_ .f32 0x00000000#32 := by
  obtain ⟨hin, hout⟩ := after_split ops_writes 69 _ rfl V
  rw [hout main_call2_cst (by decide)]
  generalize after (List.take 69 ops) V = V'
  simp only [nullary_result', unary_result', binary_result', ternary_result', reshape_result', nary4_result']
  <;> rfl

theorem ssa_main_call2_v0 (V : Valuation τ sig (Elt F)) :
    after ops V (main_call2_v0 : DevRef τ sig) = broadcastInDim S2x12000x35x64 ![] bcast_S_S2x12000x35x64 (after ops V (main_call2_cst : DevRef τ sig)) := by
  obtain ⟨hin, hout⟩ := after_split ops_writes 70 _ rfl V
  rw [hout main_call2_v0 (by decide), hin main_call2_cst (by decide)]
  generalize after (List.take 70 ops) V = V'
  simp only [nullary_result', unary_result', binary_result', ternary_result', reshape_result', nary4_result']
  <;> rfl

theorem ssa_main_v39 (V : Valuation τ sig (Elt F)) :
    after ops V (main_v39 : DevRef τ sig) = maximumf (after ops V (main_v38 : DevRef τ sig)) (after ops V (main_call2_v0 : DevRef τ sig)) := by
  obtain ⟨hin, hout⟩ := after_split ops_writes 71 _ rfl V
  rw [hout main_v39 (by decide), hin main_v38 (by decide), hin main_call2_v0 (by decide)]
  generalize after (List.take 71 ops) V = V'
  simp only [nullary_result', unary_result', binary_result', ternary_result', reshape_result', nary4_result']
  <;> rfl

theorem ssa_main_cst_5 (V : Valuation τ sig (Elt F)) :
    after ops V (main_cst_5 : DevRef τ sig) = constant S_ .f32 0x00000000#32 := by
  obtain ⟨hin, hout⟩ := after_split ops_writes 72 _ rfl V
  rw [hout main_cst_5 (by decide)]
  generalize after (List.take 72 ops) V = V'
  simp only [nullary_result', unary_result', binary_result', ternary_result', reshape_result', nary4_result']
  <;> rfl

theorem ssa_main_v40 (V : Valuation τ sig (Elt F)) :
    after ops V (main_v40 : DevRef τ sig) = Host.reduceAdd (after ops V (main_v39 : DevRef τ sig)) (after ops V (main_cst_5 : DevRef τ sig)) reducesTo_S2x12000x35x64_S64_d0_1_2 h_S_ := by
  obtain ⟨hin, hout⟩ := after_split ops_writes 73 _ rfl V
  rw [hout main_v40 (by decide), hin main_v39 (by decide), hin main_cst_5 (by decide)]
  generalize after (List.take 73 ops) V = V'
  simp only [nullary_result', unary_result', binary_result', ternary_result', reshape_result', nary4_result']
  <;> rfl

theorem ssa_main_cst_6 (V : Valuation τ sig (Elt F)) :
    after ops V (main_cst_6 : DevRef τ sig) = constant S_ .f32 0x494D1400#32 := by
  obtain ⟨hin, hout⟩ := after_split ops_writes 74 _ rfl V
  rw [hout main_cst_6 (by decide)]
  generalize after (List.take 74 ops) V = V'
  simp only [nullary_result', unary_result', binary_result', ternary_result', reshape_result', nary4_result']
  <;> rfl

theorem ssa_main_v41 (V : Valuation τ sig (Elt F)) :
    after ops V (main_v41 : DevRef τ sig) = broadcastInDim S64 ![] bcast_S_S64 (after ops V (main_cst_6 : DevRef τ sig)) := by
  obtain ⟨hin, hout⟩ := after_split ops_writes 75 _ rfl V
  rw [hout main_v41 (by decide), hin main_cst_6 (by decide)]
  generalize after (List.take 75 ops) V = V'
  simp only [nullary_result', unary_result', binary_result', ternary_result', reshape_result', nary4_result']
  <;> rfl

theorem ssa_main_v42 (V : Valuation τ sig (Elt F)) :
    after ops V (main_v42 : DevRef τ sig) = Host.divf (after ops V (main_v40 : DevRef τ sig)) (after ops V (main_v41 : DevRef τ sig)) := by
  obtain ⟨hin, hout⟩ := after_split ops_writes 76 _ rfl V
  rw [hout main_v42 (by decide), hin main_v40 (by decide), hin main_v41 (by decide)]
  generalize after (List.take 76 ops) V = V'
  simp only [nullary_result', unary_result', binary_result', ternary_result', reshape_result', nary4_result']
  <;> rfl

theorem ssa_main_c_7 (V : Valuation τ sig (Elt F)) :
    after ops V (main_c_7 : DevRef τ sig) = constantI S_ 32 0#32 := by
  obtain ⟨hin, hout⟩ := after_split ops_writes 77 _ rfl V
  rw [hout main_c_7 (by decide)]
  generalize after (List.take 77 ops) V = V'
  simp only [nullary_result', unary_result', binary_result', ternary_result', reshape_result', nary4_result']
  <;> rfl

theorem ssa_main_call3_cst (V : Valuation τ sig (Elt F)) :
    after ops V (main_call3_cst : DevRef τ sig) = constant S_ .f32 0x00000000#32 := by
  obtain ⟨hin, hout⟩ := after_split ops_writes 78 _ rfl V
  rw [hout main_call3_cst (by decide)]
  generalize after (List.take 78 ops) V = V'
  simp only [nullary_result', unary_result', binary_result', ternary_result', reshape_result', nary4_result']
  <;> rfl

theorem ssa_main_call3_v0 (V : Valuation τ sig (Elt F)) :
    after ops V (main_call3_v0 : DevRef τ sig) = Host.reduceAdd (after ops V (main_v39 : DevRef τ sig)) (after ops V (main_call3_cst : DevRef τ sig)) reducesTo_S2x12000x35x64_S64_d0_1_2 h_S_ := by
  obtain ⟨hin, hout⟩ := after_split ops_writes 79 _ rfl V
  rw [hout main_call3_v0 (by decide), hin main_v39 (by decide), hin main_call3_cst (by decide)]
  generalize after (List.take 79 ops) V = V'
  simp only [nullary_result', unary_result', binary_result', ternary_result', reshape_result', nary4_result']
  <;> rfl

theorem ssa_main_call3_v1 (V : Valuation τ sig (Elt F)) :
    after ops V (main_call3_v1 : DevRef τ sig) = broadcastInDim S1x1x1x64 ![3] bcast_S64_S1x1x1x64_3 (after ops V (main_call3_v0 : DevRef τ sig)) := by
  obtain ⟨hin, hout⟩ := after_split ops_writes 80 _ rfl V
  rw [hout main_call3_v1 (by decide), hin main_call3_v0 (by decide)]
  generalize after (List.take 80 ops) V = V'
  simp only [nullary_result', unary_result', binary_result', ternary_result', reshape_result', nary4_result']
  <;> rfl

theorem ssa_main_call3_cst_0 (V : Valuation τ sig (Elt F)) :
    after ops V (main_call3_cst_0 : DevRef τ sig) = constant S_ .f32 0x494D1400#32 := by
  obtain ⟨hin, hout⟩ := after_split ops_writes 81 _ rfl V
  rw [hout main_call3_cst_0 (by decide)]
  generalize after (List.take 81 ops) V = V'
  simp only [nullary_result', unary_result', binary_result', ternary_result', reshape_result', nary4_result']
  <;> rfl

theorem ssa_main_call3_v2 (V : Valuation τ sig (Elt F)) :
    after ops V (main_call3_v2 : DevRef τ sig) = broadcastInDim S1x1x1x64 ![] bcast_S_S1x1x1x64 (after ops V (main_call3_cst_0 : DevRef τ sig)) := by
  obtain ⟨hin, hout⟩ := after_split ops_writes 82 _ rfl V
  rw [hout main_call3_v2 (by decide), hin main_call3_cst_0 (by decide)]
  generalize after (List.take 82 ops) V = V'
  simp only [nullary_result', unary_result', binary_result', ternary_result', reshape_result', nary4_result']
  <;> rfl

theorem ssa_main_call3_v3 (V : Valuation τ sig (Elt F)) :
    after ops V (main_call3_v3 : DevRef τ sig) = Host.divf (after ops V (main_call3_v1 : DevRef τ sig)) (after ops V (main_call3_v2 : DevRef τ sig)) := by
  obtain ⟨hin, hout⟩ := after_split ops_writes 83 _ rfl V
  rw [hout main_call3_v3 (by decide), hin main_call3_v1 (by decide), hin main_call3_v2 (by decide)]
  generalize after (List.take 83 ops) V = V'
  simp only [nullary_result', unary_result', binary_result', ternary_result', reshape_result', nary4_result']
  <;> rfl

theorem ssa_main_call3_v4 (V : Valuation τ sig (Elt F)) :
    after ops V (main_call3_v4 : DevRef τ sig) = broadcastInDim S2x12000x35x64 ![0, 1, 2, 3] bcast_S1x1x1x64_S2x12000x35x64_0_1_2_3 (after ops V (main_call3_v3 : DevRef τ sig)) := by
  obtain ⟨hin, hout⟩ := after_split ops_writes 84 _ rfl V
  rw [hout main_call3_v4 (by decide), hin main_call3_v3 (by decide)]
  generalize after (List.take 84 ops) V = V'
  simp only [nullary_result', unary_result', binary_result', ternary_result', reshape_result', nary4_result']
  <;> rfl

theorem ssa_main_call3_v5 (V : Valuation τ sig (Elt F)) :
    after ops V (main_call3_v5 : DevRef τ sig) = subf (after ops V (main_v39 : DevRef τ sig)) (after ops V (main_call3_v4 : DevRef τ sig)) := by
  obtain ⟨hin, hout⟩ := after_split ops_writes 85 _ rfl V
  rw [hout main_call3_v5 (by decide), hin main_v39 (by decide), hin main_call3_v4 (by decide)]
  generalize after (List.take 85 ops) V = V'
  simp only [nullary_result', unary_result', binary_result', ternary_result', reshape_result', nary4_result']
  <;> rfl

theorem ssa_main_call3_v6 (V : Valuation τ sig (Elt F)) :
    after ops V (main_call3_v6 : DevRef τ sig) = mulf (after ops V (main_call3_v5 : DevRef τ sig)) (after ops V (main_call3_v5 : DevRef τ sig)) := by
  obtain ⟨hin, hout⟩ := after_split ops_writes 86 _ rfl V
  rw [hout main_call3_v6 (by decide), hin main_call3_v5 (by decide)]
  generalize after (List.take 86 ops) V = V'
  simp only [nullary_result', unary_result', binary_result', ternary_result', reshape_result', nary4_result']
  <;> rfl

theorem ssa_main_call3_v7 (V : Valuation τ sig (Elt F)) :
    after ops V (main_call3_v7 : DevRef τ sig) = sitofp .f32 (after ops V (main_c_7 : DevRef τ sig)) := by
  obtain ⟨hin, hout⟩ := after_split ops_writes 87 _ rfl V
  rw [hout main_call3_v7 (by decide), hin main_c_7 (by decide)]
  generalize after (List.take 87 ops) V = V'
  simp only [nullary_result', unary_result', binary_result', ternary_result', reshape_result', nary4_result']
  <;> rfl

theorem ssa_main_call3_cst_1 (V : Valuation τ sig (Elt F)) :
    after ops V (main_call3_cst_1 : DevRef τ sig) = constant S_ .f32 0x494D1400#32 := by
  obtain ⟨hin, hout⟩ := after_split ops_writes 88 _ rfl V
  rw [hout main_call3_cst_1 (by decide)]
  generalize after (List.take 88 ops) V = V'
  simp only [nullary_result', unary_result', binary_result', ternary_result', reshape_result', nary4_result']
  <;> rfl

theorem ssa_main_call3_v8 (V : Valuation τ sig (Elt F)) :
    after ops V (main_call3_v8 : DevRef τ sig) = subf (after ops V (main_call3_cst_1 : DevRef τ sig)) (after ops V (main_call3_v7 : DevRef τ sig)) := by
  obtain ⟨hin, hout⟩ := after_split ops_writes 89 _ rfl V
  rw [hout main_call3_v8 (by decide), hin main_call3_cst_1 (by decide), hin main_call3_v7 (by decide)]
  generalize after (List.take 89 ops) V = V'
  simp only [nullary_result', unary_result', binary_result', ternary_result', reshape_result', nary4_result']
  <;> rfl

theorem ssa_main_call3_cst_2 (V : Valuation τ sig (Elt F)) :
    after ops V (main_call3_cst_2 : DevRef τ sig) = constant S_ .f32 0x00000000#32 := by
  obtain ⟨hin, hout⟩ := after_split ops_writes 90 _ rfl V
  rw [hout main_call3_cst_2 (by decide)]
  generalize after (List.take 90 ops) V = V'
  simp only [nullary_result', unary_result', binary_result', ternary_result', reshape_result', nary4_result']
  <;> rfl

theorem ssa_main_call3_v9 (V : Valuation τ sig (Elt F)) :
    after ops V (main_call3_v9 : DevRef τ sig) = Host.reduceAdd (after ops V (main_call3_v6 : DevRef τ sig)) (after ops V (main_call3_cst_2 : DevRef τ sig)) reducesTo_S2x12000x35x64_S64_d0_1_2 h_S_ := by
  obtain ⟨hin, hout⟩ := after_split ops_writes 91 _ rfl V
  rw [hout main_call3_v9 (by decide), hin main_call3_v6 (by decide), hin main_call3_cst_2 (by decide)]
  generalize after (List.take 91 ops) V = V'
  simp only [nullary_result', unary_result', binary_result', ternary_result', reshape_result', nary4_result']
  <;> rfl

theorem ssa_main_call3_v10 (V : Valuation τ sig (Elt F)) :
    after ops V (main_call3_v10 : DevRef τ sig) = broadcastInDim S64 ![] bcast_S_S64 (after ops V (main_call3_v8 : DevRef τ sig)) := by
  obtain ⟨hin, hout⟩ := after_split ops_writes 92 _ rfl V
  rw [hout main_call3_v10 (by decide), hin main_call3_v8 (by decide)]
  generalize after (List.take 92 ops) V = V'
  simp only [nullary_result', unary_result', binary_result', ternary_result', reshape_result', nary4_result']
  <;> rfl

theorem ssa_main_call3_v11 (V : Valuation τ sig (Elt F)) :
    after ops V (main_call3_v11 : DevRef τ sig) = Host.divf (after ops V (main_call3_v9 : DevRef τ sig)) (after ops V (main_call3_v10 : DevRef τ sig)) := by
  obtain ⟨hin, hout⟩ := after_split ops_writes 93 _ rfl V
  rw [hout main_call3_v11 (by decide), hin main_call3_v9 (by decide), hin main_call3_v10 (by decide)]
  generalize after (List.take 93 ops) V = V'
  simp only [nullary_result', unary_result', binary_result', ternary_result', reshape_result', nary4_result']
  <;> rfl

theorem ssa_main_call3_cst_3 (V : Valuation τ sig (Elt F)) :
    after ops V (main_call3_cst_3 : DevRef τ sig) = constant S_ .f32 0x00000000#32 := by
  obtain ⟨hin, hout⟩ := after_split ops_writes 94 _ rfl V
  rw [hout main_call3_cst_3 (by decide)]
  generalize after (List.take 94 ops) V = V'
  simp only [nullary_result', unary_result', binary_result', ternary_result', reshape_result', nary4_result']
  <;> rfl

theorem ssa_main_call3_v12 (V : Valuation τ sig (Elt F)) :
    after ops V (main_call3_v12 : DevRef τ sig) = cmpf .ogt (after ops V (main_call3_v8 : DevRef τ sig)) (after ops V (main_call3_cst_3 : DevRef τ sig)) := by
  obtain ⟨hin, hout⟩ := after_split ops_writes 95 _ rfl V
  rw [hout main_call3_v12 (by decide), hin main_call3_v8 (by decide), hin main_call3_cst_3 (by decide)]
  generalize after (List.take 95 ops) V = V'
  simp only [nullary_result', unary_result', binary_result', ternary_result', reshape_result', nary4_result']
  <;> rfl

theorem ssa_main_call3_cst_4 (V : Valuation τ sig (Elt F)) :
    after ops V (main_call3_cst_4 : DevRef τ sig) = constant S_ .f32 0x7FC00000#32 := by
  obtain ⟨hin, hout⟩ := after_split ops_writes 96 _ rfl V
  rw [hout main_call3_cst_4 (by decide)]
  generalize after (List.take 96 ops) V = V'
  simp only [nullary_result', unary_result', binary_result', ternary_result', reshape_result', nary4_result']
  <;> rfl

theorem ssa_main_call3_call0_v0 (V : Valuation τ sig (Elt F)) :
    after ops V (main_call3_call0_v0 : DevRef τ sig) = id (after ops V (main_call3_cst_4 : DevRef τ sig)) := by
  obtain ⟨hin, hout⟩ := after_split ops_writes 97 _ rfl V
  rw [hout main_call3_call0_v0 (by decide), hin main_call3_cst_4 (by decide)]
  generalize after (List.take 97 ops) V = V'
  simp only [nullary_result', unary_result', binary_result', ternary_result', reshape_result', nary4_result']
  <;> rfl

theorem ssa_main_call3_call0_v1 (V : Valuation τ sig (Elt F)) :
    after ops V (main_call3_call0_v1 : DevRef τ sig) = broadcastInDim S64 ![] bcast_S_S64 (after ops V (main_call3_call0_v0 : DevRef τ sig)) := by
  obtain ⟨hin, hout⟩ := after_split ops_writes 98 _ rfl V
  rw [hout main_call3_call0_v1 (by decide), hin main_call3_call0_v0 (by decide)]
  generalize after (List.take 98 ops) V = V'
  simp only [nullary_result', unary_result', binary_result', ternary_result', reshape_result', nary4_result']
  <;> rfl

theorem ssa_main_v43 (V : Valuation τ sig (Elt F)) :
    after ops V (main_v43 : DevRef τ sig) = select (broadcastInDim S64 ![] bcast_S_S64 (after ops V (main_call3_v12 : DevRef τ sig))) (after ops V (main_call3_v11 : DevRef τ sig)) (after ops V (main_call3_call0_v1 : DevRef τ sig)) := by
  obtain ⟨hin, hout⟩ := after_split ops_writes 99 _ rfl V
  rw [hout main_v43 (by decide), hin main_call3_v12 (by decide), hin main_call3_v11 (by decide), hin main_call3_call0_v1 (by decide)]
  generalize after (List.take 99 ops) V = V'
  simp only [nullary_result', unary_result', binary_result', ternary_result', reshape_result', nary4_result']
  <;> rfl

theorem ssa_main_v44 (V : Valuation τ sig (Elt F)) :
    after ops V (main_v44 : DevRef τ sig) = broadcastInDim S1x1x1x64 ![3] bcast_S64_S1x1x1x64_3 (after ops V (main_v42 : DevRef τ sig)) := by
  obtain ⟨hin, hout⟩ := after_split ops_writes 100 _ rfl V
  rw [hout main_v44 (by decide), hin main_v42 (by decide)]
  generalize after (List.take 100 ops) V = V'
  simp only [nullary_result', unary_result', binary_result', ternary_result', reshape_result', nary4_result']
  <;> rfl

theorem ssa_main_v45 (V : Valuation τ sig (Elt F)) :
    after ops V (main_v45 : DevRef τ sig) = broadcastInDim S2x12000x35x64 ![0, 1, 2, 3] bcast_S1x1x1x64_S2x12000x35x64_0_1_2_3 (after ops V (main_v44 : DevRef τ sig)) := by
  obtain ⟨hin, hout⟩ := after_split ops_writes 101 _ rfl V
  rw [hout main_v45 (by decide), hin main_v44 (by decide)]
  generalize after (List.take 101 ops) V = V'
  simp only [nullary_result', unary_result', binary_result', ternary_result', reshape_result', nary4_result']
  <;> rfl

theorem ssa_main_v46 (V : Valuation τ sig (Elt F)) :
    after ops V (main_v46 : DevRef τ sig) = subf (after ops V (main_v39 : DevRef τ sig)) (after ops V (main_v45 : DevRef τ sig)) := by
  obtain ⟨hin, hout⟩ := after_split ops_writes 102 _ rfl V
  rw [hout main_v46 (by decide), hin main_v39 (by decide), hin main_v45 (by decide)]
  generalize after (List.take 102 ops) V = V'
  simp only [nullary_result', unary_result', binary_result', ternary_result', reshape_result', nary4_result']
  <;> rfl

theorem ssa_main_cst_8 (V : Valuation τ sig (Elt F)) :
    after ops V (main_cst_8 : DevRef τ sig) = constant S_ .f32 0x3727C5AC#32 := by
  obtain ⟨hin, hout⟩ := after_split ops_writes 103 _ rfl V
  rw [hout main_cst_8 (by decide)]
  generalize after (List.take 103 ops) V = V'
  simp only [nullary_result', unary_result', binary_result', ternary_result', reshape_result', nary4_result']
  <;> rfl

theorem ssa_main_v47 (V : Valuation τ sig (Elt F)) :
    after ops V (main_v47 : DevRef τ sig) = broadcastInDim S64 ![] bcast_S_S64 (after ops V (main_cst_8 : DevRef τ sig)) := by
  obtain ⟨hin, hout⟩ := after_split ops_writes 104 _ rfl V
  rw [hout main_v47 (by decide), hin main_cst_8 (by decide)]
  generalize after (List.take 104 ops) V = V'
  simp only [nullary_result', unary_result', binary_result', ternary_result', reshape_result', nary4_result']
  <;> rfl

theorem ssa_main_v48 (V : Valuation τ sig (Elt F)) :
    after ops V (main_v48 : DevRef τ sig) = addf (after ops V (main_v43 : DevRef τ sig)) (after ops V (main_v47 : DevRef τ sig)) := by
  obtain ⟨hin, hout⟩ := after_split ops_writes 105 _ rfl V
  rw [hout main_v48 (by decide), hin main_v43 (by decide), hin main_v47 (by decide)]
  generalize after (List.take 105 ops) V = V'
  simp only [nullary_result', unary_result', binary_result', ternary_result', reshape_result', nary4_result']
  <;> rfl

theorem ssa_main_v49 (V : Valuation τ sig (Elt F)) :
    after ops V (main_v49 : DevRef τ sig) = Host.rsqrt (after ops V (main_v48 : DevRef τ sig)) := by
  obtain ⟨hin, hout⟩ := after_split ops_writes 106 _ rfl V
  rw [hout main_v49 (by decide), hin main_v48 (by decide)]
  generalize after (List.take 106 ops) V = V'
  simp only [nullary_result', unary_result', binary_result', ternary_result', reshape_result', nary4_result']
  <;> rfl

theorem ssa_main_v50 (V : Valuation τ sig (Elt F)) :
    after ops V (main_v50 : DevRef τ sig) = broadcastInDim S1x1x1x64 ![3] bcast_S64_S1x1x1x64_3 (after ops V (main_v49 : DevRef τ sig)) := by
  obtain ⟨hin, hout⟩ := after_split ops_writes 107 _ rfl V
  rw [hout main_v50 (by decide), hin main_v49 (by decide)]
  generalize after (List.take 107 ops) V = V'
  simp only [nullary_result', unary_result', binary_result', ternary_result', reshape_result', nary4_result']
  <;> rfl

theorem ssa_main_v51 (V : Valuation τ sig (Elt F)) :
    after ops V (main_v51 : DevRef τ sig) = broadcastInDim S2x12000x35x64 ![0, 1, 2, 3] bcast_S1x1x1x64_S2x12000x35x64_0_1_2_3 (after ops V (main_v50 : DevRef τ sig)) := by
  obtain ⟨hin, hout⟩ := after_split ops_writes 108 _ rfl V
  rw [hout main_v51 (by decide), hin main_v50 (by decide)]
  generalize after (List.take 108 ops) V = V'
  simp only [nullary_result', unary_result', binary_result', ternary_result', reshape_result', nary4_result']
  <;> rfl

theorem ssa_main_v52 (V : Valuation τ sig (Elt F)) :
    after ops V (main_v52 : DevRef τ sig) = mulf (after ops V (main_v46 : DevRef τ sig)) (after ops V (main_v51 : DevRef τ sig)) := by
  obtain ⟨hin, hout⟩ := after_split ops_writes 109 _ rfl V
  rw [hout main_v52 (by decide), hin main_v46 (by decide), hin main_v51 (by decide)]
  generalize after (List.take 109 ops) V = V'
  simp only [nullary_result', unary_result', binary_result', ternary_result', reshape_result', nary4_result']
  <;> rfl

theorem ssa_main_v53 (V : Valuation τ sig (Elt F)) :
    after ops V (main_v53 : DevRef τ sig) = broadcastInDim S1x1x1x64 ![3] bcast_S64_S1x1x1x64_3 (after ops V (main_arg8 : DevRef τ sig)) := by
  obtain ⟨hin, hout⟩ := after_split ops_writes 110 _ rfl V
  rw [hout main_v53 (by decide), hin main_arg8 (by decide)]
  generalize after (List.take 110 ops) V = V'
  simp only [nullary_result', unary_result', binary_result', ternary_result', reshape_result', nary4_result']
  <;> rfl

theorem ssa_main_v54 (V : Valuation τ sig (Elt F)) :
    after ops V (main_v54 : DevRef τ sig) = broadcastInDim S2x12000x35x64 ![0, 1, 2, 3] bcast_S1x1x1x64_S2x12000x35x64_0_1_2_3 (after ops V (main_v53 : DevRef τ sig)) := by
  obtain ⟨hin, hout⟩ := after_split ops_writes 111 _ rfl V
  rw [hout main_v54 (by decide), hin main_v53 (by decide)]
  generalize after (List.take 111 ops) V = V'
  simp only [nullary_result', unary_result', binary_result', ternary_result', reshape_result', nary4_result']
  <;> rfl

theorem ssa_main_v55 (V : Valuation τ sig (Elt F)) :
    after ops V (main_v55 : DevRef τ sig) = mulf (after ops V (main_v52 : DevRef τ sig)) (after ops V (main_v54 : DevRef τ sig)) := by
  obtain ⟨hin, hout⟩ := after_split ops_writes 112 _ rfl V
  rw [hout main_v55 (by decide), hin main_v52 (by decide), hin main_v54 (by decide)]
  generalize after (List.take 112 ops) V = V'
  simp only [nullary_result', unary_result', binary_result', ternary_result', reshape_result', nary4_result']
  <;> rfl

theorem ssa_main_v56 (V : Valuation τ sig (Elt F)) :
    after ops V (main_v56 : DevRef τ sig) = broadcastInDim S1x1x1x64 ![3] bcast_S64_S1x1x1x64_3 (after ops V (main_arg9 : DevRef τ sig)) := by
  obtain ⟨hin, hout⟩ := after_split ops_writes 113 _ rfl V
  rw [hout main_v56 (by decide), hin main_arg9 (by decide)]
  generalize after (List.take 113 ops) V = V'
  simp only [nullary_result', unary_result', binary_result', ternary_result', reshape_result', nary4_result']
  <;> rfl

theorem ssa_main_v57 (V : Valuation τ sig (Elt F)) :
    after ops V (main_v57 : DevRef τ sig) = broadcastInDim S2x12000x35x64 ![0, 1, 2, 3] bcast_S1x1x1x64_S2x12000x35x64_0_1_2_3 (after ops V (main_v56 : DevRef τ sig)) := by
  obtain ⟨hin, hout⟩ := after_split ops_writes 114 _ rfl V
  rw [hout main_v57 (by decide), hin main_v56 (by decide)]
  generalize after (List.take 114 ops) V = V'
  simp only [nullary_result', unary_result', binary_result', ternary_result', reshape_result', nary4_result']
  <;> rfl

theorem ssa_main_v58 (V : Valuation τ sig (Elt F)) :
    after ops V (main_v58 : DevRef τ sig) = addf (after ops V (main_v55 : DevRef τ sig)) (after ops V (main_v57 : DevRef τ sig)) := by
  obtain ⟨hin, hout⟩ := after_split ops_writes 115 _ rfl V
  rw [hout main_v58 (by decide), hin main_v55 (by decide), hin main_v57 (by decide)]
  generalize after (List.take 115 ops) V = V'
  simp only [nullary_result', unary_result', binary_result', ternary_result', reshape_result', nary4_result']
  <;> rfl

end Cert.ReferenceIdeal.RefRun

end
-- ==== Proof.RefSsaC.lean ====
import proofs.«172356_j10943576670908_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference line, operation by operation (operations 117 … 172 of 172)

Every operation of the line writes a buffer no other operation writes, and reads buffers written before it. So the contents
the whole line leaves in an operation's result buffer are the operation's function of the contents the whole line leaves in
its operand buffers: read the line at the operation's position (`after_split`) — the operands are final before it, the result
right after it — and the operation's own result lemma gives the function. One equation per operation, each over
`after ops V` only. -/
theorem ssa_main_cst_9 (V : Valuation τ sig (Elt F)) :
    after ops V (main_cst_9 : DevRef τ sig) = constant S_ .f32 0xFF800000#32 := by
  obtain ⟨hin, hout⟩ := after_split ops_writes 116 _ rfl V
  rw [hout main_cst_9 (by decide)]
  generalize after (List.take 116 ops) V = V'
  simp only [nullary_result', unary_result', binary_result', ternary_result', reshape_result', nary4_result']
  <;> rfl

theorem ssa_main_v59 (V : Valuation τ sig (Elt F)) :
    after ops V (main_v59 : DevRef τ sig) = Host.reduce FloatOps.maximumf (after ops V (main_v58 : DevRef τ sig)) (after ops V (main_cst_9 : DevRef τ sig)) reducesTo_S2x12000x35x64_S2x12000x64_d2 h_S_ := by
  obtain ⟨hin, hout⟩ := after_split ops_writes 117 _ rfl V
  rw [hout main_v59 (by decide), hin main_v58 (by decide), hin main_cst_9 (by decide)]
  generalize after (List.take 117 ops) V = V'
  simp only [nullary_result', unary_result', binary_result', ternary_result', reshape_result', nary4_result']
  <;> rfl

theorem ssa_main_v60 (V : Valuation τ sig (Elt F)) :
    after ops V (main_v60 : DevRef τ sig) = broadcastInDim S2x12000x1x64 ![0, 1, 3] bcast_S2x12000x64_S2x12000x1x64_0_1_3 (after ops V (main_v59 : DevRef τ sig)) := by
  obtain ⟨hin, hout⟩ := after_split ops_writes 118 _ rfl V
  rw [hout main_v60 (by decide), hin main_v59 (by decide)]
  generalize after (List.take 118 ops) V = V'
  simp only [nullary_result', unary_result', binary_result', ternary_result', reshape_result', nary4_result']
  <;> rfl

theorem ssa_main_v61 (V : Valuation τ sig (Elt F)) :
    after ops V (main_v61 : DevRef τ sig) = broadcastInDim S2x12000x35x64 ![0, 1, 2, 3] bcast_S2x12000x1x64_S2x12000x35x64_0_1_2_3 (after ops V (main_v60 : DevRef τ sig)) := by
  obtain ⟨hin, hout⟩ := after_split ops_writes 119 _ rfl V
  rw [hout main_v61 (by decide), hin main_v60 (by decide)]
  generalize after (List.take 119 ops) V = V'
  simp only [nullary_result', unary_result', binary_result', ternary_result', reshape_result', nary4_result']
  <;> rfl

theorem ssa_main_v62 (V : Valuation τ sig (Elt F)) :
    after ops V (main_v62 : DevRef τ sig) = concatenate S2x12000x35x128 3 [⟨S2x12000x35x64, (after ops V (main_v58 : DevRef τ sig))⟩, ⟨S2x12000x35x64, (after ops V (main_v61 : DevRef τ sig))⟩] concatenates_S2x12000x35x64_S2x12000x35x64_S2x12000x35x128_d3 := by
  obtain ⟨hin, hout⟩ := after_split ops_writes 120 _ rfl V
  rw [hout main_v62 (by decide), hin main_v58 (by decide), hin main_v61 (by decide)]
  generalize after (List.take 120 ops) V = V'
  simp only [nullary_result', unary_result', binary_result', ternary_result', reshape_result', nary4_result']
  <;> rfl

theorem ssa_main_v63 (V : Valuation τ sig (Elt F)) :
    after ops V (main_v63 : DevRef τ sig) = broadcastInDim S2x12000x35x128 ![0, 1, 2, 3] bcast_S2x12000x35x1_S2x12000x35x128_0_1_2_3 (after ops V (main_v4 : DevRef τ sig)) := by
  obtain ⟨hin, hout⟩ := after_split ops_writes 121 _ rfl V
  rw [hout main_v63 (by decide), hin main_v4 (by decide)]
  generalize after (List.take 121 ops) V = V'
  simp only [nullary_result', unary_result', binary_result', ternary_result', reshape_result', nary4_result']
  <;> rfl

theorem ssa_main_v64 (V : Valuation τ sig (Elt F)) :
    after ops V (main_v64 : DevRef τ sig) = mulf (after ops V (main_v62 : DevRef τ sig)) (after ops V (main_v63 : DevRef τ sig)) := by
  obtain ⟨hin, hout⟩ := after_split ops_writes 122 _ rfl V
  rw [hout main_v64 (by decide), hin main_v62 (by decide), hin main_v63 (by decide)]
  generalize after (List.take 122 ops) V = V'
  simp only [nullary_result', unary_result', binary_result', ternary_result', reshape_result', nary4_result']
  <;> rfl

theorem ssa_main_v65 (V : Valuation τ sig (Elt F)) :
    after ops V (main_v65 : DevRef τ sig) = Host.dotGeneral dot_S2x12000x35x128_S128x128_S2x12000x35x128_3_0_012_1_n_n none (after ops V (main_v64 : DevRef τ sig)) (after ops V (main_arg10 : DevRef τ sig)) := by
  obtain ⟨hin, hout⟩ := after_split ops_writes 123 _ rfl V
  rw [hout main_v65 (by decide), hin main_v64 (by decide), hin main_arg10 (by decide)]
  generalize after (List.take 123 ops) V = V'
  simp only [nullary_result', unary_result', binary_result', ternary_result', reshape_result', nary4_result']
  <;> rfl

theorem ssa_main_v66 (V : Valuation τ sig (Elt F)) :
    after ops V (main_v66 : DevRef τ sig) = broadcastInDim S1x1x1x128 ![3] bcast_S128_S1x1x1x128_3 (after ops V (main_arg11 : DevRef τ sig)) := by
  obtain ⟨hin, hout⟩ := after_split ops_writes 124 _ rfl V
  rw [hout main_v66 (by decide), hin main_arg11 (by decide)]
  generalize after (List.take 124 ops) V = V'
  simp only [nullary_result', unary_result', binary_result', ternary_result', reshape_result', nary4_result']
  <;> rfl

theorem ssa_main_v67 (V : Valuation τ sig (Elt F)) :
    after ops V (main_v67 : DevRef τ sig) = broadcastInDim S2x12000x35x128 ![0, 1, 2, 3] bcast_S1x1x1x128_S2x12000x35x128_0_1_2_3 (after ops V (main_v66 : DevRef τ sig)) := by
  obtain ⟨hin, hout⟩ := after_split ops_writes 125 _ rfl V
  rw [hout main_v67 (by decide), hin main_v66 (by decide)]
  generalize after (List.take 125 ops) V = V'
  simp only [nullary_result', unary_result', binary_result', ternary_result', reshape_result', nary4_result']
  <;> rfl

theorem ssa_main_v68 (V : Valuation τ sig (Elt F)) :
    after ops V (main_v68 : DevRef τ sig) = addf (after ops V (main_v65 : DevRef τ sig)) (after ops V (main_v67 : DevRef τ sig)) := by
  obtain ⟨hin, hout⟩ := after_split ops_writes 126 _ rfl V
  rw [hout main_v68 (by decide), hin main_v65 (by decide), hin main_v67 (by decide)]
  generalize after (List.take 126 ops) V = V'
  simp only [nullary_result', unary_result', binary_result', ternary_result', reshape_result', nary4_result']
  <;> rfl

theorem ssa_main_cst_10 (V : Valuation τ sig (Elt F)) :
    after ops V (main_cst_10 : DevRef τ sig) = constant S_ .f32 0xFF800000#32 := by
  obtain ⟨hin, hout⟩ := after_split ops_writes 127 _ rfl V
  rw [hout main_cst_10 (by decide)]
  generalize after (List.take 127 ops) V = V'
  simp only [nullary_result', unary_result', binary_result', ternary_result', reshape_result', nary4_result']
  <;> rfl

theorem ssa_main_v69 (V : Valuation τ sig (Elt F)) :
    after ops V (main_v69 : DevRef τ sig) = Host.reduce FloatOps.maximumf (after ops V (main_v68 : DevRef τ sig)) (after ops V (main_cst_10 : DevRef τ sig)) reducesTo_S2x12000x35x128_S2x12000x128_d2 h_S_ := by
  obtain ⟨hin, hout⟩ := after_split ops_writes 128 _ rfl V
  rw [hout main_v69 (by decide), hin main_v68 (by decide), hin main_cst_10 (by decide)]
  generalize after (List.take 128 ops) V = V'
  simp only [nullary_result', unary_result', binary_result', ternary_result', reshape_result', nary4_result']
  <;> rfl

theorem ssa_main_v70 (V : Valuation τ sig (Elt F)) :
    after ops V (main_v70 : DevRef τ sig) = extractStridedSlice S2x12000x1 ![0, 0, 0] (after ops V (main_arg1 : DevRef τ sig)) slices_S2x12000x3_S2x12000x1_0_0_0 := by
  obtain ⟨hin, hout⟩ := after_split ops_writes 129 _ rfl V
  rw [hout main_v70 (by decide), hin main_arg1 (by decide)]
  generalize after (List.take 129 ops) V = V'
  simp only [nullary_result', unary_result', binary_result', ternary_result', reshape_result', nary4_result']
  <;> rfl

theorem ssa_main_v71 (V : Valuation τ sig (Elt F)) :
    after ops V (main_v71 : DevRef τ sig) = shapeCast S2x12000 (after ops V (main_v70 : DevRef τ sig)) shapeCasts_S2x12000x1_S2x12000 := by
  obtain ⟨hin, hout⟩ := after_split ops_writes 130 _ rfl V
  rw [hout main_v71 (by decide), hin main_v70 (by decide)]
  generalize after (List.take 130 ops) V = V'
  simp only [nullary_result', unary_result', binary_result', ternary_result', reshape_result', nary4_result']
  <;> rfl

theorem ssa_main_v72 (V : Valuation τ sig (Elt F)) :
    after ops V (main_v72 : DevRef τ sig) = shapeCast S24000 (after ops V (main_v71 : DevRef τ sig)) shapeCasts_S2x12000_S24000 := by
  obtain ⟨hin, hout⟩ := after_split ops_writes 131 _ rfl V
  rw [hout main_v72 (by decide), hin main_v71 (by decide)]
  generalize after (List.take 131 ops) V = V'
  simp only [nullary_result', unary_result', binary_result', ternary_result', reshape_result', nary4_result']
  <;> rfl

theorem ssa_main_v73 (V : Valuation τ sig (Elt F)) :
    after ops V (main_v73 : DevRef τ sig) = extractStridedSlice S2x12000x1 ![0, 0, 1] (after ops V (main_arg1 : DevRef τ sig)) slices_S2x12000x3_S2x12000x1_0_0_1 := by
  obtain ⟨hin, hout⟩ := after_split ops_writes 132 _ rfl V
  rw [hout main_v73 (by decide), hin main_arg1 (by decide)]
  generalize after (List.take 132 ops) V = V'
  simp only [nullary_result', unary_result', binary_result', ternary_result', reshape_result', nary4_result']
  <;> rfl

theorem ssa_main_v74 (V : Valuation τ sig (Elt F)) :
    after ops V (main_v74 : DevRef τ sig) = shapeCast S2x12000 (after ops V (main_v73 : DevRef τ sig)) shapeCasts_S2x12000x1_S2x12000 := by
  obtain ⟨hin, hout⟩ := after_split ops_writes 133 _ rfl V
  rw [hout main_v74 (by decide), hin main_v73 (by decide)]
  generalize after (List.take 133 ops) V = V'
  simp only [nullary_result', unary_result', binary_result', ternary_result', reshape_result', nary4_result']
  <;> rfl

theorem ssa_main_v75 (V : Valuation τ sig (Elt F)) :
    after ops V (main_v75 : DevRef τ sig) = shapeCast S24000 (after ops V (main_v74 : DevRef τ sig)) shapeCasts_S2x12000_S24000 := by
  obtain ⟨hin, hout⟩ := after_split ops_writes 134 _ rfl V
  rw [hout main_v75 (by decide), hin main_v74 (by decide)]
  generalize after (List.take 134 ops) V = V'
  simp only [nullary_result', unary_result', binary_result', ternary_result', reshape_result', nary4_result']
  <;> rfl

theorem ssa_main_v76 (V : Valuation τ sig (Elt F)) :
    after ops V (main_v76 : DevRef τ sig) = extractStridedSlice S2x12000x1 ![0, 0, 2] (after ops V (main_arg1 : DevRef τ sig)) slices_S2x12000x3_S2x12000x1_0_0_2 := by
  obtain ⟨hin, hout⟩ := after_split ops_writes 135 _ rfl V
  rw [hout main_v76 (by decide), hin main_arg1 (by decide)]
  generalize after (List.take 135 ops) V = V'
  simp only [nullary_result', unary_result', binary_result', ternary_result', reshape_result', nary4_result']
  <;> rfl

theorem ssa_main_v77 (V : Valuation τ sig (Elt F)) :
    after ops V (main_v77 : DevRef τ sig) = shapeCast S2x12000 (after ops V (main_v76 : DevRef τ sig)) shapeCasts_S2x12000x1_S2x12000 := by
  obtain ⟨hin, hout⟩ := after_split ops_writes 136 _ rfl V
  rw [hout main_v77 (by decide), hin main_v76 (by decide)]
  generalize after (List.take 136 ops) V = V'
  simp only [nullary_result', unary_result', binary_result', ternary_result', reshape_result', nary4_result']
  <;> rfl

theorem ssa_main_v78 (V : Valuation τ sig (Elt F)) :
    after ops V (main_v78 : DevRef τ sig) = shapeCast S24000 (after ops V (main_v77 : DevRef τ sig)) shapeCasts_S2x12000_S24000 := by
  obtain ⟨hin, hout⟩ := after_split ops_writes 137 _ rfl V
  rw [hout main_v78 (by decide), hin main_v77 (by decide)]
  generalize after (List.take 137 ops) V = V'
  simp only [nullary_result', unary_result', binary_result', ternary_result', reshape_result', nary4_result']
  <;> rfl

theorem ssa_main_cst_11 (V : Valuation τ sig (Elt F)) :
    after ops V (main_cst_11 : DevRef τ sig) = constant S_ .f32 0x00000000#32 := by
  obtain ⟨hin, hout⟩ := after_split ops_writes 138 _ rfl V
  rw [hout main_cst_11 (by decide)]
  generalize after (List.take 138 ops) V = V'
  simp only [nullary_result', unary_result', binary_result', ternary_result', reshape_result', nary4_result']
  <;> rfl

theorem ssa_main_v79 (V : Valuation τ sig (Elt F)) :
    after ops V (main_v79 : DevRef τ sig) = broadcastInDim S1x10x400x352x128 ![] bcast_S_S1x10x400x352x128 (after ops V (main_cst_11 : DevRef τ sig)) := by
  obtain ⟨hin, hout⟩ := after_split ops_writes 139 _ rfl V
  rw [hout main_v79 (by decide), hin main_cst_11 (by decide)]
  generalize after (List.take 139 ops) V = V'
  simp only [nullary_result', unary_result', binary_result', ternary_result', reshape_result', nary4_result']
  <;> rfl

theorem ssa_main_v80 (V : Valuation τ sig (Elt F)) :
    after ops V (main_v80 : DevRef τ sig) = shapeCast S24000x128 (after ops V (main_v69 : DevRef τ sig)) shapeCasts_S2x12000x128_S24000x128 := by
  obtain ⟨hin, hout⟩ := after_split ops_writes 140 _ rfl V
  rw [hout main_v80 (by decide), hin main_v69 (by decide)]
  generalize after (List.take 140 ops) V = V'
  simp only [nullary_result', unary_result', binary_result', ternary_result', reshape_result', nary4_result']
  <;> rfl

theorem ssa_main_c_12 (V : Valuation τ sig (Elt F)) :
    after ops V (main_c_12 : DevRef τ sig) = constantI S_ 32 0#32 := by
  obtain ⟨hin, hout⟩ := after_split ops_writes 141 _ rfl V
  rw [hout main_c_12 (by decide)]
  generalize after (List.take 141 ops) V = V'
  simp only [nullary_result', unary_result', binary_result', ternary_result', reshape_result', nary4_result']
  <;> rfl

theorem ssa_main_v81 (V : Valuation τ sig (Elt F)) :
    after ops V (main_v81 : DevRef τ sig) = broadcastInDim S24000 ![] bcast_S_S24000 (after ops V (main_c_12 : DevRef τ sig)) := by
  obtain ⟨hin, hout⟩ := after_split ops_writes 142 _ rfl V
  rw [hout main_v81 (by decide), hin main_c_12 (by decide)]
  generalize after (List.take 142 ops) V = V'
  simp only [nullary_result', unary_result', binary_result', ternary_result', reshape_result', nary4_result']
  <;> rfl

theorem ssa_main_v82 (V : Valuation τ sig (Elt F)) :
    after ops V (main_v82 : DevRef τ sig) = cmpi .slt (after ops V (main_v72 : DevRef τ sig)) (after ops V (main_v81 : DevRef τ sig)) := by
  obtain ⟨hin, hout⟩ := after_split ops_writes 143 _ rfl V
  rw [hout main_v82 (by decide), hin main_v72 (by decide), hin main_v81 (by decide)]
  generalize after (List.take 143 ops) V = V'
  simp only [nullary_result', unary_result', binary_result', ternary_result', reshape_result', nary4_result']
  <;> rfl

theorem ssa_main_c_13 (V : Valuation τ sig (Elt F)) :
    after ops V (main_c_13 : DevRef τ sig) = constantI S_ 32 10#32 := by
  obtain ⟨hin, hout⟩ := after_split ops_writes 144 _ rfl V
  rw [hout main_c_13 (by decide)]
  generalize after (List.take 144 ops) V = V'
  simp only [nullary_result', unary_result', binary_result', ternary_result', reshape_result', nary4_result']
  <;> rfl

theorem ssa_main_v83 (V : Valuation τ sig (Elt F)) :
    after ops V (main_v83 : DevRef τ sig) = broadcastInDim S24000 ![] bcast_S_S24000 (after ops V (main_c_13 : DevRef τ sig)) := by
  obtain ⟨hin, hout⟩ := after_split ops_writes 145 _ rfl V
  rw [hout main_v83 (by decide), hin main_c_13 (by decide)]
  generalize after (List.take 145 ops) V = V'
  simp only [nullary_result', unary_result', binary_result', ternary_result', reshape_result', nary4_result']
  <;> rfl

theorem ssa_main_v84 (V : Valuation τ sig (Elt F)) :
    after ops V (main_v84 : DevRef τ sig) = addi (after ops V (main_v72 : DevRef τ sig)) (after ops V (main_v83 : DevRef τ sig)) := by
  obtain ⟨hin, hout⟩ := after_split ops_writes 146 _ rfl V
  rw [hout main_v84 (by decide), hin main_v72 (by decide), hin main_v83 (by decide)]
  generalize after (List.take 146 ops) V = V'
  simp only [nullary_result', unary_result', binary_result', ternary_result', reshape_result', nary4_result']
  <;> rfl

theorem ssa_main_v85 (V : Valuation τ sig (Elt F)) :
    after ops V (main_v85 : DevRef τ sig) = select (after ops V (main_v82 : DevRef τ sig)) (after ops V (main_v84 : DevRef τ sig)) (after ops V (main_v72 : DevRef τ sig)) := by
  obtain ⟨hin, hout⟩ := after_split ops_writes 147 _ rfl V
  rw [hout main_v85 (by decide), hin main_v82 (by decide), hin main_v84 (by decide), hin main_v72 (by decide)]
  generalize after (List.take 147 ops) V = V'
  simp only [nullary_result', unary_result', binary_result', ternary_result', reshape_result', nary4_result']
  <;> rfl

theorem ssa_main_c_14 (V : Valuation τ sig (Elt F)) :
    after ops V (main_c_14 : DevRef τ sig) = constantI S_ 32 0#32 := by
  obtain ⟨hin, hout⟩ := after_split ops_writes 148 _ rfl V
  rw [hout main_c_14 (by decide)]
  generalize after (List.take 148 ops) V = V'
  simp only [nullary_result', unary_result', binary_result', ternary_result', reshape_result', nary4_result']
  <;> rfl

theorem ssa_main_v86 (V : Valuation τ sig (Elt F)) :
    after ops V (main_v86 : DevRef τ sig) = broadcastInDim S24000 ![] bcast_S_S24000 (after ops V (main_c_14 : DevRef τ sig)) := by
  obtain ⟨hin, hout⟩ := after_split ops_writes 149 _ rfl V
  rw [hout main_v86 (by decide), hin main_c_14 (by decide)]
  generalize after (List.take 149 ops) V = V'
  simp only [nullary_result', unary_result', binary_result', ternary_result', reshape_result', nary4_result']
  <;> rfl

theorem ssa_main_v87 (V : Valuation τ sig (Elt F)) :
    after ops V (main_v87 : DevRef τ sig) = cmpi .slt (after ops V (main_v75 : DevRef τ sig)) (after ops V (main_v86 : DevRef τ sig)) := by
  obtain ⟨hin, hout⟩ := after_split ops_writes 150 _ rfl V
  rw [hout main_v87 (by decide), hin main_v75 (by decide), hin main_v86 (by decide)]
  generalize after (List.take 150 ops) V = V'
  simp only [nullary_result', unary_result', binary_result', ternary_result', reshape_result', nary4_result']
  <;> rfl

theorem ssa_main_c_15 (V : Valuation τ sig (Elt F)) :
    after ops V (main_c_15 : DevRef τ sig) = constantI S_ 32 400#32 := by
  obtain ⟨hin, hout⟩ := after_split ops_writes 151 _ rfl V
  rw [hout main_c_15 (by decide)]
  generalize after (List.take 151 ops) V = V'
  simp only [nullary_result', unary_result', binary_result', ternary_result', reshape_result', nary4_result']
  <;> rfl

theorem ssa_main_v88 (V : Valuation τ sig (Elt F)) :
    after ops V (main_v88 : DevRef τ sig) = broadcastInDim S24000 ![] bcast_S_S24000 (after ops V (main_c_15 : DevRef τ sig)) := by
  obtain ⟨hin, hout⟩ := after_split ops_writes 152 _ rfl V
  rw [hout main_v88 (by decide), hin main_c_15 (by decide)]
  generalize after (List.take 152 ops) V = V'
  simp only [nullary_result', unary_result', binary_result', ternary_result', reshape_result', nary4_result']
  <;> rfl

theorem ssa_main_v89 (V : Valuation τ sig (Elt F)) :
    after ops V (main_v89 : DevRef τ sig) = addi (after ops V (main_v75 : DevRef τ sig)) (after ops V (main_v88 : DevRef τ sig)) := by
  obtain ⟨hin, hout⟩ := after_split ops_writes 153 _ rfl V
  rw [hout main_v89 (by decide), hin main_v75 (by decide), hin main_v88 (by decide)]
  generalize after (List.take 153 ops) V = V'
  simp only [nullary_result', unary_result', binary_result', ternary_result', reshape_result', nary4_result']
  <;> rfl

theorem ssa_main_v90 (V : Valuation τ sig (Elt F)) :
    after ops V (main_v90 : DevRef τ sig) = select (after ops V (main_v87 : DevRef τ sig)) (after ops V (main_v89 : DevRef τ sig)) (after ops V (main_v75 : DevRef τ sig)) := by
  obtain ⟨hin, hout⟩ := after_split ops_writes 154 _ rfl V
  rw [hout main_v90 (by decide), hin main_v87 (by decide), hin main_v89 (by decide), hin main_v75 (by decide)]
  generalize after (List.take 154 ops) V = V'
  simp only [nullary_result', unary_result', binary_result', ternary_result', reshape_result', nary4_result']
  <;> rfl

theorem ssa_main_c_16 (V : Valuation τ sig (Elt F)) :
    after ops V (main_c_16 : DevRef τ sig) = constantI S_ 32 0#32 := by
  obtain ⟨hin, hout⟩ := after_split ops_writes 155 _ rfl V
  rw [hout main_c_16 (by decide)]
  generalize after (List.take 155 ops) V = V'
  simp only [nullary_result', unary_result', binary_result', ternary_result', reshape_result', nary4_result']
  <;> rfl

theorem ssa_main_v91 (V : Valuation τ sig (Elt F)) :
    after ops V (main_v91 : DevRef τ sig) = broadcastInDim S24000 ![] bcast_S_S24000 (after ops V (main_c_16 : DevRef τ sig)) := by
  obtain ⟨hin, hout⟩ := after_split ops_writes 156 _ rfl V
  rw [hout main_v91 (by decide), hin main_c_16 (by decide)]
  generalize after (List.take 156 ops) V = V'
  simp only [nullary_result', unary_result', binary_result', ternary_result', reshape_result', nary4_result']
  <;> rfl

theorem ssa_main_v92 (V : Valuation τ sig (Elt F)) :
    after ops V (main_v92 : DevRef τ sig) = cmpi .slt (after ops V (main_v78 : DevRef τ sig)) (after ops V (main_v91 : DevRef τ sig)) := by
  obtain ⟨hin, hout⟩ := after_split ops_writes 157 _ rfl V
  rw [hout main_v92 (by decide), hin main_v78 (by decide), hin main_v91 (by decide)]
  generalize after (List.take 157 ops) V = V'
  simp only [nullary_result', unary_result', binary_result', ternary_result', reshape_result', nary4_result']
  <;> rfl

theorem ssa_main_c_17 (V : Valuation τ sig (Elt F)) :
    after ops V (main_c_17 : DevRef τ sig) = constantI S_ 32 352#32 := by
  obtain ⟨hin, hout⟩ := after_split ops_writes 158 _ rfl V
  rw [hout main_c_17 (by decide)]
  generalize after (List.take 158 ops) V = V'
  simp only [nullary_result', unary_result', binary_result', ternary_result', reshape_result', nary4_result']
  <;> rfl

theorem ssa_main_v93 (V : Valuation τ sig (Elt F)) :
    after ops V (main_v93 : DevRef τ sig) = broadcastInDim S24000 ![] bcast_S_S24000 (after ops V (main_c_17 : DevRef τ sig)) := by
  obtain ⟨hin, hout⟩ := after_split ops_writes 159 _ rfl V
  rw [hout main_v93 (by decide), hin main_c_17 (by decide)]
  generalize after (List.take 159 ops) V = V'
  simp only [nullary_result', unary_result', binary_result', ternary_result', reshape_result', nary4_result']
  <;> rfl

theorem ssa_main_v94 (V : Valuation τ sig (Elt F)) :
    after ops V (main_v94 : DevRef τ sig) = addi (after ops V (main_v78 : DevRef τ sig)) (after ops V (main_v93 : DevRef τ sig)) := by
  obtain ⟨hin, hout⟩ := after_split ops_writes 160 _ rfl V
  rw [hout main_v94 (by decide), hin main_v78 (by decide), hin main_v93 (by decide)]
  generalize after (List.take 160 ops) V = V'
  simp only [nullary_result', unary_result', binary_result', ternary_result', reshape_result', nary4_result']
  <;> rfl

theorem ssa_main_v95 (V : Valuation τ sig (Elt F)) :
    after ops V (main_v95 : DevRef τ sig) = select (after ops V (main_v92 : DevRef τ sig)) (after ops V (main_v94 : DevRef τ sig)) (after ops V (main_v78 : DevRef τ sig)) := by
  obtain ⟨hin, hout⟩ := after_split ops_writes 161 _ rfl V
  rw [hout main_v95 (by decide), hin main_v92 (by decide), hin main_v94 (by decide), hin main_v78 (by decide)]
  generalize after (List.take 161 ops) V = V'
  simp only [nullary_result', unary_result', binary_result', ternary_result', reshape_result', nary4_result']
  <;> rfl

theorem ssa_main_c_18 (V : Valuation τ sig (Elt F)) :
    after ops V (main_c_18 : DevRef τ sig) = constantI S_ 32 0#32 := by
  obtain ⟨hin, hout⟩ := after_split ops_writes 162 _ rfl V
  rw [hout main_c_18 (by decide)]
  generalize after (List.take 162 ops) V = V'
  simp only [nullary_result', unary_result', binary_result', ternary_result', reshape_result', nary4_result']
  <;> rfl

theorem ssa_main_v96 (V : Valuation τ sig (Elt F)) :
    after ops V (main_v96 : DevRef τ sig) = broadcastInDim S24000 ![] bcast_S_S24000 (after ops V (main_c_18 : DevRef τ sig)) := by
  obtain ⟨hin, hout⟩ := after_split ops_writes 163 _ rfl V
  rw [hout main_v96 (by decide), hin main_c_18 (by decide)]
  generalize after (List.take 163 ops) V = V'
  simp only [nullary_result', unary_result', binary_result', ternary_result', reshape_result', nary4_result']
  <;> rfl

theorem ssa_main_v97 (V : Valuation τ sig (Elt F)) :
    after ops V (main_v97 : DevRef τ sig) = id (after ops V (main_v96 : DevRef τ sig)) := by
  obtain ⟨hin, hout⟩ := after_split ops_writes 164 _ rfl V
  rw [hout main_v97 (by decide), hin main_v96 (by decide)]
  generalize after (List.take 164 ops) V = V'
  simp only [nullary_result', unary_result', binary_result', ternary_result', reshape_result', nary4_result']
  <;> rfl

theorem ssa_main_v98 (V : Valuation τ sig (Elt F)) :
    after ops V (main_v98 : DevRef τ sig) = broadcastInDim S24000x1 ![0] bcast_S24000_S24000x1_0 (after ops V (main_v97 : DevRef τ sig)) := by
  obtain ⟨hin, hout⟩ := after_split ops_writes 165 _ rfl V
  rw [hout main_v98 (by decide), hin main_v97 (by decide)]
  generalize after (List.take 165 ops) V = V'
  simp only [nullary_result', unary_result', binary_result', ternary_result', reshape_result', nary4_result']
  <;> rfl

theorem ssa_main_v99 (V : Valuation τ sig (Elt F)) :
    after ops V (main_v99 : DevRef τ sig) = broadcastInDim S24000x1 ![0] bcast_S24000_S24000x1_0 (after ops V (main_v85 : DevRef τ sig)) := by
  obtain ⟨hin, hout⟩ := after_split ops_writes 166 _ rfl V
  rw [hout main_v99 (by decide), hin main_v85 (by decide)]
  generalize after (List.take 166 ops) V = V'
  simp only [nullary_result', unary_result', binary_result', ternary_result', reshape_result', nary4_result']
  <;> rfl

theorem ssa_main_v100 (V : Valuation τ sig (Elt F)) :
    after ops V (main_v100 : DevRef τ sig) = broadcastInDim S24000x1 ![0] bcast_S24000_S24000x1_0 (after ops V (main_v90 : DevRef τ sig)) := by
  obtain ⟨hin, hout⟩ := after_split ops_writes 167 _ rfl V
  rw [hout main_v100 (by decide), hin main_v90 (by decide)]
  generalize after (List.take 167 ops) V = V'
  simp only [nullary_result', unary_result', binary_result', ternary_result', reshape_result', nary4_result']
  <;> rfl

theorem ssa_main_v101 (V : Valuation τ sig (Elt F)) :
    after ops V (main_v101 : DevRef τ sig) = broadcastInDim S24000x1 ![0] bcast_S24000_S24000x1_0 (after ops V (main_v95 : DevRef τ sig)) := by
  obtain ⟨hin, hout⟩ := after_split ops_writes 168 _ rfl V
  rw [hout main_v101 (by decide), hin main_v95 (by decide)]
  generalize after (List.take 168 ops) V = V'
  simp only [nullary_result', unary_result', binary_result', ternary_result', reshape_result', nary4_result']
  <;> rfl

theorem ssa_main_v102 (V : Valuation τ sig (Elt F)) :
    after ops V (main_v102 : DevRef τ sig) = concatenate S24000x4 1 [⟨S24000x1, (after ops V (main_v98 : DevRef τ sig))⟩, ⟨S24000x1, (after ops V (main_v99 : DevRef τ sig))⟩, ⟨S24000x1, (after ops V (main_v100 : DevRef τ sig))⟩, ⟨S24000x1, (after ops V (main_v101 : DevRef τ sig))⟩] concatenates_S24000x1_S24000x1_S24000x1_S24000x1_S24000x4_d1 := by
  obtain ⟨hin, hout⟩ := after_split ops_writes 169 _ rfl V
  rw [hout main_v102 (by decide), hin main_v98 (by decide), hin main_v99 (by decide), hin main_v100 (by decide), hin main_v101 (by decide)]
  generalize after (List.take 169 ops) V = V'
  simp only [nullary_result', unary_result', binary_result', ternary_result', reshape_result', nary4_result']
  <;> rfl

theorem ssa_main_v103 (V : Valuation τ sig (Elt F)) :
    after ops V (main_v103 : DevRef τ sig) = Host.scatter scatter_S1x10x400x352x128_S24000x4_S24000x128_1_0123_0123_1 (fun _ b => b) (after ops V (main_v79 : DevRef τ sig)) (after ops V (main_v102 : DevRef τ sig)) (after ops V (main_v80 : DevRef τ sig)) := by
  obtain ⟨hin, hout⟩ := after_split ops_writes 170 _ rfl V
  rw [hout main_v103 (by decide), hin main_v79 (by decide), hin main_v102 (by decide), hin main_v80 (by decide)]
  generalize after (List.take 170 ops) V = V'
  simp only [nullary_result', unary_result', binary_result', ternary_result', reshape_result', nary4_result']
  <;> rfl

theorem ssa_main_v104 (V : Valuation τ sig (Elt F)) :
    after ops V (main_v104 : DevRef τ sig) = transpose S1x128x10x400x352 [0, 4, 1, 2, 3] (after ops V (main_v103 : DevRef τ sig)) transposes_S1x10x400x352x128_S1x128x10x400x352_0_4_1_2_3 := by
  obtain ⟨hin, hout⟩ := after_split ops_writes 171 _ rfl V
  rw [hout main_v104 (by decide), hin main_v103 (by decide)]
  generalize after (List.take 171 ops) V = V'
  simp only [nullary_result', unary_result', binary_result', ternary_result', reshape_result', nary4_result']
  <;> rfl

end Cert.ReferenceIdeal.RefRun

end
-- ==== Proof.RefRes.lean ====
import proofs.«172356_j10943576670908_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-! # The reference program as a composition of named stages

One definition per operation of the reference program's line: the contents of the operation's result buffer as a function of
the twelve argument arrays, written as the operation applied to the stages of its operands. `res_main_v104` is the whole
reference; the stages `res_main_callK_…` are those of the functions called (mean and variance of a layer's activations, the
rectifier). -/

/-- The contents of `main_cst`: a constant. -/
def res_main_cst (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0xFF800000#32

/-- The contents of `main_v0`: one operation over `main_arg0`, `main_cst`. -/
def res_main_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35, .f32⟩ : BufTy).Contents (Elt F) :=
  Host.reduce FloatOps.maximumf a0 (res_main_cst a0 a1 a2 a3 a4 a5 a6 a7 a8 a9 a10 a11) reducesTo_S2x12000x35x7_S2x12000x35_d3 h_S_

/-- The contents of `main_v1`: one operation over `main_v0`. -/
def res_main_v1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x1, .f32⟩ : BufTy).Contents (Elt F) :=
  broadcastInDim S2x12000x35x1 ![0, 1, 2] bcast_S2x12000x35_S2x12000x35x1_0_1_2 (res_main_v0 a0 a1 a2 a3 a4 a5 a6 a7 a8 a9 a10 a11)

/-- The contents of `main_cst_0`: a constant. -/
def res_main_cst_0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_v2`: one operation over `main_cst_0`. -/
def res_main_v2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x1, .f32⟩ : BufTy).Contents (Elt F) :=
  broadcastInDim S2x12000x35x1 ![] bcast_S_S2x12000x35x1 (res_main_cst_0 a0 a1 a2 a3 a4 a5 a6 a7 a8 a9 a10 a11)

/-- The contents of `main_v3`: one operation over `main_v1`, `main_v2`. -/
def res_main_v3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x1, .i1⟩ : BufTy).Contents (Elt F) :=
  cmpf .une (res_main_v1 a0 a1 a2 a3 a4 a5 a6 a7 a8 a9 a10 a11) (res_main_v2 a0 a1 a2 a3 a4 a5 a6 a7 a8 a9 a10 a11)

/-- The contents of `main_v4`: one operation over `main_v3`. -/
def res_main_v4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x1, .f32⟩ : BufTy).Contents (Elt F) :=
  uitofp .f32 (res_main_v3 a0 a1 a2 a3 a4 a5 a6 a7 a8 a9 a10 a11)

/-- The contents of `main_v5`: one operation over `main_arg0`, `main_arg2`. -/
def res_main_v5 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  Host.dotGeneral dot_S2x12000x35x7_S7x16_S2x12000x35x16_3_0_012_1_n_n none a0 a2

/-- The contents of `main_v6`: one operation over `main_arg3`. -/
def res_main_v6 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 a3

/-- The contents of `main_v7`: one operation over `main_v6`. -/
def res_main_v7 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_v6 a0 a1 a2 a3 a4 a5 a6 a7 a8 a9 a10 a11)

/-- The contents of `main_v8`: one operation over `main_v5`, `main_v7`. -/
def res_main_v8 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  addf (res_main_v5 a0 a1 a2 a3 a4 a5 a6 a7 a8 a9 a10 a11) (res_main_v7 a0 a1 a2 a3 a4 a5 a6 a7 a8 a9 a10 a11)

/-- The contents of `main_call0_cst`: a constant. -/
def res_main_call0_cst (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call0_v0`: one operation over `main_call0_cst`. -/
def res_main_call0_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![] bcast_S_S2x12000x35x16 (res_main_call0_cst a0 a1 a2 a3 a4 a5 a6 a7 a8 a9 a10 a11)

/-- The contents of `main_v9`: one operation over `main_v8`, `main_call0_v0`. -/
def res_main_v9 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  maximumf (res_main_v8 a0 a1 a2 a3 a4 a5 a6 a7 a8 a9 a10 a11) (res_main_call0_v0 a0 a1 a2 a3 a4 a5 a6 a7 a8 a9 a10 a11)

/-- The contents of `main_cst_1`: a constant. -/
def res_main_cst_1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_v10`: one operation over `main_v9`, `main_cst_1`. -/
def res_main_v10 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.reduceAdd (res_main_v9 a0 a1 a2 a3 a4 a5 a6 a7 a8 a9 a10 a11) (res_main_cst_1 a0 a1 a2 a3 a4 a5 a6 a7 a8 a9 a10 a11) reducesTo_S2x12000x35x16_S16_d0_1_2 h_S_

/-- The contents of `main_cst_2`: a constant. -/
def res_main_cst_2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_v11`: one operation over `main_cst_2`. -/
def res_main_v11 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  broadcastInDim S16 ![] bcast_S_S16 (res_main_cst_2 a0 a1 a2 a3 a4 a5 a6 a7 a8 a9 a10 a11)

/-- The contents of `main_v12`: one operation over `main_v10`, `main_v11`. -/
def res_main_v12 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.divf (res_main_v10 a0 a1 a2 a3 a4 a5 a6 a7 a8 a9 a10 a11) (res_main_v11 a0 a1 a2 a3 a4 a5 a6 a7 a8 a9 a10 a11)

/-- The contents of `main_c`: a constant. -/
def res_main_c (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_call1_cst`: a constant. -/
def res_main_call1_cst (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call1_v0`: one operation over `main_v9`, `main_call1_cst`. -/
def res_main_call1_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.reduceAdd (res_main_v9 a0 a1 a2 a3 a4 a5 a6 a7 a8 a9 a10 a11) (res_main_call1_cst a0 a1 a2 a3 a4 a5 a6 a7 a8 a9 a10 a11) reducesTo_S2x12000x35x16_S16_d0_1_2 h_S_

/-- The contents of `main_call1_v1`: one operation over `main_call1_v0`. -/
def res_main_call1_v1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 (res_main_call1_v0 a0 a1 a2 a3 a4 a5 a6 a7 a8 a9 a10 a11)

/-- The contents of `main_call1_cst_0`: a constant. -/
def res_main_call1_cst_0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_call1_v2`: one operation over `main_call1_cst_0`. -/
def res_main_call1_v2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![] bcast_S_S1x1x1x16 (res_main_call1_cst_0 a0 a1 a2 a3 a4 a5 a6 a7 a8 a9 a10 a11)

/-- The contents of `main_call1_v3`: one operation over `main_call1_v1`, `main_call1_v2`. -/
def res_main_call1_v3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  Host.divf (res_main_call1_v1 a0 a1 a2 a3 a4 a5 a6 a7 a8 a9 a10 a11) (res_main_call1_v2 a0 a1 a2 a3 a4 a5 a6 a7 a8 a9 a10 a11)

/-- The contents of `main_call1_v4`: one operation over `main_call1_v3`. -/
def res_main_call1_v4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_call1_v3 a0 a1 a2 a3 a4 a5 a6 a7 a8 a9 a10 a11)

/-- The contents of `main_call1_v5`: one operation over `main_v9`, `main_call1_v4`. -/
def res_main_call1_v5 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  subf (res_main_v9 a0 a1 a2 a3 a4 a5 a6 a7 a8 a9 a10 a11) (res_main_call1_v4 a0 a1 a2 a3 a4 a5 a6 a7 a8 a9 a10 a11)

/-- The contents of `main_call1_v6`: one operation over `main_call1_v5`. -/
def res_main_call1_v6 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  mulf (res_main_call1_v5 a0 a1 a2 a3 a4 a5 a6 a7 a8 a9 a10 a11) (res_main_call1_v5 a0 a1 a2 a3 a4 a5 a6 a7 a8 a9 a10 a11)

/-- The contents of `main_call1_v7`: one operation over `main_c`. -/
def res_main_call1_v7 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  sitofp .f32 (res_main_c a0 a1 a2 a3 a4 a5 a6 a7 a8 a9 a10 a11)

/-- The contents of `main_call1_cst_1`: a constant. -/
def res_main_call1_cst_1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_call1_v8`: one operation over `main_call1_cst_1`, `main_call1_v7`. -/
def res_main_call1_v8 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  subf (res_main_call1_cst_1 a0 a1 a2 a3 a4 a5 a6 a7 a8 a9 a10 a11) (res_main_call1_v7 a0 a1 a2 a3 a4 a5 a6 a7 a8 a9 a10 a11)

/-- The contents of `main_call1_cst_2`: a constant. -/
def res_main_call1_cst_2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call1_v9`: one operation over `main_call1_v6`, `main_call1_cst_2`. -/
def res_main_call1_v9 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.reduceAdd (res_main_call1_v6 a0 a1 a2 a3 a4 a5 a6 a7 a8 a9 a10 a11) (res_main_call1_cst_2 a0 a1 a2 a3 a4 a5 a6 a7 a8 a9 a10 a11) reducesTo_S2x12000x35x16_S16_d0_1_2 h_S_

/-- The contents of `main_call1_v10`: one operation over `main_call1_v8`. -/
def res_main_call1_v10 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  broadcastInDim S16 ![] bcast_S_S16 (res_main_call1_v8 a0 a1 a2 a3 a4 a5 a6 a7 a8 a9 a10 a11)

/-- The contents of `main_call1_v11`: one operation over `main_call1_v9`, `main_call1_v10`. -/
def res_main_call1_v11 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.divf (res_main_call1_v9 a0 a1 a2 a3 a4 a5 a6 a7 a8 a9 a10 a11) (res_main_call1_v10 a0 a1 a2 a3 a4 a5 a6 a7 a8 a9 a10 a11)

/-- The contents of `main_call1_cst_3`: a constant. -/
def res_main_call1_cst_3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call1_v12`: one operation over `main_call1_v8`, `main_call1_cst_3`. -/
def res_main_call1_v12 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i1⟩ : BufTy).Contents (Elt F) :=
  cmpf .ogt (res_main_call1_v8 a0 a1 a2 a3 a4 a5 a6 a7 a8 a9 a10 a11) (res_main_call1_cst_3 a0 a1 a2 a3 a4 a5 a6 a7 a8 a9 a10 a11)

/-- The contents of `main_call1_cst_4`: a constant. -/
def res_main_call1_cst_4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x7FC00000#32

/-- The contents of `main_call1_call0_v0`: one operation over `main_call1_cst_4`. -/
def res_main_call1_call0_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  id (res_main_call1_cst_4 a0 a1 a2 a3 a4 a5 a6 a7 a8 a9 a10 a11)

/-- The contents of `main_call1_call0_v1`: one operation over `main_call1_call0_v0`. -/
def res_main_call1_call0_v1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  broadcastInDim S16 ![] bcast_S_S16 (res_main_call1_call0_v0 a0 a1 a2 a3 a4 a5 a6 a7 a8 a9 a10 a11)

/-- The contents of `main_v13`: one operation over `main_call1_v12`, `main_call1_v11`, `main_call1_call0_v1`. -/
def res_main_v13 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  select (broadcastInDim S16 ![] bcast_S_S16 (res_main_call1_v12 a0 a1 a2 a3 a4 a5 a6 a7 a8 a9 a10 a11)) (res_main_call1_v11 a0 a1 a2 a3 a4 a5 a6 a7 a8 a9 a10 a11) (res_main_call1_call0_v1 a0 a1 a2 a3 a4 a5 a6 a7 a8 a9 a10 a11)

/-- The contents of `main_v14`: one operation over `main_v12`. -/
def res_main_v14 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 (res_main_v12 a0 a1 a2 a3 a4 a5 a6 a7 a8 a9 a10 a11)

/-- The contents of `main_v15`: one operation over `main_v14`. -/
def res_main_v15 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_v14 a0 a1 a2 a3 a4 a5 a6 a7 a8 a9 a10 a11)

/-- The contents of `main_v16`: one operation over `main_v9`, `main_v15`. -/
def res_main_v16 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  subf (res_main_v9 a0 a1 a2 a3 a4 a5 a6 a7 a8 a9 a10 a11) (res_main_v15 a0 a1 a2 a3 a4 a5 a6 a7 a8 a9 a10 a11)

/-- The contents of `main_cst_3`: a constant. -/
def res_main_cst_3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x3727C5AC#32

/-- The contents of `main_v17`: one operation over `main_cst_3`. -/
def res_main_v17 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  broadcastInDim S16 ![] bcast_S_S16 (res_main_cst_3 a0 a1 a2 a3 a4 a5 a6 a7 a8 a9 a10 a11)

/-- The contents of `main_v18`: one operation over `main_v13`, `main_v17`. -/
def res_main_v18 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  addf (res_main_v13 a0 a1 a2 a3 a4 a5 a6 a7 a8 a9 a10 a11) (res_main_v17 a0 a1 a2 a3 a4 a5 a6 a7 a8 a9 a10 a11)

/-- The contents of `main_v19`: one operation over `main_v18`. -/
def res_main_v19 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S16, .f32⟩ : BufTy).Contents (Elt F) :=
  Host.rsqrt (res_main_v18 a0 a1 a2 a3 a4 a5 a6 a7 a8 a9 a10 a11)

/-- The contents of `main_v20`: one operation over `main_v19`. -/
def res_main_v20 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 (res_main_v19 a0 a1 a2 a3 a4 a5 a6 a7 a8 a9 a10 a11)

/-- The contents of `main_v21`: one operation over `main_v20`. -/
def res_main_v21 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_v20 a0 a1 a2 a3 a4 a5 a6 a7 a8 a9 a10 a11)

/-- The contents of `main_v22`: one operation over `main_v16`, `main_v21`. -/
def res_main_v22 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  mulf (res_main_v16 a0 a1 a2 a3 a4 a5 a6 a7 a8 a9 a10 a11) (res_main_v21 a0 a1 a2 a3 a4 a5 a6 a7 a8 a9 a10 a11)

/-- The contents of `main_v23`: one operation over `main_arg4`. -/
def res_main_v23 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 a4

/-- The contents of `main_v24`: one operation over `main_v23`. -/
def res_main_v24 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_v23 a0 a1 a2 a3 a4 a5 a6 a7 a8 a9 a10 a11)

/-- The contents of `main_v25`: one operation over `main_v22`, `main_v24`. -/
def res_main_v25 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  mulf (res_main_v22 a0 a1 a2 a3 a4 a5 a6 a7 a8 a9 a10 a11) (res_main_v24 a0 a1 a2 a3 a4 a5 a6 a7 a8 a9 a10 a11)

/-- The contents of `main_v26`: one operation over `main_arg5`. -/
def res_main_v26 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x16, .f32⟩ : BufTy).Contents (Elt F) :=
  broadcastInDim S1x1x1x16 ![3] bcast_S16_S1x1x1x16_3 a5

/-- The contents of `main_v27`: one operation over `main_v26`. -/
def res_main_v27 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S1x1x1x16_S2x12000x35x16_0_1_2_3 (res_main_v26 a0 a1 a2 a3 a4 a5 a6 a7 a8 a9 a10 a11)

/-- The contents of `main_v28`: one operation over `main_v25`, `main_v27`. -/
def res_main_v28 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  addf (res_main_v25 a0 a1 a2 a3 a4 a5 a6 a7 a8 a9 a10 a11) (res_main_v27 a0 a1 a2 a3 a4 a5 a6 a7 a8 a9 a10 a11)

/-- The contents of `main_cst_4`: a constant. -/
def res_main_cst_4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0xFF800000#32

/-- The contents of `main_v29`: one operation over `main_v28`, `main_cst_4`. -/
def res_main_v29 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x16, .f32⟩ : BufTy).Contents (Elt F) :=
  Host.reduce FloatOps.maximumf (res_main_v28 a0 a1 a2 a3 a4 a5 a6 a7 a8 a9 a10 a11) (res_main_cst_4 a0 a1 a2 a3 a4 a5 a6 a7 a8 a9 a10 a11) reducesTo_S2x12000x35x16_S2x12000x16_d2 h_S_

/-- The contents of `main_v30`: one operation over `main_v29`. -/
def res_main_v30 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x1x16, .f32⟩ : BufTy).Contents (Elt F) :=
  broadcastInDim S2x12000x1x16 ![0, 1, 3] bcast_S2x12000x16_S2x12000x1x16_0_1_3 (res_main_v29 a0 a1 a2 a3 a4 a5 a6 a7 a8 a9 a10 a11)

/-- The contents of `main_v31`: one operation over `main_v30`. -/
def res_main_v31 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x16, .f32⟩ : BufTy).Contents (Elt F) :=
  broadcastInDim S2x12000x35x16 ![0, 1, 2, 3] bcast_S2x12000x1x16_S2x12000x35x16_0_1_2_3 (res_main_v30 a0 a1 a2 a3 a4 a5 a6 a7 a8 a9 a10 a11)

/-- The contents of `main_v32`: one operation over `main_v28`, `main_v31`. -/
def res_main_v32 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x32, .f32⟩ : BufTy).Contents (Elt F) :=
  concatenate S2x12000x35x32 3 [⟨S2x12000x35x16, (res_main_v28 a0 a1 a2 a3 a4 a5 a6 a7 a8 a9 a10 a11)⟩, ⟨S2x12000x35x16, (res_main_v31 a0 a1 a2 a3 a4 a5 a6 a7 a8 a9 a10 a11)⟩] concatenates_S2x12000x35x16_S2x12000x35x16_S2x12000x35x32_d3

/-- The contents of `main_v33`: one operation over `main_v4`. -/
def res_main_v33 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x32, .f32⟩ : BufTy).Contents (Elt F) :=
  broadcastInDim S2x12000x35x32 ![0, 1, 2, 3] bcast_S2x12000x35x1_S2x12000x35x32_0_1_2_3 (res_main_v4 a0 a1 a2 a3 a4 a5 a6 a7 a8 a9 a10 a11)

/-- The contents of `main_v34`: one operation over `main_v32`, `main_v33`. -/
def res_main_v34 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x32, .f32⟩ : BufTy).Contents (Elt F) :=
  mulf (res_main_v32 a0 a1 a2 a3 a4 a5 a6 a7 a8 a9 a10 a11) (res_main_v33 a0 a1 a2 a3 a4 a5 a6 a7 a8 a9 a10 a11)

/-- The contents of `main_v35`: one operation over `main_v34`, `main_arg6`. -/
def res_main_v35 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  Host.dotGeneral dot_S2x12000x35x32_S32x64_S2x12000x35x64_3_0_012_1_n_n none (res_main_v34 a0 a1 a2 a3 a4 a5 a6 a7 a8 a9 a10 a11) a6

/-- The contents of `main_v36`: one operation over `main_arg7`. -/
def res_main_v36 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 a7

/-- The contents of `main_v37`: one operation over `main_v36`. -/
def res_main_v37 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_v36 a0 a1 a2 a3 a4 a5 a6 a7 a8 a9 a10 a11)

/-- The contents of `main_v38`: one operation over `main_v35`, `main_v37`. -/
def res_main_v38 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  addf (res_main_v35 a0 a1 a2 a3 a4 a5 a6 a7 a8 a9 a10 a11) (res_main_v37 a0 a1 a2 a3 a4 a5 a6 a7 a8 a9 a10 a11)

/-- The contents of `main_call2_cst`: a constant. -/
def res_main_call2_cst (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call2_v0`: one operation over `main_call2_cst`. -/
def res_main_call2_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![] bcast_S_S2x12000x35x64 (res_main_call2_cst a0 a1 a2 a3 a4 a5 a6 a7 a8 a9 a10 a11)

/-- The contents of `main_v39`: one operation over `main_v38`, `main_call2_v0`. -/
def res_main_v39 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  maximumf (res_main_v38 a0 a1 a2 a3 a4 a5 a6 a7 a8 a9 a10 a11) (res_main_call2_v0 a0 a1 a2 a3 a4 a5 a6 a7 a8 a9 a10 a11)

/-- The contents of `main_cst_5`: a constant. -/
def res_main_cst_5 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_v40`: one operation over `main_v39`, `main_cst_5`. -/
def res_main_v40 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.reduceAdd (res_main_v39 a0 a1 a2 a3 a4 a5 a6 a7 a8 a9 a10 a11) (res_main_cst_5 a0 a1 a2 a3 a4 a5 a6 a7 a8 a9 a10 a11) reducesTo_S2x12000x35x64_S64_d0_1_2 h_S_

/-- The contents of `main_cst_6`: a constant. -/
def res_main_cst_6 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_v41`: one operation over `main_cst_6`. -/
def res_main_v41 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  broadcastInDim S64 ![] bcast_S_S64 (res_main_cst_6 a0 a1 a2 a3 a4 a5 a6 a7 a8 a9 a10 a11)

/-- The contents of `main_v42`: one operation over `main_v40`, `main_v41`. -/
def res_main_v42 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.divf (res_main_v40 a0 a1 a2 a3 a4 a5 a6 a7 a8 a9 a10 a11) (res_main_v41 a0 a1 a2 a3 a4 a5 a6 a7 a8 a9 a10 a11)

/-- The contents of `main_c_7`: a constant. -/
def res_main_c_7 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_call3_cst`: a constant. -/
def res_main_call3_cst (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call3_v0`: one operation over `main_v39`, `main_call3_cst`. -/
def res_main_call3_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.reduceAdd (res_main_v39 a0 a1 a2 a3 a4 a5 a6 a7 a8 a9 a10 a11) (res_main_call3_cst a0 a1 a2 a3 a4 a5 a6 a7 a8 a9 a10 a11) reducesTo_S2x12000x35x64_S64_d0_1_2 h_S_

/-- The contents of `main_call3_v1`: one operation over `main_call3_v0`. -/
def res_main_call3_v1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 (res_main_call3_v0 a0 a1 a2 a3 a4 a5 a6 a7 a8 a9 a10 a11)

/-- The contents of `main_call3_cst_0`: a constant. -/
def res_main_call3_cst_0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_call3_v2`: one operation over `main_call3_cst_0`. -/
def res_main_call3_v2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![] bcast_S_S1x1x1x64 (res_main_call3_cst_0 a0 a1 a2 a3 a4 a5 a6 a7 a8 a9 a10 a11)

/-- The contents of `main_call3_v3`: one operation over `main_call3_v1`, `main_call3_v2`. -/
def res_main_call3_v3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  Host.divf (res_main_call3_v1 a0 a1 a2 a3 a4 a5 a6 a7 a8 a9 a10 a11) (res_main_call3_v2 a0 a1 a2 a3 a4 a5 a6 a7 a8 a9 a10 a11)

/-- The contents of `main_call3_v4`: one operation over `main_call3_v3`. -/
def res_main_call3_v4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_call3_v3 a0 a1 a2 a3 a4 a5 a6 a7 a8 a9 a10 a11)

/-- The contents of `main_call3_v5`: one operation over `main_v39`, `main_call3_v4`. -/
def res_main_call3_v5 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  subf (res_main_v39 a0 a1 a2 a3 a4 a5 a6 a7 a8 a9 a10 a11) (res_main_call3_v4 a0 a1 a2 a3 a4 a5 a6 a7 a8 a9 a10 a11)

/-- The contents of `main_call3_v6`: one operation over `main_call3_v5`. -/
def res_main_call3_v6 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  mulf (res_main_call3_v5 a0 a1 a2 a3 a4 a5 a6 a7 a8 a9 a10 a11) (res_main_call3_v5 a0 a1 a2 a3 a4 a5 a6 a7 a8 a9 a10 a11)

/-- The contents of `main_call3_v7`: one operation over `main_c_7`. -/
def res_main_call3_v7 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  sitofp .f32 (res_main_c_7 a0 a1 a2 a3 a4 a5 a6 a7 a8 a9 a10 a11)

/-- The contents of `main_call3_cst_1`: a constant. -/
def res_main_call3_cst_1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x494D1400#32

/-- The contents of `main_call3_v8`: one operation over `main_call3_cst_1`, `main_call3_v7`. -/
def res_main_call3_v8 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  subf (res_main_call3_cst_1 a0 a1 a2 a3 a4 a5 a6 a7 a8 a9 a10 a11) (res_main_call3_v7 a0 a1 a2 a3 a4 a5 a6 a7 a8 a9 a10 a11)

/-- The contents of `main_call3_cst_2`: a constant. -/
def res_main_call3_cst_2 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call3_v9`: one operation over `main_call3_v6`, `main_call3_cst_2`. -/
def res_main_call3_v9 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.reduceAdd (res_main_call3_v6 a0 a1 a2 a3 a4 a5 a6 a7 a8 a9 a10 a11) (res_main_call3_cst_2 a0 a1 a2 a3 a4 a5 a6 a7 a8 a9 a10 a11) reducesTo_S2x12000x35x64_S64_d0_1_2 h_S_

/-- The contents of `main_call3_v10`: one operation over `main_call3_v8`. -/
def res_main_call3_v10 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  broadcastInDim S64 ![] bcast_S_S64 (res_main_call3_v8 a0 a1 a2 a3 a4 a5 a6 a7 a8 a9 a10 a11)

/-- The contents of `main_call3_v11`: one operation over `main_call3_v9`, `main_call3_v10`. -/
def res_main_call3_v11 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.divf (res_main_call3_v9 a0 a1 a2 a3 a4 a5 a6 a7 a8 a9 a10 a11) (res_main_call3_v10 a0 a1 a2 a3 a4 a5 a6 a7 a8 a9 a10 a11)

/-- The contents of `main_call3_cst_3`: a constant. -/
def res_main_call3_cst_3 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_call3_v12`: one operation over `main_call3_v8`, `main_call3_cst_3`. -/
def res_main_call3_v12 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i1⟩ : BufTy).Contents (Elt F) :=
  cmpf .ogt (res_main_call3_v8 a0 a1 a2 a3 a4 a5 a6 a7 a8 a9 a10 a11) (res_main_call3_cst_3 a0 a1 a2 a3 a4 a5 a6 a7 a8 a9 a10 a11)

/-- The contents of `main_call3_cst_4`: a constant. -/
def res_main_call3_cst_4 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x7FC00000#32

/-- The contents of `main_call3_call0_v0`: one operation over `main_call3_cst_4`. -/
def res_main_call3_call0_v0 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  id (res_main_call3_cst_4 a0 a1 a2 a3 a4 a5 a6 a7 a8 a9 a10 a11)

/-- The contents of `main_call3_call0_v1`: one operation over `main_call3_call0_v0`. -/
def res_main_call3_call0_v1 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  broadcastInDim S64 ![] bcast_S_S64 (res_main_call3_call0_v0 a0 a1 a2 a3 a4 a5 a6 a7 a8 a9 a10 a11)

/-- The contents of `main_v43`: one operation over `main_call3_v12`, `main_call3_v11`, `main_call3_call0_v1`. -/
def res_main_v43 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  select (broadcastInDim S64 ![] bcast_S_S64 (res_main_call3_v12 a0 a1 a2 a3 a4 a5 a6 a7 a8 a9 a10 a11)) (res_main_call3_v11 a0 a1 a2 a3 a4 a5 a6 a7 a8 a9 a10 a11) (res_main_call3_call0_v1 a0 a1 a2 a3 a4 a5 a6 a7 a8 a9 a10 a11)

/-- The contents of `main_v44`: one operation over `main_v42`. -/
def res_main_v44 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 (res_main_v42 a0 a1 a2 a3 a4 a5 a6 a7 a8 a9 a10 a11)

/-- The contents of `main_v45`: one operation over `main_v44`. -/
def res_main_v45 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_v44 a0 a1 a2 a3 a4 a5 a6 a7 a8 a9 a10 a11)

/-- The contents of `main_v46`: one operation over `main_v39`, `main_v45`. -/
def res_main_v46 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  subf (res_main_v39 a0 a1 a2 a3 a4 a5 a6 a7 a8 a9 a10 a11) (res_main_v45 a0 a1 a2 a3 a4 a5 a6 a7 a8 a9 a10 a11)

/-- The contents of `main_cst_8`: a constant. -/
def res_main_cst_8 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x3727C5AC#32

/-- The contents of `main_v47`: one operation over `main_cst_8`. -/
def res_main_v47 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  broadcastInDim S64 ![] bcast_S_S64 (res_main_cst_8 a0 a1 a2 a3 a4 a5 a6 a7 a8 a9 a10 a11)

/-- The contents of `main_v48`: one operation over `main_v43`, `main_v47`. -/
def res_main_v48 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  addf (res_main_v43 a0 a1 a2 a3 a4 a5 a6 a7 a8 a9 a10 a11) (res_main_v47 a0 a1 a2 a3 a4 a5 a6 a7 a8 a9 a10 a11)

/-- The contents of `main_v49`: one operation over `main_v48`. -/
def res_main_v49 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S64, .f32⟩ : BufTy).Contents (Elt F) :=
  Host.rsqrt (res_main_v48 a0 a1 a2 a3 a4 a5 a6 a7 a8 a9 a10 a11)

/-- The contents of `main_v50`: one operation over `main_v49`. -/
def res_main_v50 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 (res_main_v49 a0 a1 a2 a3 a4 a5 a6 a7 a8 a9 a10 a11)

/-- The contents of `main_v51`: one operation over `main_v50`. -/
def res_main_v51 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_v50 a0 a1 a2 a3 a4 a5 a6 a7 a8 a9 a10 a11)

/-- The contents of `main_v52`: one operation over `main_v46`, `main_v51`. -/
def res_main_v52 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  mulf (res_main_v46 a0 a1 a2 a3 a4 a5 a6 a7 a8 a9 a10 a11) (res_main_v51 a0 a1 a2 a3 a4 a5 a6 a7 a8 a9 a10 a11)

/-- The contents of `main_v53`: one operation over `main_arg8`. -/
def res_main_v53 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 a8

/-- The contents of `main_v54`: one operation over `main_v53`. -/
def res_main_v54 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_v53 a0 a1 a2 a3 a4 a5 a6 a7 a8 a9 a10 a11)

/-- The contents of `main_v55`: one operation over `main_v52`, `main_v54`. -/
def res_main_v55 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  mulf (res_main_v52 a0 a1 a2 a3 a4 a5 a6 a7 a8 a9 a10 a11) (res_main_v54 a0 a1 a2 a3 a4 a5 a6 a7 a8 a9 a10 a11)

/-- The contents of `main_v56`: one operation over `main_arg9`. -/
def res_main_v56 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x64, .f32⟩ : BufTy).Contents (Elt F) :=
  broadcastInDim S1x1x1x64 ![3] bcast_S64_S1x1x1x64_3 a9

/-- The contents of `main_v57`: one operation over `main_v56`. -/
def res_main_v57 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S1x1x1x64_S2x12000x35x64_0_1_2_3 (res_main_v56 a0 a1 a2 a3 a4 a5 a6 a7 a8 a9 a10 a11)

/-- The contents of `main_v58`: one operation over `main_v55`, `main_v57`. -/
def res_main_v58 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  addf (res_main_v55 a0 a1 a2 a3 a4 a5 a6 a7 a8 a9 a10 a11) (res_main_v57 a0 a1 a2 a3 a4 a5 a6 a7 a8 a9 a10 a11)

/-- The contents of `main_cst_9`: a constant. -/
def res_main_cst_9 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0xFF800000#32

/-- The contents of `main_v59`: one operation over `main_v58`, `main_cst_9`. -/
def res_main_v59 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x64, .f32⟩ : BufTy).Contents (Elt F) :=
  Host.reduce FloatOps.maximumf (res_main_v58 a0 a1 a2 a3 a4 a5 a6 a7 a8 a9 a10 a11) (res_main_cst_9 a0 a1 a2 a3 a4 a5 a6 a7 a8 a9 a10 a11) reducesTo_S2x12000x35x64_S2x12000x64_d2 h_S_

/-- The contents of `main_v60`: one operation over `main_v59`. -/
def res_main_v60 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x1x64, .f32⟩ : BufTy).Contents (Elt F) :=
  broadcastInDim S2x12000x1x64 ![0, 1, 3] bcast_S2x12000x64_S2x12000x1x64_0_1_3 (res_main_v59 a0 a1 a2 a3 a4 a5 a6 a7 a8 a9 a10 a11)

/-- The contents of `main_v61`: one operation over `main_v60`. -/
def res_main_v61 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x64, .f32⟩ : BufTy).Contents (Elt F) :=
  broadcastInDim S2x12000x35x64 ![0, 1, 2, 3] bcast_S2x12000x1x64_S2x12000x35x64_0_1_2_3 (res_main_v60 a0 a1 a2 a3 a4 a5 a6 a7 a8 a9 a10 a11)

/-- The contents of `main_v62`: one operation over `main_v58`, `main_v61`. -/
def res_main_v62 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  concatenate S2x12000x35x128 3 [⟨S2x12000x35x64, (res_main_v58 a0 a1 a2 a3 a4 a5 a6 a7 a8 a9 a10 a11)⟩, ⟨S2x12000x35x64, (res_main_v61 a0 a1 a2 a3 a4 a5 a6 a7 a8 a9 a10 a11)⟩] concatenates_S2x12000x35x64_S2x12000x35x64_S2x12000x35x128_d3

/-- The contents of `main_v63`: one operation over `main_v4`. -/
def res_main_v63 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  broadcastInDim S2x12000x35x128 ![0, 1, 2, 3] bcast_S2x12000x35x1_S2x12000x35x128_0_1_2_3 (res_main_v4 a0 a1 a2 a3 a4 a5 a6 a7 a8 a9 a10 a11)

/-- The contents of `main_v64`: one operation over `main_v62`, `main_v63`. -/
def res_main_v64 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  mulf (res_main_v62 a0 a1 a2 a3 a4 a5 a6 a7 a8 a9 a10 a11) (res_main_v63 a0 a1 a2 a3 a4 a5 a6 a7 a8 a9 a10 a11)

/-- The contents of `main_v65`: one operation over `main_v64`, `main_arg10`. -/
def res_main_v65 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  Host.dotGeneral dot_S2x12000x35x128_S128x128_S2x12000x35x128_3_0_012_1_n_n none (res_main_v64 a0 a1 a2 a3 a4 a5 a6 a7 a8 a9 a10 a11) a10

/-- The contents of `main_v66`: one operation over `main_arg11`. -/
def res_main_v66 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x1x1x128, .f32⟩ : BufTy).Contents (Elt F) :=
  broadcastInDim S1x1x1x128 ![3] bcast_S128_S1x1x1x128_3 a11

/-- The contents of `main_v67`: one operation over `main_v66`. -/
def res_main_v67 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  broadcastInDim S2x12000x35x128 ![0, 1, 2, 3] bcast_S1x1x1x128_S2x12000x35x128_0_1_2_3 (res_main_v66 a0 a1 a2 a3 a4 a5 a6 a7 a8 a9 a10 a11)

/-- The contents of `main_v68`: one operation over `main_v65`, `main_v67`. -/
def res_main_v68 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x35x128, .f32⟩ : BufTy).Contents (Elt F) :=
  addf (res_main_v65 a0 a1 a2 a3 a4 a5 a6 a7 a8 a9 a10 a11) (res_main_v67 a0 a1 a2 a3 a4 a5 a6 a7 a8 a9 a10 a11)

/-- The contents of `main_cst_10`: a constant. -/
def res_main_cst_10 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0xFF800000#32

/-- The contents of `main_v69`: one operation over `main_v68`, `main_cst_10`. -/
def res_main_v69 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x128, .f32⟩ : BufTy).Contents (Elt F) :=
  Host.reduce FloatOps.maximumf (res_main_v68 a0 a1 a2 a3 a4 a5 a6 a7 a8 a9 a10 a11) (res_main_cst_10 a0 a1 a2 a3 a4 a5 a6 a7 a8 a9 a10 a11) reducesTo_S2x12000x35x128_S2x12000x128_d2 h_S_

/-- The contents of `main_v70`: one operation over `main_arg1`. -/
def res_main_v70 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x1, .i32⟩ : BufTy).Contents (Elt F) :=
  extractStridedSlice S2x12000x1 ![0, 0, 0] a1 slices_S2x12000x3_S2x12000x1_0_0_0

/-- The contents of `main_v71`: one operation over `main_v70`. -/
def res_main_v71 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000, .i32⟩ : BufTy).Contents (Elt F) :=
  shapeCast S2x12000 (res_main_v70 a0 a1 a2 a3 a4 a5 a6 a7 a8 a9 a10 a11) shapeCasts_S2x12000x1_S2x12000

/-- The contents of `main_v72`: one operation over `main_v71`. -/
def res_main_v72 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  shapeCast S24000 (res_main_v71 a0 a1 a2 a3 a4 a5 a6 a7 a8 a9 a10 a11) shapeCasts_S2x12000_S24000

/-- The contents of `main_v73`: one operation over `main_arg1`. -/
def res_main_v73 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x1, .i32⟩ : BufTy).Contents (Elt F) :=
  extractStridedSlice S2x12000x1 ![0, 0, 1] a1 slices_S2x12000x3_S2x12000x1_0_0_1

/-- The contents of `main_v74`: one operation over `main_v73`. -/
def res_main_v74 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000, .i32⟩ : BufTy).Contents (Elt F) :=
  shapeCast S2x12000 (res_main_v73 a0 a1 a2 a3 a4 a5 a6 a7 a8 a9 a10 a11) shapeCasts_S2x12000x1_S2x12000

/-- The contents of `main_v75`: one operation over `main_v74`. -/
def res_main_v75 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  shapeCast S24000 (res_main_v74 a0 a1 a2 a3 a4 a5 a6 a7 a8 a9 a10 a11) shapeCasts_S2x12000_S24000

/-- The contents of `main_v76`: one operation over `main_arg1`. -/
def res_main_v76 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000x1, .i32⟩ : BufTy).Contents (Elt F) :=
  extractStridedSlice S2x12000x1 ![0, 0, 2] a1 slices_S2x12000x3_S2x12000x1_0_0_2

/-- The contents of `main_v77`: one operation over `main_v76`. -/
def res_main_v77 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S2x12000, .i32⟩ : BufTy).Contents (Elt F) :=
  shapeCast S2x12000 (res_main_v76 a0 a1 a2 a3 a4 a5 a6 a7 a8 a9 a10 a11) shapeCasts_S2x12000x1_S2x12000

/-- The contents of `main_v78`: one operation over `main_v77`. -/
def res_main_v78 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  shapeCast S24000 (res_main_v77 a0 a1 a2 a3 a4 a5 a6 a7 a8 a9 a10 a11) shapeCasts_S2x12000_S24000

/-- The contents of `main_cst_11`: a constant. -/
def res_main_cst_11 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .f32⟩ : BufTy).Contents (Elt F) :=
  constant S_ .f32 0x00000000#32

/-- The contents of `main_v79`: one operation over `main_cst_11`. -/
def res_main_v79 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x10x400x352x128, .f32⟩ : BufTy).Contents (Elt F) :=
  broadcastInDim S1x10x400x352x128 ![] bcast_S_S1x10x400x352x128 (res_main_cst_11 a0 a1 a2 a3 a4 a5 a6 a7 a8 a9 a10 a11)

/-- The contents of `main_v80`: one operation over `main_v69`. -/
def res_main_v80 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x128, .f32⟩ : BufTy).Contents (Elt F) :=
  shapeCast S24000x128 (res_main_v69 a0 a1 a2 a3 a4 a5 a6 a7 a8 a9 a10 a11) shapeCasts_S2x12000x128_S24000x128

/-- The contents of `main_c_12`: a constant. -/
def res_main_c_12 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_v81`: one operation over `main_c_12`. -/
def res_main_v81 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_12 a0 a1 a2 a3 a4 a5 a6 a7 a8 a9 a10 a11)

/-- The contents of `main_v82`: one operation over `main_v72`, `main_v81`. -/
def res_main_v82 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i1⟩ : BufTy).Contents (Elt F) :=
  cmpi .slt (res_main_v72 a0 a1 a2 a3 a4 a5 a6 a7 a8 a9 a10 a11) (res_main_v81 a0 a1 a2 a3 a4 a5 a6 a7 a8 a9 a10 a11)

/-- The contents of `main_c_13`: a constant. -/
def res_main_c_13 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 10#32

/-- The contents of `main_v83`: one operation over `main_c_13`. -/
def res_main_v83 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_13 a0 a1 a2 a3 a4 a5 a6 a7 a8 a9 a10 a11)

/-- The contents of `main_v84`: one operation over `main_v72`, `main_v83`. -/
def res_main_v84 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  addi (res_main_v72 a0 a1 a2 a3 a4 a5 a6 a7 a8 a9 a10 a11) (res_main_v83 a0 a1 a2 a3 a4 a5 a6 a7 a8 a9 a10 a11)

/-- The contents of `main_v85`: one operation over `main_v82`, `main_v84`, `main_v72`. -/
def res_main_v85 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  select (res_main_v82 a0 a1 a2 a3 a4 a5 a6 a7 a8 a9 a10 a11) (res_main_v84 a0 a1 a2 a3 a4 a5 a6 a7 a8 a9 a10 a11) (res_main_v72 a0 a1 a2 a3 a4 a5 a6 a7 a8 a9 a10 a11)

/-- The contents of `main_c_14`: a constant. -/
def res_main_c_14 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_v86`: one operation over `main_c_14`. -/
def res_main_v86 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_14 a0 a1 a2 a3 a4 a5 a6 a7 a8 a9 a10 a11)

/-- The contents of `main_v87`: one operation over `main_v75`, `main_v86`. -/
def res_main_v87 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i1⟩ : BufTy).Contents (Elt F) :=
  cmpi .slt (res_main_v75 a0 a1 a2 a3 a4 a5 a6 a7 a8 a9 a10 a11) (res_main_v86 a0 a1 a2 a3 a4 a5 a6 a7 a8 a9 a10 a11)

/-- The contents of `main_c_15`: a constant. -/
def res_main_c_15 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 400#32

/-- The contents of `main_v88`: one operation over `main_c_15`. -/
def res_main_v88 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_15 a0 a1 a2 a3 a4 a5 a6 a7 a8 a9 a10 a11)

/-- The contents of `main_v89`: one operation over `main_v75`, `main_v88`. -/
def res_main_v89 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  addi (res_main_v75 a0 a1 a2 a3 a4 a5 a6 a7 a8 a9 a10 a11) (res_main_v88 a0 a1 a2 a3 a4 a5 a6 a7 a8 a9 a10 a11)

/-- The contents of `main_v90`: one operation over `main_v87`, `main_v89`, `main_v75`. -/
def res_main_v90 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  select (res_main_v87 a0 a1 a2 a3 a4 a5 a6 a7 a8 a9 a10 a11) (res_main_v89 a0 a1 a2 a3 a4 a5 a6 a7 a8 a9 a10 a11) (res_main_v75 a0 a1 a2 a3 a4 a5 a6 a7 a8 a9 a10 a11)

/-- The contents of `main_c_16`: a constant. -/
def res_main_c_16 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_v91`: one operation over `main_c_16`. -/
def res_main_v91 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_16 a0 a1 a2 a3 a4 a5 a6 a7 a8 a9 a10 a11)

/-- The contents of `main_v92`: one operation over `main_v78`, `main_v91`. -/
def res_main_v92 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i1⟩ : BufTy).Contents (Elt F) :=
  cmpi .slt (res_main_v78 a0 a1 a2 a3 a4 a5 a6 a7 a8 a9 a10 a11) (res_main_v91 a0 a1 a2 a3 a4 a5 a6 a7 a8 a9 a10 a11)

/-- The contents of `main_c_17`: a constant. -/
def res_main_c_17 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 352#32

/-- The contents of `main_v93`: one operation over `main_c_17`. -/
def res_main_v93 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_17 a0 a1 a2 a3 a4 a5 a6 a7 a8 a9 a10 a11)

/-- The contents of `main_v94`: one operation over `main_v78`, `main_v93`. -/
def res_main_v94 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  addi (res_main_v78 a0 a1 a2 a3 a4 a5 a6 a7 a8 a9 a10 a11) (res_main_v93 a0 a1 a2 a3 a4 a5 a6 a7 a8 a9 a10 a11)

/-- The contents of `main_v95`: one operation over `main_v92`, `main_v94`, `main_v78`. -/
def res_main_v95 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  select (res_main_v92 a0 a1 a2 a3 a4 a5 a6 a7 a8 a9 a10 a11) (res_main_v94 a0 a1 a2 a3 a4 a5 a6 a7 a8 a9 a10 a11) (res_main_v78 a0 a1 a2 a3 a4 a5 a6 a7 a8 a9 a10 a11)

/-- The contents of `main_c_18`: a constant. -/
def res_main_c_18 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S_, .i32⟩ : BufTy).Contents (Elt F) :=
  constantI S_ 32 0#32

/-- The contents of `main_v96`: one operation over `main_c_18`. -/
def res_main_v96 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  broadcastInDim S24000 ![] bcast_S_S24000 (res_main_c_18 a0 a1 a2 a3 a4 a5 a6 a7 a8 a9 a10 a11)

/-- The contents of `main_v97`: one operation over `main_v96`. -/
def res_main_v97 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000, .i32⟩ : BufTy).Contents (Elt F) :=
  id (res_main_v96 a0 a1 a2 a3 a4 a5 a6 a7 a8 a9 a10 a11)

/-- The contents of `main_v98`: one operation over `main_v97`. -/
def res_main_v98 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x1, .i32⟩ : BufTy).Contents (Elt F) :=
  broadcastInDim S24000x1 ![0] bcast_S24000_S24000x1_0 (res_main_v97 a0 a1 a2 a3 a4 a5 a6 a7 a8 a9 a10 a11)

/-- The contents of `main_v99`: one operation over `main_v85`. -/
def res_main_v99 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x1, .i32⟩ : BufTy).Contents (Elt F) :=
  broadcastInDim S24000x1 ![0] bcast_S24000_S24000x1_0 (res_main_v85 a0 a1 a2 a3 a4 a5 a6 a7 a8 a9 a10 a11)

/-- The contents of `main_v100`: one operation over `main_v90`. -/
def res_main_v100 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x1, .i32⟩ : BufTy).Contents (Elt F) :=
  broadcastInDim S24000x1 ![0] bcast_S24000_S24000x1_0 (res_main_v90 a0 a1 a2 a3 a4 a5 a6 a7 a8 a9 a10 a11)

/-- The contents of `main_v101`: one operation over `main_v95`. -/
def res_main_v101 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x1, .i32⟩ : BufTy).Contents (Elt F) :=
  broadcastInDim S24000x1 ![0] bcast_S24000_S24000x1_0 (res_main_v95 a0 a1 a2 a3 a4 a5 a6 a7 a8 a9 a10 a11)

/-- The contents of `main_v102`: one operation over `main_v98`, `main_v99`, `main_v100`, `main_v101`. -/
def res_main_v102 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S24000x4, .i32⟩ : BufTy).Contents (Elt F) :=
  concatenate S24000x4 1 [⟨S24000x1, (res_main_v98 a0 a1 a2 a3 a4 a5 a6 a7 a8 a9 a10 a11)⟩, ⟨S24000x1, (res_main_v99 a0 a1 a2 a3 a4 a5 a6 a7 a8 a9 a10 a11)⟩, ⟨S24000x1, (res_main_v100 a0 a1 a2 a3 a4 a5 a6 a7 a8 a9 a10 a11)⟩, ⟨S24000x1, (res_main_v101 a0 a1 a2 a3 a4 a5 a6 a7 a8 a9 a10 a11)⟩] concatenates_S24000x1_S24000x1_S24000x1_S24000x1_S24000x4_d1

/-- The contents of `main_v103`: one operation over `main_v79`, `main_v102`, `main_v80`. -/
def res_main_v103 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x10x400x352x128, .f32⟩ : BufTy).Contents (Elt F) :=
  Host.scatter scatter_S1x10x400x352x128_S24000x4_S24000x128_1_0123_0123_1 (fun _ b => b) (res_main_v79 a0 a1 a2 a3 a4 a5 a6 a7 a8 a9 a10 a11) (res_main_v102 a0 a1 a2 a3 a4 a5 a6 a7 a8 a9 a10 a11) (res_main_v80 a0 a1 a2 a3 a4 a5 a6 a7 a8 a9 a10 a11)

/-- The contents of `main_v104`: one operation over `main_v103`. -/
def res_main_v104 (a0 : (⟨S2x12000x35x7, .f32⟩ : BufTy).Contents (Elt F)) (a1 : (⟨S2x12000x3, .i32⟩ : BufTy).Contents (Elt F)) (a2 : (⟨S7x16, .f32⟩ : BufTy).Contents (Elt F)) (a3 : (⟨S16, .f32⟩ : BufTy).Contents (Elt F)) (a4 : (⟨S16, .f32⟩ : BufTy).Contents (Elt F)) (a5 : (⟨S16, .f32⟩ : BufTy).Contents (Elt F)) (a6 : (⟨S32x64, .f32⟩ : BufTy).Contents (Elt F)) (a7 : (⟨S64, .f32⟩ : BufTy).Contents (Elt F)) (a8 : (⟨S64, .f32⟩ : BufTy).Contents (Elt F)) (a9 : (⟨S64, .f32⟩ : BufTy).Contents (Elt F)) (a10 : (⟨S128x128, .f32⟩ : BufTy).Contents (Elt F)) (a11 : (⟨S128, .f32⟩ : BufTy).Contents (Elt F)) : (⟨S1x128x10x400x352, .f32⟩ : BufTy).Contents (Elt F) :=
  transpose S1x128x10x400x352 [0, 4, 1, 2, 3] (res_main_v103 a0 a1 a2 a3 a4 a5 a6 a7 a8 a9 a10 a11) transposes_S1x10x400x352x128_S1x128x10x400x352_0_4_1_2_3

end Cert.ReferenceIdeal.RefRun

end
-- ==== Proof.RefVal.lean ====
import proofs.«172356_j10943576670908_2_alg».proof.Proof.RefOps
import proofs.«172356_j10943576670908_2_alg».proof.Proof.RefSsaA
import proofs.«172356_j10943576670908_2_alg».proof.Proof.RefSsaB
import proofs.«172356_j10943576670908_2_alg».proof.Proof.RefSsaC
import proofs.«172356_j10943576670908_2_alg».proof.Proof.RefRes
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference program's run, in named stages

Each buffer's contents after the whole line is its stage (`res_…`, one operation over earlier stages) of the argument
arrays' launch contents: by the operation's own equation over `after ops V` (`ssa_…`), the operands' buffers rewritten to
their stages, the arguments' to the launch contents; the stage's definition is then the same term. The last one,
`val_main_v104`, is the program's result, and `run` states the run with it. -/
theorem val_main_cst (V : Valuation τ sig (Elt F)) :
    after ops V (main_cst : DevRef τ sig) = res_main_cst (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst] <;> rfl

theorem val_main_v0 (V : Valuation τ sig (Elt F)) :
    after ops V (main_v0 : DevRef τ sig) = res_main_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v0, arg0_eq, val_main_cst] <;> rfl

theorem val_main_v1 (V : Valuation τ sig (Elt F)) :
    after ops V (main_v1 : DevRef τ sig) = res_main_v1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v1, val_main_v0] <;> rfl

theorem val_main_cst_0 (V : Valuation τ sig (Elt F)) :
    after ops V (main_cst_0 : DevRef τ sig) = res_main_cst_0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_0] <;> rfl

theorem val_main_v2 (V : Valuation τ sig (Elt F)) :
    after ops V (main_v2 : DevRef τ sig) = res_main_v2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v2, val_main_cst_0] <;> rfl

theorem val_main_v3 (V : Valuation τ sig (Elt F)) :
    after ops V (main_v3 : DevRef τ sig) = res_main_v3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v3, val_main_v1, val_main_v2] <;> rfl

theorem val_main_v4 (V : Valuation τ sig (Elt F)) :
    after ops V (main_v4 : DevRef τ sig) = res_main_v4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v4, val_main_v3] <;> rfl

theorem val_main_v5 (V : Valuation τ sig (Elt F)) :
    after ops V (main_v5 : DevRef τ sig) = res_main_v5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v5, arg0_eq, arg2_eq] <;> rfl

theorem val_main_v6 (V : Valuation τ sig (Elt F)) :
    after ops V (main_v6 : DevRef τ sig) = res_main_v6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v6, arg3_eq] <;> rfl

theorem val_main_v7 (V : Valuation τ sig (Elt F)) :
    after ops V (main_v7 : DevRef τ sig) = res_main_v7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v7, val_main_v6] <;> rfl

theorem val_main_v8 (V : Valuation τ sig (Elt F)) :
    after ops V (main_v8 : DevRef τ sig) = res_main_v8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v8, val_main_v5, val_main_v7] <;> rfl

theorem val_main_call0_cst (V : Valuation τ sig (Elt F)) :
    after ops V (main_call0_cst : DevRef τ sig) = res_main_call0_cst (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call0_cst] <;> rfl

theorem val_main_call0_v0 (V : Valuation τ sig (Elt F)) :
    after ops V (main_call0_v0 : DevRef τ sig) = res_main_call0_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call0_v0, val_main_call0_cst] <;> rfl

theorem val_main_v9 (V : Valuation τ sig (Elt F)) :
    after ops V (main_v9 : DevRef τ sig) = res_main_v9 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v9, val_main_v8, val_main_call0_v0] <;> rfl

theorem val_main_cst_1 (V : Valuation τ sig (Elt F)) :
    after ops V (main_cst_1 : DevRef τ sig) = res_main_cst_1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_1] <;> rfl

theorem val_main_v10 (V : Valuation τ sig (Elt F)) :
    after ops V (main_v10 : DevRef τ sig) = res_main_v10 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v10, val_main_v9, val_main_cst_1] <;> rfl

theorem val_main_cst_2 (V : Valuation τ sig (Elt F)) :
    after ops V (main_cst_2 : DevRef τ sig) = res_main_cst_2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_2] <;> rfl

theorem val_main_v11 (V : Valuation τ sig (Elt F)) :
    after ops V (main_v11 : DevRef τ sig) = res_main_v11 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v11, val_main_cst_2] <;> rfl

theorem val_main_v12 (V : Valuation τ sig (Elt F)) :
    after ops V (main_v12 : DevRef τ sig) = res_main_v12 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v12, val_main_v10, val_main_v11] <;> rfl

theorem val_main_c (V : Valuation τ sig (Elt F)) :
    after ops V (main_c : DevRef τ sig) = res_main_c (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c] <;> rfl

theorem val_main_call1_cst (V : Valuation τ sig (Elt F)) :
    after ops V (main_call1_cst : DevRef τ sig) = res_main_call1_cst (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst] <;> rfl

theorem val_main_call1_v0 (V : Valuation τ sig (Elt F)) :
    after ops V (main_call1_v0 : DevRef τ sig) = res_main_call1_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v0, val_main_v9, val_main_call1_cst] <;> rfl

theorem val_main_call1_v1 (V : Valuation τ sig (Elt F)) :
    after ops V (main_call1_v1 : DevRef τ sig) = res_main_call1_v1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v1, val_main_call1_v0] <;> rfl

theorem val_main_call1_cst_0 (V : Valuation τ sig (Elt F)) :
    after ops V (main_call1_cst_0 : DevRef τ sig) = res_main_call1_cst_0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst_0] <;> rfl

theorem val_main_call1_v2 (V : Valuation τ sig (Elt F)) :
    after ops V (main_call1_v2 : DevRef τ sig) = res_main_call1_v2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v2, val_main_call1_cst_0] <;> rfl

theorem val_main_call1_v3 (V : Valuation τ sig (Elt F)) :
    after ops V (main_call1_v3 : DevRef τ sig) = res_main_call1_v3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v3, val_main_call1_v1, val_main_call1_v2] <;> rfl

theorem val_main_call1_v4 (V : Valuation τ sig (Elt F)) :
    after ops V (main_call1_v4 : DevRef τ sig) = res_main_call1_v4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v4, val_main_call1_v3] <;> rfl

theorem val_main_call1_v5 (V : Valuation τ sig (Elt F)) :
    after ops V (main_call1_v5 : DevRef τ sig) = res_main_call1_v5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v5, val_main_v9, val_main_call1_v4] <;> rfl

theorem val_main_call1_v6 (V : Valuation τ sig (Elt F)) :
    after ops V (main_call1_v6 : DevRef τ sig) = res_main_call1_v6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v6, val_main_call1_v5] <;> rfl

theorem val_main_call1_v7 (V : Valuation τ sig (Elt F)) :
    after ops V (main_call1_v7 : DevRef τ sig) = res_main_call1_v7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v7, val_main_c] <;> rfl

theorem val_main_call1_cst_1 (V : Valuation τ sig (Elt F)) :
    after ops V (main_call1_cst_1 : DevRef τ sig) = res_main_call1_cst_1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst_1] <;> rfl

theorem val_main_call1_v8 (V : Valuation τ sig (Elt F)) :
    after ops V (main_call1_v8 : DevRef τ sig) = res_main_call1_v8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v8, val_main_call1_cst_1, val_main_call1_v7] <;> rfl

theorem val_main_call1_cst_2 (V : Valuation τ sig (Elt F)) :
    after ops V (main_call1_cst_2 : DevRef τ sig) = res_main_call1_cst_2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst_2] <;> rfl

theorem val_main_call1_v9 (V : Valuation τ sig (Elt F)) :
    after ops V (main_call1_v9 : DevRef τ sig) = res_main_call1_v9 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v9, val_main_call1_v6, val_main_call1_cst_2] <;> rfl

theorem val_main_call1_v10 (V : Valuation τ sig (Elt F)) :
    after ops V (main_call1_v10 : DevRef τ sig) = res_main_call1_v10 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v10, val_main_call1_v8] <;> rfl

theorem val_main_call1_v11 (V : Valuation τ sig (Elt F)) :
    after ops V (main_call1_v11 : DevRef τ sig) = res_main_call1_v11 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v11, val_main_call1_v9, val_main_call1_v10] <;> rfl

theorem val_main_call1_cst_3 (V : Valuation τ sig (Elt F)) :
    after ops V (main_call1_cst_3 : DevRef τ sig) = res_main_call1_cst_3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst_3] <;> rfl

theorem val_main_call1_v12 (V : Valuation τ sig (Elt F)) :
    after ops V (main_call1_v12 : DevRef τ sig) = res_main_call1_v12 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_v12, val_main_call1_v8, val_main_call1_cst_3] <;> rfl

theorem val_main_call1_cst_4 (V : Valuation τ sig (Elt F)) :
    after ops V (main_call1_cst_4 : DevRef τ sig) = res_main_call1_cst_4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_cst_4] <;> rfl

theorem val_main_call1_call0_v0 (V : Valuation τ sig (Elt F)) :
    after ops V (main_call1_call0_v0 : DevRef τ sig) = res_main_call1_call0_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_call0_v0, val_main_call1_cst_4] <;> rfl

theorem val_main_call1_call0_v1 (V : Valuation τ sig (Elt F)) :
    after ops V (main_call1_call0_v1 : DevRef τ sig) = res_main_call1_call0_v1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call1_call0_v1, val_main_call1_call0_v0] <;> rfl

theorem val_main_v13 (V : Valuation τ sig (Elt F)) :
    after ops V (main_v13 : DevRef τ sig) = res_main_v13 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v13, val_main_call1_v12, val_main_call1_v11, val_main_call1_call0_v1] <;> rfl

theorem val_main_v14 (V : Valuation τ sig (Elt F)) :
    after ops V (main_v14 : DevRef τ sig) = res_main_v14 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v14, val_main_v12] <;> rfl

theorem val_main_v15 (V : Valuation τ sig (Elt F)) :
    after ops V (main_v15 : DevRef τ sig) = res_main_v15 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v15, val_main_v14] <;> rfl

theorem val_main_v16 (V : Valuation τ sig (Elt F)) :
    after ops V (main_v16 : DevRef τ sig) = res_main_v16 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v16, val_main_v9, val_main_v15] <;> rfl

theorem val_main_cst_3 (V : Valuation τ sig (Elt F)) :
    after ops V (main_cst_3 : DevRef τ sig) = res_main_cst_3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_3] <;> rfl

theorem val_main_v17 (V : Valuation τ sig (Elt F)) :
    after ops V (main_v17 : DevRef τ sig) = res_main_v17 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v17, val_main_cst_3] <;> rfl

theorem val_main_v18 (V : Valuation τ sig (Elt F)) :
    after ops V (main_v18 : DevRef τ sig) = res_main_v18 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v18, val_main_v13, val_main_v17] <;> rfl

theorem val_main_v19 (V : Valuation τ sig (Elt F)) :
    after ops V (main_v19 : DevRef τ sig) = res_main_v19 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v19, val_main_v18] <;> rfl

theorem val_main_v20 (V : Valuation τ sig (Elt F)) :
    after ops V (main_v20 : DevRef τ sig) = res_main_v20 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v20, val_main_v19] <;> rfl

theorem val_main_v21 (V : Valuation τ sig (Elt F)) :
    after ops V (main_v21 : DevRef τ sig) = res_main_v21 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v21, val_main_v20] <;> rfl

theorem val_main_v22 (V : Valuation τ sig (Elt F)) :
    after ops V (main_v22 : DevRef τ sig) = res_main_v22 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v22, val_main_v16, val_main_v21] <;> rfl

theorem val_main_v23 (V : Valuation τ sig (Elt F)) :
    after ops V (main_v23 : DevRef τ sig) = res_main_v23 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v23, arg4_eq] <;> rfl

theorem val_main_v24 (V : Valuation τ sig (Elt F)) :
    after ops V (main_v24 : DevRef τ sig) = res_main_v24 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v24, val_main_v23] <;> rfl

theorem val_main_v25 (V : Valuation τ sig (Elt F)) :
    after ops V (main_v25 : DevRef τ sig) = res_main_v25 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v25, val_main_v22, val_main_v24] <;> rfl

theorem val_main_v26 (V : Valuation τ sig (Elt F)) :
    after ops V (main_v26 : DevRef τ sig) = res_main_v26 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v26, arg5_eq] <;> rfl

theorem val_main_v27 (V : Valuation τ sig (Elt F)) :
    after ops V (main_v27 : DevRef τ sig) = res_main_v27 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v27, val_main_v26] <;> rfl

theorem val_main_v28 (V : Valuation τ sig (Elt F)) :
    after ops V (main_v28 : DevRef τ sig) = res_main_v28 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v28, val_main_v25, val_main_v27] <;> rfl

theorem val_main_cst_4 (V : Valuation τ sig (Elt F)) :
    after ops V (main_cst_4 : DevRef τ sig) = res_main_cst_4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_4] <;> rfl

theorem val_main_v29 (V : Valuation τ sig (Elt F)) :
    after ops V (main_v29 : DevRef τ sig) = res_main_v29 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v29, val_main_v28, val_main_cst_4] <;> rfl

theorem val_main_v30 (V : Valuation τ sig (Elt F)) :
    after ops V (main_v30 : DevRef τ sig) = res_main_v30 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v30, val_main_v29] <;> rfl

theorem val_main_v31 (V : Valuation τ sig (Elt F)) :
    after ops V (main_v31 : DevRef τ sig) = res_main_v31 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v31, val_main_v30] <;> rfl

theorem val_main_v32 (V : Valuation τ sig (Elt F)) :
    after ops V (main_v32 : DevRef τ sig) = res_main_v32 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v32, val_main_v28, val_main_v31] <;> rfl

theorem val_main_v33 (V : Valuation τ sig (Elt F)) :
    after ops V (main_v33 : DevRef τ sig) = res_main_v33 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v33, val_main_v4] <;> rfl

theorem val_main_v34 (V : Valuation τ sig (Elt F)) :
    after ops V (main_v34 : DevRef τ sig) = res_main_v34 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v34, val_main_v32, val_main_v33] <;> rfl

theorem val_main_v35 (V : Valuation τ sig (Elt F)) :
    after ops V (main_v35 : DevRef τ sig) = res_main_v35 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v35, val_main_v34, arg6_eq] <;> rfl

theorem val_main_v36 (V : Valuation τ sig (Elt F)) :
    after ops V (main_v36 : DevRef τ sig) = res_main_v36 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v36, arg7_eq] <;> rfl

theorem val_main_v37 (V : Valuation τ sig (Elt F)) :
    after ops V (main_v37 : DevRef τ sig) = res_main_v37 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v37, val_main_v36] <;> rfl

theorem val_main_v38 (V : Valuation τ sig (Elt F)) :
    after ops V (main_v38 : DevRef τ sig) = res_main_v38 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v38, val_main_v35, val_main_v37] <;> rfl

theorem val_main_call2_cst (V : Valuation τ sig (Elt F)) :
    after ops V (main_call2_cst : DevRef τ sig) = res_main_call2_cst (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call2_cst] <;> rfl

theorem val_main_call2_v0 (V : Valuation τ sig (Elt F)) :
    after ops V (main_call2_v0 : DevRef τ sig) = res_main_call2_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call2_v0, val_main_call2_cst] <;> rfl

theorem val_main_v39 (V : Valuation τ sig (Elt F)) :
    after ops V (main_v39 : DevRef τ sig) = res_main_v39 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v39, val_main_v38, val_main_call2_v0] <;> rfl

theorem val_main_cst_5 (V : Valuation τ sig (Elt F)) :
    after ops V (main_cst_5 : DevRef τ sig) = res_main_cst_5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_5] <;> rfl

theorem val_main_v40 (V : Valuation τ sig (Elt F)) :
    after ops V (main_v40 : DevRef τ sig) = res_main_v40 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v40, val_main_v39, val_main_cst_5] <;> rfl

theorem val_main_cst_6 (V : Valuation τ sig (Elt F)) :
    after ops V (main_cst_6 : DevRef τ sig) = res_main_cst_6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_6] <;> rfl

theorem val_main_v41 (V : Valuation τ sig (Elt F)) :
    after ops V (main_v41 : DevRef τ sig) = res_main_v41 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v41, val_main_cst_6] <;> rfl

theorem val_main_v42 (V : Valuation τ sig (Elt F)) :
    after ops V (main_v42 : DevRef τ sig) = res_main_v42 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v42, val_main_v40, val_main_v41] <;> rfl

theorem val_main_c_7 (V : Valuation τ sig (Elt F)) :
    after ops V (main_c_7 : DevRef τ sig) = res_main_c_7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_7] <;> rfl

theorem val_main_call3_cst (V : Valuation τ sig (Elt F)) :
    after ops V (main_call3_cst : DevRef τ sig) = res_main_call3_cst (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst] <;> rfl

theorem val_main_call3_v0 (V : Valuation τ sig (Elt F)) :
    after ops V (main_call3_v0 : DevRef τ sig) = res_main_call3_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v0, val_main_v39, val_main_call3_cst] <;> rfl

theorem val_main_call3_v1 (V : Valuation τ sig (Elt F)) :
    after ops V (main_call3_v1 : DevRef τ sig) = res_main_call3_v1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v1, val_main_call3_v0] <;> rfl

theorem val_main_call3_cst_0 (V : Valuation τ sig (Elt F)) :
    after ops V (main_call3_cst_0 : DevRef τ sig) = res_main_call3_cst_0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst_0] <;> rfl

theorem val_main_call3_v2 (V : Valuation τ sig (Elt F)) :
    after ops V (main_call3_v2 : DevRef τ sig) = res_main_call3_v2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v2, val_main_call3_cst_0] <;> rfl

theorem val_main_call3_v3 (V : Valuation τ sig (Elt F)) :
    after ops V (main_call3_v3 : DevRef τ sig) = res_main_call3_v3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v3, val_main_call3_v1, val_main_call3_v2] <;> rfl

theorem val_main_call3_v4 (V : Valuation τ sig (Elt F)) :
    after ops V (main_call3_v4 : DevRef τ sig) = res_main_call3_v4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v4, val_main_call3_v3] <;> rfl

theorem val_main_call3_v5 (V : Valuation τ sig (Elt F)) :
    after ops V (main_call3_v5 : DevRef τ sig) = res_main_call3_v5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v5, val_main_v39, val_main_call3_v4] <;> rfl

theorem val_main_call3_v6 (V : Valuation τ sig (Elt F)) :
    after ops V (main_call3_v6 : DevRef τ sig) = res_main_call3_v6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v6, val_main_call3_v5] <;> rfl

theorem val_main_call3_v7 (V : Valuation τ sig (Elt F)) :
    after ops V (main_call3_v7 : DevRef τ sig) = res_main_call3_v7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v7, val_main_c_7] <;> rfl

theorem val_main_call3_cst_1 (V : Valuation τ sig (Elt F)) :
    after ops V (main_call3_cst_1 : DevRef τ sig) = res_main_call3_cst_1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst_1] <;> rfl

theorem val_main_call3_v8 (V : Valuation τ sig (Elt F)) :
    after ops V (main_call3_v8 : DevRef τ sig) = res_main_call3_v8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v8, val_main_call3_cst_1, val_main_call3_v7] <;> rfl

theorem val_main_call3_cst_2 (V : Valuation τ sig (Elt F)) :
    after ops V (main_call3_cst_2 : DevRef τ sig) = res_main_call3_cst_2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst_2] <;> rfl

theorem val_main_call3_v9 (V : Valuation τ sig (Elt F)) :
    after ops V (main_call3_v9 : DevRef τ sig) = res_main_call3_v9 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v9, val_main_call3_v6, val_main_call3_cst_2] <;> rfl

theorem val_main_call3_v10 (V : Valuation τ sig (Elt F)) :
    after ops V (main_call3_v10 : DevRef τ sig) = res_main_call3_v10 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v10, val_main_call3_v8] <;> rfl

theorem val_main_call3_v11 (V : Valuation τ sig (Elt F)) :
    after ops V (main_call3_v11 : DevRef τ sig) = res_main_call3_v11 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v11, val_main_call3_v9, val_main_call3_v10] <;> rfl

theorem val_main_call3_cst_3 (V : Valuation τ sig (Elt F)) :
    after ops V (main_call3_cst_3 : DevRef τ sig) = res_main_call3_cst_3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst_3] <;> rfl

theorem val_main_call3_v12 (V : Valuation τ sig (Elt F)) :
    after ops V (main_call3_v12 : DevRef τ sig) = res_main_call3_v12 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_v12, val_main_call3_v8, val_main_call3_cst_3] <;> rfl

theorem val_main_call3_cst_4 (V : Valuation τ sig (Elt F)) :
    after ops V (main_call3_cst_4 : DevRef τ sig) = res_main_call3_cst_4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_cst_4] <;> rfl

theorem val_main_call3_call0_v0 (V : Valuation τ sig (Elt F)) :
    after ops V (main_call3_call0_v0 : DevRef τ sig) = res_main_call3_call0_v0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_call0_v0, val_main_call3_cst_4] <;> rfl

theorem val_main_call3_call0_v1 (V : Valuation τ sig (Elt F)) :
    after ops V (main_call3_call0_v1 : DevRef τ sig) = res_main_call3_call0_v1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_call3_call0_v1, val_main_call3_call0_v0] <;> rfl

theorem val_main_v43 (V : Valuation τ sig (Elt F)) :
    after ops V (main_v43 : DevRef τ sig) = res_main_v43 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v43, val_main_call3_v12, val_main_call3_v11, val_main_call3_call0_v1] <;> rfl

theorem val_main_v44 (V : Valuation τ sig (Elt F)) :
    after ops V (main_v44 : DevRef τ sig) = res_main_v44 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v44, val_main_v42] <;> rfl

theorem val_main_v45 (V : Valuation τ sig (Elt F)) :
    after ops V (main_v45 : DevRef τ sig) = res_main_v45 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v45, val_main_v44] <;> rfl

theorem val_main_v46 (V : Valuation τ sig (Elt F)) :
    after ops V (main_v46 : DevRef τ sig) = res_main_v46 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v46, val_main_v39, val_main_v45] <;> rfl

theorem val_main_cst_8 (V : Valuation τ sig (Elt F)) :
    after ops V (main_cst_8 : DevRef τ sig) = res_main_cst_8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_8] <;> rfl

theorem val_main_v47 (V : Valuation τ sig (Elt F)) :
    after ops V (main_v47 : DevRef τ sig) = res_main_v47 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v47, val_main_cst_8] <;> rfl

theorem val_main_v48 (V : Valuation τ sig (Elt F)) :
    after ops V (main_v48 : DevRef τ sig) = res_main_v48 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v48, val_main_v43, val_main_v47] <;> rfl

theorem val_main_v49 (V : Valuation τ sig (Elt F)) :
    after ops V (main_v49 : DevRef τ sig) = res_main_v49 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v49, val_main_v48] <;> rfl

theorem val_main_v50 (V : Valuation τ sig (Elt F)) :
    after ops V (main_v50 : DevRef τ sig) = res_main_v50 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v50, val_main_v49] <;> rfl

theorem val_main_v51 (V : Valuation τ sig (Elt F)) :
    after ops V (main_v51 : DevRef τ sig) = res_main_v51 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v51, val_main_v50] <;> rfl

theorem val_main_v52 (V : Valuation τ sig (Elt F)) :
    after ops V (main_v52 : DevRef τ sig) = res_main_v52 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v52, val_main_v46, val_main_v51] <;> rfl

theorem val_main_v53 (V : Valuation τ sig (Elt F)) :
    after ops V (main_v53 : DevRef τ sig) = res_main_v53 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v53, arg8_eq] <;> rfl

theorem val_main_v54 (V : Valuation τ sig (Elt F)) :
    after ops V (main_v54 : DevRef τ sig) = res_main_v54 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v54, val_main_v53] <;> rfl

theorem val_main_v55 (V : Valuation τ sig (Elt F)) :
    after ops V (main_v55 : DevRef τ sig) = res_main_v55 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v55, val_main_v52, val_main_v54] <;> rfl

theorem val_main_v56 (V : Valuation τ sig (Elt F)) :
    after ops V (main_v56 : DevRef τ sig) = res_main_v56 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v56, arg9_eq] <;> rfl

theorem val_main_v57 (V : Valuation τ sig (Elt F)) :
    after ops V (main_v57 : DevRef τ sig) = res_main_v57 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v57, val_main_v56] <;> rfl

theorem val_main_v58 (V : Valuation τ sig (Elt F)) :
    after ops V (main_v58 : DevRef τ sig) = res_main_v58 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v58, val_main_v55, val_main_v57] <;> rfl

theorem val_main_cst_9 (V : Valuation τ sig (Elt F)) :
    after ops V (main_cst_9 : DevRef τ sig) = res_main_cst_9 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_9] <;> rfl

theorem val_main_v59 (V : Valuation τ sig (Elt F)) :
    after ops V (main_v59 : DevRef τ sig) = res_main_v59 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v59, val_main_v58, val_main_cst_9] <;> rfl

theorem val_main_v60 (V : Valuation τ sig (Elt F)) :
    after ops V (main_v60 : DevRef τ sig) = res_main_v60 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v60, val_main_v59] <;> rfl

theorem val_main_v61 (V : Valuation τ sig (Elt F)) :
    after ops V (main_v61 : DevRef τ sig) = res_main_v61 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v61, val_main_v60] <;> rfl

theorem val_main_v62 (V : Valuation τ sig (Elt F)) :
    after ops V (main_v62 : DevRef τ sig) = res_main_v62 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v62, val_main_v58, val_main_v61] <;> rfl

theorem val_main_v63 (V : Valuation τ sig (Elt F)) :
    after ops V (main_v63 : DevRef τ sig) = res_main_v63 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v63, val_main_v4] <;> rfl

theorem val_main_v64 (V : Valuation τ sig (Elt F)) :
    after ops V (main_v64 : DevRef τ sig) = res_main_v64 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v64, val_main_v62, val_main_v63] <;> rfl

theorem val_main_v65 (V : Valuation τ sig (Elt F)) :
    after ops V (main_v65 : DevRef τ sig) = res_main_v65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v65, val_main_v64, arg10_eq] <;> rfl

theorem val_main_v66 (V : Valuation τ sig (Elt F)) :
    after ops V (main_v66 : DevRef τ sig) = res_main_v66 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v66, arg11_eq] <;> rfl

theorem val_main_v67 (V : Valuation τ sig (Elt F)) :
    after ops V (main_v67 : DevRef τ sig) = res_main_v67 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v67, val_main_v66] <;> rfl

theorem val_main_v68 (V : Valuation τ sig (Elt F)) :
    after ops V (main_v68 : DevRef τ sig) = res_main_v68 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v68, val_main_v65, val_main_v67] <;> rfl

theorem val_main_cst_10 (V : Valuation τ sig (Elt F)) :
    after ops V (main_cst_10 : DevRef τ sig) = res_main_cst_10 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_10] <;> rfl

theorem val_main_v69 (V : Valuation τ sig (Elt F)) :
    after ops V (main_v69 : DevRef τ sig) = res_main_v69 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v69, val_main_v68, val_main_cst_10] <;> rfl

theorem val_main_v70 (V : Valuation τ sig (Elt F)) :
    after ops V (main_v70 : DevRef τ sig) = res_main_v70 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v70, arg1_eq] <;> rfl

theorem val_main_v71 (V : Valuation τ sig (Elt F)) :
    after ops V (main_v71 : DevRef τ sig) = res_main_v71 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v71, val_main_v70] <;> rfl

theorem val_main_v72 (V : Valuation τ sig (Elt F)) :
    after ops V (main_v72 : DevRef τ sig) = res_main_v72 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v72, val_main_v71] <;> rfl

theorem val_main_v73 (V : Valuation τ sig (Elt F)) :
    after ops V (main_v73 : DevRef τ sig) = res_main_v73 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v73, arg1_eq] <;> rfl

theorem val_main_v74 (V : Valuation τ sig (Elt F)) :
    after ops V (main_v74 : DevRef τ sig) = res_main_v74 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v74, val_main_v73] <;> rfl

theorem val_main_v75 (V : Valuation τ sig (Elt F)) :
    after ops V (main_v75 : DevRef τ sig) = res_main_v75 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v75, val_main_v74] <;> rfl

theorem val_main_v76 (V : Valuation τ sig (Elt F)) :
    after ops V (main_v76 : DevRef τ sig) = res_main_v76 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v76, arg1_eq] <;> rfl

theorem val_main_v77 (V : Valuation τ sig (Elt F)) :
    after ops V (main_v77 : DevRef τ sig) = res_main_v77 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v77, val_main_v76] <;> rfl

theorem val_main_v78 (V : Valuation τ sig (Elt F)) :
    after ops V (main_v78 : DevRef τ sig) = res_main_v78 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v78, val_main_v77] <;> rfl

theorem val_main_cst_11 (V : Valuation τ sig (Elt F)) :
    after ops V (main_cst_11 : DevRef τ sig) = res_main_cst_11 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_cst_11] <;> rfl

theorem val_main_v79 (V : Valuation τ sig (Elt F)) :
    after ops V (main_v79 : DevRef τ sig) = res_main_v79 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v79, val_main_cst_11] <;> rfl

theorem val_main_v80 (V : Valuation τ sig (Elt F)) :
    after ops V (main_v80 : DevRef τ sig) = res_main_v80 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v80, val_main_v69] <;> rfl

theorem val_main_c_12 (V : Valuation τ sig (Elt F)) :
    after ops V (main_c_12 : DevRef τ sig) = res_main_c_12 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_12] <;> rfl

theorem val_main_v81 (V : Valuation τ sig (Elt F)) :
    after ops V (main_v81 : DevRef τ sig) = res_main_v81 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v81, val_main_c_12] <;> rfl

theorem val_main_v82 (V : Valuation τ sig (Elt F)) :
    after ops V (main_v82 : DevRef τ sig) = res_main_v82 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v82, val_main_v72, val_main_v81] <;> rfl

theorem val_main_c_13 (V : Valuation τ sig (Elt F)) :
    after ops V (main_c_13 : DevRef τ sig) = res_main_c_13 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_13] <;> rfl

theorem val_main_v83 (V : Valuation τ sig (Elt F)) :
    after ops V (main_v83 : DevRef τ sig) = res_main_v83 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v83, val_main_c_13] <;> rfl

theorem val_main_v84 (V : Valuation τ sig (Elt F)) :
    after ops V (main_v84 : DevRef τ sig) = res_main_v84 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v84, val_main_v72, val_main_v83] <;> rfl

theorem val_main_v85 (V : Valuation τ sig (Elt F)) :
    after ops V (main_v85 : DevRef τ sig) = res_main_v85 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v85, val_main_v82, val_main_v84, val_main_v72] <;> rfl

theorem val_main_c_14 (V : Valuation τ sig (Elt F)) :
    after ops V (main_c_14 : DevRef τ sig) = res_main_c_14 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_14] <;> rfl

theorem val_main_v86 (V : Valuation τ sig (Elt F)) :
    after ops V (main_v86 : DevRef τ sig) = res_main_v86 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v86, val_main_c_14] <;> rfl

theorem val_main_v87 (V : Valuation τ sig (Elt F)) :
    after ops V (main_v87 : DevRef τ sig) = res_main_v87 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v87, val_main_v75, val_main_v86] <;> rfl

theorem val_main_c_15 (V : Valuation τ sig (Elt F)) :
    after ops V (main_c_15 : DevRef τ sig) = res_main_c_15 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_15] <;> rfl

theorem val_main_v88 (V : Valuation τ sig (Elt F)) :
    after ops V (main_v88 : DevRef τ sig) = res_main_v88 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v88, val_main_c_15] <;> rfl

theorem val_main_v89 (V : Valuation τ sig (Elt F)) :
    after ops V (main_v89 : DevRef τ sig) = res_main_v89 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v89, val_main_v75, val_main_v88] <;> rfl

theorem val_main_v90 (V : Valuation τ sig (Elt F)) :
    after ops V (main_v90 : DevRef τ sig) = res_main_v90 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v90, val_main_v87, val_main_v89, val_main_v75] <;> rfl

theorem val_main_c_16 (V : Valuation τ sig (Elt F)) :
    after ops V (main_c_16 : DevRef τ sig) = res_main_c_16 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_16] <;> rfl

theorem val_main_v91 (V : Valuation τ sig (Elt F)) :
    after ops V (main_v91 : DevRef τ sig) = res_main_v91 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v91, val_main_c_16] <;> rfl

theorem val_main_v92 (V : Valuation τ sig (Elt F)) :
    after ops V (main_v92 : DevRef τ sig) = res_main_v92 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v92, val_main_v78, val_main_v91] <;> rfl

theorem val_main_c_17 (V : Valuation τ sig (Elt F)) :
    after ops V (main_c_17 : DevRef τ sig) = res_main_c_17 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_17] <;> rfl

theorem val_main_v93 (V : Valuation τ sig (Elt F)) :
    after ops V (main_v93 : DevRef τ sig) = res_main_v93 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v93, val_main_c_17] <;> rfl

theorem val_main_v94 (V : Valuation τ sig (Elt F)) :
    after ops V (main_v94 : DevRef τ sig) = res_main_v94 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v94, val_main_v78, val_main_v93] <;> rfl

theorem val_main_v95 (V : Valuation τ sig (Elt F)) :
    after ops V (main_v95 : DevRef τ sig) = res_main_v95 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v95, val_main_v92, val_main_v94, val_main_v78] <;> rfl

theorem val_main_c_18 (V : Valuation τ sig (Elt F)) :
    after ops V (main_c_18 : DevRef τ sig) = res_main_c_18 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_c_18] <;> rfl

theorem val_main_v96 (V : Valuation τ sig (Elt F)) :
    after ops V (main_v96 : DevRef τ sig) = res_main_v96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v96, val_main_c_18] <;> rfl

theorem val_main_v97 (V : Valuation τ sig (Elt F)) :
    after ops V (main_v97 : DevRef τ sig) = res_main_v97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v97, val_main_v96] <;> rfl

theorem val_main_v98 (V : Valuation τ sig (Elt F)) :
    after ops V (main_v98 : DevRef τ sig) = res_main_v98 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v98, val_main_v97] <;> rfl

theorem val_main_v99 (V : Valuation τ sig (Elt F)) :
    after ops V (main_v99 : DevRef τ sig) = res_main_v99 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v99, val_main_v85] <;> rfl

theorem val_main_v100 (V : Valuation τ sig (Elt F)) :
    after ops V (main_v100 : DevRef τ sig) = res_main_v100 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v100, val_main_v90] <;> rfl

theorem val_main_v101 (V : Valuation τ sig (Elt F)) :
    after ops V (main_v101 : DevRef τ sig) = res_main_v101 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v101, val_main_v95] <;> rfl

theorem val_main_v102 (V : Valuation τ sig (Elt F)) :
    after ops V (main_v102 : DevRef τ sig) = res_main_v102 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v102, val_main_v98, val_main_v99, val_main_v100, val_main_v101] <;> rfl

theorem val_main_v103 (V : Valuation τ sig (Elt F)) :
    after ops V (main_v103 : DevRef τ sig) = res_main_v103 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v103, val_main_v79, val_main_v102, val_main_v80] <;> rfl

theorem val_main_v104 (V : Valuation τ sig (Elt F)) :
    after ops V (main_v104 : DevRef τ sig) = res_main_v104 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ssa_main_v104, val_main_v103] <;> rfl

/-- On every device, for any float values, from any memory with zero counters: every weakly fair execution of @main
    terminates with the result buffer at the reference's composed stages of the argument arrays' launch contents, and the
    argument arrays unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v104) = res_main_v104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v104).trans (val_main_v104 (launchContents m c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_after m ρ)

end Cert.ReferenceIdeal.RefRun

end
-- ==== Proof.Spec.lean ====
/-
  The mathematics of a voxel-feature-encoding block over the extended reals, as plain functions of coordinates.

  A point cloud is `x b k t j`: batch `b`, voxel `k`, point slot `t`, input channel `j`. One layer is
    h      = max (x · W + bias) 0                          (linear map and rectifier, per point)
    S, Q   = the sums of h and of h² over every (b, k, t)    (per output channel)
    mean   = S / N,   var = Q / N − mean²                     (N the number of points, a real constant)
    hn     = (h − mean) · rsqrt (var + ε) · γ + β            (batch normalisation)
    mp     = the maximum of hn over the point slots t         (per voxel)
    out    = [hn ‖ mp] · mask                                 (channels doubled; mask = 1 where the point's largest
                                                               input coordinate is nonzero, else 0)
  Two layers are stacked, then a last linear map is applied and the maximum over the point slots taken.
  Everything below is stated per voxel given the channel statistics, so that a program which walks the voxels in
  tiles and a program which treats the whole array at once are both read against the same functions.
-/
import Mathlib
import Idealize.ShloMosaic.PureOps.Ideal

noncomputable section

namespace Cert.Spec

open Idealize.ShloMosaic

/-- The maximum of a finite family of extended reals, from −∞. -/
def vmax {n : ℕ} (f : Fin n → EReal) : EReal := (Finset.univ : Finset (Fin n)).fold max ⊥ f

/-- One row through a linear map with bias: `∑ j, x j · W j c + bias c`. -/
def affine {n p : ℕ} (x : Fin n → EReal) (W : Fin n → Fin p → EReal) (bias : Fin p → EReal) (c : Fin p) : EReal :=
  (∑ j, x j * W j c) + bias c

/-- Linear map, bias and rectifier. -/
def hid {n p : ℕ} (x : Fin n → EReal) (W : Fin n → Fin p → EReal) (bias : Fin p → EReal) (c : Fin p) : EReal :=
  max (affine x W bias c) 0

/-- Batch normalisation of one value given its channel's mean and variance. -/
def bn (eps h mean var g beta : EReal) : EReal :=
  (h - mean) * Ideal.rsqrt (var + eps) * g + beta

/-- The mask of a point: 1 when the largest of its input coordinates is not zero, else 0. -/
def mask {n : ℕ} (x : Fin n → EReal) : EReal := if vmax x ≠ 0 then 1 else 0

/-- One layer's output for ONE voxel (point slots `t : Fin T`), given the channel statistics: the normalised
    values in the first `p` channels, their maximum over the point slots repeated in the next `p`, all times
    the point's mask `mk t`. -/
def layerOut {T n p : ℕ} (eps : EReal) (x : Fin T → Fin n → EReal) (mk : Fin T → EReal)
    (W : Fin n → Fin p → EReal) (bias g beta mean var : Fin p → EReal) (t : Fin T) (c : Fin (p + p)) : EReal :=
  (if h : c.val < p then bn eps (hid (x t) W bias ⟨c.val, h⟩) (mean ⟨c.val, h⟩) (var ⟨c.val, h⟩) (g ⟨c.val, h⟩) (beta ⟨c.val, h⟩)
   else
    have h' : c.val - p < p := by have := c.isLt; omega
    vmax fun s => bn eps (hid (x s) W bias ⟨c.val - p, h'⟩) (mean ⟨c.val - p, h'⟩) (var ⟨c.val - p, h'⟩) (g ⟨c.val - p, h'⟩) (beta ⟨c.val - p, h'⟩))
  * mk t

/-- The per-voxel feature: the last linear map of the second layer's output, maximised over the point slots. -/
def voxelFeat {T n p : ℕ} (x : Fin T → Fin n → EReal) (W : Fin n → Fin p → EReal) (bias : Fin p → EReal) (d : Fin p) : EReal :=
  vmax fun t => affine (x t) W bias d

/-- The variance as the tiled program takes it: mean of squares minus squared mean, clamped at zero. -/
def varClamped (N Q mean : EReal) : EReal := max (Ideal.div Q N - mean * mean) 0

end Cert.Spec

end
-- ==== Proof.LibBatchNorm.lean ====
/-
  Batch statistics over the extended reals.

  For a finite family of REAL numbers `h i`, `i : ι`, with `n` the number of indices (as a nonzero real):
    mean = (∑ h) / n
    (∑ (h − mean)²) / n  =  (∑ h²) / n − mean²          (the two usual forms of the variance)
  and the common value is ≥ 0, so clamping it at zero changes nothing.  The same statements are then given for
  extended-real families every entry of which is a real number, with the quotient written as a product by the
  reciprocal (the form a quotient by a nonzero real constant takes on the extended reals) — finiteness is what the
  identity needs: it moves a factor across a sum and cancels, neither of which survives an infinity.
-/
import Mathlib

namespace Cert.LibBatchNorm

open Finset

/-- The coercion of a finite real sum is the extended-real sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A finite sum of extended reals that are all real is real, and is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_sum]; exact sum_congr rfl h

/-- The two forms of the variance agree, over the reals. -/
theorem var_forms {ι : Type*} [Fintype ι] (h : ι → ℝ) (n : ℝ) (hn : (Fintype.card ι : ℝ) = n) (hn0 : n ≠ 0) :
    (∑ i, (h i - (∑ j, h j) / n) * (h i - (∑ j, h j) / n)) / n
      = (∑ i, h i * h i) / n - ((∑ j, h j) / n) * ((∑ j, h j) / n) := by
  set μ := (∑ j, h j) / n with hμ
  have hs : ∑ j, h j = n * μ := by rw [hμ]; field_simp
  have e : ∑ i, (h i - μ) * (h i - μ) = ∑ i, h i * h i - n * μ * μ := by
    have e1 : ∀ i, (h i - μ) * (h i - μ) = h i * h i - 2 * μ * h i + μ * μ := fun i => by ring
    simp only [e1, sum_add_distrib, sum_sub_distrib, ← mul_sum, sum_const, card_univ, nsmul_eq_mul, hn, hs]
    ring
  rw [e]; field_simp

/-- The variance is not negative (for a positive count). -/
theorem var_nonneg {ι : Type*} [Fintype ι] (h : ι → ℝ) (n : ℝ) (hn : 0 < n) (μ : ℝ) :
    0 ≤ (∑ i, (h i - μ) * (h i - μ)) / n :=
  div_nonneg (sum_nonneg fun i _ => mul_self_nonneg _) hn.le

/-- So the "mean of squares minus squared mean" form, clamped at zero, is the "mean squared deviation" form. -/
theorem clamped_eq {ι : Type*} [Fintype ι] (h : ι → ℝ) (n : ℝ) (hn : (Fintype.card ι : ℝ) = n) (hn0 : 0 < n) :
    max ((∑ i, h i * h i) / n - ((∑ j, h j) / n) * ((∑ j, h j) / n)) 0
      = (∑ i, (h i - (∑ j, h j) / n) * (h i - (∑ j, h j) / n)) / n := by
  rw [← var_forms h n hn hn0.ne']
  exact max_eq_left (var_nonneg h n hn0 _)

/-- The same over the extended reals, for a family of reals, the quotients written as products by `1 / n`:
    with `S = ∑ H`, `Q = ∑ H²`, `M = S · (1/n)`:  `max (Q · (1/n) − M · M) 0 = (∑ (H − M)²) · (1/n)`. -/
theorem clamped_eq_ereal {ι : Type*} [Fintype ι] (H : ι → EReal) (h : ι → ℝ) (hH : ∀ i, H i = (h i : EReal))
    (n : ℝ) (hn : (Fintype.card ι : ℝ) = n) (hn0 : 0 < n) :
    max ((∑ i, H i * H i) * ((1 / n : ℝ) : EReal)
          - ((∑ j, H j) * ((1 / n : ℝ) : EReal)) * ((∑ j, H j) * ((1 / n : ℝ) : EReal))) 0
      = (∑ i, (H i - (∑ j, H j) * ((1 / n : ℝ) : EReal)) * (H i - (∑ j, H j) * ((1 / n : ℝ) : EReal)))
          * ((1 / n : ℝ) : EReal) := by
  have hS : ∑ j, H j = ((∑ j, h j : ℝ) : EReal) := sum_eq_coe _ _ _ fun i _ => hH i
  have hQ : ∑ i, H i * H i = ((∑ i, h i * h i : ℝ) : EReal) :=
    sum_eq_coe _ _ _ fun i _ => by rw [hH i, ← EReal.coe_mul]
  have hD : ∑ i, (H i - (∑ j, H j) * ((1 / n : ℝ) : EReal)) * (H i - (∑ j, H j) * ((1 / n : ℝ) : EReal))
      = ((∑ i, (h i - (∑ j, h j) / n) * (h i - (∑ j, h j) / n) : ℝ) : EReal) :=
    sum_eq_coe _ _ _ fun i _ => by
      rw [hS, hH i, ← EReal.coe_mul, ← EReal.coe_sub, ← EReal.coe_mul]; congr 1; ring
  rw [hD, hS, hQ, ← EReal.coe_mul, ← EReal.coe_mul, ← EReal.coe_mul, ← EReal.coe_sub, ← EReal.coe_mul,
    show (0 : EReal) = ((0 : ℝ) : EReal) from rfl, ← EReal.coe_strictMono.monotone.map_max]
  congr 1
  simp only [mul_one_div]
  exact clamped_eq h n hn hn0

end Cert.LibBatchNorm
-- ==== Proof.LibTileSum.lean ====
/-
  Sums taken tile by tile.

  An array indexed by (b, k, t) is walked in `P` tiles along its second axis, tile `p` holding the rows
  k = (p, kk); inside a tile the rows (b, kk, t) are flattened to one row index `r`.  Summing every tile's rows and
  then the tiles gives the sum over the whole array: a commutative monoid does not mind the order.  Also: an
  accumulator that starts from zero at the first tile and adds one tile's sum at each later tile ends at the sum of
  the tiles' sums.
-/
import Mathlib

namespace Cert.LibTileSum

open Finset

/-- Tile by tile, then row by row inside the tile, is the sum over every (b, k, t). -/
theorem sum_tiles {M : Type*} [AddCommMonoid M] {R B K T P KT : ℕ}
    (eR : Fin R ≃ Fin B × Fin KT × Fin T) (eK : Fin P × Fin KT ≃ Fin K) (g : Fin B → Fin K → Fin T → M) :
    ∑ p : Fin P, ∑ r : Fin R, g (eR r).1 (eK (p, (eR r).2.1)) (eR r).2.2 = ∑ b, ∑ k, ∑ t, g b k t := by
  have h1 : ∀ p : Fin P, ∑ r : Fin R, g (eR r).1 (eK (p, (eR r).2.1)) (eR r).2.2
      = ∑ b : Fin B, ∑ kk : Fin KT, ∑ t : Fin T, g b (eK (p, kk)) t := by
    intro p
    rw [Equiv.sum_comp eR (fun x : Fin B × Fin KT × Fin T => g x.1 (eK (p, x.2.1)) x.2.2), Fintype.sum_prod_type]
    exact sum_congr rfl fun b _ => Fintype.sum_prod_type _
  simp only [h1]
  rw [sum_comm]
  refine sum_congr rfl fun b _ => ?_
  rw [← Equiv.sum_comp eK (fun k => ∑ t, g b k t), Fintype.sum_prod_type]

/-- An accumulator reset to `z` and increased by `s 0` at the first step, increased by `s (n+1)` at each later one,
    holds `z` plus the sum of the increments so far. -/
theorem acc_eq_sum {M : Type*} [AddCommMonoid M] (z : M) (s acc : ℕ → M) (h0 : acc 0 = z + s 0)
    (hs : ∀ n, acc (n + 1) = acc n + s (n + 1)) (n : ℕ) : acc n = z + ∑ i ∈ range (n + 1), s i := by
  induction n with
  | zero => simpa using h0
  | succ n ih => rw [hs, ih, sum_range_succ _ (n + 1), add_assoc]

/-- A sum over `range P` is the sum over `Fin P`. -/
theorem sum_range_fin {M : Type*} [AddCommMonoid M] (P : ℕ) (f : ℕ → M) : ∑ i ∈ range P, f i = ∑ p : Fin P, f p.val :=
  (Fin.sum_univ_eq_sum_range f P).symm

end Cert.LibTileSum
-- ==== Proof.Stats.lean ====
/-
  The channel statistics, tile by tile and all at once.

  The tiled program sums a channel over 50 tiles of 16800 flattened rows; the plain program sums over every
  (batch, voxel, point slot).  Tile p's row r is the point (r / 8400, 240·p + (r / 35) mod 240, r mod 35), so the two
  sums run over the same 840000 points.  For real entries the two forms of the variance then agree (the identity
  moves a factor across a sum and cancels, so it needs every entry finite).
-/
import proofs.«172356_j10943576670908_2_alg».proof.Proof.Spec
import proofs.«172356_j10943576670908_2_alg».proof.Proof.LibBatchNorm
import proofs.«172356_j10943576670908_2_alg».proof.Proof.LibTileSum

noncomputable section

namespace Cert.Stats

open Cert.Spec Finset

/-! ## Extended reals that are real numbers -/

/-- `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [sum_insert ha]
    exact (h a (mem_insert_self a s)).add (ih fun i hi => h i (mem_insert_of_mem hi))

/-- The rectified linear map of a real point through real weights is real. -/
theorem isReal_hid {n p : ℕ} (x : Fin n → EReal) (W : Fin n → Fin p → EReal) (bias : Fin p → EReal) (c : Fin p)
    (hx : ∀ j, IsReal (x j)) (hW : ∀ j, IsReal (W j c)) (hb : IsReal (bias c)) : IsReal (hid x W bias c) :=
  ((IsReal.sum _ _ fun j _ => (hx j).mul (hW j)).add hb).max IsReal.zero

/-! ## The points of a tile -/

/-- Voxel `kk` of tile `p` is voxel `240·p + kk` of the array. -/
def tileK (p : Fin 50) (kk : Fin 240) : Fin 12000 := ⟨p.val * 240 + kk.val, by have := p.isLt; have := kk.isLt; omega⟩

/-- The 16800 rows of a flattened tile are its (batch, voxel, slot) triples. -/
def rowEquiv : Fin 16800 ≃ Fin 2 × Fin 240 × Fin 35 where
  toFun r := (⟨r.val / 8400, by have := r.isLt; omega⟩, ⟨r.val / 35 % 240, Nat.mod_lt _ (by decide)⟩,
    ⟨r.val % 35, Nat.mod_lt _ (by decide)⟩)
  invFun x := ⟨x.1.val * 8400 + x.2.1.val * 35 + x.2.2.val, by
    have := x.1.isLt; have := x.2.1.isLt; have := x.2.2.isLt; omega⟩
  left_inv r := by
    apply Fin.ext; have := r.isLt; show r.val / 8400 * 8400 + r.val / 35 % 240 * 35 + r.val % 35 = r.val; omega
  right_inv x := by
    obtain ⟨b, k, t⟩ := x
    have := b.isLt; have := k.isLt; have := t.isLt
    refine Prod.ext (Fin.ext ?_) (Prod.ext (Fin.ext ?_) (Fin.ext ?_))
    · show (b.val * 8400 + k.val * 35 + t.val) / 8400 = b.val; omega
    · show (b.val * 8400 + k.val * 35 + t.val) / 35 % 240 = k.val; omega
    · show (b.val * 8400 + k.val * 35 + t.val) % 35 = t.val; omega

/-- The 12000 voxels are the 50 tiles' 240 voxels each. -/
def voxEquiv : Fin 50 × Fin 240 ≃ Fin 12000 where
  toFun x := tileK x.1 x.2
  invFun k := (⟨k.val / 240, by have := k.isLt; omega⟩, ⟨k.val % 240, Nat.mod_lt _ (by decide)⟩)
  left_inv x := by
    obtain ⟨p, kk⟩ := x
    have := p.isLt; have := kk.isLt
    refine Prod.ext (Fin.ext ?_) (Fin.ext ?_)
    · show (p.val * 240 + kk.val) / 240 = p.val; omega
    · show (p.val * 240 + kk.val) % 240 = kk.val; omega
  right_inv k := by
    apply Fin.ext; have := k.isLt; show k.val / 240 * 240 + k.val % 240 = k.val; omega

/-- Tile by tile and row by row is point by point. -/
theorem sum_tiles_points {M : Type*} [AddCommMonoid M] (g : Fin 2 → Fin 12000 → Fin 35 → M) :
    ∑ p : Fin 50, ∑ r : Fin 16800, g (rowEquiv r).1 (tileK p (rowEquiv r).2.1) (rowEquiv r).2.2
      = ∑ b, ∑ k, ∑ t, g b k t :=
  Cert.LibTileSum.sum_tiles rowEquiv voxEquiv g

/-! ## The two forms of the variance over the 840000 points -/

/-- For real entries: mean of squares minus squared mean, clamped at zero, is the mean squared deviation. -/
theorem var_forms_points (H : Fin 2 → Fin 12000 → Fin 35 → EReal) (hH : ∀ b k t, IsReal (H b k t)) :
    max ((∑ b, ∑ k, ∑ t, H b k t * H b k t) * ((1 / 840000 : ℝ) : EReal)
          - ((∑ b, ∑ k, ∑ t, H b k t) * ((1 / 840000 : ℝ) : EReal)) * ((∑ b, ∑ k, ∑ t, H b k t) * ((1 / 840000 : ℝ) : EReal))) 0
      = (∑ b, ∑ k, ∑ t, (H b k t - (∑ b, ∑ k, ∑ t, H b k t) * ((1 / 840000 : ℝ) : EReal))
            * (H b k t - (∑ b, ∑ k, ∑ t, H b k t) * ((1 / 840000 : ℝ) : EReal))) * ((1 / 840000 : ℝ) : EReal) := by
  choose h hh using hH
  have key := Cert.LibBatchNorm.clamped_eq_ereal (ι := Fin 2 × Fin 12000 × Fin 35)
    (fun x => H x.1 x.2.1 x.2.2) (fun x => h x.1 x.2.1 x.2.2) (fun x => hh x.1 x.2.1 x.2.2) 840000
    (by simp [Fintype.card_prod]) (by norm_num)
  simpa only [Fintype.sum_prod_type] using key

end Cert.Stats

end
-- ==== Proof.K2Blocks.lean ====
/-
  The blocks the third kernel region reads, by coordinates: window 0's block at grid point t holds the voxels
  240·t … 240·t + 239 of the point cloud; every other input window holds its whole (small) array at every point.
-/
import proofs.«172356_j10943576670908_2_alg».proof.Proof.KI.Region2
import proofs.«172356_j10943576670908_2_alg».proof.Proof.Stats
import Idealize.ShloMosaic.Lib.Pipeline.Value
import Idealize.ShloMosaic.Lib.ValueIdx

noncomputable section

namespace Cert.KernelIdeal.RegionValue

open Cert.KernelIdeal Cert.KernelIdeal.Gen Cert.KernelIdeal.Hand Cert.Stats
open Idealize.ShloMosaic Idealize.ShloMosaic.TcCoe Idealize.ShloMosaic.ValueIdx Idealize.SL.Sem

variable (V : (c : Dev nD) → (b : Ref sig .tc) → Buf (Elt Ideal) ((c : Thread nD τ).loc b))

theorem idx2_0 : ∀ t : Fin cfg2.N, win2_0.index t 0 = 0 ∧ win2_0.index t 1 = t.val ∧ win2_0.index t 2 = 0 ∧ win2_0.index t 3 = 0 :=
  (by decide +kernel : ∀ t : Fin grid2.N, win2_0.index t 0 = 0 ∧ win2_0.index t 1 = t.val ∧ win2_0.index t 2 = 0 ∧ win2_0.index t 3 = 0)
/-- The point as a tile number. -/
def tileOf2 (t : Fin cfg2.N) : Fin 50 := ⟨t.val, by have h1 := t.isLt; have hN : cfg2.N = 50 := N_2; omega⟩
/-- Window 0's block at point t, at (b, kk, s, j): the cloud at voxel 240·t + kk. -/
theorem iblk2_0_apply (c : Dev nD) (t : Fin cfg2.N) (b : Fin 2) (kk : Fin 240) (s : Fin 35) (j : Fin 7) :
    iblk2 V c 0 t (ix4 b kk s j) = V c main_arg0 (ix4 b (tileK (tileOf2 t) kk) s j) := by
  unfold iblk2
  rw [View.read_apply]
  show V c main_arg0 _ = V c main_arg0 _
  refine congrArg (V c main_arg0) (funext fun a => Fin.ext ?_)
  match a with
  | ⟨0, _⟩ => show win2_0.index t 0 * 2 + 1 * b.val = b.val; rw [(idx2_0 t).1]; omega
  | ⟨1, _⟩ => show win2_0.index t 1 * 240 + 1 * kk.val = t.val * 240 + kk.val; rw [(idx2_0 t).2.1]; omega
  | ⟨2, _⟩ => show win2_0.index t 2 * 35 + 1 * s.val = s.val; rw [(idx2_0 t).2.2.1]; omega
  | ⟨3, _⟩ => show win2_0.index t 3 * 7 + 1 * j.val = j.val; rw [(idx2_0 t).2.2.2]; omega

theorem idx2_1 : ∀ t : Fin cfg2.N, win2_1.index t 0 = 0 ∧ win2_1.index t 1 = 0 :=
  (by decide +kernel : ∀ t : Fin grid2.N, win2_1.index t 0 = 0 ∧ win2_1.index t 1 = 0)
theorem iblk2_1_apply (c : Dev nD) (t : Fin cfg2.N) (i : Fin 1) (j : Fin 16) :
    iblk2 V c 1 t (ix2 i j) = V c main_v9 (ix2 i j) := by
  unfold iblk2
  rw [View.read_apply]
  show V c main_v9 _ = V c main_v9 _
  refine congrArg (V c main_v9) (funext fun a => Fin.ext ?_)
  match a with
  | ⟨0, _⟩ => show win2_1.index t 0 * 1 + 1 * i.val = i.val; rw [(idx2_1 t).1]; omega
  | ⟨1, _⟩ => show win2_1.index t 1 * 16 + 1 * j.val = j.val; rw [(idx2_1 t).2]; omega

theorem idx2_2 : ∀ t : Fin cfg2.N, win2_2.index t 0 = 0 ∧ win2_2.index t 1 = 0 :=
  (by decide +kernel : ∀ t : Fin grid2.N, win2_2.index t 0 = 0 ∧ win2_2.index t 1 = 0)
theorem iblk2_2_apply (c : Dev nD) (t : Fin cfg2.N) (i : Fin 1) (j : Fin 16) :
    iblk2 V c 2 t (ix2 i j) = V c main_v15 (ix2 i j) := by
  unfold iblk2
  rw [View.read_apply]
  show V c main_v15 _ = V c main_v15 _
  refine congrArg (V c main_v15) (funext fun a => Fin.ext ?_)
  match a with
  | ⟨0, _⟩ => show win2_2.index t 0 * 1 + 1 * i.val = i.val; rw [(idx2_2 t).1]; omega
  | ⟨1, _⟩ => show win2_2.index t 1 * 16 + 1 * j.val = j.val; rw [(idx2_2 t).2]; omega

theorem idx2_3 : ∀ t : Fin cfg2.N, win2_3.index t 0 = 0 ∧ win2_3.index t 1 = 0 :=
  (by decide +kernel : ∀ t : Fin grid2.N, win2_3.index t 0 = 0 ∧ win2_3.index t 1 = 0)
theorem iblk2_3_apply (c : Dev nD) (t : Fin cfg2.N) (i : Fin 1) (j : Fin 16) :
    iblk2 V c 3 t (ix2 i j) = V c main_v1 (ix2 i j) := by
  unfold iblk2
  rw [View.read_apply]
  show V c main_v1 _ = V c main_v1 _
  refine congrArg (V c main_v1) (funext fun a => Fin.ext ?_)
  match a with
  | ⟨0, _⟩ => show win2_3.index t 0 * 1 + 1 * i.val = i.val; rw [(idx2_3 t).1]; omega
  | ⟨1, _⟩ => show win2_3.index t 1 * 16 + 1 * j.val = j.val; rw [(idx2_3 t).2]; omega

theorem idx2_4 : ∀ t : Fin cfg2.N, win2_4.index t 0 = 0 ∧ win2_4.index t 1 = 0 :=
  (by decide +kernel : ∀ t : Fin grid2.N, win2_4.index t 0 = 0 ∧ win2_4.index t 1 = 0)
theorem iblk2_4_apply (c : Dev nD) (t : Fin cfg2.N) (i : Fin 1) (j : Fin 16) :
    iblk2 V c 4 t (ix2 i j) = V c main_v2 (ix2 i j) := by
  unfold iblk2
  rw [View.read_apply]
  show V c main_v2 _ = V c main_v2 _
  refine congrArg (V c main_v2) (funext fun a => Fin.ext ?_)
  match a with
  | ⟨0, _⟩ => show win2_4.index t 0 * 1 + 1 * i.val = i.val; rw [(idx2_4 t).1]; omega
  | ⟨1, _⟩ => show win2_4.index t 1 * 16 + 1 * j.val = j.val; rw [(idx2_4 t).2]; omega

theorem idx2_5 : ∀ t : Fin cfg2.N, win2_5.index t 0 = 0 ∧ win2_5.index t 1 = 0 :=
  (by decide +kernel : ∀ t : Fin grid2.N, win2_5.index t 0 = 0 ∧ win2_5.index t 1 = 0)
theorem iblk2_5_apply (c : Dev nD) (t : Fin cfg2.N) (i : Fin 7) (j : Fin 16) :
    iblk2 V c 5 t (ix2 i j) = V c main_arg2 (ix2 i j) := by
  unfold iblk2
  rw [View.read_apply]
  show V c main_arg2 _ = V c main_arg2 _
  refine congrArg (V c main_arg2) (funext fun a => Fin.ext ?_)
  match a with
  | ⟨0, _⟩ => show win2_5.index t 0 * 7 + 1 * i.val = i.val; rw [(idx2_5 t).1]; omega
  | ⟨1, _⟩ => show win2_5.index t 1 * 16 + 1 * j.val = j.val; rw [(idx2_5 t).2]; omega

theorem idx2_6 : ∀ t : Fin cfg2.N, win2_6.index t 0 = 0 ∧ win2_6.index t 1 = 0 :=
  (by decide +kernel : ∀ t : Fin grid2.N, win2_6.index t 0 = 0 ∧ win2_6.index t 1 = 0)
theorem iblk2_6_apply (c : Dev nD) (t : Fin cfg2.N) (i : Fin 1) (j : Fin 16) :
    iblk2 V c 6 t (ix2 i j) = V c main_v0 (ix2 i j) := by
  unfold iblk2
  rw [View.read_apply]
  show V c main_v0 _ = V c main_v0 _
  refine congrArg (V c main_v0) (funext fun a => Fin.ext ?_)
  match a with
  | ⟨0, _⟩ => show win2_6.index t 0 * 1 + 1 * i.val = i.val; rw [(idx2_6 t).1]; omega
  | ⟨1, _⟩ => show win2_6.index t 1 * 16 + 1 * j.val = j.val; rw [(idx2_6 t).2]; omega

theorem idx2_7 : ∀ t : Fin cfg2.N, win2_7.index t 0 = 0 ∧ win2_7.index t 1 = 0 :=
  (by decide +kernel : ∀ t : Fin grid2.N, win2_7.index t 0 = 0 ∧ win2_7.index t 1 = 0)
theorem iblk2_7_apply (c : Dev nD) (t : Fin cfg2.N) (i : Fin 1) (j : Fin 64) :
    iblk2 V c 7 t (ix2 i j) = V c main_v18 (ix2 i j) := by
  unfold iblk2
  rw [View.read_apply]
  show V c main_v18 _ = V c main_v18 _
  refine congrArg (V c main_v18) (funext fun a => Fin.ext ?_)
  match a with
  | ⟨0, _⟩ => show win2_7.index t 0 * 1 + 1 * i.val = i.val; rw [(idx2_7 t).1]; omega
  | ⟨1, _⟩ => show win2_7.index t 1 * 64 + 1 * j.val = j.val; rw [(idx2_7 t).2]; omega

theorem idx2_8 : ∀ t : Fin cfg2.N, win2_8.index t 0 = 0 ∧ win2_8.index t 1 = 0 :=
  (by decide +kernel : ∀ t : Fin grid2.N, win2_8.index t 0 = 0 ∧ win2_8.index t 1 = 0)
theorem iblk2_8_apply (c : Dev nD) (t : Fin cfg2.N) (i : Fin 1) (j : Fin 64) :
    iblk2 V c 8 t (ix2 i j) = V c main_v24 (ix2 i j) := by
  unfold iblk2
  rw [View.read_apply]
  show V c main_v24 _ = V c main_v24 _
  refine congrArg (V c main_v24) (funext fun a => Fin.ext ?_)
  match a with
  | ⟨0, _⟩ => show win2_8.index t 0 * 1 + 1 * i.val = i.val; rw [(idx2_8 t).1]; omega
  | ⟨1, _⟩ => show win2_8.index t 1 * 64 + 1 * j.val = j.val; rw [(idx2_8 t).2]; omega

theorem idx2_9 : ∀ t : Fin cfg2.N, win2_9.index t 0 = 0 ∧ win2_9.index t 1 = 0 :=
  (by decide +kernel : ∀ t : Fin grid2.N, win2_9.index t 0 = 0 ∧ win2_9.index t 1 = 0)
theorem iblk2_9_apply (c : Dev nD) (t : Fin cfg2.N) (i : Fin 1) (j : Fin 64) :
    iblk2 V c 9 t (ix2 i j) = V c main_v4 (ix2 i j) := by
  unfold iblk2
  rw [View.read_apply]
  show V c main_v4 _ = V c main_v4 _
  refine congrArg (V c main_v4) (funext fun a => Fin.ext ?_)
  match a with
  | ⟨0, _⟩ => show win2_9.index t 0 * 1 + 1 * i.val = i.val; rw [(idx2_9 t).1]; omega
  | ⟨1, _⟩ => show win2_9.index t 1 * 64 + 1 * j.val = j.val; rw [(idx2_9 t).2]; omega

theorem idx2_10 : ∀ t : Fin cfg2.N, win2_10.index t 0 = 0 ∧ win2_10.index t 1 = 0 :=
  (by decide +kernel : ∀ t : Fin grid2.N, win2_10.index t 0 = 0 ∧ win2_10.index t 1 = 0)
theorem iblk2_10_apply (c : Dev nD) (t : Fin cfg2.N) (i : Fin 1) (j : Fin 64) :
    iblk2 V c 10 t (ix2 i j) = V c main_v5 (ix2 i j) := by
  unfold iblk2
  rw [View.read_apply]
  show V c main_v5 _ = V c main_v5 _
  refine congrArg (V c main_v5) (funext fun a => Fin.ext ?_)
  match a with
  | ⟨0, _⟩ => show win2_10.index t 0 * 1 + 1 * i.val = i.val; rw [(idx2_10 t).1]; omega
  | ⟨1, _⟩ => show win2_10.index t 1 * 64 + 1 * j.val = j.val; rw [(idx2_10 t).2]; omega

theorem idx2_11 : ∀ t : Fin cfg2.N, win2_11.index t 0 = 0 ∧ win2_11.index t 1 = 0 :=
  (by decide +kernel : ∀ t : Fin grid2.N, win2_11.index t 0 = 0 ∧ win2_11.index t 1 = 0)
theorem iblk2_11_apply (c : Dev nD) (t : Fin cfg2.N) (i : Fin 32) (j : Fin 64) :
    iblk2 V c 11 t (ix2 i j) = V c main_arg6 (ix2 i j) := by
  unfold iblk2
  rw [View.read_apply]
  show V c main_arg6 _ = V c main_arg6 _
  refine congrArg (V c main_arg6) (funext fun a => Fin.ext ?_)
  match a with
  | ⟨0, _⟩ => show win2_11.index t 0 * 32 + 1 * i.val = i.val; rw [(idx2_11 t).1]; omega
  | ⟨1, _⟩ => show win2_11.index t 1 * 64 + 1 * j.val = j.val; rw [(idx2_11 t).2]; omega

theorem idx2_12 : ∀ t : Fin cfg2.N, win2_12.index t 0 = 0 ∧ win2_12.index t 1 = 0 :=
  (by decide +kernel : ∀ t : Fin grid2.N, win2_12.index t 0 = 0 ∧ win2_12.index t 1 = 0)
theorem iblk2_12_apply (c : Dev nD) (t : Fin cfg2.N) (i : Fin 1) (j : Fin 64) :
    iblk2 V c 12 t (ix2 i j) = V c main_v3 (ix2 i j) := by
  unfold iblk2
  rw [View.read_apply]
  show V c main_v3 _ = V c main_v3 _
  refine congrArg (V c main_v3) (funext fun a => Fin.ext ?_)
  match a with
  | ⟨0, _⟩ => show win2_12.index t 0 * 1 + 1 * i.val = i.val; rw [(idx2_12 t).1]; omega
  | ⟨1, _⟩ => show win2_12.index t 1 * 64 + 1 * j.val = j.val; rw [(idx2_12 t).2]; omega

theorem idx2_13 : ∀ t : Fin cfg2.N, win2_13.index t 0 = 0 ∧ win2_13.index t 1 = 0 :=
  (by decide +kernel : ∀ t : Fin grid2.N, win2_13.index t 0 = 0 ∧ win2_13.index t 1 = 0)
theorem iblk2_13_apply (c : Dev nD) (t : Fin cfg2.N) (i : Fin 128) (j : Fin 128) :
    iblk2 V c 13 t (ix2 i j) = V c main_arg10 (ix2 i j) := by
  unfold iblk2
  rw [View.read_apply]
  show V c main_arg10 _ = V c main_arg10 _
  refine congrArg (V c main_arg10) (funext fun a => Fin.ext ?_)
  match a with
  | ⟨0, _⟩ => show win2_13.index t 0 * 128 + 1 * i.val = i.val; rw [(idx2_13 t).1]; omega
  | ⟨1, _⟩ => show win2_13.index t 1 * 128 + 1 * j.val = j.val; rw [(idx2_13 t).2]; omega

theorem idx2_14 : ∀ t : Fin cfg2.N, win2_14.index t 0 = 0 ∧ win2_14.index t 1 = 0 :=
  (by decide +kernel : ∀ t : Fin grid2.N, win2_14.index t 0 = 0 ∧ win2_14.index t 1 = 0)
theorem iblk2_14_apply (c : Dev nD) (t : Fin cfg2.N) (i : Fin 1) (j : Fin 128) :
    iblk2 V c 14 t (ix2 i j) = V c main_v6 (ix2 i j) := by
  unfold iblk2
  rw [View.read_apply]
  show V c main_v6 _ = V c main_v6 _
  refine congrArg (V c main_v6) (funext fun a => Fin.ext ?_)
  match a with
  | ⟨0, _⟩ => show win2_14.index t 0 * 1 + 1 * i.val = i.val; rw [(idx2_14 t).1]; omega
  | ⟨1, _⟩ => show win2_14.index t 1 * 128 + 1 * j.val = j.val; rw [(idx2_14 t).2]; omega

end Cert.KernelIdeal.RegionValue

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«172356_j10943576670908_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.K0Value.lean ====
/-
  The first reduction kernel's arithmetic read at an element.

  A tile of the point cloud has shape [2, 240, 35, 7]; the body flattens it to 16800 rows of 7 coordinates
  (row r is batch r / 8400, voxel (r / 35) mod 240 of the tile, point slot r mod 35), multiplies by the 7 × 16
  weights, adds the bias row and takes the rectifier: entry (r, c) is `hid` of that point.  The two stores are the
  previous contents of the accumulators plus the column sums of these entries and of their squares.
-/
import proofs.«172356_j10943576670908_2_alg».proof.Proof.Gen.KernelIdeal.Skeleton
import proofs.«172356_j10943576670908_2_alg».proof.Proof.Spec
import proofs.«172356_j10943576670908_2_alg».proof.Proof.LibRowReads
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen Cert.Spec Cert.Lib

/-- The batch of row `r` of a flattened tile. -/
def rowB (r : Fin 16800) : Fin 2 := ⟨r.val / 8400, by have := r.isLt; omega⟩
/-- The voxel (within the tile) of row `r`. -/
def rowK (r : Fin 16800) : Fin 240 := ⟨r.val / 35 % 240, Nat.mod_lt _ (by decide)⟩
/-- The point slot of row `r`. -/
def rowT (r : Fin 16800) : Fin 35 := ⟨r.val % 35, Nat.mod_lt _ (by decide)⟩

/-- A [2, 240, 35, n] tile flattened to [16800, n] reads, at (r, j), the tile at row r's batch, voxel and slot. -/
theorem tile_rows_apply {α : Type} {n : ℕ} (x : (⟨4, ![2, 240, 35, n]⟩ : Shape).Idx → α)
    (h : (⟨4, ![2, 240, 35, n]⟩ : Shape).ShapeCasts ⟨2, ![16800, n]⟩) (r : Fin 16800) (j : Fin n) :
    shapeCast ⟨2, ![16800, n]⟩ x h (ix2 r j) = x (ix4 (rowB r) (rowK r) (rowT r) j) := by
  refine shapeCast_apply x h _ _ ?_
  rw [Shape.rowMajor_val_four, Shape.rowMajor_val_two]
  show (((r.val / 8400) * 240 + r.val / 35 % 240) * 35 + r.val % 35) * n + j.val = r.val * n + j.val
  have hr := r.isLt
  have : ((r.val / 8400) * 240 + r.val / 35 % 240) * 35 + r.val % 35 = r.val := by omega
  rw [this]

/-- The zero word is the extended real 0. -/
theorem scalar_zero : (Scalar.ofBits (F := Ideal) .f32 0x00000000#32 : EReal) = 0 := Ideal.ofBits_zero_f32

/-- Entry (r, c) of the rectified product: `hid` of row r's point. -/
theorem k0_pay3_apply (v3 : Vec Ideal S2x240x35x7 .f32) (v6 : Vec Ideal S7x16 .f32) (v8 : Vec Ideal S1x16 .f32)
    (r : Fin 16800) (c : Fin 16) :
    k0_pay3 v3 v6 v8 (ix2 r c)
      = hid (fun j : Fin 7 => v3 (ix4 (rowB r) (rowK r) (rowT r) j)) (fun (j : Fin 7) (c : Fin 16) => v6 (ix2 j c))
          (fun c : Fin 16 => v8 (ix2 (0 : Fin 1) c)) c := by
  unfold k0_pay3 hid affine
  show max (matmul dot_S16800x7_S7x16_S16800x16_1_0_0_1_n_n none _ _ _ (ix2 r c) + broadcastTo S16800x16 _ _ (ix2 r c)) _ = _
  rw [matmul_zero_at _ rfl rfl rfl rfl rfl rfl, broadcastTo_1b_ab_apply, shapeCast_self, broadcast_apply, scalar_zero]
  refine congrArg (fun z => max (z + _) 0) (Finset.sum_congr rfl fun p _ => ?_)
  rw [truncf_apply, truncf_apply, tile_rows_apply]

/-- A column sum over the 16800 rows of a [16800, n] array, re-laid as a [1, n] row: at (0, c), the sum of column c. -/
theorem colsum_row_apply {n : ℕ} (src : FVec Ideal ⟨2, ![16800, n]⟩ .f32)
    (h : (⟨2, ![16800, n]⟩ : Shape).Reduces [0] ⟨1, ![n]⟩)
    (hc : (⟨1, ![n]⟩ : Shape).ShapeCasts ⟨2, ![1, n]⟩) (c : Fin n) :
    shapeCast ⟨2, ![1, n]⟩ (multiReduction .add [0] ⟨1, ![n]⟩ src 0x00000000#32 h (.inl rfl) rfl) hc (ix2 (0 : Fin 1) c)
      = ∑ r : Fin 16800, src (ix2 r c) := by
  rw [shapeCast_a_1a_apply]
  refine (Ideal.multiReduction_add_single src 0x00000000#32 h (.inl rfl) rfl (ix1 c)).trans ?_
  refine Finset.sum_congr rfl fun r _ => congrArg src (funext fun a => ?_)
  match a with
  | ⟨0, _⟩ => rfl
  | ⟨1, _⟩ => rfl

/-- The reset payloads are zero rows. -/
theorem k0_pay1_apply (c : Fin 16) : k0_pay1 (F := Ideal) (ix2 (0 : Fin 1) c) = 0 := scalar_zero
theorem k0_pay2_apply (c : Fin 16) : k0_pay2 (F := Ideal) (ix2 (0 : Fin 1) c) = 0 := scalar_zero

/-- The first accumulator's store: what it held plus the column sums of the rectified product. -/
theorem k0_pay4_apply (v3 : Vec Ideal S2x240x35x7 .f32) (v6 : Vec Ideal S7x16 .f32) (v8 : Vec Ideal S1x16 .f32)
    (v20 : Vec Ideal S1x16 .f32) (c : Fin 16) :
    k0_pay4 v3 v6 v8 v20 (ix2 (0 : Fin 1) c) = v20 (ix2 (0 : Fin 1) c) + ∑ r : Fin 16800, k0_pay3 v3 v6 v8 (ix2 r c) := by
  unfold k0_pay4
  show shapeCast S1x16 v20 _ (ix2 (0 : Fin 1) c) + shapeCast S1x16 (multiReduction .add [0] S16 (k0_pay3 v3 v6 v8) _ _ _ _) _ (ix2 (0 : Fin 1) c) = _
  rw [shapeCast_self]
  exact congrArg (v20 (ix2 (0 : Fin 1) c) + ·)
    (colsum_row_apply (k0_pay3 v3 v6 v8) reduces_S16800x16_S16 shapeCasts_S16_S1x16 c)

/-- The second accumulator's store: what it held plus the column sums of the squares. -/
theorem k0_pay5_apply (v3 : Vec Ideal S2x240x35x7 .f32) (v6 : Vec Ideal S7x16 .f32) (v8 : Vec Ideal S1x16 .f32)
    (v24 : Vec Ideal S1x16 .f32) (c : Fin 16) :
    k0_pay5 v3 v6 v8 v24 (ix2 (0 : Fin 1) c)
      = v24 (ix2 (0 : Fin 1) c) + ∑ r : Fin 16800, k0_pay3 v3 v6 v8 (ix2 r c) * k0_pay3 v3 v6 v8 (ix2 r c) := by
  unfold k0_pay5
  show shapeCast S1x16 v24 _ (ix2 (0 : Fin 1) c) + shapeCast S1x16 (multiReduction .add [0] S16 (mulf (k0_pay3 v3 v6 v8) (k0_pay3 v3 v6 v8)) _ _ _ _) _ (ix2 (0 : Fin 1) c) = _
  rw [shapeCast_self]
  exact congrArg (v24 (ix2 (0 : Fin 1) c) + ·)
    (colsum_row_apply (mulf (k0_pay3 v3 v6 v8) (k0_pay3 v3 v6 v8)) reduces_S16800x16_S16 shapeCasts_S16_S1x16 c)

end Cert.KernelIdeal.TileValue

end
-- ==== Proof.TileLayer.lean ====
/-
  Layout and reduction steps of one layer of the tiled programs, read at an element.

  A tile is [2, 240, 35, p]: batch, voxel, point slot, channel; flattened it has 16800 rows.  The steps below are
  stated over variable arrays of those shapes: the flattened rows re-laid as a tile, the maximum over the point
  slots and over the input coordinates, the unit-axis casts and broadcasts that carry a channel row or a per-voxel
  maximum back to the tile, the concatenation of two channel groups, the mask word, and from these one layer's
  output for a voxel (normalised values beside their maxima over the slots, times the mask) and the affine map of
  the flattened rows.
-/
import proofs.«172356_j10943576670908_2_alg».proof.Proof.K0Value

noncomputable section

namespace Cert.KernelIdeal.TileValue

open Idealize.ShloMosaic Idealize.ShloMosaic.ValueIdx Cert.KernelIdeal Cert.KernelIdeal.Gen Cert.Spec Cert.Lib

/-! ## Rows of a flattened tile -/

/-- The row of a flattened tile that holds batch b, voxel k, point slot t. -/
def rowOf (b : Fin 2) (k : Fin 240) (t : Fin 35) : Fin 16800 :=
  ⟨b.val * 8400 + k.val * 35 + t.val, by have := b.isLt; have := k.isLt; have := t.isLt; omega⟩

theorem rowB_rowOf (b : Fin 2) (k : Fin 240) (t : Fin 35) : rowB (rowOf b k t) = b :=
  Fin.ext (by
    show (b.val * 8400 + k.val * 35 + t.val) / 8400 = b.val
    have := b.isLt; have := k.isLt; have := t.isLt; omega)

theorem rowK_rowOf (b : Fin 2) (k : Fin 240) (t : Fin 35) : rowK (rowOf b k t) = k :=
  Fin.ext (by
    show (b.val * 8400 + k.val * 35 + t.val) / 35 % 240 = k.val
    have := b.isLt; have := k.isLt; have := t.isLt; omega)

theorem rowT_rowOf (b : Fin 2) (k : Fin 240) (t : Fin 35) : rowT (rowOf b k t) = t :=
  Fin.ext (by
    show (b.val * 8400 + k.val * 35 + t.val) % 35 = t.val
    have := b.isLt; have := k.isLt; have := t.isLt; omega)

/-- A [16800, n] array re-laid as a [2, 240, 35, n] tile reads, at (b, k, t, c), the row of (b, k, t). -/
theorem rows_tile_apply {α : Type} {n : ℕ} (x : (⟨2, ![16800, n]⟩ : Shape).Idx → α)
    (h : (⟨2, ![16800, n]⟩ : Shape).ShapeCasts ⟨4, ![2, 240, 35, n]⟩) (b : Fin 2) (k : Fin 240) (t : Fin 35) (c : Fin n) :
    shapeCast ⟨4, ![2, 240, 35, n]⟩ x h (ix4 b k t c) = x (ix2 (rowOf b k t) c) := by
  refine shapeCast_apply x h _ _ ?_
  rw [Shape.rowMajor_val_four, Shape.rowMajor_val_two]
  show (b.val * 8400 + k.val * 35 + t.val) * n + c.val = ((b.val * 240 + k.val) * 35 + t.val) * n + c.val
  have : b.val * 8400 + k.val * 35 + t.val = (b.val * 240 + k.val) * 35 + t.val := by omega
  rw [this]

/-! ## Maxima -/

/-- The word of −∞ is the bottom of the extended reals. -/
theorem negInf_word : (FloatOps.ofBits (F := Ideal) .f32 0xFF800000#32 : EReal) = ⊥ := by
  simp [Ideal.ofBits, Ideal.ieee]

/-- The maximum over the point slots of a [2, 240, 35, p] tile, at (b, k, c). -/
theorem slotmax_apply {p : ℕ} (src : FVec Ideal ⟨4, ![2, 240, 35, p]⟩ .f32)
    (h : (⟨4, ![2, 240, 35, p]⟩ : Shape).Reduces [2] ⟨3, ![2, 240, p]⟩) (b : Fin 2) (k : Fin 240) (c : Fin p) :
    multiReduction .maximumf [2] ⟨3, ![2, 240, p]⟩ src 0xFF800000#32 h (.inl rfl) rfl (ix3 b k c)
      = vmax fun t : Fin 35 => src (ix4 b k t c) := by
  refine (Ideal.multiReduction_maximumf_single src 0xFF800000#32 h (.inl rfl) rfl (ix3 b k c)).trans ?_
  rw [negInf_word]
  unfold vmax
  refine congrArg (Finset.univ.fold max ⊥) (funext fun t => congrArg src (funext fun a => ?_))
  match a with
  | ⟨0, _⟩ => rfl
  | ⟨1, _⟩ => rfl
  | ⟨2, _⟩ => rfl
  | ⟨3, _⟩ => rfl

/-- The maximum over the last axis of a [2, 240, 35, n] tile, at (b, k, t). -/
theorem lanemax_apply {n : ℕ} (src : FVec Ideal ⟨4, ![2, 240, 35, n]⟩ .f32)
    (h : (⟨4, ![2, 240, 35, n]⟩ : Shape).Reduces [3] ⟨3, ![2, 240, 35]⟩) (b : Fin 2) (k : Fin 240) (t : Fin 35) :
    multiReduction .maximumf [3] ⟨3, ![2, 240, 35]⟩ src 0xFF800000#32 h (.inl rfl) rfl (ix3 b k t)
      = vmax fun j : Fin n => src (ix4 b k t j) := by
  refine (Ideal.multiReduction_maximumf_single src 0xFF800000#32 h (.inl rfl) rfl (ix3 b k t)).trans ?_
  rw [negInf_word]
  unfold vmax
  refine congrArg (Finset.univ.fold max ⊥) (funext fun j => congrArg src (funext fun a => ?_))
  match a with
  | ⟨0, _⟩ => rfl
  | ⟨1, _⟩ => rfl
  | ⟨2, _⟩ => rfl
  | ⟨3, _⟩ => rfl

/-! ## Unit-axis casts and broadcasts -/

/-- A [2, 240, 35] array given a trailing unit axis reads, at (b, k, t, u), the array at (b, k, t). -/
theorem cast_bkt_bkt1_apply {α : Type} (x : (⟨3, ![2, 240, 35]⟩ : Shape).Idx → α)
    (h : (⟨3, ![2, 240, 35]⟩ : Shape).ShapeCasts ⟨4, ![2, 240, 35, 1]⟩) (b : Fin 2) (k : Fin 240) (t : Fin 35) (u : Fin 1) :
    shapeCast ⟨4, ![2, 240, 35, 1]⟩ x h (ix4 b k t u) = x (ix3 b k t) := by
  refine shapeCast_apply x h _ _ ?_
  rw [Shape.rowMajor_val_four, Shape.rowMajor_val_three]
  show (b.val * 240 + k.val) * 35 + t.val = ((b.val * 240 + k.val) * 35 + t.val) * 1 + u.val
  have := u.isLt; omega

/-- A [2, 240, p] array given a unit slot axis reads, at (b, k, u, c), the array at (b, k, c). -/
theorem cast_bkp_bk1p_apply {α : Type} {p : ℕ} (x : (⟨3, ![2, 240, p]⟩ : Shape).Idx → α)
    (h : (⟨3, ![2, 240, p]⟩ : Shape).ShapeCasts ⟨4, ![2, 240, 1, p]⟩) (b : Fin 2) (k : Fin 240) (u : Fin 1) (c : Fin p) :
    shapeCast ⟨4, ![2, 240, 1, p]⟩ x h (ix4 b k u c) = x (ix3 b k c) := by
  refine shapeCast_apply x h _ _ ?_
  rw [Shape.rowMajor_val_four, Shape.rowMajor_val_three]
  show (b.val * 240 + k.val) * p + c.val = ((b.val * 240 + k.val) * 1 + u.val) * p + c.val
  have hu : u.val = 0 := by have := u.isLt; omega
  rw [hu, Nat.mul_one, Nat.add_zero]

/-- A [1, p] row given two more leading unit axes reads, at (u, v, w, c), the row at c. -/
theorem cast_1p_111p_apply {α : Type} {p : ℕ} (x : (⟨2, ![1, p]⟩ : Shape).Idx → α)
    (h : (⟨2, ![1, p]⟩ : Shape).ShapeCasts ⟨4, ![1, 1, 1, p]⟩) (u v w : Fin 1) (c : Fin p) :
    shapeCast ⟨4, ![1, 1, 1, p]⟩ x h (ix4 u v w c) = x (ix2 (0 : Fin 1) c) := by
  refine shapeCast_apply x h _ _ ?_
  rw [Shape.rowMajor_val_four, Shape.rowMajor_val_two]
  show 0 * p + c.val = ((u.val * 1 + v.val) * 1 + w.val) * p + c.val
  have hu : u.val = 0 := by have := u.isLt; omega
  have hv : v.val = 0 := by have := v.isLt; omega
  have hw : w.val = 0 := by have := w.isLt; omega
  rw [hu, hv, hw]

/-- A [1, 1, 1, p] row broadcast over a tile reads, at (b, k, t, c), the row at c. -/
theorem bcast_111p_apply {α : Type} {p : ℕ} (x : (⟨4, ![1, 1, 1, p]⟩ : Shape).Idx → α)
    (h : (⟨4, ![1, 1, 1, p]⟩ : Shape).Broadcasts ⟨4, ![2, 240, 35, p]⟩) (b : Fin 2) (k : Fin 240) (t : Fin 35) (c : Fin p) :
    broadcastTo ⟨4, ![2, 240, 35, p]⟩ x h (ix4 b k t c) = x (ix4 (0 : Fin 1) (0 : Fin 1) (0 : Fin 1) c) := by
  refine broadcastTo_apply x h (ix4 b k t c) (ix4 (0 : Fin 1) (0 : Fin 1) (0 : Fin 1) c) fun ax => ?_
  match ax with
  | ⟨0, _⟩ => rfl
  | ⟨1, _⟩ => rfl
  | ⟨2, _⟩ => rfl
  | ⟨3, _⟩ =>
    show c.val = if p = 1 then 0 else c.val
    split
    · have := c.isLt; omega
    · rfl

/-- A channel row [1, p] carried to a tile (through [1, 1, 1, p]) reads, at (b, k, t, c), the row at c. -/
theorem row_tile_apply {α : Type} {p : ℕ} (x : (⟨2, ![1, p]⟩ : Shape).Idx → α)
    (hc : (⟨2, ![1, p]⟩ : Shape).ShapeCasts ⟨4, ![1, 1, 1, p]⟩)
    (hb : (⟨4, ![1, 1, 1, p]⟩ : Shape).Broadcasts ⟨4, ![2, 240, 35, p]⟩) (b : Fin 2) (k : Fin 240) (t : Fin 35) (c : Fin p) :
    broadcastTo ⟨4, ![2, 240, 35, p]⟩ (shapeCast ⟨4, ![1, 1, 1, p]⟩ x hc) hb (ix4 b k t c) = x (ix2 (0 : Fin 1) c) := by
  rw [bcast_111p_apply, cast_1p_111p_apply]

/-- A per-voxel array [2, 240, 1, p] broadcast over the point slots reads, at (b, k, t, c), the array at (b, k, 0, c). -/
theorem bcast_bk1p_apply {α : Type} {p : ℕ} (x : (⟨4, ![2, 240, 1, p]⟩ : Shape).Idx → α)
    (h : (⟨4, ![2, 240, 1, p]⟩ : Shape).Broadcasts ⟨4, ![2, 240, 35, p]⟩) (b : Fin 2) (k : Fin 240) (t : Fin 35) (c : Fin p) :
    broadcastTo ⟨4, ![2, 240, 35, p]⟩ x h (ix4 b k t c) = x (ix4 b k (0 : Fin 1) c) := by
  refine broadcastTo_apply x h (ix4 b k t c) (ix4 b k (0 : Fin 1) c) fun ax => ?_
  match ax with
  | ⟨0, _⟩ => rfl
  | ⟨1, _⟩ => rfl
  | ⟨2, _⟩ => rfl
  | ⟨3, _⟩ =>
    show c.val = if p = 1 then 0 else c.val
    split
    · have := c.isLt; omega
    · rfl

/-- A per-point column [2, 240, 35, 1] broadcast over q channels reads, at (b, k, t, c), the column at (b, k, t, 0). -/
theorem bcast_bkt1_apply {α : Type} {q : ℕ} (x : (⟨4, ![2, 240, 35, 1]⟩ : Shape).Idx → α)
    (h : (⟨4, ![2, 240, 35, 1]⟩ : Shape).Broadcasts ⟨4, ![2, 240, 35, q]⟩) (b : Fin 2) (k : Fin 240) (t : Fin 35) (c : Fin q) :
    broadcastTo ⟨4, ![2, 240, 35, q]⟩ x h (ix4 b k t c) = x (ix4 b k t (0 : Fin 1)) := by
  refine broadcastTo_apply x h (ix4 b k t c) (ix4 b k t (0 : Fin 1)) fun ax => ?_
  match ax with
  | ⟨0, _⟩ => rfl
  | ⟨1, _⟩ => rfl
  | ⟨2, _⟩ => rfl
  | ⟨3, _⟩ => rfl

/-- The per-voxel maximum over the point slots, carried back to the tile: at (b, k, t, c) it is the maximum over the
    slots s of the tile at (b, k, s, c). -/
theorem slotmax_tile_apply {p : ℕ} (y : FVec Ideal ⟨4, ![2, 240, 35, p]⟩ .f32)
    (hr : (⟨4, ![2, 240, 35, p]⟩ : Shape).Reduces [2] ⟨3, ![2, 240, p]⟩)
    (hc1 : (⟨3, ![2, 240, p]⟩ : Shape).ShapeCasts ⟨4, ![2, 240, 1, p]⟩)
    (hc2 : (⟨4, ![2, 240, 1, p]⟩ : Shape).ShapeCasts ⟨4, ![2, 240, 1, p]⟩)
    (hb : (⟨4, ![2, 240, 1, p]⟩ : Shape).Broadcasts ⟨4, ![2, 240, 35, p]⟩)
    (b : Fin 2) (k : Fin 240) (t : Fin 35) (c : Fin p) :
    broadcastTo ⟨4, ![2, 240, 35, p]⟩ (shapeCast ⟨4, ![2, 240, 1, p]⟩ (shapeCast ⟨4, ![2, 240, 1, p]⟩
        (multiReduction .maximumf [2] ⟨3, ![2, 240, p]⟩ y 0xFF800000#32 hr (.inl rfl) rfl) hc1) hc2) hb (ix4 b k t c)
      = vmax fun s : Fin 35 => y (ix4 b k s c) := by
  rw [bcast_bk1p_apply, shapeCast_self, cast_bkp_bk1p_apply, slotmax_apply]

/-! ## Two channel groups side by side -/

/-- Two [2, 240, 35, p] tiles concatenated along the channels: a channel below p reads the first tile. -/
theorem concat_left_apply {α : Type} {p q : ℕ} (x₁ x₂ : (⟨4, ![2, 240, 35, p]⟩ : Shape).Idx → α)
    (h : Shape.Concatenates [⟨4, ![2, 240, 35, p]⟩, ⟨4, ![2, 240, 35, p]⟩] ⟨4, ![2, 240, 35, q]⟩ 3)
    (b : Fin 2) (k : Fin 240) (t : Fin 35) (c : Fin q) (hc : c.val < p) :
    concatenate ⟨4, ![2, 240, 35, q]⟩ 3 [⟨⟨4, ![2, 240, 35, p]⟩, x₁⟩, ⟨⟨4, ![2, 240, 35, p]⟩, x₂⟩] h (ix4 b k t c)
      = x₁ (ix4 b k t ⟨c.val, hc⟩) := by
  refine concatenate_pair_apply_left 3 x₁ x₂ h (ix4 b k t c) rfl (ix4 b k t ⟨c.val, hc⟩) fun a => ?_
  match a with
  | ⟨0, _⟩ => rfl
  | ⟨1, _⟩ => rfl
  | ⟨2, _⟩ => rfl
  | ⟨3, _⟩ => rfl

/-- … and a channel from p on reads the second tile, p channels lower. -/
theorem concat_right_apply {α : Type} {p q : ℕ} (x₁ x₂ : (⟨4, ![2, 240, 35, p]⟩ : Shape).Idx → α)
    (h : Shape.Concatenates [⟨4, ![2, 240, 35, p]⟩, ⟨4, ![2, 240, 35, p]⟩] ⟨4, ![2, 240, 35, q]⟩ 3)
    (b : Fin 2) (k : Fin 240) (t : Fin 35) (c : Fin q) (hc : p ≤ c.val) (hc' : c.val - p < p) :
    concatenate ⟨4, ![2, 240, 35, q]⟩ 3 [⟨⟨4, ![2, 240, 35, p]⟩, x₁⟩, ⟨⟨4, ![2, 240, 35, p]⟩, x₂⟩] h (ix4 b k t c)
      = x₂ (ix4 b k t ⟨c.val - p, hc'⟩) := by
  refine concatenate_pair_apply_right 3 x₁ x₂ h (ix4 b k t c) rfl rfl (ix4 b k t ⟨c.val - p, hc'⟩) (fun a ha => ?_) ?_
  · match a with
    | ⟨0, _⟩ => rfl
    | ⟨1, _⟩ => rfl
    | ⟨2, _⟩ => rfl
    | ⟨3, _⟩ => exact absurd rfl ha
  · show c.val - p + p = c.val
    omega

/-! ## The mask word -/

/-- "Not equal to zero" as a one-bit word, widened and converted: 1 when the value is not zero, else 0. -/
theorem neWord_apply (x : EReal) :
    (FloatOps.sitofp (F := Ideal) .f32 ((FloatOps.cmpf (F := Ideal) (φ := .f32) .one x (0 : EReal)).setWidth 32) : EReal)
      = if x ≠ 0 then 1 else 0 := by
  show (((((Ideal.cmp .one x 0).setWidth 32).toInt : ℝ)) : EReal) = _
  by_cases h : x = 0
  · subst h
    simp [Ideal.cmp]
  · simp [Ideal.cmp, h]

/-- The mask column of a tile: 1 at the points whose largest input coordinate is not zero, else 0. -/
theorem maskTile_apply (v : FVec Ideal S2x240x35x7 .f32) (hr : S2x240x35x7.Reduces [3] S2x240x35)
    (hc : S2x240x35.ShapeCasts S2x240x35x1) (hw : 1 < 32) (b : Fin 2) (k : Fin 240) (t : Fin 35) :
    (sitofp .f32 (extui 32 (cmpf .one (shapeCast S2x240x35x1
        (multiReduction .maximumf [3] S2x240x35 v 0xFF800000#32 hr (.inl rfl) rfl) hc)
        (broadcast S2x240x35x1 (Scalar.ofBits (F := Ideal) .f32 0x00000000#32))) hw) : FVec Ideal S2x240x35x1 .f32)
      (ix4 b k t (0 : Fin 1)) = mask fun j : Fin 7 => v (ix4 b k t j) := by
  show FloatOps.sitofp (F := Ideal) .f32 ((FloatOps.cmpf (F := Ideal) (φ := .f32) .one
      (shapeCast S2x240x35x1 (multiReduction .maximumf [3] S2x240x35 v 0xFF800000#32 hr (.inl rfl) rfl) hc (ix4 b k t (0 : Fin 1)))
      (Scalar.ofBits (F := Ideal) .f32 0x00000000#32)).setWidth 32) = _
  rw [cast_bkt_bkt1_apply, lanemax_apply, scalar_zero]
  exact neWord_apply _

/-! ## One layer's output on a tile -/

/-- The normalised values y beside their per-voxel maxima, times the mask column m: at channel c below p the
    normalised value, from p on the maximum over the point slots, times the point's mask. -/
theorem doubled_apply {p q : ℕ} (hq : q = p + p) (y : FVec Ideal ⟨4, ![2, 240, 35, p]⟩ .f32)
    (m : FVec Ideal ⟨4, ![2, 240, 35, 1]⟩ .f32)
    (hr : (⟨4, ![2, 240, 35, p]⟩ : Shape).Reduces [2] ⟨3, ![2, 240, p]⟩)
    (hc1 : (⟨3, ![2, 240, p]⟩ : Shape).ShapeCasts ⟨4, ![2, 240, 1, p]⟩)
    (hc2 : (⟨4, ![2, 240, 1, p]⟩ : Shape).ShapeCasts ⟨4, ![2, 240, 1, p]⟩)
    (hb : (⟨4, ![2, 240, 1, p]⟩ : Shape).Broadcasts ⟨4, ![2, 240, 35, p]⟩)
    (hcat : Shape.Concatenates [⟨4, ![2, 240, 35, p]⟩, ⟨4, ![2, 240, 35, p]⟩] ⟨4, ![2, 240, 35, q]⟩ 3)
    (hbm : (⟨4, ![2, 240, 35, 1]⟩ : Shape).Broadcasts ⟨4, ![2, 240, 35, q]⟩)
    (b : Fin 2) (k : Fin 240) (t : Fin 35) (c : Fin q) :
    mulf (concatenate ⟨4, ![2, 240, 35, q]⟩ 3 [⟨⟨4, ![2, 240, 35, p]⟩, y⟩, ⟨⟨4, ![2, 240, 35, p]⟩,
        broadcastTo ⟨4, ![2, 240, 35, p]⟩ (shapeCast ⟨4, ![2, 240, 1, p]⟩ (shapeCast ⟨4, ![2, 240, 1, p]⟩
          (multiReduction .maximumf [2] ⟨3, ![2, 240, p]⟩ y 0xFF800000#32 hr (.inl rfl) rfl) hc1) hc2) hb⟩] hcat)
      (broadcastTo ⟨4, ![2, 240, 35, q]⟩ m hbm) (ix4 b k t c)
      = (if h : c.val < p then y (ix4 b k t ⟨c.val, h⟩)
          else vmax fun s : Fin 35 => y (ix4 b k s ⟨c.val - p, by have := c.isLt; omega⟩)) * m (ix4 b k t (0 : Fin 1)) := by
  rw [mulf_apply, bcast_bkt1_apply]
  refine congrArg (· * m (ix4 b k t (0 : Fin 1))) ?_
  by_cases h : c.val < p
  · rw [dif_pos h]
    exact concat_left_apply _ _ hcat b k t c h
  · rw [dif_neg h]
    have h1 : p ≤ c.val := Nat.le_of_not_lt h
    have h2 : c.val - p < p := by have := c.isLt; omega
    refine (concat_right_apply _ _ hcat b k t c h1 h2).trans ?_
    exact slotmax_tile_apply y hr hc1 hc2 hb b k t ⟨c.val - p, h2⟩

/-- … which is the layer's output for the voxel, when y holds the normalised rectified values and m the masks. -/
theorem doubled_layerOut {n p q : ℕ} (hq : q = p + p) (y : FVec Ideal ⟨4, ![2, 240, 35, p]⟩ .f32)
    (m : FVec Ideal ⟨4, ![2, 240, 35, 1]⟩ .f32)
    (hr : (⟨4, ![2, 240, 35, p]⟩ : Shape).Reduces [2] ⟨3, ![2, 240, p]⟩)
    (hc1 : (⟨3, ![2, 240, p]⟩ : Shape).ShapeCasts ⟨4, ![2, 240, 1, p]⟩)
    (hc2 : (⟨4, ![2, 240, 1, p]⟩ : Shape).ShapeCasts ⟨4, ![2, 240, 1, p]⟩)
    (hb : (⟨4, ![2, 240, 1, p]⟩ : Shape).Broadcasts ⟨4, ![2, 240, 35, p]⟩)
    (hcat : Shape.Concatenates [⟨4, ![2, 240, 35, p]⟩, ⟨4, ![2, 240, 35, p]⟩] ⟨4, ![2, 240, 35, q]⟩ 3)
    (hbm : (⟨4, ![2, 240, 35, 1]⟩ : Shape).Broadcasts ⟨4, ![2, 240, 35, q]⟩)
    (b : Fin 2) (k : Fin 240) (eps : EReal) (x : Fin 35 → Fin n → EReal) (mk : Fin 35 → EReal)
    (W : Fin n → Fin p → EReal) (bias g beta mean var : Fin p → EReal)
    (hy : ∀ (t : Fin 35) (c : Fin p), y (ix4 b k t c) = bn eps (hid (x t) W bias c) (mean c) (var c) (g c) (beta c))
    (hm : ∀ t : Fin 35, m (ix4 b k t (0 : Fin 1)) = mk t) (t : Fin 35) (c : Fin q) :
    mulf (concatenate ⟨4, ![2, 240, 35, q]⟩ 3 [⟨⟨4, ![2, 240, 35, p]⟩, y⟩, ⟨⟨4, ![2, 240, 35, p]⟩,
        broadcastTo ⟨4, ![2, 240, 35, p]⟩ (shapeCast ⟨4, ![2, 240, 1, p]⟩ (shapeCast ⟨4, ![2, 240, 1, p]⟩
          (multiReduction .maximumf [2] ⟨3, ![2, 240, p]⟩ y 0xFF800000#32 hr (.inl rfl) rfl) hc1) hc2) hb⟩] hcat)
      (broadcastTo ⟨4, ![2, 240, 35, q]⟩ m hbm) (ix4 b k t c)
      = layerOut eps x mk W bias g beta mean var t (c.cast hq) := by
  rw [doubled_apply hq y m hr hc1 hc2 hb hcat hbm b k t c, hm t]
  unfold layerOut
  refine congrArg (· * mk t) ?_
  by_cases h : c.val < p
  · rw [dif_pos h, dif_pos (show (c.cast hq).val < p from h)]
    exact hy t ⟨c.val, h⟩
  · rw [dif_neg h, dif_neg (show ¬ (c.cast hq).val < p from h)]
    exact congrArg vmax (funext fun s => hy s _)

/-- A tile flattened to rows, through a linear map with a bias row: at (r, c) it is the affine map of row r's
    channels, that is of the tile at r's batch, voxel and slot. -/
theorem affine_rows_apply {q n : ℕ} (d : DotDims ⟨2, ![16800, q]⟩ ⟨2, ![q, n]⟩ ⟨2, ![16800, n]⟩)
    (hl : d.lhsContracting = [1]) (hr : d.rhsContracting = [0])
    (hln : d.lhsNonContracting = [0]) (hrn : d.rhsNonContracting = [1]) (hlb : d.lhsBatch = []) (hrb : d.rhsBatch = [])
    (z : FVec Ideal ⟨4, ![2, 240, 35, q]⟩ .f32) (W : FVec Ideal ⟨2, ![q, n]⟩ .f32) (bias : FVec Ideal ⟨2, ![1, n]⟩ .f32)
    (hz : (⟨4, ![2, 240, 35, q]⟩ : Shape).ShapeCasts ⟨2, ![16800, q]⟩) (hbits : FTy.bits .bf16 < FTy.bits .f32)
    (hs : (⟨2, ![1, n]⟩ : Shape).ShapeCasts ⟨2, ![1, n]⟩) (hbr : (⟨2, ![1, n]⟩ : Shape).Broadcasts ⟨2, ![16800, n]⟩)
    (r : Fin 16800) (c : Fin n) :
    addf (matmul d none (truncf .bf16 (shapeCast ⟨2, ![16800, q]⟩ z hz) hbits) (truncf .bf16 W hbits)
        (constant (F := Ideal) ⟨2, ![16800, n]⟩ .f32 0x00000000#32))
      (broadcastTo ⟨2, ![16800, n]⟩ (shapeCast ⟨2, ![1, n]⟩ bias hs) hbr) (ix2 r c)
      = affine (fun c' : Fin q => z (ix4 (rowB r) (rowK r) (rowT r) c')) (fun (j : Fin q) (c : Fin n) => W (ix2 j c))
          (fun c : Fin n => bias (ix2 (0 : Fin 1) c)) c := by
  unfold affine
  rw [addf_apply, matmul_zero_at d hl hr hln hrn hlb hrb, broadcastTo_1b_ab_apply, shapeCast_self]
  refine congrArg (· + bias (ix2 (0 : Fin 1) c)) (Finset.sum_congr rfl fun c' _ => ?_)
  rw [truncf_apply, truncf_apply, tile_rows_apply]

/-- The first layer's rectified product re-laid as a tile: at (b, k, t, c), the rectified affine map of that point. -/
theorem hidTile_apply (v3 : Vec Ideal S2x240x35x7 .f32) (v6 : Vec Ideal S7x16 .f32) (v8 : Vec Ideal S1x16 .f32)
    (h : S16800x16.ShapeCasts S2x240x35x16) (b : Fin 2) (k : Fin 240) (t : Fin 35) (c : Fin 16) :
    shapeCast S2x240x35x16 (k0_pay3 v3 v6 v8) h (ix4 b k t c)
      = hid (fun j : Fin 7 => v3 (ix4 b k t j)) (fun (j : Fin 7) (c : Fin 16) => v6 (ix2 j c))
          (fun c : Fin 16 => v8 (ix2 (0 : Fin 1) c)) c := by
  rw [rows_tile_apply, k0_pay3_apply, rowB_rowOf, rowK_rowOf, rowT_rowOf]

/-- The reciprocal square root of a row, at an entry. -/
theorem rsqrt_apply {s : Shape} {φ : FTy} (a : FVec Ideal s φ) (i : s.Idx) : rsqrt a i = Ideal.rsqrt (a i) := rfl

/-- The small constant added to a variance. -/
abbrev EPS : EReal := Ideal.ofBits .f32 0x3727C5AC#32

end Cert.KernelIdeal.TileValue

end
-- ==== Proof.K2Value.lean ====
/-
  The feature kernel's arithmetic read at an element.

  The body's first part forms, on a [2, 240, 35, ·] tile, the mask column and the first layer's rectified values,
  centred and scaled; its second part normalises them, sets their maxima over the point slots beside them, multiplies
  by the mask, flattens the tile to 16800 rows of 32 channels, applies the second layer (32 × 64 weights, bias,
  rectifier) and centres and scales the result; the tail normalises it, doubles and masks it in the same way, applies
  the last linear map (128 × 128 weights and bias) and takes the maximum over the point slots: the store at
  (b, k, d) is the feature of voxel (b, k) of the tile.
-/
import proofs.«172356_j10943576670908_2_alg».proof.Proof.TileLayer

noncomputable section

namespace Cert.KernelIdeal.TileValue

open Idealize.ShloMosaic Idealize.ShloMosaic.ValueIdx Cert.KernelIdeal Cert.KernelIdeal.Gen Cert.Spec Cert.Lib

/-! ## Rows through a linear map, re-laid as a tile -/

/-- A tile flattened to rows, through a linear map with a bias row and the rectifier, re-laid as a tile: at
    (b, k, t, c) it is the rectified affine map of the tile's channels at (b, k, t). -/
theorem rectTile_apply {q n : ℕ} (d : DotDims ⟨2, ![16800, q]⟩ ⟨2, ![q, n]⟩ ⟨2, ![16800, n]⟩)
    (hl : d.lhsContracting = [1]) (hr : d.rhsContracting = [0])
    (hln : d.lhsNonContracting = [0]) (hrn : d.rhsNonContracting = [1]) (hlb : d.lhsBatch = []) (hrb : d.rhsBatch = [])
    (z : FVec Ideal ⟨4, ![2, 240, 35, q]⟩ .f32) (W : FVec Ideal ⟨2, ![q, n]⟩ .f32) (bias : FVec Ideal ⟨2, ![1, n]⟩ .f32)
    (hz : (⟨4, ![2, 240, 35, q]⟩ : Shape).ShapeCasts ⟨2, ![16800, q]⟩) (hbits : FTy.bits .bf16 < FTy.bits .f32)
    (hs : (⟨2, ![1, n]⟩ : Shape).ShapeCasts ⟨2, ![1, n]⟩) (hbr : (⟨2, ![1, n]⟩ : Shape).Broadcasts ⟨2, ![16800, n]⟩)
    (h : (⟨2, ![16800, n]⟩ : Shape).ShapeCasts ⟨4, ![2, 240, 35, n]⟩)
    (b : Fin 2) (k : Fin 240) (t : Fin 35) (c : Fin n) :
    shapeCast ⟨4, ![2, 240, 35, n]⟩
      (maximumf (addf (matmul d none (truncf .bf16 (shapeCast ⟨2, ![16800, q]⟩ z hz) hbits) (truncf .bf16 W hbits)
          (constant (F := Ideal) ⟨2, ![16800, n]⟩ .f32 0x00000000#32))
        (broadcastTo ⟨2, ![16800, n]⟩ (shapeCast ⟨2, ![1, n]⟩ bias hs) hbr))
        (broadcast ⟨2, ![16800, n]⟩ (Scalar.ofBits (F := Ideal) .f32 0x00000000#32))) h (ix4 b k t c)
      = hid (fun c' : Fin q => z (ix4 b k t c')) (fun (j : Fin q) (c : Fin n) => W (ix2 j c))
          (fun c : Fin n => bias (ix2 (0 : Fin 1) c)) c := by
  unfold hid
  rw [rows_tile_apply, maximumf_apply, broadcast_apply, scalar_zero,
    affine_rows_apply d hl hr hln hrn hlb hrb, rowB_rowOf, rowK_rowOf, rowT_rowOf]

/-- The same without the rectifier. -/
theorem affTile_apply {q n : ℕ} (d : DotDims ⟨2, ![16800, q]⟩ ⟨2, ![q, n]⟩ ⟨2, ![16800, n]⟩)
    (hl : d.lhsContracting = [1]) (hr : d.rhsContracting = [0])
    (hln : d.lhsNonContracting = [0]) (hrn : d.rhsNonContracting = [1]) (hlb : d.lhsBatch = []) (hrb : d.rhsBatch = [])
    (z : FVec Ideal ⟨4, ![2, 240, 35, q]⟩ .f32) (W : FVec Ideal ⟨2, ![q, n]⟩ .f32) (bias : FVec Ideal ⟨2, ![1, n]⟩ .f32)
    (hz : (⟨4, ![2, 240, 35, q]⟩ : Shape).ShapeCasts ⟨2, ![16800, q]⟩) (hbits : FTy.bits .bf16 < FTy.bits .f32)
    (hs : (⟨2, ![1, n]⟩ : Shape).ShapeCasts ⟨2, ![1, n]⟩) (hbr : (⟨2, ![1, n]⟩ : Shape).Broadcasts ⟨2, ![16800, n]⟩)
    (h : (⟨2, ![16800, n]⟩ : Shape).ShapeCasts ⟨4, ![2, 240, 35, n]⟩)
    (b : Fin 2) (k : Fin 240) (t : Fin 35) (c : Fin n) :
    shapeCast ⟨4, ![2, 240, 35, n]⟩
      (addf (matmul d none (truncf .bf16 (shapeCast ⟨2, ![16800, q]⟩ z hz) hbits) (truncf .bf16 W hbits)
          (constant (F := Ideal) ⟨2, ![16800, n]⟩ .f32 0x00000000#32))
        (broadcastTo ⟨2, ![16800, n]⟩ (shapeCast ⟨2, ![1, n]⟩ bias hs) hbr)) h (ix4 b k t c)
      = affine (fun c' : Fin q => z (ix4 b k t c')) (fun (j : Fin q) (c : Fin n) => W (ix2 j c))
          (fun c : Fin n => bias (ix2 (0 : Fin 1) c)) c := by
  rw [rows_tile_apply, affine_rows_apply d hl hr hln hrn hlb hrb, rowB_rowOf, rowK_rowOf, rowT_rowOf]

/-! ## The loop-carried values of the feature kernel: the first layer -/

/-- The mask column: 1 at the points whose largest input coordinate is not zero, else 0. -/
theorem k2_pay2_apply (v0 : Vec Ideal S2x240x35x7 .f32) (b : Fin 2) (k : Fin 240) (t : Fin 35) :
    k2_pay2 v0 (ix4 b k t (0 : Fin 1)) = mask (fun j : Fin 7 => v0 (ix4 b k t j)) := by
  unfold k2_pay2
  exact maskTile_apply v0 _ _ _ b k t

/-- The first layer's shift row is carried as loaded. -/
theorem k2_pay3_eq (v25 : Vec Ideal S1x16 .f32) : k2_pay3 v25 = v25 := shapeCast_self _ _

/-- The first layer's rectified values, centred and scaled by the reciprocal root of the variance. -/
theorem k2_pay4_apply (v0 : Vec Ideal S2x240x35x7 .f32) (v9 : Vec Ideal S7x16 .f32) (v11 v19 v21 : Vec Ideal S1x16 .f32)
    (b : Fin 2) (k : Fin 240) (t : Fin 35) (c : Fin 16) :
    k2_pay4 v0 v9 v11 v19 v21 (ix4 b k t c)
      = (hid (fun j : Fin 7 => v0 (ix4 b k t j)) (fun (j : Fin 7) (c : Fin 16) => v9 (ix2 j c))
            (fun c : Fin 16 => v11 (ix2 (0 : Fin 1) c)) c - v19 (ix2 (0 : Fin 1) c))
          * Ideal.rsqrt (v21 (ix2 (0 : Fin 1) c) + EPS) := by
  unfold k2_pay4
  show (shapeCast S2x240x35x16 (k0_pay3 v0 v9 v11) _ (ix4 b k t c)
      - broadcastTo S2x240x35x16 (shapeCast S1x1x1x16 (shapeCast S1x16 v19 _) _) _ (ix4 b k t c))
    * broadcastTo S2x240x35x16 (shapeCast S1x1x1x16
        (rsqrt (addf (shapeCast S1x16 v21 _) (broadcast S1x16 (Scalar.ofBits (F := Ideal) .f32 0x3727C5AC#32)))) _) _ (ix4 b k t c) = _
  rw [hidTile_apply, row_tile_apply, row_tile_apply, rsqrt_apply, addf_apply]
  simp only [shapeCast_self]
  rfl

/-- The first layer's scale row spread over the tile. -/
theorem k2_pay5_apply (v23 : Vec Ideal S1x16 .f32) (b : Fin 2) (k : Fin 240) (t : Fin 35) (c : Fin 16) :
    k2_pay5 v23 (ix4 b k t c) = v23 (ix2 (0 : Fin 1) c) := by
  unfold k2_pay5
  show broadcastTo S2x240x35x16 (shapeCast S1x1x1x16 (shapeCast S1x16 v23 _) _) _ (ix4 b k t c) = _
  rw [row_tile_apply, shapeCast_self]

/-- The first layer's normalised values on the tile, as the second part of the body forms them. -/
theorem k2_norm1_apply (v0 : Vec Ideal S2x240x35x7 .f32) (v9 : Vec Ideal S7x16 .f32) (v11 v19 v21 v23 v25 : Vec Ideal S1x16 .f32)
    (hc : S1x16.ShapeCasts S1x1x1x16) (hb : S1x1x1x16.Broadcasts S2x240x35x16)
    (b : Fin 2) (k : Fin 240) (t : Fin 35) (c : Fin 16) :
    addf (mulf (k2_pay4 v0 v9 v11 v19 v21) (k2_pay5 v23))
      (broadcastTo S2x240x35x16 (shapeCast S1x1x1x16 (k2_pay3 v25) hc) hb) (ix4 b k t c)
      = bn EPS (hid (fun j : Fin 7 => v0 (ix4 b k t j)) (fun (j : Fin 7) (c : Fin 16) => v9 (ix2 j c))
            (fun c : Fin 16 => v11 (ix2 (0 : Fin 1) c)) c)
          (v19 (ix2 (0 : Fin 1) c)) (v21 (ix2 (0 : Fin 1) c)) (v23 (ix2 (0 : Fin 1) c)) (v25 (ix2 (0 : Fin 1) c)) := by
  unfold bn
  rw [addf_apply, mulf_apply, row_tile_apply, k2_pay4_apply, k2_pay5_apply, k2_pay3_eq]
/-! ## The second layer -/

/-- The second layer's rectified values of the first layer's output, centred, scaled by the reciprocal root of
    the variance and by the scale row, on the tile. -/
theorem k2_pay6_apply (v0 : Vec Ideal S2x240x35x7 .f32) (v9 : Vec Ideal S7x16 .f32) (v11 v19 v21 v23 v25 : Vec Ideal S1x16 .f32)
    (v51 : Vec Ideal S32x64 .f32) (v53 v61 v63 v65 : Vec Ideal S1x64 .f32)
    (b : Fin 2) (k : Fin 240) (t : Fin 35) (c : Fin 64) :
    k2_pay6 (k2_pay2 v0) (k2_pay3 v25) (k2_pay4 v0 v9 v11 v19 v21) (k2_pay5 v23) v51 v53 v61 v63 v65 (ix4 b k t c)
      = (hid (fun c' : Fin 32 => layerOut (T := 35) (n := 7) (p := 16) EPS
                (fun s j => v0 (ix4 b k s j)) (fun s => mask fun j => v0 (ix4 b k s j))
                (fun j c => v9 (ix2 j c)) (fun c => v11 (ix2 (0 : Fin 1) c))
                (fun c => v23 (ix2 (0 : Fin 1) c)) (fun c => v25 (ix2 (0 : Fin 1) c))
                (fun c => v19 (ix2 (0 : Fin 1) c)) (fun c => v21 (ix2 (0 : Fin 1) c)) t c')
            (fun j c => v51 (ix2 j c)) (fun c => v53 (ix2 (0 : Fin 1) c)) c - v61 (ix2 (0 : Fin 1) c))
          * Ideal.rsqrt (v63 (ix2 (0 : Fin 1) c) + EPS) * v65 (ix2 (0 : Fin 1) c) := by
  unfold k2_pay6
  show mulf (mulf (subf (shapeCast S2x240x35x64 _ _) (broadcastTo S2x240x35x64 _ _)) (broadcastTo S2x240x35x64 _ _))
    (broadcastTo S2x240x35x64 _ _) (ix4 b k t c) = _
  rw [mulf_apply, mulf_apply, subf_apply]
  rw [rectTile_apply dot_S16800x32_S32x64_S16800x64_1_0_0_1_n_n rfl rfl rfl rfl rfl rfl,
    row_tile_apply, row_tile_apply, row_tile_apply, rsqrt_apply, addf_apply]
  simp only [shapeCast_self]
  refine congrArg (fun z => (z - v61 (ix2 (0 : Fin 1) c)) * Ideal.rsqrt (v63 (ix2 (0 : Fin 1) c) + EPS) * v65 (ix2 (0 : Fin 1) c)) ?_
  refine congrArg (fun f => hid f _ _ c) (funext fun c' => ?_)
  exact doubled_layerOut (n := 7) (p := 16) (q := 32) rfl _ _ _ _ _ _ _ _ b k EPS _ _ _ _ _ _ _ _
    (fun t c => k2_norm1_apply v0 v9 v11 v19 v21 v23 v25 _ _ b k t c)
    (fun t => k2_pay2_apply v0 b k t) t c'

/-- The second layer's shift row, with three leading unit axes. -/
theorem k2_pay7_apply (v67 : Vec Ideal S1x64 .f32) (u v w : Fin 1) (c : Fin 64) :
    k2_pay7 v67 (ix4 u v w c) = v67 (ix2 (0 : Fin 1) c) := by
  unfold k2_pay7
  show shapeCast S1x1x1x64 (shapeCast S1x64 v67 _) _ (ix4 u v w c) = _
  rw [cast_1p_111p_apply, shapeCast_self]

/-- The second layer's normalised values on the tile, as the body's tail forms them. -/
theorem k2_norm2_apply (v0 : Vec Ideal S2x240x35x7 .f32) (v9 : Vec Ideal S7x16 .f32) (v11 v19 v21 v23 v25 : Vec Ideal S1x16 .f32)
    (v51 : Vec Ideal S32x64 .f32) (v53 v61 v63 v65 v67 : Vec Ideal S1x64 .f32)
    (hb : S1x1x1x64.Broadcasts S2x240x35x64) (b : Fin 2) (k : Fin 240) (t : Fin 35) (c : Fin 64) :
    addf (k2_pay6 (k2_pay2 v0) (k2_pay3 v25) (k2_pay4 v0 v9 v11 v19 v21) (k2_pay5 v23) v51 v53 v61 v63 v65)
      (broadcastTo S2x240x35x64 (k2_pay7 v67) hb) (ix4 b k t c)
      = bn EPS (hid (fun c' : Fin 32 => layerOut (T := 35) (n := 7) (p := 16) EPS
                (fun s j => v0 (ix4 b k s j)) (fun s => mask fun j => v0 (ix4 b k s j))
                (fun j c => v9 (ix2 j c)) (fun c => v11 (ix2 (0 : Fin 1) c))
                (fun c => v23 (ix2 (0 : Fin 1) c)) (fun c => v25 (ix2 (0 : Fin 1) c))
                (fun c => v19 (ix2 (0 : Fin 1) c)) (fun c => v21 (ix2 (0 : Fin 1) c)) t c')
            (fun j c => v51 (ix2 j c)) (fun c => v53 (ix2 (0 : Fin 1) c)) c)
          (v61 (ix2 (0 : Fin 1) c)) (v63 (ix2 (0 : Fin 1) c)) (v65 (ix2 (0 : Fin 1) c)) (v67 (ix2 (0 : Fin 1) c)) := by
  unfold bn
  rw [addf_apply, bcast_111p_apply, k2_pay7_apply, k2_pay6_apply]

/-! ## The stored feature -/

/-- The feature kernel's store at (b, k, d): the last linear map of the second layer's output for voxel (b, k),
    maximised over the point slots. -/
theorem k2_pay1_apply (v0 : Vec Ideal S2x240x35x7 .f32) (v9 : Vec Ideal S7x16 .f32) (v11 v19 v21 v23 v25 : Vec Ideal S1x16 .f32)
    (v51 : Vec Ideal S32x64 .f32) (v53 v61 v63 v65 v67 : Vec Ideal S1x64 .f32)
    (v93 : Vec Ideal S128x128 .f32) (v95 : Vec Ideal S1x128 .f32) (b : Fin 2) (k : Fin 240) (d : Fin 128) :
    k2_pay1 (k2_pay2 v0)
        (k2_pay6 (k2_pay2 v0) (k2_pay3 v25) (k2_pay4 v0 v9 v11 v19 v21) (k2_pay5 v23) v51 v53 v61 v63 v65)
        (k2_pay7 v67) v93 v95 (ix3 b k d)
      = voxelFeat (fun (t : Fin 35) (c : Fin 128) => layerOut (T := 35) (n := 32) (p := 64) EPS
            (fun (s : Fin 35) (c' : Fin 32) => layerOut (T := 35) (n := 7) (p := 16) EPS
                (fun u j => v0 (ix4 b k u j)) (fun s => mask fun j => v0 (ix4 b k s j))
                (fun j c => v9 (ix2 j c)) (fun c => v11 (ix2 (0 : Fin 1) c))
                (fun c => v23 (ix2 (0 : Fin 1) c)) (fun c => v25 (ix2 (0 : Fin 1) c))
                (fun c => v19 (ix2 (0 : Fin 1) c)) (fun c => v21 (ix2 (0 : Fin 1) c)) s c')
            (fun s => mask fun j => v0 (ix4 b k s j))
            (fun j c => v51 (ix2 j c)) (fun c => v53 (ix2 (0 : Fin 1) c))
            (fun c => v65 (ix2 (0 : Fin 1) c)) (fun c => v67 (ix2 (0 : Fin 1) c))
            (fun c => v61 (ix2 (0 : Fin 1) c)) (fun c => v63 (ix2 (0 : Fin 1) c)) t c)
          (fun j d => v93 (ix2 j d)) (fun d => v95 (ix2 (0 : Fin 1) d)) d := by
  unfold k2_pay1 voxelFeat
  show multiReduction .maximumf [2] S2x240x128 (shapeCast S2x240x35x128
      (addf (matmul dot_S16800x128_S128x128_S16800x128_1_0_0_1_n_n none _ _ _) (broadcastTo S16800x128 _ _)) _)
      0xFF800000#32 _ (.inl rfl) rfl (ix3 b k d) = _
  rw [slotmax_apply]
  refine congrArg vmax (funext fun t => ?_)
  rw [affTile_apply dot_S16800x128_S128x128_S16800x128_1_0_0_1_n_n rfl rfl rfl rfl rfl rfl]
  refine congrArg (fun f => affine f _ _ d) (funext fun c' => ?_)
  exact doubled_layerOut (n := 32) (p := 64) (q := 128) rfl _ _ _ _ _ _ _ _ b k EPS _ _ _ _ _ _ _ _
    (fun t c => k2_norm2_apply v0 v9 v11 v19 v21 v23 v25 v51 v53 v61 v63 v65 v67 _ b k t c)
    (fun t => k2_pay2_apply v0 b k t) t c'

end Cert.KernelIdeal.TileValue

end
-- ==== Proof.Target.lean ====
/-
  The whole block as one function of the argument arrays, and the statistics bridge.

  Both programs compute, per voxel, `voxelFeat` of the second layer's output of the first layer's output; they differ
  only in how a layer's channel variance is taken — "mean of squares minus squared mean, clamped at zero" against
  "mean squared deviation" — and these agree when every rectified value is a real number, which holds when the
  inputs are finite.  (N is the number of points, the real 840000; ε a positive real.)
-/
import proofs.«172356_j10943576670908_2_alg».proof.Proof.Spec
import proofs.«172356_j10943576670908_2_alg».proof.Proof.Stats

noncomputable section

namespace Cert.Spec

open Idealize.ShloMosaic Cert.Stats Finset

variable {n p : ℕ}

/-- A layer's input: a point cloud with n coordinates per point. -/
abbrev Cloud (n : ℕ) := Fin 2 → Fin 12000 → Fin 35 → Fin n → EReal

/-- The channel sum of the rectified values over every point, from zero. -/
def sumH (x : Cloud n) (W : Fin n → Fin p → EReal) (bias : Fin p → EReal) (c : Fin p) : EReal :=
  0 + ∑ b, ∑ k, ∑ t, hid (x b k t) W bias c
/-- The channel sum of their squares. -/
def sumHH (x : Cloud n) (W : Fin n → Fin p → EReal) (bias : Fin p → EReal) (c : Fin p) : EReal :=
  0 + ∑ b, ∑ k, ∑ t, hid (x b k t) W bias c * hid (x b k t) W bias c
/-- The channel mean. -/
def meanOf (N : EReal) (x : Cloud n) (W : Fin n → Fin p → EReal) (bias : Fin p → EReal) (c : Fin p) : EReal :=
  Ideal.div (sumH x W bias c) N
/-- The channel variance as the tiled program takes it. -/
def varTiled (N : EReal) (x : Cloud n) (W : Fin n → Fin p → EReal) (bias : Fin p → EReal) (c : Fin p) : EReal :=
  max (Ideal.div (sumHH x W bias c) N - meanOf N x W bias c * meanOf N x W bias c) 0
/-- The channel variance as the plain program takes it. -/
def varPlain (N : EReal) (x : Cloud n) (W : Fin n → Fin p → EReal) (bias : Fin p → EReal) (c : Fin p) : EReal :=
  Ideal.div (0 + ∑ b, ∑ k, ∑ t, (hid (x b k t) W bias c - meanOf N x W bias c) * (hid (x b k t) W bias c - meanOf N x W bias c)) N

/-- For real rectified values the two variances agree. -/
theorem varTiled_eq_varPlain (x : Cloud n) (W : Fin n → Fin p → EReal) (bias : Fin p → EReal) (c : Fin p)
    (hreal : ∀ b k t, IsReal (hid (x b k t) W bias c)) :
    varTiled ((840000 : ℝ) : EReal) x W bias c = varPlain ((840000 : ℝ) : EReal) x W bias c := by
  unfold varTiled varPlain meanOf sumH sumHH
  simp only [Ideal.div_coe (by norm_num : (840000 : ℝ) ≠ 0), zero_add]
  exact var_forms_points (fun b k t => hid (x b k t) W bias c) hreal

/-- A layer's output as a cloud, given its statistics and the points' masks. -/
def layerCloud (eps : EReal) (x : Cloud n) (mk : Fin 2 → Fin 12000 → Fin 35 → EReal) (W : Fin n → Fin p → EReal)
    (bias g beta mean var : Fin p → EReal) : Cloud (p + p) :=
  fun b k t c => layerOut eps (x b k) (mk b k) W bias g beta mean var t c

/-- The masks of a cloud's points. -/
def maskOf (x : Cloud n) : Fin 2 → Fin 12000 → Fin 35 → EReal := fun b k t => mask (x b k t)

/-- The whole block, per voxel and output channel, for a given way `vr` of taking a layer's channel variance:
    the masks from the raw cloud, the first layer (7 → 16, doubled to 32), the second (32 → 64, doubled to 128), the
    last linear map (128 → 128) maximised over the point slots. -/
def feat (vr : ∀ {n p : ℕ}, EReal → Cloud n → (Fin n → Fin p → EReal) → (Fin p → EReal) → Fin p → EReal)
    (eps N : EReal) (inp : Cloud 7) (W1 : Fin 7 → Fin 16 → EReal) (b1 g1 beta1 : Fin 16 → EReal)
    (W2 : Fin 32 → Fin 64 → EReal) (b2 g2 beta2 : Fin 64 → EReal) (Wf : Fin 128 → Fin 128 → EReal) (bf : Fin 128 → EReal) :
    Fin 2 → Fin 12000 → Fin 128 → EReal :=
  let x1 : Cloud 32 := layerCloud eps inp (maskOf inp) W1 b1 g1 beta1 (meanOf N inp W1 b1) (vr N inp W1 b1)
  let x2 : Cloud 128 := layerCloud eps x1 (maskOf inp) W2 b2 g2 beta2 (meanOf N x1 W2 b2) (vr N x1 W2 b2)
  fun b k d => voxelFeat (x2 b k) Wf bf d

/-- The block with the tiled program's variance. -/
abbrev featTiled := @feat (fun {n p} => @varTiled n p)
/-- The block with the plain program's variance. -/
abbrev featPlain := @feat (fun {n p} => @varPlain n p)

end Cert.Spec

end
-- ==== Proof.K2Final.lean ====
/-
  The third kernel region's result array in closed form.

  Window 0's block at grid point t holds the voxels 240·t … 240·t + 239 of the point cloud, every other input window its
  whole array, and the output window's block at point t is the voxels 240·t … 240·t + 239 of the result. The body's stored
  value at (b, kk, d) is the per-voxel feature of voxel 240·t + kk, so every write-back is a block of ONE function of the
  arrays the region finds, and the fifty blocks tile the result: it ends holding that function.
-/
import proofs.«172356_j10943576670908_2_alg».proof.Proof.KI.Region2
import proofs.«172356_j10943576670908_2_alg».proof.Proof.K2Blocks
import proofs.«172356_j10943576670908_2_alg».proof.Proof.K2Value
import proofs.«172356_j10943576670908_2_alg».proof.Proof.Stats
import proofs.«172356_j10943576670908_2_alg».proof.Proof.Target
import proofs.«172356_j10943576670908_2_alg».proof.Proof.TileLayer
import Idealize.ShloMosaic.Lib.Pipeline.Value
import Idealize.ShloMosaic.Lib.ValueIdx

noncomputable section

namespace Cert.KernelIdeal.RegionValue

open Cert.KernelIdeal Cert.KernelIdeal.Gen Cert.KernelIdeal.Hand Cert.KernelIdeal.TileValue Cert.Spec Cert.Stats
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region finds, by coordinates -/

/-- The point cloud. -/
abbrev cloud2 (c : Dev nD) : Cloud 7 := fun b k s j => V c main_arg0 (ix4 b k s j)
/-- The first layer: weights, bias, scale, shift, channel mean and variance. -/
abbrev w1_2 (c : Dev nD) : Fin 7 → Fin 16 → EReal := fun j q => V c main_arg2 (ix2 j q)
abbrev b1_2 (c : Dev nD) : Fin 16 → EReal := fun q => V c main_v0 (ix2 (0 : Fin 1) q)
abbrev g1_2 (c : Dev nD) : Fin 16 → EReal := fun q => V c main_v1 (ix2 (0 : Fin 1) q)
abbrev beta1_2 (c : Dev nD) : Fin 16 → EReal := fun q => V c main_v2 (ix2 (0 : Fin 1) q)
abbrev mean1_2 (c : Dev nD) : Fin 16 → EReal := fun q => V c main_v9 (ix2 (0 : Fin 1) q)
abbrev var1_2 (c : Dev nD) : Fin 16 → EReal := fun q => V c main_v15 (ix2 (0 : Fin 1) q)
/-- The second layer likewise. -/
abbrev w2_2 (c : Dev nD) : Fin 32 → Fin 64 → EReal := fun j q => V c main_arg6 (ix2 j q)
abbrev b2_2 (c : Dev nD) : Fin 64 → EReal := fun q => V c main_v3 (ix2 (0 : Fin 1) q)
abbrev g2_2 (c : Dev nD) : Fin 64 → EReal := fun q => V c main_v4 (ix2 (0 : Fin 1) q)
abbrev beta2_2 (c : Dev nD) : Fin 64 → EReal := fun q => V c main_v5 (ix2 (0 : Fin 1) q)
abbrev mean2_2 (c : Dev nD) : Fin 64 → EReal := fun q => V c main_v18 (ix2 (0 : Fin 1) q)
abbrev var2_2 (c : Dev nD) : Fin 64 → EReal := fun q => V c main_v24 (ix2 (0 : Fin 1) q)
/-- The last linear map. -/
abbrev wf_2 (c : Dev nD) : Fin 128 → Fin 128 → EReal := fun j q => V c main_arg10 (ix2 j q)
abbrev bf_2 (c : Dev nD) : Fin 128 → EReal := fun q => V c main_v6 (ix2 (0 : Fin 1) q)

/-- The first layer's output over the whole cloud, from the statistics the region finds. -/
def x1_2 (c : Dev nD) : Cloud 32 :=
  layerCloud EPS (cloud2 V c) (maskOf (cloud2 V c)) (w1_2 V c) (b1_2 V c) (g1_2 V c) (beta1_2 V c) (mean1_2 V c) (var1_2 V c)
/-- The second layer's. -/
def x2_2 (c : Dev nD) : Cloud 128 :=
  layerCloud EPS (x1_2 V c) (maskOf (cloud2 V c)) (w2_2 V c) (b2_2 V c) (g2_2 V c) (beta2_2 V c) (mean2_2 V c) (var2_2 V c)
/-- The result array: at (b, k, d) the per-voxel feature d of voxel k of batch b. -/
def featG (c : Dev nD) : S2x12000x128.Idx → EReal :=
  fun i => voxelFeat (x2_2 V c (i 0) (i 1)) (wf_2 V c) (bf_2 V c) (i 2)

/-! ## The output window's blocks -/

/-- The output window's block index at point t is (0, t, 0). -/
theorem idx2_15 : ∀ t : Fin cfg2.N, win2_15.index t 0 = 0 ∧ win2_15.index t 1 = t.val ∧ win2_15.index t 2 = 0 :=
  (by decide +kernel : ∀ t : Fin grid2.N, win2_15.index t 0 = 0 ∧ win2_15.index t 1 = t.val ∧ win2_15.index t 2 = 0)

/-- Element (b, kk, d) of the output block at point t is element (b, 240·t + kk, d) of the result. -/
theorem emb2_15 (t : Fin cfg2.N) (b : Fin 2) (kk : Fin 240) (d : Fin 128) :
    ((cfg2.win 15).blk t).view.emb (ix3 b kk d) = (ix3 b (tileK (tileOf2 t) kk) d : S2x12000x128.Idx) := by
  funext a; apply Fin.ext
  match a with
  | ⟨0, _⟩ => show win2_15.index t 0 * 2 + 1 * b.val = b.val; rw [(idx2_15 t).1]; omega
  | ⟨1, _⟩ => show win2_15.index t 1 * 240 + 1 * kk.val = t.val * 240 + kk.val; rw [(idx2_15 t).2.1]; omega
  | ⟨2, _⟩ => show win2_15.index t 2 * 128 + 1 * d.val = d.val; rw [(idx2_15 t).2.2]; omega

/-! ## What each point writes back, and the result -/

/-- What point t writes back is block t of the result function. -/
theorem flushed2_15_eq (c : Dev nD) (t : Fin cfg2.N) (hf : (cfg2.win 15).flush t = true) :
    (dat2 V c).flushed 15 t = ((cfg2.win 15).blk t).view.read (Elt Ideal) (featG V c) := by
  show (cfg2.win 15).cut (grid2.coords t) ((dat2 V c).after 15 t) = _
  rw [after2_15]
  refine funext fun (y : S2x240x128.Idx) => ?_
  obtain ⟨b, kk, d, rfl⟩ : ∃ (b : Fin 2) (kk : Fin 240) (d : Fin 128), y = ix3 b kk d := ⟨y 0, y 1, y 2, eq_ix3 y⟩
  rw [View.read_apply, emb2_15]
  show k2_pay1 (k2_pay2 (iblk2 V c 0 t)) (k2_pay6 (k2_pay2 (iblk2 V c 0 t)) (k2_pay3 (iblk2 V c 4 t)) (k2_pay4 (iblk2 V c 0 t) (iblk2 V c 5 t) (iblk2 V c 6 t) (iblk2 V c 1 t) (iblk2 V c 2 t)) (k2_pay5 (iblk2 V c 3 t)) (iblk2 V c 11 t) (iblk2 V c 12 t) (iblk2 V c 7 t) (iblk2 V c 8 t) (iblk2 V c 9 t)) (k2_pay7 (iblk2 V c 10 t)) (iblk2 V c 13 t) (iblk2 V c 14 t) (ix3 b kk d) = _
  rw [k2_pay1_apply]
  simp only [iblk2_0_apply, iblk2_1_apply, iblk2_2_apply, iblk2_3_apply, iblk2_4_apply, iblk2_5_apply, iblk2_6_apply, iblk2_7_apply, iblk2_8_apply, iblk2_9_apply, iblk2_10_apply, iblk2_11_apply, iblk2_12_apply, iblk2_13_apply, iblk2_14_apply]
  rfl

/-- The fifty blocks tile the result, so it ends holding the result function: voxel k is in the block of point k / 240. -/
theorem final2_15 (c : Dev nD) : (dat2 V c).arrAt 15 cfg2.N = featG V c :=
  (dat2 V c).arrAt_eq_of_cover 15 _ (flushed2_15_eq V c) fun i => by
    have hN : cfg2.N = 50 := N_2
    have h0 : (i 0 : Nat) < 2 := (i 0).isLt
    have h1 : (i 1 : Nat) < 12000 := (i 1).isLt
    have h2 : (i 2 : Nat) < 128 := (i 2).isLt
    have hT : (i 1 : Nat) / 240 < cfg2.N := by omega
    obtain ⟨e0, e1, e2⟩ := idx2_15 ⟨(i 1 : Nat) / 240, hT⟩
    refine ⟨⟨(i 1 : Nat) / 240, hT⟩, flush2_15 _, ?_⟩
    show i ∈ ((View.whole main_v25).slice (win2_15.rect ⟨(i 1 : Nat) / 240, hT⟩)).set
    rw [View.set_slice_whole, Rect.mem_set_unit]
    intro a
    match a with
    | ⟨0, _⟩ =>
      show win2_15.index ⟨(i 1 : Nat) / 240, hT⟩ 0 * 2 ≤ (i 0 : Nat) ∧ (i 0 : Nat) < win2_15.index ⟨(i 1 : Nat) / 240, hT⟩ 0 * 2 + 2
      rw [e0]; omega
    | ⟨1, _⟩ =>
      show win2_15.index ⟨(i 1 : Nat) / 240, hT⟩ 1 * 240 ≤ (i 1 : Nat) ∧ (i 1 : Nat) < win2_15.index ⟨(i 1 : Nat) / 240, hT⟩ 1 * 240 + 240
      rw [e1]; show (i 1 : Nat) / 240 * 240 ≤ (i 1 : Nat) ∧ (i 1 : Nat) < (i 1 : Nat) / 240 * 240 + 240; omega
    | ⟨2, _⟩ =>
      show win2_15.index ⟨(i 1 : Nat) / 240, hT⟩ 2 * 128 ≤ (i 2 : Nat) ∧ (i 2 : Nat) < win2_15.index ⟨(i 1 : Nat) / 240, hT⟩ 2 * 128 + 128
      rw [e2]; omega

end Cert.KernelIdeal.RegionValue

end
-- ==== Proof.K0Final.lean ====
/-
  The first reduction kernel's result arrays in closed form.

  Window 0's block at grid point t holds the voxels 240·t … 240·t + 239 of the point cloud; windows 1 and 2 hold the
  whole weight matrix and bias row at every point.  The accumulators therefore hold, after point n, zero plus the
  column sums of the rectified products of the tiles 0 … n; after the last point that is the sum over every point of
  the cloud.
-/
import proofs.«172356_j10943576670908_2_alg».proof.Proof.KI.Region0
import proofs.«172356_j10943576670908_2_alg».proof.Proof.K0Value
import proofs.«172356_j10943576670908_2_alg».proof.Proof.Stats
import proofs.«172356_j10943576670908_2_alg».proof.Proof.Target
import Idealize.ShloMosaic.Lib.Pipeline.Value

noncomputable section

namespace Cert.KernelIdeal.RegionValue

open Cert.KernelIdeal Cert.KernelIdeal.Gen Cert.KernelIdeal.Hand Cert.KernelIdeal.TileValue Cert.Spec Cert.Stats
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Window 0's block index at point t is (0, t, 0, 0). -/
theorem idx0_0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)
/-- Windows 1 and 2 sit at block (0, 0) at every point. -/
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)

/-- The point as a tile number. -/
def tileOf (t : Fin cfg0.N) : Fin 50 := ⟨t.val, by have h1 := t.isLt; have hN : cfg0.N = 50 := N_0; omega⟩

/-- Window 0's block at point t, at (b, kk, s, j): the cloud at voxel 240·t + kk. -/
theorem iblk0_0_apply (c : Dev nD) (t : Fin cfg0.N) (b : Fin 2) (kk : Fin 240) (s : Fin 35) (j : Fin 7) :
    iblk0 V c 0 t (ix4 b kk s j) = V c main_arg0 (ix4 b (tileK (tileOf t) kk) s j) := by
  unfold iblk0
  rw [View.read_apply]
  show V c main_arg0 _ = V c main_arg0 _
  refine congrArg (V c main_arg0) (funext fun a => Fin.ext ?_)
  match a with
  | ⟨0, _⟩ => show win0_0.index t 0 * 2 + 1 * b.val = b.val; rw [(idx0_0 t).1]; omega
  | ⟨1, _⟩ => show win0_0.index t 1 * 240 + 1 * kk.val = t.val * 240 + kk.val; rw [(idx0_0 t).2.1]; omega
  | ⟨2, _⟩ => show win0_0.index t 2 * 35 + 1 * s.val = s.val; rw [(idx0_0 t).2.2.1]; omega
  | ⟨3, _⟩ => show win0_0.index t 3 * 7 + 1 * j.val = j.val; rw [(idx0_0 t).2.2.2]; omega

/-- Window 1's block is the whole weight matrix. -/
theorem iblk0_1_apply (c : Dev nD) (t : Fin cfg0.N) (j : Fin 7) (ch : Fin 16) :
    iblk0 V c 1 t (ix2 j ch) = V c main_arg2 (ix2 j ch) := by
  unfold iblk0
  rw [View.read_apply]
  show V c main_arg2 _ = V c main_arg2 _
  refine congrArg (V c main_arg2) (funext fun a => Fin.ext ?_)
  match a with
  | ⟨0, _⟩ => show win0_1.index t 0 * 7 + 1 * j.val = j.val; rw [(idx0_1 t).1]; omega
  | ⟨1, _⟩ => show win0_1.index t 1 * 16 + 1 * ch.val = ch.val; rw [(idx0_1 t).2]; omega

/-- Window 2's block is the whole bias row. -/
theorem iblk0_2_apply (c : Dev nD) (t : Fin cfg0.N) (z : Fin 1) (ch : Fin 16) :
    iblk0 V c 2 t (ix2 z ch) = V c main_v0 (ix2 z ch) := by
  unfold iblk0
  rw [View.read_apply]
  show V c main_v0 _ = V c main_v0 _
  refine congrArg (V c main_v0) (funext fun a => Fin.ext ?_)
  match a with
  | ⟨0, _⟩ => show win0_2.index t 0 * 1 + 1 * z.val = z.val; rw [(idx0_2 t).1]; omega
  | ⟨1, _⟩ => show win0_2.index t 1 * 16 + 1 * ch.val = ch.val; rw [(idx0_2 t).2]; omega

/-- The rectified linear map of the cloud's point (b, k, s), channel ch, through the region's weights and bias. -/
def h1 (c : Dev nD) (b : Fin 2) (k : Fin 12000) (s : Fin 35) (ch : Fin 16) : EReal :=
  hid (fun j : Fin 7 => V c main_arg0 (ix4 b k s j)) (fun (j : Fin 7) (q : Fin 16) => V c main_arg2 (ix2 j q))
    (fun q : Fin 16 => V c main_v0 (ix2 (0 : Fin 1) q)) ch

/-- Tile t's rectified product at row r is `h1` at that row's point. -/
theorem tile_h1 (c : Dev nD) (t : Fin cfg0.N) (r : Fin 16800) (ch : Fin 16) :
    k0_pay3 (iblk0 V c 0 t) (iblk0 V c 1 t) (iblk0 V c 2 t) (ix2 r ch)
      = h1 V c (rowEquiv r).1 (tileK (tileOf t) (rowEquiv r).2.1) (rowEquiv r).2.2 ch := by
  rw [k0_pay3_apply]
  unfold h1
  simp only [iblk0_0_apply, iblk0_1_apply, iblk0_2_apply]
  rfl

/-- The first accumulator after point n: zero plus the tiles' column sums so far. -/
theorem acc0_3_apply (c : Dev nD) (ch : Fin 16) : ∀ (n : ℕ) (hn : n < cfg0.N),
    acc0_3 V c n hn (ix2 (0 : Fin 1) ch)
      = 0 + ∑ i ∈ Finset.range (n + 1), (if h : i < cfg0.N then
          ∑ r : Fin 16800, k0_pay3 (iblk0 V c 0 ⟨i, h⟩) (iblk0 V c 1 ⟨i, h⟩) (iblk0 V c 2 ⟨i, h⟩) (ix2 r ch) else 0)
  | 0, hn => by
    rw [acc0_3, k0_pay4_apply, k0_pay1_apply, Finset.sum_range_one, dif_pos hn]
  | n + 1, hn => by
    rw [acc0_3, k0_pay4_apply, acc0_3_apply c ch n (Nat.lt_of_succ_lt hn), Finset.sum_range_succ _ (n + 1), dif_pos hn,
      add_assoc]

/-- The second accumulator likewise, with the squares. -/
theorem acc0_4_apply (c : Dev nD) (ch : Fin 16) : ∀ (n : ℕ) (hn : n < cfg0.N),
    acc0_4 V c n hn (ix2 (0 : Fin 1) ch)
      = 0 + ∑ i ∈ Finset.range (n + 1), (if h : i < cfg0.N then
          ∑ r : Fin 16800, k0_pay3 (iblk0 V c 0 ⟨i, h⟩) (iblk0 V c 1 ⟨i, h⟩) (iblk0 V c 2 ⟨i, h⟩) (ix2 r ch)
            * k0_pay3 (iblk0 V c 0 ⟨i, h⟩) (iblk0 V c 1 ⟨i, h⟩) (iblk0 V c 2 ⟨i, h⟩) (ix2 r ch) else 0)
  | 0, hn => by
    rw [acc0_4, k0_pay5_apply, k0_pay2_apply, Finset.sum_range_one, dif_pos hn]
  | n + 1, hn => by
    rw [acc0_4, k0_pay5_apply, acc0_4_apply c ch n (Nat.lt_of_succ_lt hn), Finset.sum_range_succ _ (n + 1), dif_pos hn,
      add_assoc]

/-- The last grid point. -/
theorem lt49 : 49 < cfg0.N := by rw [show cfg0.N = 50 from N_0]; decide

/-- The cloud, weights and bias row the region finds, by coordinates. -/
abbrev cloud0 (c : Dev nD) : Cloud 7 := fun b k s j => V c main_arg0 (ix4 b k s j)
abbrev w0 (c : Dev nD) : Fin 7 → Fin 16 → EReal := fun j q => V c main_arg2 (ix2 j q)
abbrev bias0 (c : Dev nD) : Fin 16 → EReal := fun q => V c main_v0 (ix2 (0 : Fin 1) q)

/-- A sum over the first 50 naturals, each term needing its bound, is the sum over the 50 tiles. -/
theorem sum_range50 {M : Type*} [AddCommMonoid M] (f : (i : ℕ) → i < cfg0.N → M) :
    ∑ i ∈ Finset.range (49 + 1), (if h : i < cfg0.N then f i h else 0)
      = ∑ p : Fin 50, f p.val (by have := p.isLt; have hN : cfg0.N = 50 := N_0; omega) := by
  rw [Finset.sum_range]
  refine Finset.sum_congr rfl fun p _ => ?_
  rw [dif_pos]

/-- After the last point the first accumulator holds the channel sums over the whole cloud. -/
theorem acc0_3_last (c : Dev nD) (ch : Fin 16) :
    acc0_3 V c 49 lt49 (ix2 (0 : Fin 1) ch) = sumH (cloud0 V c) (w0 V c) (bias0 V c) ch := by
  rw [acc0_3_apply, sum_range50]
  unfold sumH
  refine congrArg (0 + ·) ?_
  refine Eq.trans ?_ (sum_tiles_points (fun b k s => h1 V c b k s ch))
  refine Finset.sum_congr rfl fun p _ => Finset.sum_congr rfl fun r _ => ?_
  exact tile_h1 V c ⟨p.val, _⟩ r ch

/-- And the second the channel sums of squares. -/
theorem acc0_4_last (c : Dev nD) (ch : Fin 16) :
    acc0_4 V c 49 lt49 (ix2 (0 : Fin 1) ch) = sumHH (cloud0 V c) (w0 V c) (bias0 V c) ch := by
  rw [acc0_4_apply, sum_range50]
  unfold sumHH
  refine congrArg (0 + ·) ?_
  refine Eq.trans ?_ (sum_tiles_points (fun b k s => h1 V c b k s ch * h1 V c b k s ch))
  refine Finset.sum_congr rfl fun p _ => Finset.sum_congr rfl fun r _ => ?_
  rw [tile_h1 V c ⟨p.val, _⟩ r ch]
  rfl

/-! ## The result arrays: one write-back, after the last point, of the whole row -/

theorem flushed0_3_eq (c : Dev nD) (t : Fin cfg0.N) (hf : (cfg0.win 3).flush t = true) :
    (dat0 V c).flushed 3 t = ((cfg0.win 3).blk t).view.read (Elt Ideal) (acc0_3 V c 49 lt49) := by
  have hN : cfg0.N = 50 := N_0
  have h49 : t.val = 49 := by have := (flush0_3 t).mp hf; have := t.isLt; omega
  obtain rfl : t = ⟨49, lt49⟩ := Fin.ext h49
  show (cfg0.win 3).cut (grid0.coords _) ((dat0 V c).after 3 _) = _
  rw [after0_3]
  have hz' : (fun a => win0_3.index ⟨49, lt49⟩ a * main_v7_0.ty.shape.size a) = fun _ => 0 := funext fun a => by fin_cases a <;> decide +kernel
  exact (Memref.read_access_unit_zero (Elt Ideal) main_v7_0 hz' (fun a => by rw [congrFun hz' a]; simp) _).symm

theorem flushed0_4_eq (c : Dev nD) (t : Fin cfg0.N) (hf : (cfg0.win 4).flush t = true) :
    (dat0 V c).flushed 4 t = ((cfg0.win 4).blk t).view.read (Elt Ideal) (acc0_4 V c 49 lt49) := by
  have hN : cfg0.N = 50 := N_0
  have h49 : t.val = 49 := by have := (flush0_4 t).mp hf; have := t.isLt; omega
  obtain rfl : t = ⟨49, lt49⟩ := Fin.ext h49
  show (cfg0.win 4).cut (grid0.coords _) ((dat0 V c).after 4 _) = _
  rw [after0_4]
  have hz' : (fun a => win0_4.index ⟨49, lt49⟩ a * main_v7_1.ty.shape.size a) = fun _ => 0 := funext fun a => by fin_cases a <;> decide +kernel
  exact (Memref.read_access_unit_zero (Elt Ideal) main_v7_1 hz' (fun a => by rw [congrFun hz' a]; simp) _).symm

/-- The first result array ends holding the first accumulator's last contents: the one write-back covers it. -/
theorem final0_3 (c : Dev nD) : (dat0 V c).arrAt 3 cfg0.N = acc0_3 V c 49 lt49 :=
  (dat0 V c).arrAt_eq_of_cover 3 _ (flushed0_3_eq V c) fun i =>
    ⟨⟨49, lt49⟩, (flush0_3 _).mpr rfl, by
      show i ∈ ((View.whole main_v7_0).slice (win0_3.rect ⟨49, lt49⟩)).set
      rw [View.set_slice_whole, Rect.mem_set_unit]
      intro a
      have h0 : (i 0 : Nat) < 1 := (i 0).isLt
      have h1 : (i 1 : Nat) < 16 := (i 1).isLt
      match a with
      | ⟨0, _⟩ =>
        show win0_3.index ⟨49, lt49⟩ 0 * win0_3.size 0 ≤ (i 0 : Nat) ∧ (i 0 : Nat) < win0_3.index ⟨49, lt49⟩ 0 * win0_3.size 0 + win0_3.xsize (grid0.coords ⟨49, lt49⟩) 0
        rw [show win0_3.index ⟨49, lt49⟩ 0 * win0_3.size 0 = 0 from by decide +kernel, show win0_3.xsize (grid0.coords ⟨49, lt49⟩) 0 = 1 from by decide +kernel]; omega
      | ⟨1, _⟩ =>
        show win0_3.index ⟨49, lt49⟩ 1 * win0_3.size 1 ≤ (i 1 : Nat) ∧ (i 1 : Nat) < win0_3.index ⟨49, lt49⟩ 1 * win0_3.size 1 + win0_3.xsize (grid0.coords ⟨49, lt49⟩) 1
        rw [show win0_3.index ⟨49, lt49⟩ 1 * win0_3.size 1 = 0 from by decide +kernel, show win0_3.xsize (grid0.coords ⟨49, lt49⟩) 1 = 16 from by decide +kernel]; omega⟩

theorem final0_4 (c : Dev nD) : (dat0 V c).arrAt 4 cfg0.N = acc0_4 V c 49 lt49 :=
  (dat0 V c).arrAt_eq_of_cover 4 _ (flushed0_4_eq V c) fun i =>
    ⟨⟨49, lt49⟩, (flush0_4 _).mpr rfl, by
      show i ∈ ((View.whole main_v7_1).slice (win0_4.rect ⟨49, lt49⟩)).set
      rw [View.set_slice_whole, Rect.mem_set_unit]
      intro a
      have h0 : (i 0 : Nat) < 1 := (i 0).isLt
      have h1 : (i 1 : Nat) < 16 := (i 1).isLt
      match a with
      | ⟨0, _⟩ =>
        show win0_4.index ⟨49, lt49⟩ 0 * win0_4.size 0 ≤ (i 0 : Nat) ∧ (i 0 : Nat) < win0_4.index ⟨49, lt49⟩ 0 * win0_4.size 0 + win0_4.xsize (grid0.coords ⟨49, lt49⟩) 0
        rw [show win0_4.index ⟨49, lt49⟩ 0 * win0_4.size 0 = 0 from by decide +kernel, show win0_4.xsize (grid0.coords ⟨49, lt49⟩) 0 = 1 from by decide +kernel]; omega
      | ⟨1, _⟩ =>
        show win0_4.index ⟨49, lt49⟩ 1 * win0_4.size 1 ≤ (i 1 : Nat) ∧ (i 1 : Nat) < win0_4.index ⟨49, lt49⟩ 1 * win0_4.size 1 + win0_4.xsize (grid0.coords ⟨49, lt49⟩) 1
        rw [show win0_4.index ⟨49, lt49⟩ 1 * win0_4.size 1 = 0 from by decide +kernel, show win0_4.xsize (grid0.coords ⟨49, lt49⟩) 1 = 16 from by decide +kernel]; omega⟩

/-- The region's two result rows: the channel sums and sums of squares over the whole cloud. -/
theorem sum1_final (c : Dev nD) (ch : Fin 16) :
    (dat0 V c).arrAt 3 cfg0.N (ix2 (0 : Fin 1) ch) = sumH (cloud0 V c) (w0 V c) (bias0 V c) ch := by
  rw [final0_3]; exact acc0_3_last V c ch
theorem sumsq1_final (c : Dev nD) (ch : Fin 16) :
    (dat0 V c).arrAt 4 cfg0.N (ix2 (0 : Fin 1) ch) = sumHH (cloud0 V c) (w0 V c) (bias0 V c) ch := by
  rw [final0_4]; exact acc0_4_last V c ch

end Cert.KernelIdeal.RegionValue

end
-- ==== Proof.KGlue.lean ====
/-
  What the host stretches between the kernel regions compute, as terms: the statistics of a layer from its two
  accumulated rows (mean = sum / N, variance = max (sum of squares / N − mean², 0)), and the parameter rows the
  regions read (a [p] vector re-laid as a [1, p] row before the first region and untouched afterwards).
-/
import proofs.«172356_j10943576670908_2_alg».proof.Proof.Gen.KernelIdeal.Regions
import Idealize.ShloMosaic.Lib.StableHlo.Run
import Idealize.ShloMosaic.PureOps.Ideal

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal))

/-- The splat of the point count N = 840000 along a [1, p] row. -/
abbrev nRow16 : FVec Ideal S1x16 .f32 := broadcastInDim S1x16 ![] bcast_S_S1x16 (constant (F := Ideal) S_ .f32 0x494D1400#32)
abbrev zRow16 : FVec Ideal S1x16 .f32 := broadcastInDim S1x16 ![] bcast_S_S1x16 (constant (F := Ideal) S_ .f32 0x00000000#32)
abbrev nRow64 : FVec Ideal S1x64 .f32 := broadcastInDim S1x64 ![] bcast_S_S1x64 (constant (F := Ideal) S_ .f32 0x494D1400#32)
abbrev zRow64 : FVec Ideal S1x64 .f32 := broadcastInDim S1x64 ![] bcast_S_S1x64 (constant (F := Ideal) S_ .f32 0x00000000#32)

/-- The first layer's mean row after the second host stretch: the accumulated sums over N. -/
theorem V3_mean1 (c : Dev nD) :
    (V3 m outs c main_v9 : S1x16.Idx → EReal) = Host.divf (F := Ideal) (V2 m outs c main_v7_0) nRow16 := by
  dsimp only [V3]; after_results

/-- The first layer's variance row: mean of squares minus squared mean, clamped at zero. -/
theorem V3_var1 (c : Dev nD) :
    (V3 m outs c main_v15 : S1x16.Idx → EReal)
      = maximumf (subf (Host.divf (F := Ideal) (V2 m outs c main_v7_1) nRow16)
          (mulf (Host.divf (F := Ideal) (V2 m outs c main_v7_0) nRow16) (Host.divf (F := Ideal) (V2 m outs c main_v7_0) nRow16)))
          zRow16 := by
  dsimp only [V3]; after_results

/-- The second layer's mean and variance rows after the third host stretch. -/
theorem V5_mean2 (c : Dev nD) :
    (V5 m outs c main_v18 : S1x64.Idx → EReal) = Host.divf (F := Ideal) (V4 m outs c main_v16_0) nRow64 := by
  dsimp only [V5]; after_results

theorem V5_var2 (c : Dev nD) :
    (V5 m outs c main_v24 : S1x64.Idx → EReal)
      = maximumf (subf (Host.divf (F := Ideal) (V4 m outs c main_v16_1) nRow64)
          (mulf (Host.divf (F := Ideal) (V4 m outs c main_v16_0) nRow64) (Host.divf (F := Ideal) (V4 m outs c main_v16_0) nRow64)))
          zRow64 := by
  dsimp only [V5]; after_results

/-- The parameter rows the first host stretch lays out. -/
theorem V1_b1 (c : Dev nD) : (V1 m c main_v0 : S1x16.Idx → EReal) = shapeCast S1x16 (m ((c.tc : Thread nD τ).loc main_arg3)) shapeCasts_S16_S1x16 := by
  dsimp only [V1]; after_results; rfl
theorem V1_g1 (c : Dev nD) : (V1 m c main_v1 : S1x16.Idx → EReal) = shapeCast S1x16 (m ((c.tc : Thread nD τ).loc main_arg4)) shapeCasts_S16_S1x16 := by
  dsimp only [V1]; after_results; rfl
theorem V1_beta1 (c : Dev nD) : (V1 m c main_v2 : S1x16.Idx → EReal) = shapeCast S1x16 (m ((c.tc : Thread nD τ).loc main_arg5)) shapeCasts_S16_S1x16 := by
  dsimp only [V1]; after_results; rfl
theorem V1_b2 (c : Dev nD) : (V1 m c main_v3 : S1x64.Idx → EReal) = shapeCast S1x64 (m ((c.tc : Thread nD τ).loc main_arg7)) shapeCasts_S64_S1x64 := by
  dsimp only [V1]; after_results; rfl
theorem V1_g2 (c : Dev nD) : (V1 m c main_v4 : S1x64.Idx → EReal) = shapeCast S1x64 (m ((c.tc : Thread nD τ).loc main_arg8)) shapeCasts_S64_S1x64 := by
  dsimp only [V1]; after_results; rfl
theorem V1_beta2 (c : Dev nD) : (V1 m c main_v5 : S1x64.Idx → EReal) = shapeCast S1x64 (m ((c.tc : Thread nD τ).loc main_arg9)) shapeCasts_S64_S1x64 := by
  dsimp only [V1]; after_results; rfl
theorem V1_bf (c : Dev nD) : (V1 m c main_v6 : S1x128.Idx → EReal) = shapeCast S1x128 (m ((c.tc : Thread nD τ).loc main_arg11)) shapeCasts_S128_S1x128 := by
  dsimp only [V1]; after_results; rfl

/-- An argument array is what the launch memory holds, at the first region. -/
theorem V1_arg0 (c : Dev nD) : V1 m c main_arg0 = m ((c.tc : Thread nD τ).loc main_arg0) := by
  dsimp only [V1]; after_results
theorem V1_arg2 (c : Dev nD) : V1 m c main_arg2 = m ((c.tc : Thread nD τ).loc main_arg2) := by
  dsimp only [V1]; after_results
theorem V1_arg6 (c : Dev nD) : V1 m c main_arg6 = m ((c.tc : Thread nD τ).loc main_arg6) := by
  dsimp only [V1]; after_results
theorem V1_arg10 (c : Dev nD) : V1 m c main_arg10 = m ((c.tc : Thread nD τ).loc main_arg10) := by
  dsimp only [V1]; after_results

end Cert.KernelIdeal.Glue

end
-- ==== Proof.LibHostReads4.lean ====
/-
  A HOST PROGRAM'S OPERATIONS ON RANK-4 ARRAYS, READ AT AN INDEX: the product with a matrix, and the broadcasts.

  A dot of an array [a, b, c, n] with a matrix [n, p] that contracts the array's last axis against the matrix's rows,
  with no batch axis, is at (i0, i1, i2, q) the sum over j < n of x(i0, i1, i2, j) · W(j, q): the contraction index is
  one coordinate, the left operand's other coordinates are the result's first three and the right operand's column is
  the result's last. A broadcast along named axes reads its operand at the coordinates on those axes (0 on a unit
  axis): a vector laid along the last axis, a column of values repeated along a new or stretched last axis, a row of
  per-(i0, i1) vectors repeated along a new third axis, a scalar repeated everywhere. Everything is generic in the sizes.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibHostReads4

open Idealize.ShloMosaic Idealize.ShloMosaic.ValueIdx

section Dot

variable {a b c n p : Nat} (d : DotDims ⟨4, ![a, b, c, n]⟩ ⟨2, ![n, p]⟩ ⟨4, ![a, b, c, p]⟩)

/-- On each of its three leading axes the left operand's index is the result's coordinate on that axis. -/
theorem lhsIdx_lead (hln : d.lhsNonContracting = [0, 1, 2]) (hlb : d.lhsBatch = [])
    (j : (⟨4, ![a, b, c, p]⟩ : Shape).Idx) (k : d.contr.Idx) (ax : Fin 4) (hax : ax ∈ ([0, 1, 2] : List (Fin 4))) :
    (d.lhsIdx j k ax).val = (j ax).val := by
  have hb : ax ∉ d.lhsBatch := by rw [hlb]; exact List.not_mem_nil
  have hn : ax ∈ d.lhsNonContracting := by rw [hln]; exact hax
  unfold DotDims.lhsIdx
  rw [dif_neg hb, dif_pos hn]
  simp only [Fin.val_cast]
  have key : ∀ (u v : Nat) (hu : u < 4) (hv : v < 4), u = v → (j ⟨u, hu⟩).val = (j ⟨v, hv⟩).val := by
    intro u v hu hv e; subst e; rfl
  refine key _ _ _ ax.isLt ?_
  rw [hlb, hln]
  simp only [List.mem_cons, List.not_mem_nil, or_false] at hax
  rcases hax with rfl | rfl | rfl <;> rfl

/-- The right operand's column coordinate is the result's last coordinate. -/
theorem rhsIdx_col (hln : d.lhsNonContracting = [0, 1, 2]) (hrn : d.rhsNonContracting = [1]) (hlb : d.lhsBatch = [])
    (hrb : d.rhsBatch = []) (j : (⟨4, ![a, b, c, p]⟩ : Shape).Idx) (k : d.contr.Idx) :
    (d.rhsIdx j k (1 : Fin 2)).val = (j (3 : Fin 4)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (u v : Nat) (hu : u < 4) (hv : v < 4), u = v → (j ⟨u, hu⟩).val = (j ⟨v, hv⟩).val := by
    intro u v hu hv e; subst e; rfl
  exact key _ _ _ _ (by rw [hlb, hln, hrn]; rfl)

/-- The contraction has one axis … -/
theorem contr_rank (hl : d.lhsContracting = [3]) : d.contr.rank = 1 := by rw [d.rank_contr, hl]; rfl

/-- … of extent `n`. -/
theorem contr_size (hl : d.lhsContracting = [3]) :
    d.contr.size ⟨0, by rw [contr_rank d hl]; exact Nat.one_pos⟩ = n := by
  have h0 : (0 : Nat) < d.lhsContracting.length := by rw [hl]; exact Nat.one_pos
  refine (d.size_contr 0 h0).trans ?_
  rw [List.getElem_of_eq hl h0]
  rfl

/-- THE SUM over the contraction indices of such a product is the sum over `j : Fin n`, the operands read at
    (i0, i1, i2, j) and (j, q); stated for any summand of the two operand indices. -/
theorem sum_contr_last {α : Type*} [AddCommMonoid α] (hl : d.lhsContracting = [3]) (hr : d.rhsContracting = [0])
    (hln : d.lhsNonContracting = [0, 1, 2]) (hrn : d.rhsNonContracting = [1]) (hlb : d.lhsBatch = []) (hrb : d.rhsBatch = [])
    (f : (⟨4, ![a, b, c, n]⟩ : Shape).Idx → (⟨2, ![n, p]⟩ : Shape).Idx → α) (i0 : Fin a) (i1 : Fin b) (i2 : Fin c) (q : Fin p) :
    ∑ k : d.contr.Idx, f (d.lhsIdx (ix4 i0 i1 i2 q) k) (d.rhsIdx (ix4 i0 i1 i2 q) k)
      = ∑ j : Fin n, f (ix4 i0 i1 i2 j) (ix2 j q) := by
  have hrk := contr_rank d hl
  have hs := contr_size d hl
  rw [← Equiv.sum_comp (contrEquiv1 d n hrk hs).symm]
  refine Finset.sum_congr rfl fun k _ => ?_
  have e1 : d.lhsIdx (ix4 i0 i1 i2 q) ((contrEquiv1 d n hrk hs).symm k) = ix4 i0 i1 i2 k := by
    funext ax; apply Fin.ext
    match ax with
    | ⟨0, _⟩ => exact lhsIdx_lead d hln hlb _ _ 0 (by simp)
    | ⟨1, _⟩ => exact lhsIdx_lead d hln hlb _ _ 1 (by simp)
    | ⟨2, _⟩ => exact lhsIdx_lead d hln hlb _ _ 2 (by simp)
    | ⟨3, _⟩ => exact (d.lhsIdx_val_of_single hl _ _).trans (contrEquiv1_symm_val d n hrk hs k)
  have e2 : d.rhsIdx (ix4 i0 i1 i2 q) ((contrEquiv1 d n hrk hs).symm k) = ix2 k q := by
    funext ax; apply Fin.ext
    match ax with
    | ⟨0, _⟩ => exact (d.rhsIdx_val_of_single hr _ _).trans (contrEquiv1_symm_val d n hrk hs k)
    | ⟨1, _⟩ => exact rhsIdx_col d hln hrn hlb hrb _ _
  rw [e1, e2]

/-- A host program's dot of [a, b, c, n] with [n, p] over the last axis, at (i0, i1, i2, q):
    `∑ j, x (i0, i1, i2, j) · W (j, q)`. -/
theorem dotGeneral4_at (hl : d.lhsContracting = [3]) (hr : d.rhsContracting = [0])
    (hln : d.lhsNonContracting = [0, 1, 2]) (hrn : d.rhsNonContracting = [1]) (hlb : d.lhsBatch = []) (hrb : d.rhsBatch = [])
    {φ₁ φ₂ : FTy} (prec : Option ContractPrecision) (x : FVec Ideal ⟨4, ![a, b, c, n]⟩ φ₁) (W : FVec Ideal ⟨2, ![n, p]⟩ φ₂)
    (i0 : Fin a) (i1 : Fin b) (i2 : Fin c) (q : Fin p) :
    Host.dotGeneral d prec x W (ix4 i0 i1 i2 q) = ∑ j : Fin n, x (ix4 i0 i1 i2 j) * W (ix2 j q) :=
  (Ideal.dotGeneral_apply d prec .single x W (ix4 i0 i1 i2 q)).trans
    (sum_contr_last d hl hr hln hrn hlb hrb (fun i j => x i * W j) i0 i1 i2 q)

end Dot

section Broadcasts

variable {α : Type}

/-- A [p] vector laid along the last axis of [1, 1, 1, p]: at (u0, u1, u2, q), the vector's entry q. -/
theorem bcast_vec_1113_apply {p : Nat} (h : (⟨1, ![p]⟩ : Shape).BroadcastsInDim ⟨4, ![1, 1, 1, p]⟩ ![3])
    (v : (⟨1, ![p]⟩ : Shape).Idx → α) (u0 u1 u2 : Fin 1) (q : Fin p) :
    broadcastInDim ⟨4, ![1, 1, 1, p]⟩ ![3] h v (ix4 u0 u1 u2 q) = v (ix1 q) := by
  refine broadcastInDim_apply ![3] h v (ix4 u0 u1 u2 q) (ix1 q) ?_
  intro ax
  match ax with
  | ⟨0, _⟩ =>
    show q.val = if p = 1 then 0 else q.val
    split
    · have := q.isLt; omega
    · rfl

/-- A [1, 1, 1, p] array repeated over [a, b, c, p]: at (i0, i1, i2, q), the array at (0, 0, 0, q). -/
theorem bcast_111p_abcp_apply {a b c p : Nat}
    (h : (⟨4, ![1, 1, 1, p]⟩ : Shape).BroadcastsInDim ⟨4, ![a, b, c, p]⟩ ![0, 1, 2, 3])
    (y : (⟨4, ![1, 1, 1, p]⟩ : Shape).Idx → α) (i0 : Fin a) (i1 : Fin b) (i2 : Fin c) (q : Fin p) :
    broadcastInDim ⟨4, ![a, b, c, p]⟩ ![0, 1, 2, 3] h y (ix4 i0 i1 i2 q) = y (ix4 (0 : Fin 1) (0 : Fin 1) (0 : Fin 1) q) := by
  refine broadcastInDim_apply ![0, 1, 2, 3] h y (ix4 i0 i1 i2 q) (ix4 (0 : Fin 1) (0 : Fin 1) (0 : Fin 1) q) ?_
  intro ax
  match ax with
  | ⟨0, _⟩ => rfl
  | ⟨1, _⟩ => rfl
  | ⟨2, _⟩ => rfl
  | ⟨3, _⟩ =>
    show q.val = if p = 1 then 0 else q.val
    split
    · have := q.isLt; omega
    · rfl

/-- A [p] vector laid along the last axis and repeated over [a, b, c, p]: at (i0, i1, i2, q), the vector's entry q. -/
theorem bcast_vec_abcp_apply {a b c p : Nat} (h1 : (⟨1, ![p]⟩ : Shape).BroadcastsInDim ⟨4, ![1, 1, 1, p]⟩ ![3])
    (h2 : (⟨4, ![1, 1, 1, p]⟩ : Shape).BroadcastsInDim ⟨4, ![a, b, c, p]⟩ ![0, 1, 2, 3])
    (v : (⟨1, ![p]⟩ : Shape).Idx → α) (i0 : Fin a) (i1 : Fin b) (i2 : Fin c) (q : Fin p) :
    broadcastInDim ⟨4, ![a, b, c, p]⟩ ![0, 1, 2, 3] h2 (broadcastInDim ⟨4, ![1, 1, 1, p]⟩ ![3] h1 v) (ix4 i0 i1 i2 q)
      = v (ix1 q) := by
  rw [bcast_111p_abcp_apply, bcast_vec_1113_apply]

/-- A [a, b, c] array given a unit last axis: at (i0, i1, i2, u), the array at (i0, i1, i2). -/
theorem bcast_abc_abc1_apply {a b c : Nat} (h : (⟨3, ![a, b, c]⟩ : Shape).BroadcastsInDim ⟨4, ![a, b, c, 1]⟩ ![0, 1, 2])
    (x : (⟨3, ![a, b, c]⟩ : Shape).Idx → α) (i0 : Fin a) (i1 : Fin b) (i2 : Fin c) (u : Fin 1) :
    broadcastInDim ⟨4, ![a, b, c, 1]⟩ ![0, 1, 2] h x (ix4 i0 i1 i2 u) = x (ix3 i0 i1 i2) := by
  refine broadcastInDim_apply ![0, 1, 2] h x (ix4 i0 i1 i2 u) (ix3 i0 i1 i2) ?_
  intro ax
  match ax with
  | ⟨0, _⟩ =>
    show i0.val = if a = 1 then 0 else i0.val
    split
    · have := i0.isLt; omega
    · rfl
  | ⟨1, _⟩ =>
    show i1.val = if b = 1 then 0 else i1.val
    split
    · have := i1.isLt; omega
    · rfl
  | ⟨2, _⟩ =>
    show i2.val = if c = 1 then 0 else i2.val
    split
    · have := i2.isLt; omega
    · rfl

/-- A [a, b, c, 1] array repeated along its last axis to [a, b, c, p]: at (i0, i1, i2, q), the array at (i0, i1, i2, 0). -/
theorem bcast_abc1_abcp_apply {a b c p : Nat}
    (h : (⟨4, ![a, b, c, 1]⟩ : Shape).BroadcastsInDim ⟨4, ![a, b, c, p]⟩ ![0, 1, 2, 3])
    (y : (⟨4, ![a, b, c, 1]⟩ : Shape).Idx → α) (i0 : Fin a) (i1 : Fin b) (i2 : Fin c) (q : Fin p) :
    broadcastInDim ⟨4, ![a, b, c, p]⟩ ![0, 1, 2, 3] h y (ix4 i0 i1 i2 q) = y (ix4 i0 i1 i2 (0 : Fin 1)) := by
  refine broadcastInDim_apply ![0, 1, 2, 3] h y (ix4 i0 i1 i2 q) (ix4 i0 i1 i2 (0 : Fin 1)) ?_
  intro ax
  match ax with
  | ⟨0, _⟩ =>
    show i0.val = if a = 1 then 0 else i0.val
    split
    · have := i0.isLt; omega
    · rfl
  | ⟨1, _⟩ =>
    show i1.val = if b = 1 then 0 else i1.val
    split
    · have := i1.isLt; omega
    · rfl
  | ⟨2, _⟩ =>
    show i2.val = if c = 1 then 0 else i2.val
    split
    · have := i2.isLt; omega
    · rfl
  | ⟨3, _⟩ => rfl

/-- A [a, b, c] array given a unit last axis and repeated along it: at (i0, i1, i2, q), the array at (i0, i1, i2). -/
theorem bcast_abc_abcp_apply {a b c p : Nat} (h1 : (⟨3, ![a, b, c]⟩ : Shape).BroadcastsInDim ⟨4, ![a, b, c, 1]⟩ ![0, 1, 2])
    (h2 : (⟨4, ![a, b, c, 1]⟩ : Shape).BroadcastsInDim ⟨4, ![a, b, c, p]⟩ ![0, 1, 2, 3])
    (x : (⟨3, ![a, b, c]⟩ : Shape).Idx → α) (i0 : Fin a) (i1 : Fin b) (i2 : Fin c) (q : Fin p) :
    broadcastInDim ⟨4, ![a, b, c, p]⟩ ![0, 1, 2, 3] h2 (broadcastInDim ⟨4, ![a, b, c, 1]⟩ ![0, 1, 2] h1 x) (ix4 i0 i1 i2 q)
      = x (ix3 i0 i1 i2) := by
  rw [bcast_abc1_abcp_apply, bcast_abc_abc1_apply]

/-- A [a, b, p] array given a unit third axis: at (i0, i1, u, q), the array at (i0, i1, q). -/
theorem bcast_abp_ab1p_apply {a b p : Nat} (h : (⟨3, ![a, b, p]⟩ : Shape).BroadcastsInDim ⟨4, ![a, b, 1, p]⟩ ![0, 1, 3])
    (x : (⟨3, ![a, b, p]⟩ : Shape).Idx → α) (i0 : Fin a) (i1 : Fin b) (u : Fin 1) (q : Fin p) :
    broadcastInDim ⟨4, ![a, b, 1, p]⟩ ![0, 1, 3] h x (ix4 i0 i1 u q) = x (ix3 i0 i1 q) := by
  refine broadcastInDim_apply ![0, 1, 3] h x (ix4 i0 i1 u q) (ix3 i0 i1 q) ?_
  intro ax
  match ax with
  | ⟨0, _⟩ =>
    show i0.val = if a = 1 then 0 else i0.val
    split
    · have := i0.isLt; omega
    · rfl
  | ⟨1, _⟩ =>
    show i1.val = if b = 1 then 0 else i1.val
    split
    · have := i1.isLt; omega
    · rfl
  | ⟨2, _⟩ =>
    show q.val = if p = 1 then 0 else q.val
    split
    · have := q.isLt; omega
    · rfl

/-- A [a, b, 1, p] array repeated along its third axis to [a, b, c, p]: at (i0, i1, i2, q), the array at (i0, i1, 0, q). -/
theorem bcast_ab1p_abcp_apply {a b c p : Nat}
    (h : (⟨4, ![a, b, 1, p]⟩ : Shape).BroadcastsInDim ⟨4, ![a, b, c, p]⟩ ![0, 1, 2, 3])
    (y : (⟨4, ![a, b, 1, p]⟩ : Shape).Idx → α) (i0 : Fin a) (i1 : Fin b) (i2 : Fin c) (q : Fin p) :
    broadcastInDim ⟨4, ![a, b, c, p]⟩ ![0, 1, 2, 3] h y (ix4 i0 i1 i2 q) = y (ix4 i0 i1 (0 : Fin 1) q) := by
  refine broadcastInDim_apply ![0, 1, 2, 3] h y (ix4 i0 i1 i2 q) (ix4 i0 i1 (0 : Fin 1) q) ?_
  intro ax
  match ax with
  | ⟨0, _⟩ =>
    show i0.val = if a = 1 then 0 else i0.val
    split
    · have := i0.isLt; omega
    · rfl
  | ⟨1, _⟩ =>
    show i1.val = if b = 1 then 0 else i1.val
    split
    · have := i1.isLt; omega
    · rfl
  | ⟨2, _⟩ => rfl
  | ⟨3, _⟩ =>
    show q.val = if p = 1 then 0 else q.val
    split
    · have := q.isLt; omega
    · rfl

/-- A [a, b, p] array given a unit third axis and repeated along it: at (i0, i1, i2, q), the array at (i0, i1, q). -/
theorem bcast_abp_abcp_apply {a b c p : Nat} (h1 : (⟨3, ![a, b, p]⟩ : Shape).BroadcastsInDim ⟨4, ![a, b, 1, p]⟩ ![0, 1, 3])
    (h2 : (⟨4, ![a, b, 1, p]⟩ : Shape).BroadcastsInDim ⟨4, ![a, b, c, p]⟩ ![0, 1, 2, 3])
    (x : (⟨3, ![a, b, p]⟩ : Shape).Idx → α) (i0 : Fin a) (i1 : Fin b) (i2 : Fin c) (q : Fin p) :
    broadcastInDim ⟨4, ![a, b, c, p]⟩ ![0, 1, 2, 3] h2 (broadcastInDim ⟨4, ![a, b, 1, p]⟩ ![0, 1, 3] h1 x) (ix4 i0 i1 i2 q)
      = x (ix3 i0 i1 q) := by
  rw [bcast_ab1p_abcp_apply, bcast_abp_ab1p_apply]

/-- A scalar (a rank-0 array) repeated over any shape: everywhere, the scalar. -/
theorem bcast_scalar_apply {T : Shape} (h : (⟨0, ![]⟩ : Shape).BroadcastsInDim T ![])
    (x : (⟨0, ![]⟩ : Shape).Idx → α) (j : T.Idx) : broadcastInDim T ![] h x j = x ix0 :=
  broadcastInDim_scalar_apply h x j

/-- A float constant repeated from a scalar over any shape reads the constant's number everywhere. -/
theorem bcast_constant_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

end Broadcasts

end Cert.LibHostReads4

end
-- ==== Proof.KAsm1.lean ====
/-
  The first layer's statistics as the later regions find them.

  The first region leaves the channel sums and sums of squares of the rectified values over the whole cloud; the host
  stretch after it divides by N = 840000 and forms "mean of squares minus squared mean, clamped at zero": the rows
  the second and third regions read are `meanOf` and `varTiled` of the launch arrays.
-/
import proofs.«172356_j10943576670908_2_alg».proof.Proof.K0Final
import proofs.«172356_j10943576670908_2_alg».proof.Proof.KGlue
import proofs.«172356_j10943576670908_2_alg».proof.Proof.LibHostReads4
import Idealize.ShloMosaic.Lib.ValueLayout

noncomputable section

namespace Cert.KernelIdeal.Asm

open Cert.KernelIdeal Cert.KernelIdeal.Gen Cert.KernelIdeal.Hand Cert.KernelIdeal.RegionValue Cert.KernelIdeal.Glue Cert.Spec Cert.Stats
open Idealize.ShloMosaic Idealize.ShloMosaic.TcCoe Idealize.ShloMosaic.ValueIdx Idealize.SL.Sem

variable (m : (ℓ : Loc nD τ sig) → Buf (Elt Ideal) ℓ) (outs : Outs (F := Ideal))

/-- The argument arrays by coordinates. -/
abbrev inpC (c : Dev nD) : Cloud 7 := fun b k s j => m ((c.tc : Thread nD τ).loc main_arg0) (ix4 b k s j)
abbrev w1C (c : Dev nD) : Fin 7 → Fin 16 → EReal := fun j q => m ((c.tc : Thread nD τ).loc main_arg2) (ix2 j q)
abbrev b1C (c : Dev nD) : Fin 16 → EReal := fun q => m ((c.tc : Thread nD τ).loc main_arg3) (ix1 q)
abbrev g1C (c : Dev nD) : Fin 16 → EReal := fun q => m ((c.tc : Thread nD τ).loc main_arg4) (ix1 q)
abbrev beta1C (c : Dev nD) : Fin 16 → EReal := fun q => m ((c.tc : Thread nD τ).loc main_arg5) (ix1 q)
abbrev w2C (c : Dev nD) : Fin 32 → Fin 64 → EReal := fun j q => m ((c.tc : Thread nD τ).loc main_arg6) (ix2 j q)
abbrev b2C (c : Dev nD) : Fin 64 → EReal := fun q => m ((c.tc : Thread nD τ).loc main_arg7) (ix1 q)
abbrev g2C (c : Dev nD) : Fin 64 → EReal := fun q => m ((c.tc : Thread nD τ).loc main_arg8) (ix1 q)
abbrev beta2C (c : Dev nD) : Fin 64 → EReal := fun q => m ((c.tc : Thread nD τ).loc main_arg9) (ix1 q)
abbrev wfC (c : Dev nD) : Fin 128 → Fin 128 → EReal := fun j q => m ((c.tc : Thread nD τ).loc main_arg10) (ix2 j q)
abbrev bfC (c : Dev nD) : Fin 128 → EReal := fun q => m ((c.tc : Thread nD τ).loc main_arg11) (ix1 q)

/-- The buffers' contents when the first region is entered, read at the TensorCore's references. -/
abbrev en0 : (c : Dev nD) → (b : Ref sig .tc) → Buf (Elt Ideal) ((c : Thread nD τ).loc b) := fun c b => V1 m c b

/-- The count word is the number 840000. -/
theorem ofBits_N : Ideal.ofBits .f32 0x494D1400#32 = ((840000 : ℝ) : EReal) := by
  simp [Ideal.ofBits, Ideal.ieee, -EReal.coe_mul]; norm_num

/-- What the first region reads, by coordinates, is the launch arrays. -/
theorem cloud0_V1 (c : Dev nD) : cloud0 (en0 m) c = inpC m c := by
  funext b k s j; show V1 m c main_arg0 _ = _; rw [V1_arg0]
theorem w0_V1 (c : Dev nD) : w0 (en0 m) c = w1C m c := by
  funext j q; show V1 m c main_arg2 _ = _; rw [V1_arg2]
theorem bias0_V1 (c : Dev nD) : bias0 (en0 m) c = b1C m c := by
  funext q; show (V1 m c main_v0 : S1x16.Idx → EReal) _ = _; rw [V1_b1, shapeCast_a_1a_apply]

/-- The mean row after the second host stretch. -/
theorem mean1_eq (c : Dev nD) (h3 : V2 m outs c main_v7_0 = (dat0 (en0 m) c).arrAt 3 cfg0.N) (ch : Fin 16) :
    (V3 m outs c main_v9 : S1x16.Idx → EReal) (ix2 (0 : Fin 1) ch)
      = meanOf ((840000 : ℝ) : EReal) (inpC m c) (w1C m c) (b1C m c) ch := by
  rw [V3_mean1]
  show Ideal.div ((V2 m outs c main_v7_0 : S1x16.Idx → EReal) (ix2 (0 : Fin 1) ch)) (nRow16 (ix2 (0 : Fin 1) ch)) = _
  rw [h3, sum1_final, cloud0_V1, w0_V1, bias0_V1]
  unfold meanOf nRow16
  rw [Cert.LibHostReads4.bcast_constant_apply, ofBits_N]

/-- The variance row after the second host stretch. -/
theorem var1_eq (c : Dev nD) (h3 : V2 m outs c main_v7_0 = (dat0 (en0 m) c).arrAt 3 cfg0.N)
    (h4 : V2 m outs c main_v7_1 = (dat0 (en0 m) c).arrAt 4 cfg0.N) (ch : Fin 16) :
    (V3 m outs c main_v15 : S1x16.Idx → EReal) (ix2 (0 : Fin 1) ch)
      = varTiled ((840000 : ℝ) : EReal) (inpC m c) (w1C m c) (b1C m c) ch := by
  rw [V3_var1]
  show max (Ideal.div ((V2 m outs c main_v7_1 : S1x16.Idx → EReal) (ix2 (0 : Fin 1) ch)) (nRow16 (ix2 (0 : Fin 1) ch))
      - Ideal.div ((V2 m outs c main_v7_0 : S1x16.Idx → EReal) (ix2 (0 : Fin 1) ch)) (nRow16 (ix2 (0 : Fin 1) ch))
        * Ideal.div ((V2 m outs c main_v7_0 : S1x16.Idx → EReal) (ix2 (0 : Fin 1) ch)) (nRow16 (ix2 (0 : Fin 1) ch)))
      (zRow16 (ix2 (0 : Fin 1) ch)) = _
  rw [h3, h4, sum1_final, sumsq1_final, cloud0_V1, w0_V1, bias0_V1]
  unfold varTiled meanOf nRow16 zRow16
  rw [Cert.LibHostReads4.bcast_constant_apply, Cert.LibHostReads4.bcast_constant_apply, ofBits_N, Ideal.ofBits_zero_f32]

end Cert.KernelIdeal.Asm

end
-- ==== Proof.K1Blocks.lean ====
/-
  The blocks the second kernel region reads, by coordinates: window 0's block at grid point t holds the voxels
  240·t … 240·t + 239 of the point cloud; every other input window holds its whole (small) array at every point.
-/
import proofs.«172356_j10943576670908_2_alg».proof.Proof.KI.Region1
import proofs.«172356_j10943576670908_2_alg».proof.Proof.Stats
import Idealize.ShloMosaic.Lib.Pipeline.Value
import Idealize.ShloMosaic.Lib.ValueIdx

noncomputable section

namespace Cert.KernelIdeal.RegionValue

open Cert.KernelIdeal Cert.KernelIdeal.Gen Cert.KernelIdeal.Hand Cert.Stats
open Idealize.ShloMosaic Idealize.ShloMosaic.TcCoe Idealize.ShloMosaic.ValueIdx Idealize.SL.Sem

variable (V : (c : Dev nD) → (b : Ref sig .tc) → Buf (Elt Ideal) ((c : Thread nD τ).loc b))

theorem idx1_0 : ∀ t : Fin cfg1.N, win1_0.index t 0 = 0 ∧ win1_0.index t 1 = t.val ∧ win1_0.index t 2 = 0 ∧ win1_0.index t 3 = 0 :=
  (by decide +kernel : ∀ t : Fin grid1.N, win1_0.index t 0 = 0 ∧ win1_0.index t 1 = t.val ∧ win1_0.index t 2 = 0 ∧ win1_0.index t 3 = 0)
/-- The point as a tile number. -/
def tileOf1 (t : Fin cfg1.N) : Fin 50 := ⟨t.val, by have h1 := t.isLt; have hN : cfg1.N = 50 := N_1; omega⟩
/-- Window 0's block at point t, at (b, kk, s, j): the cloud at voxel 240·t + kk. -/
theorem iblk1_0_apply (c : Dev nD) (t : Fin cfg1.N) (b : Fin 2) (kk : Fin 240) (s : Fin 35) (j : Fin 7) :
    iblk1 V c 0 t (ix4 b kk s j) = V c main_arg0 (ix4 b (tileK (tileOf1 t) kk) s j) := by
  unfold iblk1
  rw [View.read_apply]
  show V c main_arg0 _ = V c main_arg0 _
  refine congrArg (V c main_arg0) (funext fun a => Fin.ext ?_)
  match a with
  | ⟨0, _⟩ => show win1_0.index t 0 * 2 + 1 * b.val = b.val; rw [(idx1_0 t).1]; omega
  | ⟨1, _⟩ => show win1_0.index t 1 * 240 + 1 * kk.val = t.val * 240 + kk.val; rw [(idx1_0 t).2.1]; omega
  | ⟨2, _⟩ => show win1_0.index t 2 * 35 + 1 * s.val = s.val; rw [(idx1_0 t).2.2.1]; omega
  | ⟨3, _⟩ => show win1_0.index t 3 * 7 + 1 * j.val = j.val; rw [(idx1_0 t).2.2.2]; omega

theorem idx1_1 : ∀ t : Fin cfg1.N, win1_1.index t 0 = 0 ∧ win1_1.index t 1 = 0 :=
  (by decide +kernel : ∀ t : Fin grid1.N, win1_1.index t 0 = 0 ∧ win1_1.index t 1 = 0)
theorem iblk1_1_apply (c : Dev nD) (t : Fin cfg1.N) (i : Fin 1) (j : Fin 16) :
    iblk1 V c 1 t (ix2 i j) = V c main_v9 (ix2 i j) := by
  unfold iblk1
  rw [View.read_apply]
  show V c main_v9 _ = V c main_v9 _
  refine congrArg (V c main_v9) (funext fun a => Fin.ext ?_)
  match a with
  | ⟨0, _⟩ => show win1_1.index t 0 * 1 + 1 * i.val = i.val; rw [(idx1_1 t).1]; omega
  | ⟨1, _⟩ => show win1_1.index t 1 * 16 + 1 * j.val = j.val; rw [(idx1_1 t).2]; omega

theorem idx1_2 : ∀ t : Fin cfg1.N, win1_2.index t 0 = 0 ∧ win1_2.index t 1 = 0 :=
  (by decide +kernel : ∀ t : Fin grid1.N, win1_2.index t 0 = 0 ∧ win1_2.index t 1 = 0)
theorem iblk1_2_apply (c : Dev nD) (t : Fin cfg1.N) (i : Fin 1) (j : Fin 16) :
    iblk1 V c 2 t (ix2 i j) = V c main_v15 (ix2 i j) := by
  unfold iblk1
  rw [View.read_apply]
  show V c main_v15 _ = V c main_v15 _
  refine congrArg (V c main_v15) (funext fun a => Fin.ext ?_)
  match a with
  | ⟨0, _⟩ => show win1_2.index t 0 * 1 + 1 * i.val = i.val; rw [(idx1_2 t).1]; omega
  | ⟨1, _⟩ => show win1_2.index t 1 * 16 + 1 * j.val = j.val; rw [(idx1_2 t).2]; omega

theorem idx1_3 : ∀ t : Fin cfg1.N, win1_3.index t 0 = 0 ∧ win1_3.index t 1 = 0 :=
  (by decide +kernel : ∀ t : Fin grid1.N, win1_3.index t 0 = 0 ∧ win1_3.index t 1 = 0)
theorem iblk1_3_apply (c : Dev nD) (t : Fin cfg1.N) (i : Fin 1) (j : Fin 16) :
    iblk1 V c 3 t (ix2 i j) = V c main_v1 (ix2 i j) := by
  unfold iblk1
  rw [View.read_apply]
  show V c main_v1 _ = V c main_v1 _
  refine congrArg (V c main_v1) (funext fun a => Fin.ext ?_)
  match a with
  | ⟨0, _⟩ => show win1_3.index t 0 * 1 + 1 * i.val = i.val; rw [(idx1_3 t).1]; omega
  | ⟨1, _⟩ => show win1_3.index t 1 * 16 + 1 * j.val = j.val; rw [(idx1_3 t).2]; omega

theorem idx1_4 : ∀ t : Fin cfg1.N, win1_4.index t 0 = 0 ∧ win1_4.index t 1 = 0 :=
  (by decide +kernel : ∀ t : Fin grid1.N, win1_4.index t 0 = 0 ∧ win1_4.index t 1 = 0)
theorem iblk1_4_apply (c : Dev nD) (t : Fin cfg1.N) (i : Fin 1) (j : Fin 16) :
    iblk1 V c 4 t (ix2 i j) = V c main_v2 (ix2 i j) := by
  unfold iblk1
  rw [View.read_apply]
  show V c main_v2 _ = V c main_v2 _
  refine congrArg (V c main_v2) (funext fun a => Fin.ext ?_)
  match a with
  | ⟨0, _⟩ => show win1_4.index t 0 * 1 + 1 * i.val = i.val; rw [(idx1_4 t).1]; omega
  | ⟨1, _⟩ => show win1_4.index t 1 * 16 + 1 * j.val = j.val; rw [(idx1_4 t).2]; omega

theorem idx1_5 : ∀ t : Fin cfg1.N, win1_5.index t 0 = 0 ∧ win1_5.index t 1 = 0 :=
  (by decide +kernel : ∀ t : Fin grid1.N, win1_5.index t 0 = 0 ∧ win1_5.index t 1 = 0)
theorem iblk1_5_apply (c : Dev nD) (t : Fin cfg1.N) (i : Fin 7) (j : Fin 16) :
    iblk1 V c 5 t (ix2 i j) = V c main_arg2 (ix2 i j) := by
  unfold iblk1
  rw [View.read_apply]
  show V c main_arg2 _ = V c main_arg2 _
  refine congrArg (V c main_arg2) (funext fun a => Fin.ext ?_)
  match a with
  | ⟨0, _⟩ => show win1_5.index t 0 * 7 + 1 * i.val = i.val; rw [(idx1_5 t).1]; omega
  | ⟨1, _⟩ => show win1_5.index t 1 * 16 + 1 * j.val = j.val; rw [(idx1_5 t).2]; omega

theorem idx1_6 : ∀ t : Fin cfg1.N, win1_6.index t 0 = 0 ∧ win1_6.index t 1 = 0 :=
  (by decide +kernel : ∀ t : Fin grid1.N, win1_6.index t 0 = 0 ∧ win1_6.index t 1 = 0)
theorem iblk1_6_apply (c : Dev nD) (t : Fin cfg1.N) (i : Fin 1) (j : Fin 16) :
    iblk1 V c 6 t (ix2 i j) = V c main_v0 (ix2 i j) := by
  unfold iblk1
  rw [View.read_apply]
  show V c main_v0 _ = V c main_v0 _
  refine congrArg (V c main_v0) (funext fun a => Fin.ext ?_)
  match a with
  | ⟨0, _⟩ => show win1_6.index t 0 * 1 + 1 * i.val = i.val; rw [(idx1_6 t).1]; omega
  | ⟨1, _⟩ => show win1_6.index t 1 * 16 + 1 * j.val = j.val; rw [(idx1_6 t).2]; omega

theorem idx1_7 : ∀ t : Fin cfg1.N, win1_7.index t 0 = 0 ∧ win1_7.index t 1 = 0 :=
  (by decide +kernel : ∀ t : Fin grid1.N, win1_7.index t 0 = 0 ∧ win1_7.index t 1 = 0)
theorem iblk1_7_apply (c : Dev nD) (t : Fin cfg1.N) (i : Fin 32) (j : Fin 64) :
    iblk1 V c 7 t (ix2 i j) = V c main_arg6 (ix2 i j) := by
  unfold iblk1
  rw [View.read_apply]
  show V c main_arg6 _ = V c main_arg6 _
  refine congrArg (V c main_arg6) (funext fun a => Fin.ext ?_)
  match a with
  | ⟨0, _⟩ => show win1_7.index t 0 * 32 + 1 * i.val = i.val; rw [(idx1_7 t).1]; omega
  | ⟨1, _⟩ => show win1_7.index t 1 * 64 + 1 * j.val = j.val; rw [(idx1_7 t).2]; omega

theorem idx1_8 : ∀ t : Fin cfg1.N, win1_8.index t 0 = 0 ∧ win1_8.index t 1 = 0 :=
  (by decide +kernel : ∀ t : Fin grid1.N, win1_8.index t 0 = 0 ∧ win1_8.index t 1 = 0)
theorem iblk1_8_apply (c : Dev nD) (t : Fin cfg1.N) (i : Fin 1) (j : Fin 64) :
    iblk1 V c 8 t (ix2 i j) = V c main_v3 (ix2 i j) := by
  unfold iblk1
  rw [View.read_apply]
  show V c main_v3 _ = V c main_v3 _
  refine congrArg (V c main_v3) (funext fun a => Fin.ext ?_)
  match a with
  | ⟨0, _⟩ => show win1_8.index t 0 * 1 + 1 * i.val = i.val; rw [(idx1_8 t).1]; omega
  | ⟨1, _⟩ => show win1_8.index t 1 * 64 + 1 * j.val = j.val; rw [(idx1_8 t).2]; omega

end Cert.KernelIdeal.RegionValue

end
-- ==== Proof.K1Value.lean ====
/-
  The second reduction kernel's arithmetic read at an element.

  The body's first part forms, on a [2, 240, 35, ·] tile, the mask column, the first layer's rectified values less
  their channel means, and the variance row plus the small constant; its second part normalises them, sets their
  maxima over the point slots beside them, multiplies by the mask, flattens the tile to 16800 rows of 32 channels,
  multiplies by the 32 × 64 weights, adds the bias row and takes the rectifier: entry (r, c) is the rectified
  affine map of the first layer's output for row r's point.  The two stores are the previous contents of the
  accumulators plus the column sums of these entries and of their squares.
-/
import proofs.«172356_j10943576670908_2_alg».proof.Proof.TileLayer

noncomputable section

namespace Cert.KernelIdeal.TileValue

open Idealize.ShloMosaic Idealize.ShloMosaic.ValueIdx Cert.KernelIdeal Cert.KernelIdeal.Gen Cert.Spec Cert.Lib

/-! ## The loop-carried values of the second reduction kernel -/

/-- The mask column: 1 at the points whose largest input coordinate is not zero, else 0. -/
theorem k1_pay3_apply (v3 : Vec Ideal S2x240x35x7 .f32) (b : Fin 2) (k : Fin 240) (t : Fin 35) :
    k1_pay3 v3 (ix4 b k t (0 : Fin 1)) = mask (fun j : Fin 7 => v3 (ix4 b k t j)) := by
  unfold k1_pay3
  exact maskTile_apply v3 _ _ _ b k t

/-- The scale row is carried as loaded. -/
theorem k1_pay4_eq (v26 : Vec Ideal S1x16 .f32) : k1_pay4 v26 = v26 := shapeCast_self _ _

/-- The shift row is carried as loaded. -/
theorem k1_pay5_eq (v28 : Vec Ideal S1x16 .f32) : k1_pay5 v28 = v28 := shapeCast_self _ _

/-- The first layer's rectified values less their channel means, on the tile. -/
theorem k1_pay6_apply (v3 : Vec Ideal S2x240x35x7 .f32) (v12 : Vec Ideal S7x16 .f32) (v14 v22 : Vec Ideal S1x16 .f32)
    (b : Fin 2) (k : Fin 240) (t : Fin 35) (c : Fin 16) :
    k1_pay6 v3 v12 v14 v22 (ix4 b k t c)
      = hid (fun j : Fin 7 => v3 (ix4 b k t j)) (fun (j : Fin 7) (c : Fin 16) => v12 (ix2 j c))
          (fun c : Fin 16 => v14 (ix2 (0 : Fin 1) c)) c - v22 (ix2 (0 : Fin 1) c) := by
  unfold k1_pay6
  show shapeCast S2x240x35x16 (k0_pay3 v3 v12 v14) _ (ix4 b k t c)
    - broadcastTo S2x240x35x16 (shapeCast S1x1x1x16 (shapeCast S1x16 v22 _) _) _ (ix4 b k t c) = _
  rw [hidTile_apply, row_tile_apply, shapeCast_self]

/-- The variance row plus the small constant. -/
theorem k1_pay7_apply (v24 : Vec Ideal S1x16 .f32) (c : Fin 16) :
    k1_pay7 v24 (ix2 (0 : Fin 1) c) = v24 (ix2 (0 : Fin 1) c) + EPS := by
  unfold k1_pay7
  show shapeCast S1x16 v24 _ (ix2 (0 : Fin 1) c) + _ = _
  rw [shapeCast_self]
  rfl

/-- The first layer's normalised values on the tile, as the second part of the body forms them. -/
theorem k1_norm_apply (v3 : Vec Ideal S2x240x35x7 .f32) (v12 : Vec Ideal S7x16 .f32) (v14 v22 v24 v26 v28 : Vec Ideal S1x16 .f32)
    (hc : S1x16.ShapeCasts S1x1x1x16) (hb : S1x1x1x16.Broadcasts S2x240x35x16)
    (b : Fin 2) (k : Fin 240) (t : Fin 35) (c : Fin 16) :
    addf (mulf (mulf (k1_pay6 v3 v12 v14 v22)
        (broadcastTo S2x240x35x16 (shapeCast S1x1x1x16 (rsqrt (k1_pay7 v24)) hc) hb))
        (broadcastTo S2x240x35x16 (shapeCast S1x1x1x16 (k1_pay4 v26) hc) hb))
      (broadcastTo S2x240x35x16 (shapeCast S1x1x1x16 (k1_pay5 v28) hc) hb) (ix4 b k t c)
      = bn EPS (hid (fun j : Fin 7 => v3 (ix4 b k t j)) (fun (j : Fin 7) (c : Fin 16) => v12 (ix2 j c))
            (fun c : Fin 16 => v14 (ix2 (0 : Fin 1) c)) c)
          (v22 (ix2 (0 : Fin 1) c)) (v24 (ix2 (0 : Fin 1) c)) (v26 (ix2 (0 : Fin 1) c)) (v28 (ix2 (0 : Fin 1) c)) := by
  unfold bn
  rw [addf_apply, mulf_apply, mulf_apply, row_tile_apply, row_tile_apply, row_tile_apply, rsqrt_apply,
    k1_pay6_apply, k1_pay7_apply, k1_pay4_eq, k1_pay5_eq]

/-! ## The second layer's rectified product and the two accumulator stores -/

/-- Entry (r, c) of the second layer's rectified product: the rectified affine map of the first layer's output
    for row r's point. -/
theorem k1_pay8_apply (v3 : Vec Ideal S2x240x35x7 .f32) (v12 : Vec Ideal S7x16 .f32) (v14 v22 v24 v26 v28 : Vec Ideal S1x16 .f32)
    (v54 : Vec Ideal S32x64 .f32) (v56 : Vec Ideal S1x64 .f32) (r : Fin 16800) (c : Fin 64) :
    k1_pay8 (k1_pay3 v3) (k1_pay4 v26) (k1_pay5 v28) (k1_pay6 v3 v12 v14 v22) (k1_pay7 v24) v54 v56 (ix2 r c)
      = hid (fun c' : Fin 32 => layerOut (T := 35) (n := 7) (p := 16) EPS
              (fun s j => v3 (ix4 (rowB r) (rowK r) s j)) (fun s => mask fun j => v3 (ix4 (rowB r) (rowK r) s j))
              (fun j c => v12 (ix2 j c)) (fun c => v14 (ix2 (0 : Fin 1) c))
              (fun c => v26 (ix2 (0 : Fin 1) c)) (fun c => v28 (ix2 (0 : Fin 1) c))
              (fun c => v22 (ix2 (0 : Fin 1) c)) (fun c => v24 (ix2 (0 : Fin 1) c)) (rowT r) c')
          (fun j c => v54 (ix2 j c)) (fun c => v56 (ix2 (0 : Fin 1) c)) c := by
  unfold k1_pay8 hid
  show max (addf (matmul dot_S16800x32_S32x64_S16800x64_1_0_0_1_n_n none _ _ _) (broadcastTo S16800x64 _ _) (ix2 r c))
    (broadcast S16800x64 (Scalar.ofBits (F := Ideal) .f32 0x00000000#32) (ix2 r c)) = _
  rw [broadcast_apply, scalar_zero]
  refine congrArg (fun z => max z 0) ?_
  refine (affine_rows_apply dot_S16800x32_S32x64_S16800x64_1_0_0_1_n_n rfl rfl rfl rfl rfl rfl _ v54 v56 _ _ _ _ r c).trans ?_
  refine congrArg (fun f => affine f _ _ c) (funext fun c' => ?_)
  exact doubled_layerOut (n := 7) (p := 16) (q := 32) rfl _ _ _ _ _ _ _ _ (rowB r) (rowK r) EPS _ _ _ _ _ _ _ _
    (fun t c => k1_norm_apply v3 v12 v14 v22 v24 v26 v28 _ _ (rowB r) (rowK r) t c)
    (fun t => k1_pay3_apply v3 (rowB r) (rowK r) t) (rowT r) c'

/-- The reset payloads are zero rows. -/
theorem k1_pay1_apply (c : Fin 64) : k1_pay1 (F := Ideal) (ix2 (0 : Fin 1) c) = 0 := scalar_zero
theorem k1_pay2_apply (c : Fin 64) : k1_pay2 (F := Ideal) (ix2 (0 : Fin 1) c) = 0 := scalar_zero

/-- The first accumulator's store: what it held plus the column sums of the rectified product. -/
theorem k1_pay9_apply (v9 : FVec Ideal S2x240x35x1 .f32) (v27 v29 : FVec Ideal S1x16 .f32) (v32 : FVec Ideal S2x240x35x16 .f32)
    (v34 : FVec Ideal S1x16 .f32) (v54 : Vec Ideal S32x64 .f32) (v56 v68 : Vec Ideal S1x64 .f32) (c : Fin 64) :
    k1_pay9 v9 v27 v29 v32 v34 v54 v56 v68 (ix2 (0 : Fin 1) c)
      = v68 (ix2 (0 : Fin 1) c) + ∑ r : Fin 16800, k1_pay8 v9 v27 v29 v32 v34 v54 v56 (ix2 r c) := by
  unfold k1_pay9
  show shapeCast S1x64 v68 _ (ix2 (0 : Fin 1) c)
    + shapeCast S1x64 (multiReduction .add [0] S64 (k1_pay8 v9 v27 v29 v32 v34 v54 v56) _ _ _ _) _ (ix2 (0 : Fin 1) c) = _
  rw [shapeCast_self]
  exact congrArg (v68 (ix2 (0 : Fin 1) c) + ·)
    (colsum_row_apply (k1_pay8 v9 v27 v29 v32 v34 v54 v56) reduces_S16800x64_S64 shapeCasts_S64_S1x64 c)

/-- The second accumulator's store: what it held plus the column sums of the squares. -/
theorem k1_pay10_apply (v9 : FVec Ideal S2x240x35x1 .f32) (v27 v29 : FVec Ideal S1x16 .f32) (v32 : FVec Ideal S2x240x35x16 .f32)
    (v34 : FVec Ideal S1x16 .f32) (v54 : Vec Ideal S32x64 .f32) (v56 v72 : Vec Ideal S1x64 .f32) (c : Fin 64) :
    k1_pay10 v9 v27 v29 v32 v34 v54 v56 v72 (ix2 (0 : Fin 1) c)
      = v72 (ix2 (0 : Fin 1) c) + ∑ r : Fin 16800,
          k1_pay8 v9 v27 v29 v32 v34 v54 v56 (ix2 r c) * k1_pay8 v9 v27 v29 v32 v34 v54 v56 (ix2 r c) := by
  unfold k1_pay10
  show shapeCast S1x64 v72 _ (ix2 (0 : Fin 1) c)
    + shapeCast S1x64 (multiReduction .add [0] S64
        (mulf (k1_pay8 v9 v27 v29 v32 v34 v54 v56) (k1_pay8 v9 v27 v29 v32 v34 v54 v56)) _ _ _ _) _ (ix2 (0 : Fin 1) c) = _
  rw [shapeCast_self]
  exact congrArg (v72 (ix2 (0 : Fin 1) c) + ·)
    (colsum_row_apply (mulf (k1_pay8 v9 v27 v29 v32 v34 v54 v56) (k1_pay8 v9 v27 v29 v32 v34 v54 v56))
      reduces_S16800x64_S64 shapeCasts_S64_S1x64 c)

end Cert.KernelIdeal.TileValue

end
-- ==== Proof.K1Final.lean ====
/-
  The second reduction kernel's result arrays in closed form.

  At grid point t the body forms, for the tile's 16800 rows, the rectified second-layer values of the first layer's
  output (normalised with the statistics rows the region finds, doubled with the maxima over the point slots, masked);
  the accumulators hold zero plus the column sums of these and of their squares over the tiles so far, and after the
  last point the sums over every point of the cloud.
-/
import proofs.«172356_j10943576670908_2_alg».proof.Proof.K1Blocks
import proofs.«172356_j10943576670908_2_alg».proof.Proof.K1Value
import proofs.«172356_j10943576670908_2_alg».proof.Proof.Target

noncomputable section

namespace Cert.KernelIdeal.RegionValue

open Cert.KernelIdeal Cert.KernelIdeal.Gen Cert.KernelIdeal.Hand Cert.KernelIdeal.TileValue Cert.Spec Cert.Stats
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the region finds, by coordinates. -/
abbrev cloud1 (c : Dev nD) : Cloud 7 := fun b k s j => V c main_arg0 (ix4 b k s j)
abbrev r1W1 (c : Dev nD) : Fin 7 → Fin 16 → EReal := fun j q => V c main_arg2 (ix2 j q)
abbrev r1b1 (c : Dev nD) : Fin 16 → EReal := fun q => V c main_v0 (ix2 (0 : Fin 1) q)
abbrev r1g1 (c : Dev nD) : Fin 16 → EReal := fun q => V c main_v1 (ix2 (0 : Fin 1) q)
abbrev r1beta1 (c : Dev nD) : Fin 16 → EReal := fun q => V c main_v2 (ix2 (0 : Fin 1) q)
abbrev r1mean1 (c : Dev nD) : Fin 16 → EReal := fun q => V c main_v9 (ix2 (0 : Fin 1) q)
abbrev r1var1 (c : Dev nD) : Fin 16 → EReal := fun q => V c main_v15 (ix2 (0 : Fin 1) q)
abbrev r1W2 (c : Dev nD) : Fin 32 → Fin 64 → EReal := fun j q => V c main_arg6 (ix2 j q)
abbrev r1b2 (c : Dev nD) : Fin 64 → EReal := fun q => V c main_v3 (ix2 (0 : Fin 1) q)

/-- The first layer's output cloud with the statistics rows the region finds. -/
abbrev x1cloud (c : Dev nD) : Cloud 32 :=
  layerCloud EPS (cloud1 V c) (maskOf (cloud1 V c)) (r1W1 V c) (r1b1 V c) (r1g1 V c) (r1beta1 V c) (r1mean1 V c) (r1var1 V c)

/-- Tile t's second-layer rectified product at row r is `hid` of the first layer's output at that row's point. -/
theorem tile_h2 (c : Dev nD) (n : ℕ) (hn : n < cfg1.N) (r : Fin 16800) (ch : Fin 64) :
    k1_pay8 (k1_pay3 (iblk1 V c 0 ⟨n, hn⟩)) (k1_pay4 (iblk1 V c 3 ⟨n, hn⟩)) (k1_pay5 (iblk1 V c 4 ⟨n, hn⟩)) (k1_pay6 (iblk1 V c 0 ⟨n, hn⟩) (iblk1 V c 5 ⟨n, hn⟩) (iblk1 V c 6 ⟨n, hn⟩) (iblk1 V c 1 ⟨n, hn⟩)) (k1_pay7 (iblk1 V c 2 ⟨n, hn⟩)) (iblk1 V c 7 ⟨n, hn⟩) (iblk1 V c 8 ⟨n, hn⟩) (ix2 r ch)
      = hid (x1cloud V c (rowEquiv r).1 (tileK (tileOf1 ⟨n, hn⟩) (rowEquiv r).2.1) (rowEquiv r).2.2) (r1W2 V c) (r1b2 V c) ch := by
  rw [k1_pay8_apply]
  simp only [iblk1_0_apply, iblk1_1_apply, iblk1_2_apply, iblk1_3_apply, iblk1_4_apply, iblk1_5_apply, iblk1_6_apply,
    iblk1_7_apply, iblk1_8_apply]
  rfl

/-- The first accumulator after point n: zero plus the tiles' column sums so far. -/
theorem acc1_9_apply (c : Dev nD) (ch : Fin 64) : ∀ (n : ℕ) (hn : n < cfg1.N),
    acc1_9 V c n hn (ix2 (0 : Fin 1) ch)
      = 0 + ∑ i ∈ Finset.range (n + 1), (if hn : i < cfg1.N then
          ∑ r : Fin 16800, k1_pay8 (k1_pay3 (iblk1 V c 0 ⟨i, hn⟩)) (k1_pay4 (iblk1 V c 3 ⟨i, hn⟩)) (k1_pay5 (iblk1 V c 4 ⟨i, hn⟩)) (k1_pay6 (iblk1 V c 0 ⟨i, hn⟩) (iblk1 V c 5 ⟨i, hn⟩) (iblk1 V c 6 ⟨i, hn⟩) (iblk1 V c 1 ⟨i, hn⟩)) (k1_pay7 (iblk1 V c 2 ⟨i, hn⟩)) (iblk1 V c 7 ⟨i, hn⟩) (iblk1 V c 8 ⟨i, hn⟩) (ix2 r ch) else 0)
  | 0, hn => by
    rw [acc1_9, k1_pay9_apply, k1_pay1_apply, Finset.sum_range_one, dif_pos hn]
  | n + 1, hn => by
    rw [acc1_9, k1_pay9_apply, acc1_9_apply c ch n (Nat.lt_of_succ_lt hn), Finset.sum_range_succ _ (n + 1), dif_pos hn,
      add_assoc]

theorem acc1_10_apply (c : Dev nD) (ch : Fin 64) : ∀ (n : ℕ) (hn : n < cfg1.N),
    acc1_10 V c n hn (ix2 (0 : Fin 1) ch)
      = 0 + ∑ i ∈ Finset.range (n + 1), (if hn : i < cfg1.N then
          ∑ r : Fin 16800, k1_pay8 (k1_pay3 (iblk1 V c 0 ⟨i, hn⟩)) (k1_pay4 (iblk1 V c 3 ⟨i, hn⟩)) (k1_pay5 (iblk1 V c 4 ⟨i, hn⟩)) (k1_pay6 (iblk1 V c 0 ⟨i, hn⟩) (iblk1 V c 5 ⟨i, hn⟩) (iblk1 V c 6 ⟨i, hn⟩) (iblk1 V c 1 ⟨i, hn⟩)) (k1_pay7 (iblk1 V c 2 ⟨i, hn⟩)) (iblk1 V c 7 ⟨i, hn⟩) (iblk1 V c 8 ⟨i, hn⟩) (ix2 r ch)
            * k1_pay8 (k1_pay3 (iblk1 V c 0 ⟨i, hn⟩)) (k1_pay4 (iblk1 V c 3 ⟨i, hn⟩)) (k1_pay5 (iblk1 V c 4 ⟨i, hn⟩)) (k1_pay6 (iblk1 V c 0 ⟨i, hn⟩) (iblk1 V c 5 ⟨i, hn⟩) (iblk1 V c 6 ⟨i, hn⟩) (iblk1 V c 1 ⟨i, hn⟩)) (k1_pay7 (iblk1 V c 2 ⟨i, hn⟩)) (iblk1 V c 7 ⟨i, hn⟩) (iblk1 V c 8 ⟨i, hn⟩) (ix2 r ch) else 0)
  | 0, hn => by
    rw [acc1_10, k1_pay10_apply, k1_pay2_apply, Finset.sum_range_one, dif_pos hn]
  | n + 1, hn => by
    rw [acc1_10, k1_pay10_apply, acc1_10_apply c ch n (Nat.lt_of_succ_lt hn), Finset.sum_range_succ _ (n + 1), dif_pos hn,
      add_assoc]

theorem lt49_1 : 49 < cfg1.N := by rw [show cfg1.N = 50 from N_1]; decide

theorem sum_range50_1 {M : Type*} [AddCommMonoid M] (f : (i : ℕ) → i < cfg1.N → M) :
    ∑ i ∈ Finset.range (49 + 1), (if h : i < cfg1.N then f i h else 0)
      = ∑ p : Fin 50, f p.val (by have := p.isLt; have hN : cfg1.N = 50 := N_1; omega) := by
  rw [Finset.sum_range]
  refine Finset.sum_congr rfl fun p _ => ?_
  rw [dif_pos]

/-- After the last point the accumulators hold the channel sums, and sums of squares, over the whole cloud. -/
theorem acc1_9_last (c : Dev nD) (ch : Fin 64) :
    acc1_9 V c 49 lt49_1 (ix2 (0 : Fin 1) ch) = sumH (x1cloud V c) (r1W2 V c) (r1b2 V c) ch := by
  rw [acc1_9_apply, sum_range50_1]
  unfold sumH
  refine congrArg (0 + ·) ?_
  refine Eq.trans ?_ (sum_tiles_points (fun b k s => hid (x1cloud V c b k s) (r1W2 V c) (r1b2 V c) ch))
  refine Finset.sum_congr rfl fun p _ => Finset.sum_congr rfl fun r _ => ?_
  exact tile_h2 V c p.val _ r ch

theorem acc1_10_last (c : Dev nD) (ch : Fin 64) :
    acc1_10 V c 49 lt49_1 (ix2 (0 : Fin 1) ch) = sumHH (x1cloud V c) (r1W2 V c) (r1b2 V c) ch := by
  rw [acc1_10_apply, sum_range50_1]
  unfold sumHH
  refine congrArg (0 + ·) ?_
  refine Eq.trans ?_ (sum_tiles_points (fun b k s => hid (x1cloud V c b k s) (r1W2 V c) (r1b2 V c) ch
    * hid (x1cloud V c b k s) (r1W2 V c) (r1b2 V c) ch))
  refine Finset.sum_congr rfl fun p _ => Finset.sum_congr rfl fun r _ => ?_
  rw [tile_h2 V c p.val _ r ch]
  rfl

/-! ## The result arrays: one write-back, after the last point, of the whole row -/

theorem flushed1_9_eq (c : Dev nD) (t : Fin cfg1.N) (hf : (cfg1.win 9).flush t = true) :
    (dat1 V c).flushed 9 t = ((cfg1.win 9).blk t).view.read (Elt Ideal) (acc1_9 V c 49 lt49_1) := by
  have hN : cfg1.N = 50 := N_1
  have h49 : t.val = 49 := by have := (flush1_9 t).mp hf; have := t.isLt; omega
  obtain rfl : t = ⟨49, lt49_1⟩ := Fin.ext h49
  show (cfg1.win 9).cut (grid1.coords _) ((dat1 V c).after 9 _) = _
  rw [after1_9]
  have hz' : (fun a => win1_9.index ⟨49, lt49_1⟩ a * main_v16_0.ty.shape.size a) = fun _ => 0 := funext fun a => by fin_cases a <;> decide +kernel
  exact (Memref.read_access_unit_zero (Elt Ideal) main_v16_0 hz' (fun a => by rw [congrFun hz' a]; simp) _).symm

theorem flushed1_10_eq (c : Dev nD) (t : Fin cfg1.N) (hf : (cfg1.win 10).flush t = true) :
    (dat1 V c).flushed 10 t = ((cfg1.win 10).blk t).view.read (Elt Ideal) (acc1_10 V c 49 lt49_1) := by
  have hN : cfg1.N = 50 := N_1
  have h49 : t.val = 49 := by have := (flush1_10 t).mp hf; have := t.isLt; omega
  obtain rfl : t = ⟨49, lt49_1⟩ := Fin.ext h49
  show (cfg1.win 10).cut (grid1.coords _) ((dat1 V c).after 10 _) = _
  rw [after1_10]
  have hz' : (fun a => win1_10.index ⟨49, lt49_1⟩ a * main_v16_1.ty.shape.size a) = fun _ => 0 := funext fun a => by fin_cases a <;> decide +kernel
  exact (Memref.read_access_unit_zero (Elt Ideal) main_v16_1 hz' (fun a => by rw [congrFun hz' a]; simp) _).symm

theorem final1_9 (c : Dev nD) : (dat1 V c).arrAt 9 cfg1.N = acc1_9 V c 49 lt49_1 :=
  (dat1 V c).arrAt_eq_of_cover 9 _ (flushed1_9_eq V c) fun i =>
    ⟨⟨49, lt49_1⟩, (flush1_9 _).mpr rfl, by
      show i ∈ ((View.whole main_v16_0).slice (win1_9.rect ⟨49, lt49_1⟩)).set
      rw [View.set_slice_whole, Rect.mem_set_unit]
      intro a
      have h0 : (i 0 : Nat) < 1 := (i 0).isLt
      have h1 : (i 1 : Nat) < 64 := (i 1).isLt
      match a with
      | ⟨0, _⟩ =>
        show win1_9.index ⟨49, lt49_1⟩ 0 * win1_9.size 0 ≤ (i 0 : Nat) ∧ (i 0 : Nat) < win1_9.index ⟨49, lt49_1⟩ 0 * win1_9.size 0 + win1_9.xsize (grid1.coords ⟨49, lt49_1⟩) 0
        rw [show win1_9.index ⟨49, lt49_1⟩ 0 * win1_9.size 0 = 0 from by decide +kernel, show win1_9.xsize (grid1.coords ⟨49, lt49_1⟩) 0 = 1 from by decide +kernel]; omega
      | ⟨1, _⟩ =>
        show win1_9.index ⟨49, lt49_1⟩ 1 * win1_9.size 1 ≤ (i 1 : Nat) ∧ (i 1 : Nat) < win1_9.index ⟨49, lt49_1⟩ 1 * win1_9.size 1 + win1_9.xsize (grid1.coords ⟨49, lt49_1⟩) 1
        rw [show win1_9.index ⟨49, lt49_1⟩ 1 * win1_9.size 1 = 0 from by decide +kernel, show win1_9.xsize (grid1.coords ⟨49, lt49_1⟩) 1 = 64 from by decide +kernel]; omega⟩

theorem final1_10 (c : Dev nD) : (dat1 V c).arrAt 10 cfg1.N = acc1_10 V c 49 lt49_1 :=
  (dat1 V c).arrAt_eq_of_cover 10 _ (flushed1_10_eq V c) fun i =>
    ⟨⟨49, lt49_1⟩, (flush1_10 _).mpr rfl, by
      show i ∈ ((View.whole main_v16_1).slice (win1_10.rect ⟨49, lt49_1⟩)).set
      rw [View.set_slice_whole, Rect.mem_set_unit]
      intro a
      have h0 : (i 0 : Nat) < 1 := (i 0).isLt
      have h1 : (i 1 : Nat) < 64 := (i 1).isLt
      match a with
      | ⟨0, _⟩ =>
        show win1_10.index ⟨49, lt49_1⟩ 0 * win1_10.size 0 ≤ (i 0 : Nat) ∧ (i 0 : Nat) < win1_10.index ⟨49, lt49_1⟩ 0 * win1_10.size 0 + win1_10.xsize (grid1.coords ⟨49, lt49_1⟩) 0
        rw [show win1_10.index ⟨49, lt49_1⟩ 0 * win1_10.size 0 = 0 from by decide +kernel, show win1_10.xsize (grid1.coords ⟨49, lt49_1⟩) 0 = 1 from by decide +kernel]; omega
      | ⟨1, _⟩ =>
        show win1_10.index ⟨49, lt49_1⟩ 1 * win1_10.size 1 ≤ (i 1 : Nat) ∧ (i 1 : Nat) < win1_10.index ⟨49, lt49_1⟩ 1 * win1_10.size 1 + win1_10.xsize (grid1.coords ⟨49, lt49_1⟩) 1
        rw [show win1_10.index ⟨49, lt49_1⟩ 1 * win1_10.size 1 = 0 from by decide +kernel, show win1_10.xsize (grid1.coords ⟨49, lt49_1⟩) 1 = 64 from by decide +kernel]; omega⟩

/-- The region's two result rows. -/
theorem sum2_final (c : Dev nD) (ch : Fin 64) :
    (dat1 V c).arrAt 9 cfg1.N (ix2 (0 : Fin 1) ch) = sumH (x1cloud V c) (r1W2 V c) (r1b2 V c) ch := by
  rw [final1_9]; exact acc1_9_last V c ch
theorem sumsq2_final (c : Dev nD) (ch : Fin 64) :
    (dat1 V c).arrAt 10 cfg1.N (ix2 (0 : Fin 1) ch) = sumHH (x1cloud V c) (r1W2 V c) (r1b2 V c) ch := by
  rw [final1_10]; exact acc1_10_last V c ch

end Cert.KernelIdeal.RegionValue

end
-- ==== Proof.KAsm2.lean ====
/-
  The second layer's statistics, and what the later regions read, in terms of the launch arrays.

  Nothing between the first host stretch and the end writes an argument array or a parameter row, so every region
  reads them as launched (a [p] vector as the [1, p] row the first stretch laid out).  The second region therefore sums
  the rectified second-layer values of the first layer's output cloud — taken with the first layer's `meanOf` and
  `varTiled` — and the host stretch after it forms that cloud's `meanOf` and `varTiled` in turn.
-/
import proofs.«172356_j10943576670908_2_alg».proof.Proof.KAsm1
import proofs.«172356_j10943576670908_2_alg».proof.Proof.K1Final

noncomputable section

namespace Cert.KernelIdeal.Asm

open Cert.KernelIdeal Cert.KernelIdeal.Gen Cert.KernelIdeal.Hand Cert.KernelIdeal.RegionValue Cert.KernelIdeal.Glue Cert.KernelIdeal.TileValue Cert.Spec Cert.Stats
open Idealize.ShloMosaic Idealize.ShloMosaic.TcCoe Idealize.ShloMosaic.ValueIdx Idealize.SL.Sem

variable (m : (ℓ : Loc nD τ sig) → Buf (Elt Ideal) ℓ) (outs : Outs (F := Ideal))

/-! ## Untouched buffers at the second and third regions' entries -/

theorem V3_arg0 (c : Dev nD) : (V3 m outs c main_arg0 : S2x12000x35x7.Idx → EReal) = m ((c.tc : Thread nD τ).loc main_arg0) :=
  (V3_of m outs c main_arg0 (by decide)).trans ((V2_of m outs c main_arg0 (by decide)).trans (V1_arg0 m c))
theorem V3_arg2 (c : Dev nD) : (V3 m outs c main_arg2 : S7x16.Idx → EReal) = m ((c.tc : Thread nD τ).loc main_arg2) :=
  (V3_of m outs c main_arg2 (by decide)).trans ((V2_of m outs c main_arg2 (by decide)).trans (V1_arg2 m c))
theorem V3_arg6 (c : Dev nD) : (V3 m outs c main_arg6 : S32x64.Idx → EReal) = m ((c.tc : Thread nD τ).loc main_arg6) :=
  (V3_of m outs c main_arg6 (by decide)).trans ((V2_of m outs c main_arg6 (by decide)).trans (V1_arg6 m c))
theorem V3_arg10 (c : Dev nD) : (V3 m outs c main_arg10 : S128x128.Idx → EReal) = m ((c.tc : Thread nD τ).loc main_arg10) :=
  (V3_of m outs c main_arg10 (by decide)).trans ((V2_of m outs c main_arg10 (by decide)).trans (V1_arg10 m c))
theorem V3_b1 (c : Dev nD) : (V3 m outs c main_v0 : S1x16.Idx → EReal) = shapeCast S1x16 (m ((c.tc : Thread nD τ).loc main_arg3)) shapeCasts_S16_S1x16 :=
  (V3_of m outs c main_v0 (by decide)).trans ((V2_of m outs c main_v0 (by decide)).trans (V1_b1 m c))
theorem V3_g1 (c : Dev nD) : (V3 m outs c main_v1 : S1x16.Idx → EReal) = shapeCast S1x16 (m ((c.tc : Thread nD τ).loc main_arg4)) shapeCasts_S16_S1x16 :=
  (V3_of m outs c main_v1 (by decide)).trans ((V2_of m outs c main_v1 (by decide)).trans (V1_g1 m c))
theorem V3_beta1 (c : Dev nD) : (V3 m outs c main_v2 : S1x16.Idx → EReal) = shapeCast S1x16 (m ((c.tc : Thread nD τ).loc main_arg5)) shapeCasts_S16_S1x16 :=
  (V3_of m outs c main_v2 (by decide)).trans ((V2_of m outs c main_v2 (by decide)).trans (V1_beta1 m c))
theorem V3_b2 (c : Dev nD) : (V3 m outs c main_v3 : S1x64.Idx → EReal) = shapeCast S1x64 (m ((c.tc : Thread nD τ).loc main_arg7)) shapeCasts_S64_S1x64 :=
  (V3_of m outs c main_v3 (by decide)).trans ((V2_of m outs c main_v3 (by decide)).trans (V1_b2 m c))
theorem V3_g2 (c : Dev nD) : (V3 m outs c main_v4 : S1x64.Idx → EReal) = shapeCast S1x64 (m ((c.tc : Thread nD τ).loc main_arg8)) shapeCasts_S64_S1x64 :=
  (V3_of m outs c main_v4 (by decide)).trans ((V2_of m outs c main_v4 (by decide)).trans (V1_g2 m c))
theorem V3_beta2 (c : Dev nD) : (V3 m outs c main_v5 : S1x64.Idx → EReal) = shapeCast S1x64 (m ((c.tc : Thread nD τ).loc main_arg9)) shapeCasts_S64_S1x64 :=
  (V3_of m outs c main_v5 (by decide)).trans ((V2_of m outs c main_v5 (by decide)).trans (V1_beta2 m c))
theorem V3_bf (c : Dev nD) : (V3 m outs c main_v6 : S1x128.Idx → EReal) = shapeCast S1x128 (m ((c.tc : Thread nD τ).loc main_arg11)) shapeCasts_S128_S1x128 :=
  (V3_of m outs c main_v6 (by decide)).trans ((V2_of m outs c main_v6 (by decide)).trans (V1_bf m c))

theorem V5_arg0 (c : Dev nD) : (V5 m outs c main_arg0 : S2x12000x35x7.Idx → EReal) = m ((c.tc : Thread nD τ).loc main_arg0) :=
  (V5_of m outs c main_arg0 (by decide)).trans ((V4_of m outs c main_arg0 (by decide)).trans (V3_arg0 m outs c))
theorem V5_arg2 (c : Dev nD) : (V5 m outs c main_arg2 : S7x16.Idx → EReal) = m ((c.tc : Thread nD τ).loc main_arg2) :=
  (V5_of m outs c main_arg2 (by decide)).trans ((V4_of m outs c main_arg2 (by decide)).trans (V3_arg2 m outs c))
theorem V5_arg6 (c : Dev nD) : (V5 m outs c main_arg6 : S32x64.Idx → EReal) = m ((c.tc : Thread nD τ).loc main_arg6) :=
  (V5_of m outs c main_arg6 (by decide)).trans ((V4_of m outs c main_arg6 (by decide)).trans (V3_arg6 m outs c))
theorem V5_arg10 (c : Dev nD) : (V5 m outs c main_arg10 : S128x128.Idx → EReal) = m ((c.tc : Thread nD τ).loc main_arg10) :=
  (V5_of m outs c main_arg10 (by decide)).trans ((V4_of m outs c main_arg10 (by decide)).trans (V3_arg10 m outs c))
theorem V5_b1 (c : Dev nD) : (V5 m outs c main_v0 : S1x16.Idx → EReal) = shapeCast S1x16 (m ((c.tc : Thread nD τ).loc main_arg3)) shapeCasts_S16_S1x16 :=
  (V5_of m outs c main_v0 (by decide)).trans ((V4_of m outs c main_v0 (by decide)).trans (V3_b1 m outs c))
theorem V5_g1 (c : Dev nD) : (V5 m outs c main_v1 : S1x16.Idx → EReal) = shapeCast S1x16 (m ((c.tc : Thread nD τ).loc main_arg4)) shapeCasts_S16_S1x16 :=
  (V5_of m outs c main_v1 (by decide)).trans ((V4_of m outs c main_v1 (by decide)).trans (V3_g1 m outs c))
theorem V5_beta1 (c : Dev nD) : (V5 m outs c main_v2 : S1x16.Idx → EReal) = shapeCast S1x16 (m ((c.tc : Thread nD τ).loc main_arg5)) shapeCasts_S16_S1x16 :=
  (V5_of m outs c main_v2 (by decide)).trans ((V4_of m outs c main_v2 (by decide)).trans (V3_beta1 m outs c))
theorem V5_b2 (c : Dev nD) : (V5 m outs c main_v3 : S1x64.Idx → EReal) = shapeCast S1x64 (m ((c.tc : Thread nD τ).loc main_arg7)) shapeCasts_S64_S1x64 :=
  (V5_of m outs c main_v3 (by decide)).trans ((V4_of m outs c main_v3 (by decide)).trans (V3_b2 m outs c))
theorem V5_g2 (c : Dev nD) : (V5 m outs c main_v4 : S1x64.Idx → EReal) = shapeCast S1x64 (m ((c.tc : Thread nD τ).loc main_arg8)) shapeCasts_S64_S1x64 :=
  (V5_of m outs c main_v4 (by decide)).trans ((V4_of m outs c main_v4 (by decide)).trans (V3_g2 m outs c))
theorem V5_beta2 (c : Dev nD) : (V5 m outs c main_v5 : S1x64.Idx → EReal) = shapeCast S1x64 (m ((c.tc : Thread nD τ).loc main_arg9)) shapeCasts_S64_S1x64 :=
  (V5_of m outs c main_v5 (by decide)).trans ((V4_of m outs c main_v5 (by decide)).trans (V3_beta2 m outs c))
theorem V5_bf (c : Dev nD) : (V5 m outs c main_v6 : S1x128.Idx → EReal) = shapeCast S1x128 (m ((c.tc : Thread nD τ).loc main_arg11)) shapeCasts_S128_S1x128 :=
  (V5_of m outs c main_v6 (by decide)).trans ((V4_of m outs c main_v6 (by decide)).trans (V3_bf m outs c))

/-- The first layer's statistics rows are not written again before the third region. -/
theorem V5_mean1 (c : Dev nD) : V5 m outs c main_v9 = V3 m outs c main_v9 :=
  (V5_of m outs c main_v9 (by decide)).trans (V4_of m outs c main_v9 (by decide))
theorem V5_var1 (c : Dev nD) : V5 m outs c main_v15 = V3 m outs c main_v15 :=
  (V5_of m outs c main_v15 (by decide)).trans (V4_of m outs c main_v15 (by decide))

/-- The buffers' contents when the second region is entered, read at the TensorCore's references. -/
abbrev en1 : (c : Dev nD) → (b : Ref sig .tc) → Buf (Elt Ideal) ((c : Thread nD τ).loc b) := fun c b => V3 m outs c b

/-- The first layer's output cloud, in terms of the launch arrays. -/
abbrev X1 (c : Dev nD) : Cloud 32 :=
  layerCloud EPS (inpC m c) (maskOf (inpC m c)) (w1C m c) (b1C m c) (g1C m c) (beta1C m c)
    (meanOf ((840000 : ℝ) : EReal) (inpC m c) (w1C m c) (b1C m c)) (varTiled ((840000 : ℝ) : EReal) (inpC m c) (w1C m c) (b1C m c))

section
variable (c : Dev nD) (h3 : V2 m outs c main_v7_0 = (dat0 (en0 m) c).arrAt 3 cfg0.N)
  (h4 : V2 m outs c main_v7_1 = (dat0 (en0 m) c).arrAt 4 cfg0.N)
include h3 h4

/-- What the second region finds, by coordinates. -/
theorem x1cloud_en1 : x1cloud (en1 m outs) c = X1 m c := by
  have e0 : cloud1 (en1 m outs) c = inpC m c := by funext b k s j; show (V3 m outs c main_arg0 : S2x12000x35x7.Idx → EReal) _ = _; rw [V3_arg0]
  have e1 : r1W1 (en1 m outs) c = w1C m c := by funext j q; show (V3 m outs c main_arg2 : S7x16.Idx → EReal) _ = _; rw [V3_arg2]
  have e2 : r1b1 (en1 m outs) c = b1C m c := by funext q; show (V3 m outs c main_v0 : S1x16.Idx → EReal) _ = _; rw [V3_b1, shapeCast_a_1a_apply]
  have e3 : r1g1 (en1 m outs) c = g1C m c := by funext q; show (V3 m outs c main_v1 : S1x16.Idx → EReal) _ = _; rw [V3_g1, shapeCast_a_1a_apply]
  have e4 : r1beta1 (en1 m outs) c = beta1C m c := by funext q; show (V3 m outs c main_v2 : S1x16.Idx → EReal) _ = _; rw [V3_beta1, shapeCast_a_1a_apply]
  have e5 : r1mean1 (en1 m outs) c = meanOf ((840000 : ℝ) : EReal) (inpC m c) (w1C m c) (b1C m c) := funext fun q => mean1_eq m outs c h3 q
  have e6 : r1var1 (en1 m outs) c = varTiled ((840000 : ℝ) : EReal) (inpC m c) (w1C m c) (b1C m c) := funext fun q => var1_eq m outs c h3 h4 q
  unfold x1cloud X1
  rw [e0, e1, e2, e3, e4, e5, e6]

theorem r1W2_en1 : r1W2 (en1 m outs) c = w2C m c := by
  funext j q; show (V3 m outs c main_arg6 : S32x64.Idx → EReal) _ = _; rw [V3_arg6]
theorem r1b2_en1 : r1b2 (en1 m outs) c = b2C m c := by
  funext q; show (V3 m outs c main_v3 : S1x64.Idx → EReal) _ = _; rw [V3_b2, shapeCast_a_1a_apply]

variable (h9 : V4 m outs c main_v16_0 = (dat1 (en1 m outs) c).arrAt 9 cfg1.N)
  (h10 : V4 m outs c main_v16_1 = (dat1 (en1 m outs) c).arrAt 10 cfg1.N)

include h9 in
/-- The second layer's mean row after the third host stretch. -/
theorem mean2_eq (ch : Fin 64) :
    (V5 m outs c main_v18 : S1x64.Idx → EReal) (ix2 (0 : Fin 1) ch)
      = meanOf ((840000 : ℝ) : EReal) (X1 m c) (w2C m c) (b2C m c) ch := by
  rw [V5_mean2]
  show Ideal.div ((V4 m outs c main_v16_0 : S1x64.Idx → EReal) (ix2 (0 : Fin 1) ch)) (nRow64 (ix2 (0 : Fin 1) ch)) = _
  rw [h9, sum2_final, x1cloud_en1 m outs c h3 h4, r1W2_en1 m outs c h3 h4, r1b2_en1 m outs c h3 h4]
  unfold meanOf nRow64
  rw [Cert.LibHostReads4.bcast_constant_apply, ofBits_N]

include h9 h10 in
/-- The second layer's variance row. -/
theorem var2_eq (ch : Fin 64) :
    (V5 m outs c main_v24 : S1x64.Idx → EReal) (ix2 (0 : Fin 1) ch)
      = varTiled ((840000 : ℝ) : EReal) (X1 m c) (w2C m c) (b2C m c) ch := by
  rw [V5_var2]
  show max (Ideal.div ((V4 m outs c main_v16_1 : S1x64.Idx → EReal) (ix2 (0 : Fin 1) ch)) (nRow64 (ix2 (0 : Fin 1) ch))
      - Ideal.div ((V4 m outs c main_v16_0 : S1x64.Idx → EReal) (ix2 (0 : Fin 1) ch)) (nRow64 (ix2 (0 : Fin 1) ch))
        * Ideal.div ((V4 m outs c main_v16_0 : S1x64.Idx → EReal) (ix2 (0 : Fin 1) ch)) (nRow64 (ix2 (0 : Fin 1) ch)))
      (zRow64 (ix2 (0 : Fin 1) ch)) = _
  rw [h9, h10, sum2_final, sumsq2_final, x1cloud_en1 m outs c h3 h4, r1W2_en1 m outs c h3 h4, r1b2_en1 m outs c h3 h4]
  unfold varTiled meanOf nRow64 zRow64
  rw [Cert.LibHostReads4.bcast_constant_apply, Cert.LibHostReads4.bcast_constant_apply, ofBits_N, Ideal.ofBits_zero_f32]

end

end Cert.KernelIdeal.Asm

end
-- ==== Proof.KAsm3.lean ====
/-
  The third region's result, in terms of the launch arrays: the whole block with the tiled program's variances.
-/
import proofs.«172356_j10943576670908_2_alg».proof.Proof.KAsm2

noncomputable section

namespace Cert.KernelIdeal.Asm

open Cert.KernelIdeal Cert.KernelIdeal.Gen Cert.KernelIdeal.Hand Cert.KernelIdeal.RegionValue Cert.KernelIdeal.Glue Cert.KernelIdeal.TileValue Cert.Spec Cert.Stats
open Idealize.ShloMosaic Idealize.ShloMosaic.TcCoe Idealize.ShloMosaic.ValueIdx Idealize.SL.Sem

/-- The per-voxel features from the arrays a region finds (`V`): both layers with the statistics rows it finds. -/
def featOf (V : (c : Dev nD) → (b : Ref sig .tc) → Buf (Elt Ideal) ((c : Thread nD τ).loc b)) (c : Dev nD) :
    Fin 2 → Fin 12000 → Fin 128 → EReal :=
  fun b k d => voxelFeat
    (layerCloud EPS
      (layerCloud EPS (fun b k s j => V c main_arg0 (ix4 b k s j)) (maskOf fun b k s j => V c main_arg0 (ix4 b k s j))
        (fun j q => V c main_arg2 (ix2 j q)) (fun q => V c main_v0 (ix2 (0 : Fin 1) q)) (fun q => V c main_v1 (ix2 (0 : Fin 1) q))
        (fun q => V c main_v2 (ix2 (0 : Fin 1) q)) (fun q => V c main_v9 (ix2 (0 : Fin 1) q)) (fun q => V c main_v15 (ix2 (0 : Fin 1) q)))
      (maskOf fun b k s j => V c main_arg0 (ix4 b k s j))
      (fun j q => V c main_arg6 (ix2 j q)) (fun q => V c main_v3 (ix2 (0 : Fin 1) q)) (fun q => V c main_v4 (ix2 (0 : Fin 1) q))
      (fun q => V c main_v5 (ix2 (0 : Fin 1) q)) (fun q => V c main_v18 (ix2 (0 : Fin 1) q)) (fun q => V c main_v24 (ix2 (0 : Fin 1) q)) b k)
    (fun j q => V c main_arg10 (ix2 j q)) (fun q => V c main_v6 (ix2 (0 : Fin 1) q)) d

variable (m : (ℓ : Loc nD τ sig) → Buf (Elt Ideal) ℓ) (outs : Outs (F := Ideal))

/-- The buffers' contents when the third region is entered, read at the TensorCore's references. -/
abbrev en2 : (c : Dev nD) → (b : Ref sig .tc) → Buf (Elt Ideal) ((c : Thread nD τ).loc b) := fun c b => V5 m outs c b

/-- At the third region's entry the features are the block with the tiled variances, of the launch arrays. -/
theorem featOf_en2 (c : Dev nD) (h3 : V2 m outs c main_v7_0 = (dat0 (en0 m) c).arrAt 3 cfg0.N)
    (h4 : V2 m outs c main_v7_1 = (dat0 (en0 m) c).arrAt 4 cfg0.N)
    (h9 : V4 m outs c main_v16_0 = (dat1 (en1 m outs) c).arrAt 9 cfg1.N)
    (h10 : V4 m outs c main_v16_1 = (dat1 (en1 m outs) c).arrAt 10 cfg1.N) :
    featOf (en2 m outs) c
      = featTiled EPS ((840000 : ℝ) : EReal) (inpC m c) (w1C m c) (b1C m c) (g1C m c) (beta1C m c) (w2C m c) (b2C m c)
          (g2C m c) (beta2C m c) (wfC m c) (bfC m c) := by
  have e0 : (fun b k s j => (V5 m outs c main_arg0 : S2x12000x35x7.Idx → EReal) (ix4 b k s j)) = inpC m c := by
    funext b k s j; rw [V5_arg0]
  have e1 : (fun j q => (V5 m outs c main_arg2 : S7x16.Idx → EReal) (ix2 j q)) = w1C m c := by funext j q; rw [V5_arg2]
  have e2 : (fun q => (V5 m outs c main_v0 : S1x16.Idx → EReal) (ix2 (0 : Fin 1) q)) = b1C m c := by
    funext q; rw [V5_b1, shapeCast_a_1a_apply]
  have e3 : (fun q => (V5 m outs c main_v1 : S1x16.Idx → EReal) (ix2 (0 : Fin 1) q)) = g1C m c := by
    funext q; rw [V5_g1, shapeCast_a_1a_apply]
  have e4 : (fun q => (V5 m outs c main_v2 : S1x16.Idx → EReal) (ix2 (0 : Fin 1) q)) = beta1C m c := by
    funext q; rw [V5_beta1, shapeCast_a_1a_apply]
  have e5 : (fun q => (V5 m outs c main_v9 : S1x16.Idx → EReal) (ix2 (0 : Fin 1) q))
      = meanOf ((840000 : ℝ) : EReal) (inpC m c) (w1C m c) (b1C m c) := by
    funext q; rw [V5_mean1]; exact mean1_eq m outs c h3 q
  have e6 : (fun q => (V5 m outs c main_v15 : S1x16.Idx → EReal) (ix2 (0 : Fin 1) q))
      = varTiled ((840000 : ℝ) : EReal) (inpC m c) (w1C m c) (b1C m c) := by
    funext q; rw [V5_var1]; exact var1_eq m outs c h3 h4 q
  have e7 : (fun j q => (V5 m outs c main_arg6 : S32x64.Idx → EReal) (ix2 j q)) = w2C m c := by funext j q; rw [V5_arg6]
  have e8 : (fun q => (V5 m outs c main_v3 : S1x64.Idx → EReal) (ix2 (0 : Fin 1) q)) = b2C m c := by
    funext q; rw [V5_b2, shapeCast_a_1a_apply]
  have e9 : (fun q => (V5 m outs c main_v4 : S1x64.Idx → EReal) (ix2 (0 : Fin 1) q)) = g2C m c := by
    funext q; rw [V5_g2, shapeCast_a_1a_apply]
  have e10 : (fun q => (V5 m outs c main_v5 : S1x64.Idx → EReal) (ix2 (0 : Fin 1) q)) = beta2C m c := by
    funext q; rw [V5_beta2, shapeCast_a_1a_apply]
  have e11 : (fun q => (V5 m outs c main_v18 : S1x64.Idx → EReal) (ix2 (0 : Fin 1) q))
      = meanOf ((840000 : ℝ) : EReal) (X1 m c) (w2C m c) (b2C m c) := funext fun q => mean2_eq m outs c h3 h4 h9 q
  have e12 : (fun q => (V5 m outs c main_v24 : S1x64.Idx → EReal) (ix2 (0 : Fin 1) q))
      = varTiled ((840000 : ℝ) : EReal) (X1 m c) (w2C m c) (b2C m c) := funext fun q => var2_eq m outs c h3 h4 h9 h10 q
  have e13 : (fun j q => (V5 m outs c main_arg10 : S128x128.Idx → EReal) (ix2 j q)) = wfC m c := by funext j q; rw [V5_arg10]
  have e14 : (fun q => (V5 m outs c main_v6 : S1x128.Idx → EReal) (ix2 (0 : Fin 1) q)) = bfC m c := by
    funext q; rw [V5_bf, shapeCast_a_1a_apply]
  unfold featOf
  dsimp only [en2]
  rw [e0, e1, e2, e3, e4, e5, e6, e7, e8, e9, e10, e11, e12, e13, e14]
  rfl

end Cert.KernelIdeal.Asm

end
-- ==== Proof.KTail.lean ====
/-
  The scatter tail.

  After the third region both programs apply the same host operations to the per-voxel features and to the voxel
  coordinates: the three coordinate columns are sliced out and flattened, negative entries wrapped, the columns joined
  behind a zero batch column, the features flattened to [24000, 128] and scattered into a zero grid, the grid
  transposed.  So if the features agree the results agree: the tail is never opened, only recognised as one function of
  the features and the coordinates on both sides.

  Every operation of the stretch writes a buffer of its own and reads buffers written before it, so what the whole stretch
  leaves in an operation's result buffer is the operation's function of what the whole stretch leaves in its operand
  buffers: one equation per operation.  Read from the leaves up, each buffer then holds the reference's stage of the
  same operation.
-/
import proofs.«172356_j10943576670908_2_alg».proof.Proof.Gen.KernelIdeal.Regions
import proofs.«172356_j10943576670908_2_alg».proof.Proof.RefRes
import proofs.«172356_j10943576670908_2_alg».proof.Proof.RefOps
import Idealize.ShloMosaic.Lib.StableHlo.Run
import Idealize.ShloMosaic.PureOps.Ideal

noncomputable section

namespace Cert.KernelIdeal.Tail

open Cert.KernelIdeal Cert.KernelIdeal.Gen
open Idealize.ShloMosaic Idealize.ShloMosaic.TcCoe Idealize.SL.Sem Idealize.ShloMosaic.StableHlo
open Cert.ReferenceIdeal.RefRun

/-! ## The stretch, operation by operation -/

section Line

variable {F : FTy → Type} [FloatOps F]

/-- The last host stretch writes, one each and in order, its listed buffers. -/
theorem hostOps3_writesAre : WritesAre (hostOps3 : List (HloOp τ sig (Elt F))) hostOps3_W := by
  unfold WritesAre; rfl

variable (W : Valuation τ sig (Elt F))

local notation "𝒜[" x "]" => after hostOps3 W (x : DevRef τ sig)

set_option hygiene false in
/-- Read the stretch at position `k`, where the operation writing `y` from the buffers `xs` stands: the operands are final
    before it, the result right after it, and the operation's own result lemma gives the function. -/
local macro "line_at " k:num " writes " y:ident " reads " "[" xs:ident,* "]" : tactic => `(tactic| (
  obtain ⟨hin, hout⟩ := after_split hostOps3_writesAre $k _ rfl W
  rw [hout $y (by decide)]
  $[rw [hin $xs (by decide)]];*
  generalize after (List.take $k hostOps3) W = W'
  simp only [nullary_result', unary_result', binary_result', ternary_result', reshape_result', nary4_result'] <;> rfl))

set_option hygiene false in
/-- The same where the operation reads nothing (a constant). -/
local macro "const_at " k:num " writes " y:ident : tactic => `(tactic| (
  obtain ⟨hin, hout⟩ := after_split hostOps3_writesAre $k _ rfl W
  rw [hout $y (by decide)]
  generalize after (List.take $k hostOps3) W = W'
  simp only [nullary_result', unary_result', binary_result', ternary_result', reshape_result', nary4_result'] <;> rfl))

theorem ssa_v26 : 𝒜[main_v26] = shapeCast S24000x128 𝒜[main_v25] shapeCasts_S2x12000x128_S24000x128 := by
  line_at 0 writes main_v26 reads [main_v25]
theorem ssa_v27 : 𝒜[main_v27] = extractStridedSlice S2x12000x1 ![0, 0, 0] 𝒜[main_arg1] slices_S2x12000x3_S2x12000x1_0_0_0 := by
  line_at 1 writes main_v27 reads [main_arg1]
theorem ssa_v28 : 𝒜[main_v28] = shapeCast S2x12000 𝒜[main_v27] shapeCasts_S2x12000x1_S2x12000 := by
  line_at 2 writes main_v28 reads [main_v27]
theorem ssa_v29 : 𝒜[main_v29] = shapeCast S24000 𝒜[main_v28] shapeCasts_S2x12000_S24000 := by
  line_at 3 writes main_v29 reads [main_v28]
theorem ssa_v30 : 𝒜[main_v30] = extractStridedSlice S2x12000x1 ![0, 0, 1] 𝒜[main_arg1] slices_S2x12000x3_S2x12000x1_0_0_1 := by
  line_at 4 writes main_v30 reads [main_arg1]
theorem ssa_v31 : 𝒜[main_v31] = shapeCast S2x12000 𝒜[main_v30] shapeCasts_S2x12000x1_S2x12000 := by
  line_at 5 writes main_v31 reads [main_v30]
theorem ssa_v32 : 𝒜[main_v32] = shapeCast S24000 𝒜[main_v31] shapeCasts_S2x12000_S24000 := by
  line_at 6 writes main_v32 reads [main_v31]
theorem ssa_v33 : 𝒜[main_v33] = extractStridedSlice S2x12000x1 ![0, 0, 2] 𝒜[main_arg1] slices_S2x12000x3_S2x12000x1_0_0_2 := by
  line_at 7 writes main_v33 reads [main_arg1]
theorem ssa_v34 : 𝒜[main_v34] = shapeCast S2x12000 𝒜[main_v33] shapeCasts_S2x12000x1_S2x12000 := by
  line_at 8 writes main_v34 reads [main_v33]
theorem ssa_v35 : 𝒜[main_v35] = shapeCast S24000 𝒜[main_v34] shapeCasts_S2x12000_S24000 := by
  line_at 9 writes main_v35 reads [main_v34]
theorem ssa_cst_5 : 𝒜[main_cst_5] = constant S_ .f32 0x00000000#32 := by
  const_at 10 writes main_cst_5
theorem ssa_v36 : 𝒜[main_v36] = broadcastInDim S1x10x400x352x128 ![] bcast_S_S1x10x400x352x128 𝒜[main_cst_5] := by
  line_at 11 writes main_v36 reads [main_cst_5]
theorem ssa_c : 𝒜[main_c] = constantI S_ 32 0#32 := by
  const_at 12 writes main_c
theorem ssa_v37 : 𝒜[main_v37] = broadcastInDim S24000 ![] bcast_S_S24000 𝒜[main_c] := by
  line_at 13 writes main_v37 reads [main_c]
theorem ssa_v38 : 𝒜[main_v38] = cmpi .slt 𝒜[main_v29] 𝒜[main_v37] := by
  line_at 14 writes main_v38 reads [main_v29, main_v37]
theorem ssa_c_6 : 𝒜[main_c_6] = constantI S_ 32 10#32 := by
  const_at 15 writes main_c_6
theorem ssa_v39 : 𝒜[main_v39] = broadcastInDim S24000 ![] bcast_S_S24000 𝒜[main_c_6] := by
  line_at 16 writes main_v39 reads [main_c_6]
theorem ssa_v40 : 𝒜[main_v40] = addi 𝒜[main_v29] 𝒜[main_v39] := by
  line_at 17 writes main_v40 reads [main_v29, main_v39]
theorem ssa_v41 : 𝒜[main_v41] = select 𝒜[main_v38] 𝒜[main_v40] 𝒜[main_v29] := by
  line_at 18 writes main_v41 reads [main_v38, main_v40, main_v29]
theorem ssa_c_7 : 𝒜[main_c_7] = constantI S_ 32 0#32 := by
  const_at 19 writes main_c_7
theorem ssa_v42 : 𝒜[main_v42] = broadcastInDim S24000 ![] bcast_S_S24000 𝒜[main_c_7] := by
  line_at 20 writes main_v42 reads [main_c_7]
theorem ssa_v43 : 𝒜[main_v43] = cmpi .slt 𝒜[main_v32] 𝒜[main_v42] := by
  line_at 21 writes main_v43 reads [main_v32, main_v42]
theorem ssa_c_8 : 𝒜[main_c_8] = constantI S_ 32 400#32 := by
  const_at 22 writes main_c_8
theorem ssa_v44 : 𝒜[main_v44] = broadcastInDim S24000 ![] bcast_S_S24000 𝒜[main_c_8] := by
  line_at 23 writes main_v44 reads [main_c_8]
theorem ssa_v45 : 𝒜[main_v45] = addi 𝒜[main_v32] 𝒜[main_v44] := by
  line_at 24 writes main_v45 reads [main_v32, main_v44]
theorem ssa_v46 : 𝒜[main_v46] = select 𝒜[main_v43] 𝒜[main_v45] 𝒜[main_v32] := by
  line_at 25 writes main_v46 reads [main_v43, main_v45, main_v32]
theorem ssa_c_9 : 𝒜[main_c_9] = constantI S_ 32 0#32 := by
  const_at 26 writes main_c_9
theorem ssa_v47 : 𝒜[main_v47] = broadcastInDim S24000 ![] bcast_S_S24000 𝒜[main_c_9] := by
  line_at 27 writes main_v47 reads [main_c_9]
theorem ssa_v48 : 𝒜[main_v48] = cmpi .slt 𝒜[main_v35] 𝒜[main_v47] := by
  line_at 28 writes main_v48 reads [main_v35, main_v47]
theorem ssa_c_10 : 𝒜[main_c_10] = constantI S_ 32 352#32 := by
  const_at 29 writes main_c_10
theorem ssa_v49 : 𝒜[main_v49] = broadcastInDim S24000 ![] bcast_S_S24000 𝒜[main_c_10] := by
  line_at 30 writes main_v49 reads [main_c_10]
theorem ssa_v50 : 𝒜[main_v50] = addi 𝒜[main_v35] 𝒜[main_v49] := by
  line_at 31 writes main_v50 reads [main_v35, main_v49]
theorem ssa_v51 : 𝒜[main_v51] = select 𝒜[main_v48] 𝒜[main_v50] 𝒜[main_v35] := by
  line_at 32 writes main_v51 reads [main_v48, main_v50, main_v35]
theorem ssa_c_11 : 𝒜[main_c_11] = constantI S_ 32 0#32 := by
  const_at 33 writes main_c_11
theorem ssa_v52 : 𝒜[main_v52] = broadcastInDim S24000 ![] bcast_S_S24000 𝒜[main_c_11] := by
  line_at 34 writes main_v52 reads [main_c_11]
theorem ssa_v53 : 𝒜[main_v53] = id 𝒜[main_v52] := by
  line_at 35 writes main_v53 reads [main_v52]
theorem ssa_v54 : 𝒜[main_v54] = broadcastInDim S24000x1 ![0] bcast_S24000_S24000x1_0 𝒜[main_v53] := by
  line_at 36 writes main_v54 reads [main_v53]
theorem ssa_v55 : 𝒜[main_v55] = broadcastInDim S24000x1 ![0] bcast_S24000_S24000x1_0 𝒜[main_v41] := by
  line_at 37 writes main_v55 reads [main_v41]
theorem ssa_v56 : 𝒜[main_v56] = broadcastInDim S24000x1 ![0] bcast_S24000_S24000x1_0 𝒜[main_v46] := by
  line_at 38 writes main_v56 reads [main_v46]
theorem ssa_v57 : 𝒜[main_v57] = broadcastInDim S24000x1 ![0] bcast_S24000_S24000x1_0 𝒜[main_v51] := by
  line_at 39 writes main_v57 reads [main_v51]
theorem ssa_v58 : 𝒜[main_v58] = concatenate S24000x4 1 [⟨S24000x1, 𝒜[main_v54]⟩, ⟨S24000x1, 𝒜[main_v55]⟩, ⟨S24000x1, 𝒜[main_v56]⟩, ⟨S24000x1, 𝒜[main_v57]⟩] concatenates_S24000x1_S24000x1_S24000x1_S24000x1_S24000x4_d1 := by
  line_at 40 writes main_v58 reads [main_v54, main_v55, main_v56, main_v57]
theorem ssa_v59 : 𝒜[main_v59] = Host.scatter scatter_S1x10x400x352x128_S24000x4_S24000x128_1_0123_0123_1 (fun _ b => b) 𝒜[main_v36] 𝒜[main_v58] 𝒜[main_v26] := by
  line_at 41 writes main_v59 reads [main_v36, main_v58, main_v26]
theorem ssa_v60 : 𝒜[main_v60] = transpose S1x128x10x400x352 [0, 4, 1, 2, 3] 𝒜[main_v59] transposes_S1x10x400x352x128_S1x128x10x400x352_0_4_1_2_3 := by
  line_at 42 writes main_v60 reads [main_v59]

end Line

/-! ## Each buffer holds the reference's stage -/

section Stages

variable (W : Valuation τ sig (Elt Ideal))
  (a0 : (⟨Cert.ReferenceIdeal.S2x12000x35x7, .f32⟩ : BufTy).Contents (Elt Ideal)) (a1 : (⟨Cert.ReferenceIdeal.S2x12000x3, .i32⟩ : BufTy).Contents (Elt Ideal))
  (a2 : (⟨Cert.ReferenceIdeal.S7x16, .f32⟩ : BufTy).Contents (Elt Ideal)) (a3 a4 a5 : (⟨Cert.ReferenceIdeal.S16, .f32⟩ : BufTy).Contents (Elt Ideal))
  (a6 : (⟨Cert.ReferenceIdeal.S32x64, .f32⟩ : BufTy).Contents (Elt Ideal)) (a7 a8 a9 : (⟨Cert.ReferenceIdeal.S64, .f32⟩ : BufTy).Contents (Elt Ideal))
  (a10 : (⟨Cert.ReferenceIdeal.S128x128, .f32⟩ : BufTy).Contents (Elt Ideal)) (a11 : (⟨Cert.ReferenceIdeal.S128, .f32⟩ : BufTy).Contents (Elt Ideal))

local notation "𝒜[" x "]" => after hostOps3 W (x : DevRef τ sig)
local notation "ℛ[" f "]" => f a0 a1 a2 a3 a4 a5 a6 a7 a8 a9 a10 a11

/-- From a valuation holding the coordinates and the reference's features, the stretch leaves the reference's result. -/
theorem tail_eq (h1 : W (main_arg1 : DevRef τ sig) = a1) (h25 : W (main_v25 : DevRef τ sig) = ℛ[res_main_v69]) :
    𝒜[main_v60] = ℛ[res_main_v104] := by
  have e1 : 𝒜[main_arg1] = a1 := (after_keep hostOps3_writesAre W (by decide)).trans h1
  have e25 : 𝒜[main_v25] = ℛ[res_main_v69] := (after_keep hostOps3_writesAre W (by decide)).trans h25
  have e26 : 𝒜[main_v26] = ℛ[res_main_v80] := by rw [ssa_v26, e25]; rfl
  have e27 : 𝒜[main_v27] = ℛ[res_main_v70] := by rw [ssa_v27, e1]; rfl
  have e28 : 𝒜[main_v28] = ℛ[res_main_v71] := by rw [ssa_v28, e27]; rfl
  have e29 : 𝒜[main_v29] = ℛ[res_main_v72] := by rw [ssa_v29, e28]; rfl
  have e30 : 𝒜[main_v30] = ℛ[res_main_v73] := by rw [ssa_v30, e1]; rfl
  have e31 : 𝒜[main_v31] = ℛ[res_main_v74] := by rw [ssa_v31, e30]; rfl
  have e32 : 𝒜[main_v32] = ℛ[res_main_v75] := by rw [ssa_v32, e31]; rfl
  have e33 : 𝒜[main_v33] = ℛ[res_main_v76] := by rw [ssa_v33, e1]; rfl
  have e34 : 𝒜[main_v34] = ℛ[res_main_v77] := by rw [ssa_v34, e33]; rfl
  have e35 : 𝒜[main_v35] = ℛ[res_main_v78] := by rw [ssa_v35, e34]; rfl
  have ec5 : 𝒜[main_cst_5] = ℛ[res_main_cst_11] := by rw [ssa_cst_5]; rfl
  have e36 : 𝒜[main_v36] = ℛ[res_main_v79] := by rw [ssa_v36, ec5]; rfl
  have ec : 𝒜[main_c] = ℛ[res_main_c_12] := by rw [ssa_c]; rfl
  have e37 : 𝒜[main_v37] = ℛ[res_main_v81] := by rw [ssa_v37, ec]; rfl
  have e38 : 𝒜[main_v38] = ℛ[res_main_v82] := by rw [ssa_v38, e29, e37]; rfl
  have ec6 : 𝒜[main_c_6] = ℛ[res_main_c_13] := by rw [ssa_c_6]; rfl
  have e39 : 𝒜[main_v39] = ℛ[res_main_v83] := by rw [ssa_v39, ec6]; rfl
  have e40 : 𝒜[main_v40] = ℛ[res_main_v84] := by rw [ssa_v40, e29, e39]; rfl
  have e41 : 𝒜[main_v41] = ℛ[res_main_v85] := by rw [ssa_v41, e38, e40, e29]; rfl
  have ec7 : 𝒜[main_c_7] = ℛ[res_main_c_14] := by rw [ssa_c_7]; rfl
  have e42 : 𝒜[main_v42] = ℛ[res_main_v86] := by rw [ssa_v42, ec7]; rfl
  have e43 : 𝒜[main_v43] = ℛ[res_main_v87] := by rw [ssa_v43, e32, e42]; rfl
  have ec8 : 𝒜[main_c_8] = ℛ[res_main_c_15] := by rw [ssa_c_8]; rfl
  have e44 : 𝒜[main_v44] = ℛ[res_main_v88] := by rw [ssa_v44, ec8]; rfl
  have e45 : 𝒜[main_v45] = ℛ[res_main_v89] := by rw [ssa_v45, e32, e44]; rfl
  have e46 : 𝒜[main_v46] = ℛ[res_main_v90] := by rw [ssa_v46, e43, e45, e32]; rfl
  have ec9 : 𝒜[main_c_9] = ℛ[res_main_c_16] := by rw [ssa_c_9]; rfl
  have e47 : 𝒜[main_v47] = ℛ[res_main_v91] := by rw [ssa_v47, ec9]; rfl
  have e48 : 𝒜[main_v48] = ℛ[res_main_v92] := by rw [ssa_v48, e35, e47]; rfl
  have ec10 : 𝒜[main_c_10] = ℛ[res_main_c_17] := by rw [ssa_c_10]; rfl
  have e49 : 𝒜[main_v49] = ℛ[res_main_v93] := by rw [ssa_v49, ec10]; rfl
  have e50 : 𝒜[main_v50] = ℛ[res_main_v94] := by rw [ssa_v50, e35, e49]; rfl
  have e51 : 𝒜[main_v51] = ℛ[res_main_v95] := by rw [ssa_v51, e48, e50, e35]; rfl
  have ec11 : 𝒜[main_c_11] = ℛ[res_main_c_18] := by rw [ssa_c_11]; rfl
  have e52 : 𝒜[main_v52] = ℛ[res_main_v96] := by rw [ssa_v52, ec11]; rfl
  have e53 : 𝒜[main_v53] = ℛ[res_main_v97] := by rw [ssa_v53, e52]; rfl
  have e54 : 𝒜[main_v54] = ℛ[res_main_v98] := by rw [ssa_v54, e53]; rfl
  have e55 : 𝒜[main_v55] = ℛ[res_main_v99] := by rw [ssa_v55, e41]; rfl
  have e56 : 𝒜[main_v56] = ℛ[res_main_v100] := by rw [ssa_v56, e46]; rfl
  have e57 : 𝒜[main_v57] = ℛ[res_main_v101] := by rw [ssa_v57, e51]; rfl
  have e58 : 𝒜[main_v58] = ℛ[res_main_v102] := by rw [ssa_v58, e54, e55, e56, e57]; rfl
  have e59 : 𝒜[main_v59] = ℛ[res_main_v103] := by rw [ssa_v59, e36, e58, e26]; rfl
  rw [ssa_v60, e59]; rfl

end Stages

variable (m : (ℓ : Loc nD τ sig) → Buf (Elt Ideal) ℓ) (outs : Outs (F := Ideal))

/-- The kernel program's result is the reference's tail applied to what the third region leaves and the coordinates. -/
theorem v60_eq (c : Dev nD)
    (a0 : (⟨Cert.ReferenceIdeal.S2x12000x35x7, .f32⟩ : BufTy).Contents (Elt Ideal)) (a1 : (⟨Cert.ReferenceIdeal.S2x12000x3, .i32⟩ : BufTy).Contents (Elt Ideal))
    (a2 : (⟨Cert.ReferenceIdeal.S7x16, .f32⟩ : BufTy).Contents (Elt Ideal)) (a3 a4 a5 : (⟨Cert.ReferenceIdeal.S16, .f32⟩ : BufTy).Contents (Elt Ideal))
    (a6 : (⟨Cert.ReferenceIdeal.S32x64, .f32⟩ : BufTy).Contents (Elt Ideal)) (a7 a8 a9 : (⟨Cert.ReferenceIdeal.S64, .f32⟩ : BufTy).Contents (Elt Ideal))
    (a10 : (⟨Cert.ReferenceIdeal.S128x128, .f32⟩ : BufTy).Contents (Elt Ideal)) (a11 : (⟨Cert.ReferenceIdeal.S128, .f32⟩ : BufTy).Contents (Elt Ideal))
    (h1 : V6 m outs c main_arg1 = a1) (h25 : V6 m outs c main_v25 = res_main_v69 a0 a1 a2 a3 a4 a5 a6 a7 a8 a9 a10 a11) :
    V7 m outs c main_v60 = res_main_v104 a0 a1 a2 a3 a4 a5 a6 a7 a8 a9 a10 a11 :=
  tail_eq (V6 m outs c) a0 a1 a2 a3 a4 a5 a6 a7 a8 a9 a10 a11 h1 h25

end Cert.KernelIdeal.Tail

end
-- ==== Proof.LibHostReads4Max.lean ====
/-
  A HOST PROGRAM'S MAXIMUM ALONG ONE AXIS AND ITS JOINING OF TWO ARRAYS, ON RANK-4 ARRAYS, READ AT AN INDEX.

  A reduction with a maximum body from −∞ over one axis is, at each remaining index, the maximum of the fibre along that
  axis: the reduction is a fold of `max` over the fibre in some order, and `max` commutes and associates, so the fold is
  the one over the whole coordinate range — over the last axis of [a, b, c, n] the maximum over j of x (i0, i1, i2, j),
  over the third axis of [a, b, c, p] the maximum over t of x (i0, i1, t, q). Two arrays [a, b, c, p] laid end to end
  along the last axis read, at (i0, i1, i2, q), the first at q below p and the second at q − p from p on.
-/
import Idealize.ShloMosaic.PureOps.Ideal.Laws
import Idealize.ShloMosaic.Lib.ValueIdx
import Idealize.ShloMosaic.Lib.Pipeline.Value
import proofs.«172356_j10943576670908_2_alg».proof.Proof.Spec

noncomputable section

open scoped BigOperators

namespace Cert.LibHostReads4

open Idealize.ShloMosaic Idealize.ShloMosaic.ValueIdx

section MaxReduce

/-- The pattern of −∞ denotes the least extended real. -/
theorem ofBits_negInf_f32 : Ideal.ofBits .f32 0xFF800000#32 = (⊥ : EReal) := by
  simp [Ideal.ofBits, Ideal.ieee]

/-- A fold of the ideal values' maximum from −∞ over a whole coordinate range is the maximum of the family. -/
theorem fold_maximumf_eq_vmax {n : Nat} (f : Fin n → EReal) :
    (Finset.univ : Finset (Fin n)).fold (FloatOps.maximumf (F := Ideal) (φ := .f32)) (⊥ : EReal) f = Cert.Spec.vmax f := rfl

/-- Over the last axis of a rank-4 array, the reduced index (i0, i1, i2) with coordinate j put back is (i0, i1, i2, j). -/
theorem lift_last {a b c n : Nat} (h : (⟨4, ![a, b, c, n]⟩ : Shape).Reduces [3] ⟨3, ![a, b, c]⟩)
    (i0 : Fin a) (i1 : Fin b) (i2 : Fin c) (j : Fin n) : h.lift (ix3 i0 i1 i2) j = ix4 i0 i1 i2 j := by
  funext ax; apply Fin.ext
  match ax with
  | ⟨0, _⟩ => rfl
  | ⟨1, _⟩ => rfl
  | ⟨2, _⟩ => rfl
  | ⟨3, _⟩ => rfl

/-- Over the third axis of a rank-4 array, the reduced index (i0, i1, q) with coordinate t put back is (i0, i1, t, q). -/
theorem lift_third {a b c p : Nat} (h : (⟨4, ![a, b, c, p]⟩ : Shape).Reduces [2] ⟨3, ![a, b, p]⟩)
    (i0 : Fin a) (i1 : Fin b) (q : Fin p) (t : Fin c) : h.lift (ix3 i0 i1 q) t = ix4 i0 i1 t q := by
  funext ax; apply Fin.ext
  match ax with
  | ⟨0, _⟩ => rfl
  | ⟨1, _⟩ => rfl
  | ⟨2, _⟩ => rfl
  | ⟨3, _⟩ => rfl

/-- The host's maximum over the LAST axis of [a, b, c, n] from an initial array that is −∞, at (i0, i1, i2):
    the maximum over j of x (i0, i1, i2, j). -/
theorem hostReduce_max_last_of_init {a b c n : Nat} {u : Shape}
    (h' : (⟨4, ![a, b, c, n]⟩ : Shape).ReducesTo [3] ⟨3, ![a, b, c]⟩) (hu : 0 < u.numel)
    (x : FVec Ideal ⟨4, ![a, b, c, n]⟩ .f32) (init : u.Idx → Ideal .f32) (hinit : ∀ i, init i = (⊥ : EReal))
    (i0 : Fin a) (i1 : Fin b) (i2 : Fin c) :
    Host.reduce FloatOps.maximumf x init h' hu (ix3 i0 i1 i2) = Cert.Spec.vmax fun j : Fin n => x (ix4 i0 i1 i2 j) := by
  have h : (⟨4, ![a, b, c, n]⟩ : Shape).Reduces [3] ⟨3, ![a, b, c]⟩ := ⟨h'.1, Nat.succ_pos 2, h'.2⟩
  rw [Host.reduce_eq_fold_single FloatOps.maximumf x init h' h hu, hinit]
  have hf : (x ∘ h.lift (ix3 i0 i1 i2)) = fun j : Fin n => x (ix4 i0 i1 i2 j) :=
    funext fun j => congrArg x (lift_last h i0 i1 i2 j)
  rw [hf]
  exact fold_maximumf_eq_vmax _

/-- The same from the constant −∞ a program prints as the initial value. -/
theorem hostReduce_max_last {a b c n : Nat}
    (h' : (⟨4, ![a, b, c, n]⟩ : Shape).ReducesTo [3] ⟨3, ![a, b, c]⟩) (hu : 0 < (⟨0, ![]⟩ : Shape).numel)
    (x : FVec Ideal ⟨4, ![a, b, c, n]⟩ .f32) (i0 : Fin a) (i1 : Fin b) (i2 : Fin c) :
    Host.reduce FloatOps.maximumf x (constant (F := Ideal) ⟨0, ![]⟩ .f32 0xFF800000#32) h' hu (ix3 i0 i1 i2)
      = Cert.Spec.vmax fun j : Fin n => x (ix4 i0 i1 i2 j) :=
  hostReduce_max_last_of_init h' hu x _ (fun _ => ofBits_negInf_f32) i0 i1 i2

/-- The host's maximum over the THIRD axis of [a, b, c, p] from an initial array that is −∞, at (i0, i1, q):
    the maximum over t of x (i0, i1, t, q). -/
theorem hostReduce_max_third_of_init {a b c p : Nat} {u : Shape}
    (h' : (⟨4, ![a, b, c, p]⟩ : Shape).ReducesTo [2] ⟨3, ![a, b, p]⟩) (hu : 0 < u.numel)
    (x : FVec Ideal ⟨4, ![a, b, c, p]⟩ .f32) (init : u.Idx → Ideal .f32) (hinit : ∀ i, init i = (⊥ : EReal))
    (i0 : Fin a) (i1 : Fin b) (q : Fin p) :
    Host.reduce FloatOps.maximumf x init h' hu (ix3 i0 i1 q) = Cert.Spec.vmax fun t : Fin c => x (ix4 i0 i1 t q) := by
  have h : (⟨4, ![a, b, c, p]⟩ : Shape).Reduces [2] ⟨3, ![a, b, p]⟩ := ⟨h'.1, Nat.succ_pos 2, h'.2⟩
  rw [Host.reduce_eq_fold_single FloatOps.maximumf x init h' h hu, hinit]
  have hf : (x ∘ h.lift (ix3 i0 i1 q)) = fun t : Fin c => x (ix4 i0 i1 t q) :=
    funext fun t => congrArg x (lift_third h i0 i1 q t)
  rw [hf]
  exact fold_maximumf_eq_vmax _

/-- The same from the constant −∞ a program prints as the initial value. -/
theorem hostReduce_max_third {a b c p : Nat}
    (h' : (⟨4, ![a, b, c, p]⟩ : Shape).ReducesTo [2] ⟨3, ![a, b, p]⟩) (hu : 0 < (⟨0, ![]⟩ : Shape).numel)
    (x : FVec Ideal ⟨4, ![a, b, c, p]⟩ .f32) (i0 : Fin a) (i1 : Fin b) (q : Fin p) :
    Host.reduce FloatOps.maximumf x (constant (F := Ideal) ⟨0, ![]⟩ .f32 0xFF800000#32) h' hu (ix3 i0 i1 q)
      = Cert.Spec.vmax fun t : Fin c => x (ix4 i0 i1 t q) :=
  hostReduce_max_third_of_init h' hu x _ (fun _ => ofBits_negInf_f32) i0 i1 q

end MaxReduce

section Concatenate

variable {α : Type}

/-- Two [a, b, c, p] arrays joined along the last axis, at (i0, i1, i2, q) with q below p: the first at (i0, i1, i2, q). -/
theorem concat_last_apply_left {a b c p r : Nat}
    (h : Shape.Concatenates [(⟨4, ![a, b, c, p]⟩ : Shape), (⟨4, ![a, b, c, p]⟩ : Shape)] ⟨4, ![a, b, c, r]⟩ 3)
    (x y : (⟨4, ![a, b, c, p]⟩ : Shape).Idx → α) (i0 : Fin a) (i1 : Fin b) (i2 : Fin c) (q : Fin r) (hq : q.val < p) :
    concatenate ⟨4, ![a, b, c, r]⟩ 3 [⟨⟨4, ![a, b, c, p]⟩, x⟩, ⟨⟨4, ![a, b, c, p]⟩, y⟩] h (ix4 i0 i1 i2 q)
      = x (ix4 i0 i1 i2 (⟨q.val, hq⟩ : Fin p)) := by
  refine concatenate_pair_apply_left (3 : Fin 4) x y h (ix4 i0 i1 i2 q) rfl (ix4 i0 i1 i2 (⟨q.val, hq⟩ : Fin p)) ?_
  intro ax
  match ax with
  | ⟨0, _⟩ => rfl
  | ⟨1, _⟩ => rfl
  | ⟨2, _⟩ => rfl
  | ⟨3, _⟩ => rfl

/-- The same at q from p on: the second array at (i0, i1, i2, q − p). -/
theorem concat_last_apply_right {a b c p r : Nat}
    (h : Shape.Concatenates [(⟨4, ![a, b, c, p]⟩ : Shape), (⟨4, ![a, b, c, p]⟩ : Shape)] ⟨4, ![a, b, c, r]⟩ 3)
    (x y : (⟨4, ![a, b, c, p]⟩ : Shape).Idx → α) (i0 : Fin a) (i1 : Fin b) (i2 : Fin c) (q : Fin r) (hq : p ≤ q.val)
    (hq' : q.val - p < p) :
    concatenate ⟨4, ![a, b, c, r]⟩ 3 [⟨⟨4, ![a, b, c, p]⟩, x⟩, ⟨⟨4, ![a, b, c, p]⟩, y⟩] h (ix4 i0 i1 i2 q)
      = y (ix4 i0 i1 i2 (⟨q.val - p, hq'⟩ : Fin p)) := by
  refine concatenate_pair_apply_right (3 : Fin 4) x y h (ix4 i0 i1 i2 q) rfl rfl (ix4 i0 i1 i2 (⟨q.val - p, hq'⟩ : Fin p)) ?_ ?_
  · intro ax hax
    match ax with
    | ⟨0, _⟩ => rfl
    | ⟨1, _⟩ => rfl
    | ⟨2, _⟩ => rfl
    | ⟨3, _⟩ => exact absurd rfl hax
  · show q.val - p + p = q.val
    omega

/-- The extent of two [a, b, c, p] arrays joined along the last axis is p + p. -/
theorem concat_last_extent {a b c p r : Nat}
    (h : Shape.Concatenates [(⟨4, ![a, b, c, p]⟩ : Shape), (⟨4, ![a, b, c, p]⟩ : Shape)] ⟨4, ![a, b, c, r]⟩ 3) : r = p + p := by
  have e := h.2.2
  simp only [List.map, List.sum_cons, List.sum_nil] at e
  have e' : p + (p + 0) = r := e
  omega

/-- Two [a, b, c, p] arrays joined along the last axis, at (i0, i1, i2, q): the first at q below p, the second at q − p
    from p on. -/
theorem concat_last_apply {a b c p r : Nat}
    (h : Shape.Concatenates [(⟨4, ![a, b, c, p]⟩ : Shape), (⟨4, ![a, b, c, p]⟩ : Shape)] ⟨4, ![a, b, c, r]⟩ 3)
    (x y : (⟨4, ![a, b, c, p]⟩ : Shape).Idx → α) (i0 : Fin a) (i1 : Fin b) (i2 : Fin c) (q : Fin r) :
    concatenate ⟨4, ![a, b, c, r]⟩ 3 [⟨⟨4, ![a, b, c, p]⟩, x⟩, ⟨⟨4, ![a, b, c, p]⟩, y⟩] h (ix4 i0 i1 i2 q)
      = if hq : q.val < p then x (ix4 i0 i1 i2 (⟨q.val, hq⟩ : Fin p))
        else y (ix4 i0 i1 i2 (⟨q.val - p, by have := concat_last_extent h; have := q.isLt; omega⟩ : Fin p)) := by
  by_cases hq : q.val < p
  · rw [dif_pos hq]; exact concat_last_apply_left h x y i0 i1 i2 q hq
  · rw [dif_neg hq]; exact concat_last_apply_right h x y i0 i1 i2 q (Nat.not_lt.mp hq) _

end Concatenate

end Cert.LibHostReads4

end
-- ==== Proof.LibHostReads4Scalar.lean ====
/-
  THE SCALAR CORNER OF A VARIANCE AND THE ELEMENTWISE HOST OPERATIONS, AT THE IDEAL VALUES.

  The number of points N is the float constant 840000; the degrees-of-freedom correction is the integer 0 converted, so
  the divisor N − 0 is N, it is positive, and the guard "divisor > 0 ? quotient : junk" picks the quotient. Division by
  N is multiplication by 1/N. Elementwise: the host's quotient and reciprocal square root act element by element; the
  maximum with a zero splat is max (x i) 0; "differs from zero", converted to a float, is 1 where x i ≠ 0 and 0 where
  x i = 0.
-/
import Idealize.ShloMosaic.PureOps.Ideal.Laws
import Idealize.ShloMosaic.Lib.ValueIdx
import Idealize.ShloMosaic.Lib.IdealHost

noncomputable section

open scoped BigOperators

namespace Cert.LibHostReads4

open Idealize.ShloMosaic Idealize.ShloMosaic.ValueIdx

section Count

/-- The float constant 0x494D1400 is the number 840000. -/
theorem ofBits_count : Ideal.ofBits .f32 0x494D1400#32 = ((840000 : ℝ) : EReal) := by
  simp [Ideal.ofBits, Ideal.ieee, -EReal.coe_mul]; norm_num

/-- The integer constant 0 converted to a float is 0, at every index. -/
theorem sitofp_constantI_zero_apply {S : Shape} (i : S.Idx) :
    (sitofp .f32 (constantI S 32 0#32) : FVec Ideal S .f32) i = 0 := by
  show ((((0#32 : BitVec 32).toInt : ℤ) : ℝ) : EReal) = 0
  simp

/-- The divisor N − 0 is N = 840000, at every index. -/
theorem count_apply {S : Shape} (i : S.Idx) :
    subf (constant (F := Ideal) S .f32 0x494D1400#32) (sitofp .f32 (constantI S 32 0#32)) i = ((840000 : ℝ) : EReal) := by
  show Ideal.ofBits .f32 0x494D1400#32 - (sitofp .f32 (constantI S 32 0#32) : FVec Ideal S .f32) i = _
  rw [sitofp_constantI_zero_apply, sub_zero, ofBits_count]

/-- N is greater than zero. -/
theorem cmp_ogt_count : Ideal.cmp .ogt ((840000 : ℝ) : EReal) 0 = 1#1 := by
  have h : (0 : EReal) < ((840000 : ℝ) : EReal) := by exact_mod_cast (by norm_num : (0 : ℝ) < 840000)
  simp [Ideal.cmp, h]

/-- The guard "divisor greater than zero" holds, at every index. -/
theorem count_pos_apply {S : Shape} (i : S.Idx) :
    cmpf .ogt (subf (constant (F := Ideal) S .f32 0x494D1400#32) (sitofp .f32 (constantI S 32 0#32)))
      (constant (F := Ideal) S .f32 0x00000000#32) i = 1#1 := by
  show Ideal.cmp .ogt (subf (constant (F := Ideal) S .f32 0x494D1400#32) (sitofp .f32 (constantI S 32 0#32)) i)
    (Ideal.ofBits .f32 0x00000000#32) = 1#1
  rw [count_apply, Ideal.ofBits_zero_f32, cmp_ogt_count]

/-- A choice guarded by a scalar condition that holds picks its first operand, at every index. -/
theorem where_of_one_apply {T : Shape} {α : Type} (h : (⟨0, ![]⟩ : Shape).BroadcastsInDim T ![]) (p : IVec ⟨0, ![]⟩ 1)
    (hp : p ix0 = 1#1) (x y : T.Idx → α) (j : T.Idx) :
    (fun (p : IVec ⟨0, ![]⟩ 1) (a b : T.Idx → α) => select (broadcastInDim T ![] h p) a b) p x y j = x j := by
  show Scalar.select (broadcastInDim (s := ⟨0, ![]⟩) T ![] h p j) (x j) (y j) = x j
  rw [broadcastInDim_scalar_apply, hp, select_one]

/-- So the guarded choice between the quotient and the junk value picks the quotient, at every index. -/
theorem where_count_apply {T : Shape} (h : (⟨0, ![]⟩ : Shape).BroadcastsInDim T ![]) (x y : FVec Ideal T .f32) (j : T.Idx) :
    (fun (p : IVec ⟨0, ![]⟩ 1) (a b : FVec Ideal T .f32) => select (broadcastInDim T ![] h p) a b)
      (cmpf .ogt (subf (constant (F := Ideal) ⟨0, ![]⟩ .f32 0x494D1400#32) (sitofp .f32 (constantI ⟨0, ![]⟩ 32 0#32)))
        (constant (F := Ideal) ⟨0, ![]⟩ .f32 0x00000000#32)) x y j = x j := by
  show Scalar.select (broadcastInDim (s := ⟨0, ![]⟩) T ![] h _ j) (x j) (y j) = x j
  rw [broadcastInDim_scalar_apply, count_pos_apply, select_one]

/-- Division by N is multiplication by 1/N. -/
theorem div_count (x : EReal) : Ideal.div x ((840000 : ℝ) : EReal) = x * ((1 / 840000 : ℝ) : EReal) :=
  Ideal.div_coe (by norm_num) x

/-- The host's quotient by a scalar repeated over a shape: the element divided by the scalar. -/
theorem divf_bcast_scalar_apply {T : Shape} {φ : FTy} (h : (⟨0, ![]⟩ : Shape).BroadcastsInDim T ![]) (x : FVec Ideal T φ)
    (d : FVec Ideal ⟨0, ![]⟩ φ) (j : T.Idx) :
    Host.divf x (broadcastInDim T ![] h d) j = Ideal.div (x j) (d ix0) := by
  show Ideal.div (x j) (broadcastInDim (s := ⟨0, ![]⟩) T ![] h d j) = _
  rw [broadcastInDim_scalar_apply]

/-- The host's quotient by the divisor N − 0 repeated over a shape: the element times 1/N. -/
theorem divf_count_apply {T : Shape} (h : (⟨0, ![]⟩ : Shape).BroadcastsInDim T ![]) (x : FVec Ideal T .f32) (j : T.Idx) :
    Host.divf x (broadcastInDim T ![] h
      (subf (constant (F := Ideal) ⟨0, ![]⟩ .f32 0x494D1400#32) (sitofp .f32 (constantI ⟨0, ![]⟩ 32 0#32)))) j
      = x j * ((1 / 840000 : ℝ) : EReal) := by
  show Ideal.div (x j) (broadcastInDim (s := ⟨0, ![]⟩) T ![] h _ j) = _
  rw [broadcastInDim_scalar_apply, count_apply, div_count]

/-- The host's quotient by the constant N repeated over a shape: the element times 1/N. -/
theorem divf_const_count_apply {T : Shape} (h : (⟨0, ![]⟩ : Shape).BroadcastsInDim T ![]) (x : FVec Ideal T .f32) (j : T.Idx) :
    Host.divf x (broadcastInDim T ![] h (constant (F := Ideal) ⟨0, ![]⟩ .f32 0x494D1400#32)) j
      = x j * ((1 / 840000 : ℝ) : EReal) := by
  show Ideal.div (x j) (broadcastInDim (s := ⟨0, ![]⟩) T ![] h _ j) = _
  rw [broadcastInDim_scalar_apply]
  show Ideal.div (x j) (Ideal.ofBits .f32 0x494D1400#32) = _
  rw [ofBits_count, div_count]

end Count

section Elementwise

variable {s : Shape} {φ : FTy}

/-- The host's quotient at an index is the ideal values' division of the elements. -/
theorem hostDivf_apply (a b : FVec Ideal s φ) (i : s.Idx) : Host.divf a b i = Ideal.div (a i) (b i) := rfl

/-- The host's reciprocal square root at an index is that of the element. -/
theorem hostRsqrt_apply (a : FVec Ideal s φ) (i : s.Idx) : Host.rsqrt a i = Ideal.rsqrt (a i) := rfl

/-- The maximum with a repeated zero (the rectifier): `max (x i) 0`. -/
theorem relu_apply (h : (⟨0, ![]⟩ : Shape).BroadcastsInDim s ![]) (x : FVec Ideal s .f32) (i : s.Idx) :
    maximumf x (broadcastInDim s ![] h (constant (F := Ideal) ⟨0, ![]⟩ .f32 0x00000000#32)) i = max (x i) 0 := by
  show max (x i) (broadcastInDim s ![] h (constant (F := Ideal) ⟨0, ![]⟩ .f32 0x00000000#32) i) = _
  rw [broadcastInDim_scalar_apply]
  show max (x i) (Ideal.ofBits .f32 0x00000000#32) = _
  rw [Ideal.ofBits_zero_f32]

/-- "The elements differ", converted to a float: 1 where they differ, else 0. -/
theorem uitofp_cmpf_une_apply (x y : FVec Ideal s .f32) (i : s.Idx) :
    (uitofp .f32 (cmpf .une x y) : FVec Ideal s .f32) i = if x i ≠ y i then 1 else 0 := by
  show ((((Ideal.cmp .une (x i) (y i)).toNat : ℝ)) : EReal) = _
  by_cases hx : x i = y i
  · simp [Ideal.cmp, hx]
  · simp [Ideal.cmp, hx]

/-- "Differs from a repeated zero", converted to a float (the mask): 1 where the element is not 0, else 0. -/
theorem mask_apply (h : (⟨0, ![]⟩ : Shape).BroadcastsInDim s ![]) (x : FVec Ideal s .f32) (i : s.Idx) :
    (uitofp .f32 (cmpf .une x (broadcastInDim s ![] h (constant (F := Ideal) ⟨0, ![]⟩ .f32 0x00000000#32))) : FVec Ideal s .f32) i
      = if x i ≠ 0 then 1 else 0 := by
  show ((((Ideal.cmp .une (x i) (broadcastInDim s ![] h (constant (F := Ideal) ⟨0, ![]⟩ .f32 0x00000000#32) i)).toNat : ℝ)) : EReal) = _
  rw [broadcastInDim_scalar_apply]
  show ((((Ideal.cmp .une (x i) (Ideal.ofBits .f32 0x00000000#32)).toNat : ℝ)) : EReal) = _
  rw [Ideal.ofBits_zero_f32]
  by_cases hx : x i = 0
  · simp [Ideal.cmp, hx]
  · simp [Ideal.cmp, hx]

end Elementwise

end Cert.LibHostReads4

end
-- ==== Proof.LibLeadSum.lean ====
/-
  Sums and maxima over the leading axes of a rank-4 array, read by coordinates.

  A host reduction of an array `x` of shape [a, b, c, d] over its first three axes gives, at the channel `j`,
  the initial value plus the sum of `x (i0, i1, i2, j)` over every `(i0, i1, i2)`: the set of indices that drop to
  `j` is exactly the set of indices whose last coordinate is `j`.  Stated for the extended reals' sum the host
  reduction denotes at the ideal values.
-/
import Idealize.ShloMosaic.Lib.ValueIdx
import Idealize.ShloMosaic.PureOps.Ideal.Laws

noncomputable section

namespace Cert.LibLeadSum

open Idealize.ShloMosaic Idealize.ShloMosaic.ValueIdx
open scoped BigOperators

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-- The host's sum over the three leading axes of a rank-4 array, at a channel: the initial value plus the sum over
    every leading coordinate triple. -/
theorem hostReduceAdd_lead3 {a b c d : Nat}
    (h : (⟨4, ![a, b, c, d]⟩ : Shape).ReducesTo [0, 1, 2] ⟨1, ![d]⟩) (x : (⟨4, ![a, b, c, d]⟩ : Shape).Idx → EReal)
    (init : EReal) (j : Fin d) :
    Ideal.hostReduceAdd h x init (ix1 j) = init + ∑ i0 : Fin a, ∑ i1 : Fin b, ∑ i2 : Fin c, x (ix4 i0 i1 i2 j) := by
  unfold Ideal.hostReduceAdd
  congr 1
  rw [Finset.sum_filter, sum_idx4]
  refine Finset.sum_congr rfl fun i0 _ => Finset.sum_congr rfl fun i1 _ => Finset.sum_congr rfl fun i2 _ => ?_
  have hk : (⟨4, ![a, b, c, d]⟩ : Shape).kept [0, 1, 2] = [(3 : Fin 4)] := by
    unfold Shape.kept; rfl
  have hb : ((0 : Fin 1) : ℕ) < ((⟨4, ![a, b, c, d]⟩ : Shape).kept [0, 1, 2]).length := by rw [hk]; simp
  have hc : ((⟨4, ![a, b, c, d]⟩ : Shape).kept [0, 1, 2])[((0 : Fin 1) : ℕ)] = (3 : Fin 4) := by simp [hk]
  have key : ∀ i3 : Fin d, (h.drop (ix4 i0 i1 i2 i3) = ix1 j) ↔ i3 = j := by
    intro i3
    constructor
    · intro e
      have e0 : ((h.drop (ix4 i0 i1 i2 i3) (0 : Fin 1) : Fin d) : ℕ) = ((ix1 j) (0 : Fin 1) : Fin d).val :=
        congrArg (fun f : (⟨1, ![d]⟩ : Shape).Idx => ((f (0 : Fin 1) : Fin d) : ℕ)) e
      rw [Shape.ReducesTo.drop_apply_val_of_eq h _ (0 : Fin 1) (3 : Fin 4) hb hc] at e0
      exact Fin.ext e0
    · rintro rfl
      funext q
      have hq : q = (0 : Fin 1) := Subsingleton.elim (α := Fin 1) _ _
      subst hq
      exact Fin.ext (Shape.ReducesTo.drop_apply_val_of_eq h _ (0 : Fin 1) (3 : Fin 4) hb hc)
  simp only [key, Finset.sum_ite_eq', Finset.mem_univ, if_true]

end Cert.LibLeadSum

end
-- ==== Proof.RefValueBase.lean ====
import proofs.«172356_j10943576670908_2_alg».proof.Proof.RefRes
import proofs.«172356_j10943576670908_2_alg».proof.Proof.Target
import proofs.«172356_j10943576670908_2_alg».proof.Proof.LibHostReads4
import proofs.«172356_j10943576670908_2_alg».proof.Proof.LibHostReads4Max
import proofs.«172356_j10943576670908_2_alg».proof.Proof.LibHostReads4Scalar
import proofs.«172356_j10943576670908_2_alg».proof.Proof.LibLeadSum

noncomputable section

open scoped BigOperators

namespace Cert.ReferenceIdeal.RefValue

open Cert.ReferenceIdeal Cert.ReferenceIdeal.Gen Cert.ReferenceIdeal.RefRun Idealize.ShloMosaic Idealize.ShloMosaic.ValueIdx
  Cert.LibHostReads4 Cert.Spec

/-! # The reference's stages read by coordinates: the points' masks -/

variable (a0 : (⟨S2x12000x35x7, .f32⟩ : BufTy).Contents (Elt Ideal)) (a1 : (⟨S2x12000x3, .i32⟩ : BufTy).Contents (Elt Ideal)) (a2 : (⟨S7x16, .f32⟩ : BufTy).Contents (Elt Ideal)) (a3 : (⟨S16, .f32⟩ : BufTy).Contents (Elt Ideal)) (a4 : (⟨S16, .f32⟩ : BufTy).Contents (Elt Ideal)) (a5 : (⟨S16, .f32⟩ : BufTy).Contents (Elt Ideal)) (a6 : (⟨S32x64, .f32⟩ : BufTy).Contents (Elt Ideal)) (a7 : (⟨S64, .f32⟩ : BufTy).Contents (Elt Ideal)) (a8 : (⟨S64, .f32⟩ : BufTy).Contents (Elt Ideal)) (a9 : (⟨S64, .f32⟩ : BufTy).Contents (Elt Ideal)) (a10 : (⟨S128x128, .f32⟩ : BufTy).Contents (Elt Ideal)) (a11 : (⟨S128, .f32⟩ : BufTy).Contents (Elt Ideal))

local notation "r[" f "]" => f a0 a1 a2 a3 a4 a5 a6 a7 a8 a9 a10 a11

/-- The number of points, as the specification takes it. -/
local notation "Npts" => (((840000 : ℝ) : EReal))
/-- The raw cloud by coordinates. -/
local notation "X₀" => (fun (b : Fin 2) (k : Fin 12000) (s : Fin 35) (j : Fin 7) => a0 (ix4 b k s j))

/-! Elementwise float operations at the ideal values, read at an index. -/
theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
/-- A float constant reads its number at every index. -/
theorem constant_at {s : Shape} (w : BitVec 32) (i : s.Idx) : constant (F := Ideal) s .f32 w i = Ideal.ofBits .f32 w := rfl

/-- The largest input coordinate of a point. -/
theorem v0_at (b : Fin 2) (k : Fin 12000) (s : Fin 35) :
    r[res_main_v0] (ix3 b k s) = vmax fun j : Fin 7 => a0 (ix4 b k s j) := by
  unfold res_main_v0 res_main_cst
  exact hostReduce_max_last _ _ a0 b k s

/-- The mask of a point: 1 where its largest input coordinate is not zero, else 0. -/
theorem mask_at (b : Fin 2) (k : Fin 12000) (s : Fin 35) (u : Fin 1) :
    r[res_main_v4] (ix4 b k s u) = maskOf X₀ b k s := by
  unfold res_main_v4 res_main_v3 res_main_v2 res_main_cst_0 res_main_v1
  rw [mask_apply, bcast_abc_abc1_apply, v0_at]
  rfl

end Cert.ReferenceIdeal.RefValue

end
-- ==== Proof.RefValueL1.lean ====
import proofs.«172356_j10943576670908_2_alg».proof.Proof.RefRes
import proofs.«172356_j10943576670908_2_alg».proof.Proof.Target
import proofs.«172356_j10943576670908_2_alg».proof.Proof.LibHostReads4
import proofs.«172356_j10943576670908_2_alg».proof.Proof.LibHostReads4Max
import proofs.«172356_j10943576670908_2_alg».proof.Proof.LibHostReads4Scalar
import proofs.«172356_j10943576670908_2_alg».proof.Proof.LibLeadSum
import proofs.«172356_j10943576670908_2_alg».proof.Proof.RefValueBase

set_option quotPrecheck false

noncomputable section

open scoped BigOperators

namespace Cert.ReferenceIdeal.RefValue

open Cert.ReferenceIdeal Cert.ReferenceIdeal.Gen Cert.ReferenceIdeal.RefRun Idealize.ShloMosaic Idealize.ShloMosaic.ValueIdx
  Cert.LibHostReads4 Cert.Spec

/-! # The reference's stages read by coordinates: the first layer (7 → 16, doubled to 32) -/

variable (a0 : (⟨S2x12000x35x7, .f32⟩ : BufTy).Contents (Elt Ideal)) (a1 : (⟨S2x12000x3, .i32⟩ : BufTy).Contents (Elt Ideal)) (a2 : (⟨S7x16, .f32⟩ : BufTy).Contents (Elt Ideal)) (a3 : (⟨S16, .f32⟩ : BufTy).Contents (Elt Ideal)) (a4 : (⟨S16, .f32⟩ : BufTy).Contents (Elt Ideal)) (a5 : (⟨S16, .f32⟩ : BufTy).Contents (Elt Ideal)) (a6 : (⟨S32x64, .f32⟩ : BufTy).Contents (Elt Ideal)) (a7 : (⟨S64, .f32⟩ : BufTy).Contents (Elt Ideal)) (a8 : (⟨S64, .f32⟩ : BufTy).Contents (Elt Ideal)) (a9 : (⟨S64, .f32⟩ : BufTy).Contents (Elt Ideal)) (a10 : (⟨S128x128, .f32⟩ : BufTy).Contents (Elt Ideal)) (a11 : (⟨S128, .f32⟩ : BufTy).Contents (Elt Ideal))

local notation "r[" f "]" => f a0 a1 a2 a3 a4 a5 a6 a7 a8 a9 a10 a11

/-- The number of points, as the specification takes it. -/
local notation "Npts" => (((840000 : ℝ) : EReal))
/-- The batch-normalisation constant, as the program prints it. -/
local notation "Eps" => (Ideal.ofBits .f32 0x3727C5AC#32)
/-- The raw cloud by coordinates. -/
local notation "X₀" => (fun (b : Fin 2) (k : Fin 12000) (s : Fin 35) (j : Fin 7) => a0 (ix4 b k s j))
/-- The layer's input cloud, weights, bias, scale and shift by coordinates. -/
local notation "X₁" => (fun (b : Fin 2) (k : Fin 12000) (s : Fin 35) (j : Fin 7) => a0 (ix4 b k s j))
local notation "W₁" => (fun (j : Fin 7) (c : Fin 16) => a2 (ix2 j c))
local notation "B₁" => (fun (c : Fin 16) => a3 (ix1 c))
local notation "G₁" => (fun (c : Fin 16) => a4 (ix1 c))
local notation "E₁" => (fun (c : Fin 16) => a5 (ix1 c))

/-- The rectified linear map of a point. -/
theorem hid₁_at (b : Fin 2) (k : Fin 12000) (s : Fin 35) (c : Fin 16) :
    r[res_main_v9] (ix4 b k s c) = hid (X₁ b k s) W₁ B₁ c := by
  unfold res_main_v9 res_main_call0_v0 res_main_call0_cst res_main_v8 res_main_v7 res_main_v6 res_main_v5
  rw [relu_apply, addf_at, dotGeneral4_at dot_S2x12000x35x7_S7x16_S2x12000x35x16_3_0_012_1_n_n rfl rfl rfl rfl rfl rfl, bcast_vec_abcp_apply]
  rfl

/-- The channel sum of the rectified values, from zero. -/
theorem sum₁_at (c : Fin 16) :
    r[res_main_v10] (ix1 c) = sumH X₁ W₁ B₁ c := by
  unfold res_main_v10 res_main_cst_1
  rw [hostReduceAdd_apply, Cert.LibLeadSum.hostReduceAdd_lead3, constant_at, Ideal.ofBits_zero_f32]
  simp only [hid₁_at]
  rfl

/-- The channel mean. -/
theorem mean₁_at (c : Fin 16) :
    r[res_main_v12] (ix1 c) = meanOf Npts X₁ W₁ B₁ c := by
  unfold res_main_v12 res_main_v11 res_main_cst_2
  rw [divf_bcast_scalar_apply, sum₁_at, constant_at, ofBits_count]
  rfl

/-- The same sum inside the variance function. -/
theorem vsum₁_at (c : Fin 16) :
    r[res_main_call1_v0] (ix1 c) = sumH X₁ W₁ B₁ c := by
  unfold res_main_call1_v0 res_main_call1_cst
  rw [hostReduceAdd_apply, Cert.LibLeadSum.hostReduceAdd_lead3, constant_at, Ideal.ofBits_zero_f32]
  simp only [hid₁_at]
  rfl

/-- The mean the variance function subtracts, repeated over the points. -/
theorem vmean₁_at (b : Fin 2) (k : Fin 12000) (s : Fin 35) (c : Fin 16) :
    r[res_main_call1_v4] (ix4 b k s c) = meanOf Npts X₁ W₁ B₁ c := by
  unfold res_main_call1_v4 res_main_call1_v3 res_main_call1_v2 res_main_call1_cst_0 res_main_call1_v1
  rw [bcast_111p_abcp_apply, Cert.LibHostReads4.hostDivf_apply, bcast_vec_1113_apply, bcast_constant_apply, vsum₁_at, ofBits_count]
  rfl

/-- The channel sum of the squared deviations, from zero. -/
theorem dev₁_at (c : Fin 16) :
    r[res_main_call1_v9] (ix1 c)
      = 0 + ∑ b : Fin 2, ∑ k : Fin 12000, ∑ s : Fin 35,
          (hid (X₁ b k s) W₁ B₁ c - meanOf Npts X₁ W₁ B₁ c) * (hid (X₁ b k s) W₁ B₁ c - meanOf Npts X₁ W₁ B₁ c) := by
  unfold res_main_call1_v9 res_main_call1_cst_2 res_main_call1_v6 res_main_call1_v5
  rw [hostReduceAdd_apply, Cert.LibLeadSum.hostReduceAdd_lead3, constant_at, Ideal.ofBits_zero_f32]
  simp only [mulf_at, subf_at, hid₁_at, vmean₁_at]

/-- The channel variance: the guard of the variance function holds (the divisor is the number of points), so it is the mean
    squared deviation. -/
theorem var₁_at (c : Fin 16) :
    r[res_main_v13] (ix1 c) = varPlain Npts X₁ W₁ B₁ c := by
  unfold res_main_v13 res_main_call1_v12 res_main_call1_cst_3 res_main_call1_v11 res_main_call1_v10 res_main_call1_v8 res_main_call1_v7 res_main_call1_cst_1 res_main_c
  refine (where_count_apply bcast_S_S16 _ _ (ix1 c)).trans ?_
  rw [divf_bcast_scalar_apply, count_apply, dev₁_at]
  rfl

/-- Batch normalisation of a point's rectified values. -/
theorem bn₁_at (b : Fin 2) (k : Fin 12000) (s : Fin 35) (c : Fin 16) :
    r[res_main_v28] (ix4 b k s c)
      = bn Eps (hid (X₁ b k s) W₁ B₁ c) (meanOf Npts X₁ W₁ B₁ c) (varPlain Npts X₁ W₁ B₁ c) (G₁ c) (E₁ c) := by
  unfold res_main_v28 res_main_v27 res_main_v26 res_main_v25 res_main_v24 res_main_v23 res_main_v22 res_main_v21 res_main_v20 res_main_v19 res_main_v18 res_main_v17 res_main_cst_3 res_main_v16 res_main_v15 res_main_v14
  rw [addf_at, mulf_at, mulf_at, subf_at, bcast_vec_abcp_apply, bcast_vec_abcp_apply, bcast_vec_abcp_apply, bcast_vec_abcp_apply,
    hostRsqrt_apply, addf_at, bcast_constant_apply, hid₁_at, mean₁_at, var₁_at]
  rfl

/-- The largest normalised value of a voxel over its point slots. -/
theorem top₁_at (b : Fin 2) (k : Fin 12000) (c : Fin 16) :
    r[res_main_v29] (ix3 b k c)
      = vmax fun s : Fin 35 => bn Eps (hid (X₁ b k s) W₁ B₁ c) (meanOf Npts X₁ W₁ B₁ c) (varPlain Npts X₁ W₁ B₁ c) (G₁ c) (E₁ c) := by
  unfold res_main_v29 res_main_cst_4
  rw [hostReduce_max_third]
  simp only [bn₁_at]

/-- The layer's output: the normalised values, then their maximum over the point slots, all times the point's mask. -/
theorem out₁_at (b : Fin 2) (k : Fin 12000) (s : Fin 35) (c : Fin 32) :
    r[res_main_v34] (ix4 b k s c)
      = layerCloud (n := 7) (p := 16) Eps X₁ (maskOf X₀) W₁ B₁ G₁ E₁ (meanOf Npts X₁ W₁ B₁) (varPlain Npts X₁ W₁ B₁) b k s c := by
  unfold res_main_v34 res_main_v33 res_main_v32 res_main_v31 res_main_v30
  rw [mulf_at, bcast_abc1_abcp_apply, mask_at, concat_last_apply]
  unfold layerCloud layerOut
  by_cases hc : c.val < 16
  · rw [dif_pos hc, dif_pos hc, bn₁_at]
  · rw [dif_neg hc, dif_neg hc, bcast_abp_abcp_apply, top₁_at]

end Cert.ReferenceIdeal.RefValue

end
-- ==== Proof.RefValueL2.lean ====
import proofs.«172356_j10943576670908_2_alg».proof.Proof.RefRes
import proofs.«172356_j10943576670908_2_alg».proof.Proof.Target
import proofs.«172356_j10943576670908_2_alg».proof.Proof.LibHostReads4
import proofs.«172356_j10943576670908_2_alg».proof.Proof.LibHostReads4Max
import proofs.«172356_j10943576670908_2_alg».proof.Proof.LibHostReads4Scalar
import proofs.«172356_j10943576670908_2_alg».proof.Proof.LibLeadSum
import proofs.«172356_j10943576670908_2_alg».proof.Proof.RefValueBase

set_option quotPrecheck false

noncomputable section

open scoped BigOperators

namespace Cert.ReferenceIdeal.RefValue

open Cert.ReferenceIdeal Cert.ReferenceIdeal.Gen Cert.ReferenceIdeal.RefRun Idealize.ShloMosaic Idealize.ShloMosaic.ValueIdx
  Cert.LibHostReads4 Cert.Spec

/-! # The reference's stages read by coordinates: the second layer (32 → 64, doubled to 128), over the first layer's output as an array -/

variable (a0 : (⟨S2x12000x35x7, .f32⟩ : BufTy).Contents (Elt Ideal)) (a1 : (⟨S2x12000x3, .i32⟩ : BufTy).Contents (Elt Ideal)) (a2 : (⟨S7x16, .f32⟩ : BufTy).Contents (Elt Ideal)) (a3 : (⟨S16, .f32⟩ : BufTy).Contents (Elt Ideal)) (a4 : (⟨S16, .f32⟩ : BufTy).Contents (Elt Ideal)) (a5 : (⟨S16, .f32⟩ : BufTy).Contents (Elt Ideal)) (a6 : (⟨S32x64, .f32⟩ : BufTy).Contents (Elt Ideal)) (a7 : (⟨S64, .f32⟩ : BufTy).Contents (Elt Ideal)) (a8 : (⟨S64, .f32⟩ : BufTy).Contents (Elt Ideal)) (a9 : (⟨S64, .f32⟩ : BufTy).Contents (Elt Ideal)) (a10 : (⟨S128x128, .f32⟩ : BufTy).Contents (Elt Ideal)) (a11 : (⟨S128, .f32⟩ : BufTy).Contents (Elt Ideal))

local notation "r[" f "]" => f a0 a1 a2 a3 a4 a5 a6 a7 a8 a9 a10 a11

/-- The number of points, as the specification takes it. -/
local notation "Npts" => (((840000 : ℝ) : EReal))
/-- The batch-normalisation constant, as the program prints it. -/
local notation "Eps" => (Ideal.ofBits .f32 0x3727C5AC#32)
/-- The raw cloud by coordinates. -/
local notation "X₀" => (fun (b : Fin 2) (k : Fin 12000) (s : Fin 35) (j : Fin 7) => a0 (ix4 b k s j))
/-- The layer's input cloud, weights, bias, scale and shift by coordinates. -/
local notation "X₂" => (fun (b : Fin 2) (k : Fin 12000) (s : Fin 35) (j : Fin 32) => r[res_main_v34] (ix4 b k s j))
local notation "W₂" => (fun (j : Fin 32) (c : Fin 64) => a6 (ix2 j c))
local notation "B₂" => (fun (c : Fin 64) => a7 (ix1 c))
local notation "G₂" => (fun (c : Fin 64) => a8 (ix1 c))
local notation "E₂" => (fun (c : Fin 64) => a9 (ix1 c))

/-- The rectified linear map of a point. -/
theorem hid₂_at (b : Fin 2) (k : Fin 12000) (s : Fin 35) (c : Fin 64) :
    r[res_main_v39] (ix4 b k s c) = hid (X₂ b k s) W₂ B₂ c := by
  unfold res_main_v39 res_main_call2_v0 res_main_call2_cst res_main_v38 res_main_v37 res_main_v36 res_main_v35
  rw [relu_apply, addf_at, dotGeneral4_at dot_S2x12000x35x32_S32x64_S2x12000x35x64_3_0_012_1_n_n rfl rfl rfl rfl rfl rfl, bcast_vec_abcp_apply]
  rfl

/-- The channel sum of the rectified values, from zero. -/
theorem sum₂_at (c : Fin 64) :
    r[res_main_v40] (ix1 c) = sumH X₂ W₂ B₂ c := by
  unfold res_main_v40 res_main_cst_5
  rw [hostReduceAdd_apply, Cert.LibLeadSum.hostReduceAdd_lead3, constant_at, Ideal.ofBits_zero_f32]
  simp only [hid₂_at]
  rfl

/-- The channel mean. -/
theorem mean₂_at (c : Fin 64) :
    r[res_main_v42] (ix1 c) = meanOf Npts X₂ W₂ B₂ c := by
  unfold res_main_v42 res_main_v41 res_main_cst_6
  rw [divf_bcast_scalar_apply, sum₂_at, constant_at, ofBits_count]
  rfl

/-- The same sum inside the variance function. -/
theorem vsum₂_at (c : Fin 64) :
    r[res_main_call3_v0] (ix1 c) = sumH X₂ W₂ B₂ c := by
  unfold res_main_call3_v0 res_main_call3_cst
  rw [hostReduceAdd_apply, Cert.LibLeadSum.hostReduceAdd_lead3, constant_at, Ideal.ofBits_zero_f32]
  simp only [hid₂_at]
  rfl

/-- The mean the variance function subtracts, repeated over the points. -/
theorem vmean₂_at (b : Fin 2) (k : Fin 12000) (s : Fin 35) (c : Fin 64) :
    r[res_main_call3_v4] (ix4 b k s c) = meanOf Npts X₂ W₂ B₂ c := by
  unfold res_main_call3_v4 res_main_call3_v3 res_main_call3_v2 res_main_call3_cst_0 res_main_call3_v1
  rw [bcast_111p_abcp_apply, Cert.LibHostReads4.hostDivf_apply, bcast_vec_1113_apply, bcast_constant_apply, vsum₂_at, ofBits_count]
  rfl

/-- The channel sum of the squared deviations, from zero. -/
theorem dev₂_at (c : Fin 64) :
    r[res_main_call3_v9] (ix1 c)
      = 0 + ∑ b : Fin 2, ∑ k : Fin 12000, ∑ s : Fin 35,
          (hid (X₂ b k s) W₂ B₂ c - meanOf Npts X₂ W₂ B₂ c) * (hid (X₂ b k s) W₂ B₂ c - meanOf Npts X₂ W₂ B₂ c) := by
  unfold res_main_call3_v9 res_main_call3_cst_2 res_main_call3_v6 res_main_call3_v5
  rw [hostReduceAdd_apply, Cert.LibLeadSum.hostReduceAdd_lead3, constant_at, Ideal.ofBits_zero_f32]
  simp only [mulf_at, subf_at, hid₂_at, vmean₂_at]

/-- The channel variance: the guard of the variance function holds (the divisor is the number of points), so it is the mean
    squared deviation. -/
theorem var₂_at (c : Fin 64) :
    r[res_main_v43] (ix1 c) = varPlain Npts X₂ W₂ B₂ c := by
  unfold res_main_v43 res_main_call3_v12 res_main_call3_cst_3 res_main_call3_v11 res_main_call3_v10 res_main_call3_v8 res_main_call3_v7 res_main_call3_cst_1 res_main_c_7
  refine (where_count_apply bcast_S_S64 _ _ (ix1 c)).trans ?_
  rw [divf_bcast_scalar_apply, count_apply, dev₂_at]
  rfl

/-- Batch normalisation of a point's rectified values. -/
theorem bn₂_at (b : Fin 2) (k : Fin 12000) (s : Fin 35) (c : Fin 64) :
    r[res_main_v58] (ix4 b k s c)
      = bn Eps (hid (X₂ b k s) W₂ B₂ c) (meanOf Npts X₂ W₂ B₂ c) (varPlain Npts X₂ W₂ B₂ c) (G₂ c) (E₂ c) := by
  unfold res_main_v58 res_main_v57 res_main_v56 res_main_v55 res_main_v54 res_main_v53 res_main_v52 res_main_v51 res_main_v50 res_main_v49 res_main_v48 res_main_v47 res_main_cst_8 res_main_v46 res_main_v45 res_main_v44
  rw [addf_at, mulf_at, mulf_at, subf_at, bcast_vec_abcp_apply, bcast_vec_abcp_apply, bcast_vec_abcp_apply, bcast_vec_abcp_apply,
    hostRsqrt_apply, addf_at, bcast_constant_apply, hid₂_at, mean₂_at, var₂_at]
  rfl

/-- The largest normalised value of a voxel over its point slots. -/
theorem top₂_at (b : Fin 2) (k : Fin 12000) (c : Fin 64) :
    r[res_main_v59] (ix3 b k c)
      = vmax fun s : Fin 35 => bn Eps (hid (X₂ b k s) W₂ B₂ c) (meanOf Npts X₂ W₂ B₂ c) (varPlain Npts X₂ W₂ B₂ c) (G₂ c) (E₂ c) := by
  unfold res_main_v59 res_main_cst_9
  rw [hostReduce_max_third]
  simp only [bn₂_at]

/-- The layer's output: the normalised values, then their maximum over the point slots, all times the point's mask. -/
theorem out₂_at (b : Fin 2) (k : Fin 12000) (s : Fin 35) (c : Fin 128) :
    r[res_main_v64] (ix4 b k s c)
      = layerCloud (n := 32) (p := 64) Eps X₂ (maskOf X₀) W₂ B₂ G₂ E₂ (meanOf Npts X₂ W₂ B₂) (varPlain Npts X₂ W₂ B₂) b k s c := by
  unfold res_main_v64 res_main_v63 res_main_v62 res_main_v61 res_main_v60
  rw [mulf_at, bcast_abc1_abcp_apply, mask_at, concat_last_apply]
  unfold layerCloud layerOut
  by_cases hc : c.val < 64
  · rw [dif_pos hc, dif_pos hc, bn₂_at]
  · rw [dif_neg hc, dif_neg hc, bcast_abp_abcp_apply, top₂_at]

end Cert.ReferenceIdeal.RefValue

end
-- ==== Proof.RefValue.lean ====
import proofs.«172356_j10943576670908_2_alg».proof.Proof.RefRes
import proofs.«172356_j10943576670908_2_alg».proof.Proof.Target
import proofs.«172356_j10943576670908_2_alg».proof.Proof.LibHostReads4
import proofs.«172356_j10943576670908_2_alg».proof.Proof.LibHostReads4Max
import proofs.«172356_j10943576670908_2_alg».proof.Proof.LibHostReads4Scalar
import proofs.«172356_j10943576670908_2_alg».proof.Proof.LibLeadSum
import proofs.«172356_j10943576670908_2_alg».proof.Proof.RefValueBase
import proofs.«172356_j10943576670908_2_alg».proof.Proof.RefValueL1
import proofs.«172356_j10943576670908_2_alg».proof.Proof.RefValueL2

set_option quotPrecheck false

noncomputable section

open scoped BigOperators

namespace Cert.ReferenceIdeal.RefValue

open Cert.ReferenceIdeal Cert.ReferenceIdeal.Gen Cert.ReferenceIdeal.RefRun Idealize.ShloMosaic Idealize.ShloMosaic.ValueIdx
  Cert.LibHostReads4 Cert.Spec

/-! # The reference's value against the specification

`res_main_v69`, the reference's per-voxel features before they are scattered into the grid, read at a voxel and a channel, is
the specification's block `featPlain` of the argument arrays read by coordinates. -/

variable (a0 : (⟨S2x12000x35x7, .f32⟩ : BufTy).Contents (Elt Ideal)) (a1 : (⟨S2x12000x3, .i32⟩ : BufTy).Contents (Elt Ideal)) (a2 : (⟨S7x16, .f32⟩ : BufTy).Contents (Elt Ideal)) (a3 : (⟨S16, .f32⟩ : BufTy).Contents (Elt Ideal)) (a4 : (⟨S16, .f32⟩ : BufTy).Contents (Elt Ideal)) (a5 : (⟨S16, .f32⟩ : BufTy).Contents (Elt Ideal)) (a6 : (⟨S32x64, .f32⟩ : BufTy).Contents (Elt Ideal)) (a7 : (⟨S64, .f32⟩ : BufTy).Contents (Elt Ideal)) (a8 : (⟨S64, .f32⟩ : BufTy).Contents (Elt Ideal)) (a9 : (⟨S64, .f32⟩ : BufTy).Contents (Elt Ideal)) (a10 : (⟨S128x128, .f32⟩ : BufTy).Contents (Elt Ideal)) (a11 : (⟨S128, .f32⟩ : BufTy).Contents (Elt Ideal))

local notation "r[" f "]" => f a0 a1 a2 a3 a4 a5 a6 a7 a8 a9 a10 a11

local notation "Npts" => (((840000 : ℝ) : EReal))
local notation "Eps" => (Ideal.ofBits .f32 0x3727C5AC#32)
local notation "X₀" => (fun (b : Fin 2) (k : Fin 12000) (s : Fin 35) (j : Fin 7) => a0 (ix4 b k s j))
local notation "W₁" => (fun (j : Fin 7) (c : Fin 16) => a2 (ix2 j c))
local notation "B₁" => (fun (c : Fin 16) => a3 (ix1 c))
local notation "G₁" => (fun (c : Fin 16) => a4 (ix1 c))
local notation "E₁" => (fun (c : Fin 16) => a5 (ix1 c))
local notation "X₂" => (fun (b : Fin 2) (k : Fin 12000) (s : Fin 35) (j : Fin 32) => r[res_main_v34] (ix4 b k s j))
local notation "W₂" => (fun (j : Fin 32) (c : Fin 64) => a6 (ix2 j c))
local notation "B₂" => (fun (c : Fin 64) => a7 (ix1 c))
local notation "G₂" => (fun (c : Fin 64) => a8 (ix1 c))
local notation "E₂" => (fun (c : Fin 64) => a9 (ix1 c))
local notation "X₃" => (fun (b : Fin 2) (k : Fin 12000) (s : Fin 35) (j : Fin 128) => r[res_main_v64] (ix4 b k s j))
local notation "Wf" => (fun (j : Fin 128) (d : Fin 128) => a10 (ix2 j d))
local notation "Bf" => (fun (d : Fin 128) => a11 (ix1 d))

/-- The last linear map of a point of the second layer's output. -/
theorem fin_at (b : Fin 2) (k : Fin 12000) (s : Fin 35) (d : Fin 128) :
    r[res_main_v68] (ix4 b k s d) = affine (X₃ b k s) Wf Bf d := by
  unfold res_main_v68 res_main_v67 res_main_v66 res_main_v65
  rw [addf_at, dotGeneral4_at dot_S2x12000x35x128_S128x128_S2x12000x35x128_3_0_012_1_n_n rfl rfl rfl rfl rfl rfl, bcast_vec_abcp_apply]
  rfl

/-- The per-voxel feature: the last linear map maximised over the point slots. -/
theorem feat_at (b : Fin 2) (k : Fin 12000) (d : Fin 128) :
    r[res_main_v69] (ix3 b k d) = voxelFeat (X₃ b k) Wf Bf d := by
  unfold res_main_v69 res_main_cst_10
  rw [hostReduce_max_third]
  simp only [fin_at]
  rfl

/-- The reference's per-voxel features are the block of the specification with the plain program's variance: the second
    layer's output cloud is the layer function of the first's, which is the layer function of the raw cloud. -/
theorem out_eq (b : Fin 2) (k : Fin 12000) (d : Fin 128) :
    res_main_v69 a0 a1 a2 a3 a4 a5 a6 a7 a8 a9 a10 a11 (ix3 b k d)
      = Cert.Spec.featPlain (Ideal.ofBits .f32 0x3727C5AC#32) ((840000 : ℝ) : EReal) (fun b k s j => a0 (ix4 b k s j))
          (fun j c => a2 (ix2 j c)) (fun c => a3 (ix1 c)) (fun c => a4 (ix1 c)) (fun c => a5 (ix1 c))
          (fun j c => a6 (ix2 j c)) (fun c => a7 (ix1 c)) (fun c => a8 (ix1 c)) (fun c => a9 (ix1 c))
          (fun j d => a10 (ix2 j d)) (fun d => a11 (ix1 d)) b k d := by
  have h2 : X₃ = layerCloud (n := 32) (p := 64) Eps X₂ (maskOf X₀) W₂ B₂ G₂ E₂ (meanOf Npts X₂ W₂ B₂) (varPlain Npts X₂ W₂ B₂) := by
    funext b k s j; exact out₂_at a0 a1 a2 a3 a4 a5 a6 a7 a8 a9 a10 a11 b k s j
  have h1 : X₂ = layerCloud (n := 7) (p := 16) Eps X₀ (maskOf X₀) W₁ B₁ G₁ E₁ (meanOf Npts X₀ W₁ B₁) (varPlain Npts X₀ W₁ B₁) := by
    funext b k s j; exact out₁_at a0 a1 a2 a3 a4 a5 a6 a7 a8 a9 a10 a11 b k s j
  rw [feat_at, h2, h1]
  rfl

end Cert.ReferenceIdeal.RefValue

end
-- ==== Proof.Bridge.lean ====
/-
  The two programs' blocks agree on finite inputs.

  With every input a real number, every rectified value is real; a variance is then a non-negative real, the
  normalisation's reciprocal square root of "variance plus a positive ε" is real, so a layer's output is real and
  feeds the next layer real values.  At each layer the two ways of taking the variance agree on real values, so the
  two blocks are the same function.
-/
import proofs.«172356_j10943576670908_2_alg».proof.Proof.Target

noncomputable section

namespace Cert.Spec

open Idealize.ShloMosaic Cert.Stats Finset

/-- A maximum from −∞ over a nonempty finite family of reals is real. -/
theorem isReal_fold_max {ι : Type*} (s : Finset ι) (f : ι → EReal) (hs : s.Nonempty) (h : ∀ i ∈ s, IsReal (f i)) :
    IsReal (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]; exact h a (mem_insert_self a _)
    · exact (h a (mem_insert_self a _)).max (ih hne fun i hi => h i (mem_insert_of_mem hi))

theorem isReal_vmax {n : ℕ} (hn : 0 < n) (f : Fin n → EReal) (h : ∀ i, IsReal (f i)) : IsReal (vmax f) :=
  isReal_fold_max _ f ⟨⟨0, hn⟩, mem_univ _⟩ fun i _ => h i

theorem isReal_mask {n : ℕ} (x : Fin n → EReal) : IsReal (mask x) := by
  unfold mask; split
  · exact IsReal.one
  · exact IsReal.zero

/-- The reciprocal square root of a positive real is real. -/
theorem isReal_rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

variable {n p : ℕ}

section Layer
variable (x : Cloud n) (W : Fin n → Fin p → EReal) (bias : Fin p → EReal)

theorem isReal_div_N {y : EReal} (hy : IsReal y) : IsReal (Ideal.div y ((840000 : ℝ) : EReal)) := by
  rw [Ideal.div_coe (by norm_num : (840000 : ℝ) ≠ 0)]; exact hy.mul (IsReal.coe _)

theorem isReal_meanOf (c : Fin p) (h : ∀ b k t, IsReal (hid (x b k t) W bias c)) :
    IsReal (meanOf ((840000 : ℝ) : EReal) x W bias c) :=
  isReal_div_N (IsReal.zero.add (IsReal.sum _ _ fun b _ => IsReal.sum _ _ fun k _ => IsReal.sum _ _ fun t _ => h b k t))

/-- The plain variance of real values is a non-negative real. -/
theorem varPlain_nonneg_real (c : Fin p) (h : ∀ b k t, IsReal (hid (x b k t) W bias c)) :
    ∃ v : ℝ, 0 ≤ v ∧ varPlain ((840000 : ℝ) : EReal) x W bias c = (v : EReal) := by
  obtain ⟨μ, hμ⟩ := isReal_meanOf x W bias c h
  choose f hf using h
  refine ⟨(∑ b, ∑ k, ∑ t, (f b k t - μ) * (f b k t - μ)) * (1 / 840000),
    mul_nonneg (sum_nonneg fun b _ => sum_nonneg fun k _ => sum_nonneg fun t _ => mul_self_nonneg _) (by norm_num), ?_⟩
  unfold varPlain
  rw [Ideal.div_coe (by norm_num : (840000 : ℝ) ≠ 0), zero_add, hμ, EReal.coe_mul]
  congr 1
  simp only [hf, ← EReal.coe_sub, ← EReal.coe_mul, ← Cert.LibBatchNorm.coe_sum]

end Layer

/-- A layer's output is real when its input's rectified values are, for real scale and shift and a positive ε. -/
theorem isReal_layerCloud (e : ℝ) (he : 0 < e) (x : Cloud n) (mk : Fin 2 → Fin 12000 → Fin 35 → EReal)
    (W : Fin n → Fin p → EReal) (bias g beta : Fin p → EReal)
    (hmk : ∀ b k t, IsReal (mk b k t)) (hg : ∀ c, IsReal (g c)) (hbeta : ∀ c, IsReal (beta c))
    (hh : ∀ b k t c, IsReal (hid (x b k t) W bias c)) (b : Fin 2) (k : Fin 12000) (t : Fin 35) (c : Fin (p + p)) :
    IsReal (layerCloud (e : EReal) x mk W bias g beta (meanOf ((840000 : ℝ) : EReal) x W bias)
      (varPlain ((840000 : ℝ) : EReal) x W bias) b k t c) := by
  have hbn : ∀ (s : Fin 35) (q : Fin p), IsReal (bn (e : EReal) (hid (x b k s) W bias q) (meanOf ((840000 : ℝ) : EReal) x W bias q)
      (varPlain ((840000 : ℝ) : EReal) x W bias q) (g q) (beta q)) := by
    intro s q
    obtain ⟨v, hv0, hv⟩ := varPlain_nonneg_real x W bias q (fun b k t => hh b k t q)
    unfold bn
    rw [hv, ← EReal.coe_add]
    exact ((((hh b k s q).sub (isReal_meanOf x W bias q fun b k t => hh b k t q)).mul
      (isReal_rsqrt_pos (by positivity))).mul (hg q)).add (hbeta q)
  unfold layerCloud layerOut
  refine IsReal.mul ?_ (hmk b k t)
  split
  · exact hbn t _
  · exact isReal_vmax (by decide) _ fun s => hbn s _

/-- On real inputs (and real, positive ε) the block with the tiled program's variance is the block with the plain
    program's variance. -/
theorem featTiled_eq_featPlain (e : ℝ) (he : 0 < e) (inp : Cloud 7) (W1 : Fin 7 → Fin 16 → EReal) (b1 g1 beta1 : Fin 16 → EReal)
    (W2 : Fin 32 → Fin 64 → EReal) (b2 g2 beta2 : Fin 64 → EReal) (Wf : Fin 128 → Fin 128 → EReal) (bf : Fin 128 → EReal)
    (hinp : ∀ b k t j, IsReal (inp b k t j)) (hW1 : ∀ j c, IsReal (W1 j c)) (hb1 : ∀ c, IsReal (b1 c))
    (hg1 : ∀ c, IsReal (g1 c)) (hbeta1 : ∀ c, IsReal (beta1 c)) (hW2 : ∀ j c, IsReal (W2 j c)) (hb2 : ∀ c, IsReal (b2 c)) :
    featTiled (e : EReal) ((840000 : ℝ) : EReal) inp W1 b1 g1 beta1 W2 b2 g2 beta2 Wf bf
      = featPlain (e : EReal) ((840000 : ℝ) : EReal) inp W1 b1 g1 beta1 W2 b2 g2 beta2 Wf bf := by
  have hh1 : ∀ b k t c, IsReal (hid (inp b k t) W1 b1 c) := fun b k t c =>
    isReal_hid _ _ _ _ (hinp b k t) (fun j => hW1 j c) (hb1 c)
  have e1 : @varTiled 7 16 ((840000 : ℝ) : EReal) inp W1 b1 = @varPlain 7 16 ((840000 : ℝ) : EReal) inp W1 b1 :=
    funext fun c => varTiled_eq_varPlain inp W1 b1 c fun b k t => hh1 b k t c
  have hx1 : ∀ b k t c, IsReal (layerCloud (e : EReal) inp (maskOf inp) W1 b1 g1 beta1 (meanOf ((840000 : ℝ) : EReal) inp W1 b1)
      (varPlain ((840000 : ℝ) : EReal) inp W1 b1) b k t c) :=
    isReal_layerCloud e he inp (maskOf inp) W1 b1 g1 beta1 (fun b k t => isReal_mask _) hg1 hbeta1 hh1
  have e2 : @varTiled 32 64 ((840000 : ℝ) : EReal) (layerCloud (e : EReal) inp (maskOf inp) W1 b1 g1 beta1
        (meanOf ((840000 : ℝ) : EReal) inp W1 b1) (varPlain ((840000 : ℝ) : EReal) inp W1 b1)) W2 b2
      = @varPlain 32 64 ((840000 : ℝ) : EReal) (layerCloud (e : EReal) inp (maskOf inp) W1 b1 g1 beta1
        (meanOf ((840000 : ℝ) : EReal) inp W1 b1) (varPlain ((840000 : ℝ) : EReal) inp W1 b1)) W2 b2 :=
    funext fun c => varTiled_eq_varPlain _ W2 b2 c fun b k t =>
      isReal_hid _ _ _ _ (hx1 b k t) (fun j => hW2 j c) (hb2 c)
  show feat (fun {n p} => @varTiled n p) _ _ _ _ _ _ _ _ _ _ _ _ _ = feat (fun {n p} => @varPlain n p) _ _ _ _ _ _ _ _ _ _ _ _ _
  unfold feat
  dsimp only
  rw [e1, e2]

end Cert.Spec

end
-- ==== Proof.Finite.lean ====
/-
  THE PRECONDITION DECODED: every entry of every float argument is a real number.

  The precondition is the conjunction, over the eleven float arguments, of "every entry's absolute value is below +∞".
  An extended real whose absolute value is below +∞ is neither infinity, so it is a real number; a conjunction of bits
  that is 1 has every conjunct 1; and an "all" over an array that is 1 has a 1 at every index.
-/
import Idealize.ShloMosaic.Lib.ValueIdx
import Idealize.ShloMosaic.Lib.IdealHost
import Idealize.ShloMosaic.Lib.ReduceAll
import proofs.«172356_j10943576670908_2_alg».proof.Pre_finite_inputs
import proofs.«172356_j10943576670908_2_alg».proof.Proof.Stats

noncomputable section

namespace Cert.Finite

open Idealize.ShloMosaic Idealize.ShloMosaic.ValueIdx Cert.Pre_finite_inputs Cert.Stats

/-- The scalar shape has one index. -/
instance : Subsingleton S_.Idx := ⟨fun a b => funext fun d => d.elim0⟩

/-- An extended real whose absolute value is below +∞ is a real number. -/
theorem isReal_of_abs_lt (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- An array whose "every absolute value is below +∞" is 1 has only real entries. -/
theorem all_real {S : Shape} {axes : List (Fin S.rank)} (hb : S_.BroadcastsInDim S ![]) (hr : S.ReducesTo axes S_)
    (hu : 0 < S_.numel) (a : FVec Ideal S .f32) (init : IVec S_ 1)
    (e : Host.reduce IntOp.andi
      (cmpf .olt (Host.absf a) (broadcastInDim S ![] hb (constant (F := Ideal) S_ .f32 0x7F800000#32))) init hr hu ix0 = 1#1)
    (i : S.Idx) : IsReal (a i) := by
  have hi := Host.reduce_andi_all _ init hr hu ix0 e i
  exact isReal_of_abs_lt (a i) hi

variable [Facts]

/-- Under the precondition every entry of every float argument is a real number. -/
theorem real_of_pre (a0 : FVec Ideal S2x12000x35x7 .f32) (a1 : IVec S2x12000x3 32) (a2 : FVec Ideal S7x16 .f32)
    (a3 a4 a5 : FVec Ideal S16 .f32) (a6 : FVec Ideal S32x64 .f32) (a7 a8 a9 : FVec Ideal S64 .f32)
    (a10 : FVec Ideal S128x128 .f32) (a11 : FVec Ideal S128 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real _ _ _ a0 _ e0, all_real _ _ _ a2 _ e2, all_real _ _ _ a3 _ e3, all_real _ _ _ a4 _ e4,
    all_real _ _ _ a5 _ e5, all_real _ _ _ a6 _ e6, all_real _ _ _ a7 _ e7, all_real _ _ _ a8 _ e8,
    all_real _ _ _ a9 _ e9, all_real _ _ _ a10 _ e10, all_real _ _ _ a11 _ e11⟩

end Cert.Finite

end
-- ==== Proof.AlgKernel.lean ====
/-
  The kernel program's run, with its result named: the reference's result term of the launch arrays.

  The third region leaves the per-voxel features of the block taken with the tiled variances; on finite inputs that is
  the block taken with the plain variances, which is what the reference's feature stage computes; the scatter tail is
  the same function on both sides.
-/
import proofs.«172356_j10943576670908_2_alg».proof.Defs
import proofs.«172356_j10943576670908_2_alg».proof.Proof.KI.Frame
import proofs.«172356_j10943576670908_2_alg».proof.Proof.K2Final
import proofs.«172356_j10943576670908_2_alg».proof.Proof.KAsm3
import proofs.«172356_j10943576670908_2_alg».proof.Proof.KTail
import proofs.«172356_j10943576670908_2_alg».proof.Proof.RefValue
import proofs.«172356_j10943576670908_2_alg».proof.Proof.Bridge
import proofs.«172356_j10943576670908_2_alg».proof.Proof.Finite

noncomputable section

namespace Cert.KernelIdeal.Alg

open Cert.KernelIdeal Cert.KernelIdeal.Gen Cert.KernelIdeal.Hand Cert.KernelIdeal.RegionValue Cert.KernelIdeal.Asm Cert.KernelIdeal.TileValue Cert.Spec Cert.Stats
open Idealize.ShloMosaic Idealize.ShloMosaic.TcCoe Idealize.ShloMosaic.ValueIdx Idealize.SL.Sem

variable (m : (ℓ : Loc nD τ sig) → Buf (Elt Ideal) ℓ)

/-- The normalisation's ε is a positive real. -/
theorem eps_pos : ∃ e : ℝ, 0 < e ∧ EPS = (e : EReal) := by
  refine ⟨10995116 / 2 ^ 40, by norm_num, ?_⟩
  simp [EPS, Ideal.ofBits, Ideal.ieee, -EReal.coe_mul]
  norm_num

/-- The coordinates array is as launched when the tail reads it. -/
theorem V6_arg1 (outs : Outs (F := Ideal)) (c : Dev nD) : V6 m outs c main_arg1 = m ((c.tc : Thread nD τ).loc main_arg1) :=
  (V6_of m outs c main_arg1 (by decide)).trans ((V5_of m outs c main_arg1 (by decide)).trans ((V4_of m outs c main_arg1 (by decide)).trans
    ((V3_of m outs c main_arg1 (by decide)).trans ((V2_of m outs c main_arg1 (by decide)).trans (V1_of m c main_arg1 (by decide))))))

/-- An unscoped TensorCore reference is among those the final memory is read at. -/
theorem mem_uc (b : Ref sig .tc) (h : ¬ (Proc.devRef .tc b : DevRef τ sig).isScoped := by decide) :
    Proc.devRef .tc b ∈ Pipeline.ucRefs τ sig :=
  Finset.mem_filter.mpr ⟨StableHlo.devRef_mem_tcRefs b, h⟩

/-- What the third region leaves is the reference's feature stage of the launch arrays. -/
theorem out_eq [hF : Cert.Pre_finite_inputs.Facts] (hpre : Cert.Pre_KernelIdeal m) (c : Dev nD) :
    V6 m (outs m) c main_v25
      = Cert.ReferenceIdeal.RefRun.res_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨b, k, d, rfl⟩ : ∃ (b : Fin 2) (k : Fin 12000) (d : Fin 128), i = ix3 b k d := ⟨i 0, i 1, i 2, eq_ix3 i⟩
  rw [V6_v25, final2_15]
  show featOf (en2 m (outs m)) c b k d = _
  rw [featOf_en2 m (outs m) c (V2_v7_0 m c) (V2_v7_1 m c) (V4_v16_0 m c) (V4_v16_1 m c)]
  obtain ⟨e, he, hE⟩ := eps_pos
  obtain ⟨h0, h2, h3, h4, h5, h6, h7, -, -, -, -⟩ := Cert.Finite.real_of_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (hpre c)
  rw [hE, featTiled_eq_featPlain e he (inpC m c) (w1C m c) (b1C m c) (g1C m c) (beta1C m c) (w2C m c) (b2C m c) (g2C m c)
    (beta2C m c) (wfC m c) (bfC m c) (fun b k t j => h0 _) (fun j q => h2 _) (fun q => h3 _) (fun q => h4 _) (fun q => h5 _)
    (fun j q => h6 _) (fun q => h7 _), ← hE]
  exact (Cert.ReferenceIdeal.RefValue.out_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) b k d).symm

/-- The kernel program's run: the result array at the reference's result term of the launch arrays, the arguments
    unchanged. -/
theorem kernel_run [hF : Cert.Pre_finite_inputs.Facts] (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v60)
        = Cert.ReferenceIdeal.RefRun.res_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v60)).trans (Cert.KernelIdeal.Tail.v60_eq m (outs m) c _ _ _ _ _ _ _ _ _ _ _ _ (V6_arg1 m (outs m) c) (out_eq m hpre c)),
      (h c _ (mem_uc main_arg0)).trans (V7_main_arg0 m (outs m) c),
      (h c _ (mem_uc main_arg1)).trans (V7_main_arg1 m (outs m) c),
      (h c _ (mem_uc main_arg2)).trans (V7_main_arg2 m (outs m) c),
      (h c _ (mem_uc main_arg3)).trans (V7_main_arg3 m (outs m) c),
      (h c _ (mem_uc main_arg4)).trans (V7_main_arg4 m (outs m) c),
      (h c _ (mem_uc main_arg5)).trans (V7_main_arg5 m (outs m) c),
      (h c _ (mem_uc main_arg6)).trans (V7_main_arg6 m (outs m) c),
      (h c _ (mem_uc main_arg7)).trans (V7_main_arg7 m (outs m) c),
      (h c _ (mem_uc main_arg8)).trans (V7_main_arg8 m (outs m) c),
      (h c _ (mem_uc main_arg9)).trans (V7_main_arg9 m (outs m) c),
      (h c _ (mem_uc main_arg10)).trans (V7_main_arg10 m (outs m) c),
      (h c _ (mem_uc main_arg11)).trans (V7_main_arg11 m (outs m) c)⟩)
    (run_bufs (F := Ideal) m ρ)

end Cert.KernelIdeal.Alg

end
-- ==== Proof.lean ====
/-
  The certificate of a voxel-feature-encoding block: a tiled three-kernel program against its plain reference.

  The kernel program walks the point cloud in 50 tiles three times: once to sum the first layer's rectified values
  and their squares per channel, once for the second layer's (recomputing the first layer's output from the first
  statistics), and once to compute the per-voxel features; host operations between the passes turn the sums into
  means and variances ("mean of squares minus squared mean, clamped at zero"), and a host scatter places the
  features on the voxel grid.  The reference computes each layer on the whole array with the variance as the mean
  squared deviation.  On finite inputs the two agree over the extended reals:
    * tile by tile and row by row is point by point, so the tiled sums are the plain sums;
    * for real values the two forms of the variance agree (the identity needs finiteness: it moves a factor across
      a sum and cancels), and a layer of real inputs has a real output, so this holds at both layers;
    * the per-voxel feature is then one function of the argument arrays on both sides, and the scatter tail is the
      same function of the features and the coordinates on both sides.
  The three frames: the two kernel programs' from one region record per pallas_call (the body run once per control
  case), the reference's from its list of host operations.  The idealization rewrote nothing.
-/
import proofs.«172356_j10943576670908_2_alg».proof.Defs
import proofs.«172356_j10943576670908_2_alg».proof.Proof.Gen.Kernel
import proofs.«172356_j10943576670908_2_alg».proof.Proof.Gen.KernelIdeal
import proofs.«172356_j10943576670908_2_alg».proof.Proof.Gen.ReferenceIdeal
import proofs.«172356_j10943576670908_2_alg».proof.Proof.Gen.Pre_finite_inputs
import proofs.«172356_j10943576670908_2_alg».proof.Proof.KB.Frame
import proofs.«172356_j10943576670908_2_alg».proof.Proof.KI.Frame
import proofs.«172356_j10943576670908_2_alg».proof.Proof.RefVal
import proofs.«172356_j10943576670908_2_alg».proof.Proof.AlgKernel
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

/-- The ideal pass rewrote no operation. -/
theorem preserves : Cert.preserves_Kernel_KernelIdeal := trivial

/-- Both programs end with the reference's result term of the kernel program's launch arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefRun.res_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Alg.kernel_run m ρ hpre, ?_⟩
  refine (θ_run (Cert.ReferenceIdeal.defs (F := Ideal)) _ _).mono (fun _ h c => ⟨?_, (h c).2⟩)
    (Cert.ReferenceIdeal.RefRun.run (F := Ideal) m' ρ')
  rw [(h c).1, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
